-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S3x128 .f32) (main_arg14 : FVec F S128x64 .f32) (main_arg15 : FVec F S64 .f32) (main_arg16 : FVec F S64x1 .f32) (main_arg17 : FVec F S1 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S128x128 .f32) (main_arg10 : FVec F S128x128 .f32) (main_arg11 : FVec F S128 .f32) (main_arg12 : FVec F S3x128 .f32) (main_arg13 : FVec F S3x128 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S3x128 .f32) (main_arg13 : FVec F S3x128 .f32) (main_arg14 : FVec F S128x64 .f32) (main_arg15 : FVec F S64 .f32) (main_arg16 : FVec F S64x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x64 .f32) (main_arg1 : IVec S2x800000 32) (main_arg2 : IVec S50000 32) (main_arg3 : FVec F S64x128 .f32) (main_arg4 : FVec F S64x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S3x128 .f32) (main_arg13 : FVec F S3x128 .f32) (main_arg14 : FVec F S128x64 .f32) (main_arg15 : FVec F S64 .f32) (main_arg16 : FVec F S64x1 .f32) (main_arg17 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S800000x64 : Shape := ⟨2, ![800000, 64]⟩
abbrev S50000x128 : Shape := ⟨2, ![50000, 128]⟩
abbrev S80x128 : Shape := ⟨2, ![80, 128]⟩
abbrev S5000x64 : Shape := ⟨2, ![5000, 64]⟩
abbrev S5000x128 : Shape := ⟨2, ![5000, 128]⟩
abbrev S8x128 : Shape := ⟨2, ![8, 128]⟩
abbrev S10x8x128 : Shape := ⟨3, ![10, 8, 128]⟩
abbrev S10x1x128 : Shape := ⟨3, ![10, 1, 128]⟩
abbrev S10x128 : Shape := ⟨2, ![10, 128]⟩
abbrev S800000x128 : Shape := ⟨2, ![800000, 128]⟩
abbrev S256x128 : Shape := ⟨2, ![256, 128]⟩
abbrev S256 : Shape := ⟨1, ![256]⟩
abbrev S256x1 : Shape := ⟨2, ![256, 1]⟩
abbrev S1x64 : Shape := ⟨2, ![1, 64]⟩
abbrev S1x1 : Shape := ⟨2, ![1, 1]⟩
abbrev S256x64 : Shape := ⟨2, ![256, 64]⟩

abbrev nBuf : Space → Nat
  | .hbm => 209
  | .vmem => 63
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S64x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S3x128, .f32⟩
  | 13 => ⟨S3x128, .f32⟩
  | 14 => ⟨S128x64, .f32⟩
  | 15 => ⟨S64, .f32⟩
  | 16 => ⟨S64x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S1x128, .f32⟩
  | 36 => ⟨S128, .f32⟩
  | 37 => ⟨S1x128, .f32⟩
  | 38 => ⟨S128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S50000x64, .f32⟩
  | 53 => ⟨S50000x64, .f32⟩
  | 54 => ⟨S1x128, .f32⟩
  | 55 => ⟨S50000x128, .f32⟩
  | 56 => ⟨S80x128, .f32⟩
  | 57 => ⟨S80x128, .f32⟩
  | 58 => ⟨S10x8x128, .f32⟩
  | 59 => ⟨S10x1x128, .f32⟩
  | 60 => ⟨S10x128, .f32⟩
  | 61 => ⟨S_, .f32⟩
  | 62 => ⟨S128, .f32⟩
  | 63 => ⟨S10x8x128, .f32⟩
  | 64 => ⟨S10x1x128, .f32⟩
  | 65 => ⟨S10x128, .f32⟩
  | 66 => ⟨S_, .f32⟩
  | 67 => ⟨S128, .f32⟩
  | 68 => ⟨S_, .f32⟩
  | 69 => ⟨S128, .f32⟩
  | 70 => ⟨S128, .f32⟩
  | 71 => ⟨S_, .f32⟩
  | 72 => ⟨S128, .f32⟩
  | 73 => ⟨S128, .f32⟩
  | 74 => ⟨S128, .f32⟩
  | 75 => ⟨S128, .f32⟩
  | 76 => ⟨S_, .f32⟩
  | 77 => ⟨S128, .f32⟩
  | 78 => ⟨S128, .f32⟩
  | 79 => ⟨S128, .f32⟩
  | 80 => ⟨S128, .f32⟩
  | 81 => ⟨S128, .f32⟩
  | 82 => ⟨S128, .f32⟩
  | 83 => ⟨S1x128, .f32⟩
  | 84 => ⟨S1x128, .f32⟩
  | 85 => ⟨S50000x128, .bf16⟩
  | 86 => ⟨S1x128, .f32⟩
  | 87 => ⟨S128, .f32⟩
  | 88 => ⟨S1x128, .f32⟩
  | 89 => ⟨S128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .bf16⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S80x128, .f32⟩
  | 109 => ⟨S80x128, .f32⟩
  | 110 => ⟨S10x8x128, .f32⟩
  | 111 => ⟨S10x1x128, .f32⟩
  | 112 => ⟨S10x128, .f32⟩
  | 113 => ⟨S_, .f32⟩
  | 114 => ⟨S128, .f32⟩
  | 115 => ⟨S10x8x128, .f32⟩
  | 116 => ⟨S10x1x128, .f32⟩
  | 117 => ⟨S10x128, .f32⟩
  | 118 => ⟨S_, .f32⟩
  | 119 => ⟨S128, .f32⟩
  | 120 => ⟨S_, .f32⟩
  | 121 => ⟨S128, .f32⟩
  | 122 => ⟨S128, .f32⟩
  | 123 => ⟨S_, .f32⟩
  | 124 => ⟨S128, .f32⟩
  | 125 => ⟨S128, .f32⟩
  | 126 => ⟨S128, .f32⟩
  | 127 => ⟨S128, .f32⟩
  | _ => ⟨S50000x64, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S128, .f32⟩
  | 5 => ⟨S128, .f32⟩
  | 6 => ⟨S128, .f32⟩
  | 7 => ⟨S1x128, .f32⟩
  | 8 => ⟨S1x128, .f32⟩
  | 9 => ⟨S50000x128, .bf16⟩
  | 10 => ⟨S1x128, .f32⟩
  | 11 => ⟨S128, .f32⟩
  | 12 => ⟨S1x128, .f32⟩
  | 13 => ⟨S128, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .bf16⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S80x128, .f32⟩
  | 33 => ⟨S80x128, .f32⟩
  | 34 => ⟨S10x8x128, .f32⟩
  | 35 => ⟨S10x1x128, .f32⟩
  | 36 => ⟨S10x128, .f32⟩
  | 37 => ⟨S_, .f32⟩
  | 38 => ⟨S128, .f32⟩
  | 39 => ⟨S10x8x128, .f32⟩
  | 40 => ⟨S10x1x128, .f32⟩
  | 41 => ⟨S10x128, .f32⟩
  | 42 => ⟨S_, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S128, .f32⟩
  | 51 => ⟨S128, .f32⟩
  | 52 => ⟨S_, .f32⟩
  | 53 => ⟨S128, .f32⟩
  | 54 => ⟨S128, .f32⟩
  | 55 => ⟨S128, .f32⟩
  | 56 => ⟨S128, .f32⟩
  | 57 => ⟨S128, .f32⟩
  | 58 => ⟨S128, .f32⟩
  | 59 => ⟨S1x128, .f32⟩
  | 60 => ⟨S1x128, .f32⟩
  | 61 => ⟨S50000x128, .f32⟩
  | 62 => ⟨S_, .f32⟩
  | 63 => ⟨S256x128, .f32⟩
  | 64 => ⟨S50000x1, .i32⟩
  | 65 => ⟨S256x128, .f32⟩
  | 66 => ⟨S_, .f32⟩
  | 67 => ⟨S50000, .f32⟩
  | 68 => ⟨S_, .f32⟩
  | 69 => ⟨S256, .f32⟩
  | 70 => ⟨S50000x1, .i32⟩
  | 71 => ⟨S256, .f32⟩
  | 72 => ⟨S_, .f32⟩
  | 73 => ⟨S256, .f32⟩
  | 74 => ⟨S256, .f32⟩
  | 75 => ⟨S256x1, .f32⟩
  | 76 => ⟨S256x128, .f32⟩
  | 77 => ⟨S256x128, .f32⟩
  | 78 => ⟨S1x64, .f32⟩
  | 79 => ⟨S1x1, .f32⟩
  | 80 => ⟨S256x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .bf16⟩
  | .local _ .vmem, ⟨18, _⟩ => ⟨S5000x128, .bf16⟩
  | .local _ .vmem, ⟨19, _⟩ => ⟨S5000x128, .f32⟩
  | .local _ .vmem, ⟨20, _⟩ => ⟨S5000x128, .f32⟩
  | .local _ .vmem, ⟨21, _⟩ => ⟨S5000x128, .bf16⟩
  | .local _ .vmem, ⟨22, _⟩ => ⟨S5000x128, .bf16⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S8x128, .f32⟩
  | .local _ .vmem, ⟨29, _⟩ => ⟨S8x128, .f32⟩
  | .local _ .vmem, ⟨30, _⟩ => ⟨S8x128, .f32⟩
  | .local _ .vmem, ⟨31, _⟩ => ⟨S8x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .bf16⟩
  | .local _ .vmem, ⟨37, _⟩ => ⟨S5000x128, .bf16⟩
  | .local _ .vmem, ⟨38, _⟩ => ⟨S5000x128, .f32⟩
  | .local _ .vmem, ⟨39, _⟩ => ⟨S5000x128, .f32⟩
  | .local _ .vmem, ⟨40, _⟩ => ⟨S5000x128, .bf16⟩
  | .local _ .vmem, ⟨41, _⟩ => ⟨S5000x128, .bf16⟩
  | .local _ .vmem, ⟨42, _⟩ => ⟨S128x128, .f32⟩
  | .local _ .vmem, ⟨43, _⟩ => ⟨S128x128, .f32⟩
  | .local _ .vmem, ⟨44, _⟩ => ⟨S1x128, .f32⟩
  | .local _ .vmem, ⟨45, _⟩ => ⟨S5000x128, .f32⟩
  | .local _ .vmem, ⟨46, _⟩ => ⟨S5000x128, .f32⟩
  | .local _ .vmem, ⟨47, _⟩ => ⟨S8x128, .f32⟩
  | .local _ .vmem, ⟨48, _⟩ => ⟨S8x128, .f32⟩
  | .local _ .vmem, ⟨49, _⟩ => ⟨S8x128, .f32⟩
  | .local _ .vmem, ⟨50, _⟩ => ⟨S8x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S256x128, .f32⟩
  | .local _ .vmem, ⟨58, _⟩ => ⟨S128x64, .f32⟩
  | .local _ .vmem, ⟨59, _⟩ => ⟨S1x64, .f32⟩
  | .local _ .vmem, ⟨60, _⟩ => ⟨S64x1, .f32⟩
  | .local _ .vmem, ⟨61, _⟩ => ⟨S1x1, .f32⟩
  | .local _ .vmem, ⟨62, _⟩ => ⟨S256x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_v30_2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_9 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_10 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72_0 : Ref sig .tc := ⟨.hbm, 107, rfl⟩
abbrev main_v72_1 : Ref sig .tc := ⟨.hbm, 108, rfl⟩
abbrev main_v72_2 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_13 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_cst_15 : Ref sig .tc := ⟨.hbm, 120, rfl⟩
abbrev main_v81 : Ref sig .tc := ⟨.hbm, 121, rfl⟩
abbrev main_v82 : Ref sig .tc := ⟨.hbm, 122, rfl⟩
abbrev main_cst_16 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_17 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_c_18 : Ref sig .tc := ⟨.hbm, 142, rfl⟩
abbrev main_v100 : Ref sig .tc := ⟨.hbm, 143, rfl⟩
abbrev main_v101 : Ref sig .tc := ⟨.hbm, 144, rfl⟩
abbrev main_c_19 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_20 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114_0 : Ref sig .tc := ⟨.hbm, 159, rfl⟩
abbrev main_v114_1 : Ref sig .tc := ⟨.hbm, 160, rfl⟩
abbrev main_v114_2 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_21 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_22 : Ref sig .tc := ⟨.hbm, 170, rfl⟩
abbrev main_v122 : Ref sig .tc := ⟨.hbm, 171, rfl⟩
abbrev main_cst_23 : Ref sig .tc := ⟨.hbm, 172, rfl⟩
abbrev main_v123 : Ref sig .tc := ⟨.hbm, 173, rfl⟩
abbrev main_v124 : Ref sig .tc := ⟨.hbm, 174, rfl⟩
abbrev main_cst_24 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_25 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_cst_26 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_27 : Ref sig .tc := ⟨.hbm, 194, rfl⟩
abbrev main_v141 : Ref sig .tc := ⟨.hbm, 195, rfl⟩
abbrev main_cst_28 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_29 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg6_1 : Ref sig .tc := ⟨.vmem, 48, rfl⟩
abbrev cc4_stg7_0 : Ref sig .tc := ⟨.vmem, 49, rfl⟩
abbrev cc4_stg7_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg3_1 : Ref sig .tc := ⟨.vmem, 56, rfl⟩
abbrev cc6_stg0_0 : Ref sig .tc := ⟨.vmem, 57, rfl⟩
abbrev cc6_stg1_0 : Ref sig .tc := ⟨.vmem, 58, rfl⟩
abbrev cc6_stg2_0 : Ref sig .tc := ⟨.vmem, 59, rfl⟩
abbrev cc6_stg3_0 : Ref sig .tc := ⟨.vmem, 60, rfl⟩
abbrev cc6_stg4_0 : Ref sig .tc := ⟨.vmem, 61, rfl⟩
abbrev cc6_stg5_0 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem3_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem6_1 : DmaSem sig := 48
abbrev cc4_sem7_0 : DmaSem sig := 49
abbrev cc4_sem7_1 : DmaSem sig := 50
abbrev cc5_sem0_0 : DmaSem sig := 51
abbrev cc5_sem0_1 : DmaSem sig := 52
abbrev cc5_sem1_0 : DmaSem sig := 53
abbrev cc5_sem2_0 : DmaSem sig := 54
abbrev cc5_sem3_0 : DmaSem sig := 55
abbrev cc5_sem3_1 : DmaSem sig := 56
abbrev cc6_sem0_0 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S8x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x128_S1x128_0_0 : S3x128.Slices ![0, 0] S1x128
  shapeCasts_S1x128_S128 : S1x128.ShapeCasts S128
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S80x128_S10x8x128 : S80x128.ShapeCasts S10x8x128
  slices_S10x8x128_S10x1x128_0_0_0 : S10x8x128.Slices ![0, 0, 0] S10x1x128
  shapeCasts_S10x1x128_S10x128 : S10x1x128.ShapeCasts S10x128
  reducesTo_S10x128_S128_d0 : S10x128.ReducesTo [0] S128
  h_S_ : 0 < S_.numel
  bcast_S_S128 : S_.BroadcastsInDim S128 (![] : Fin 0 → Fin S128.rank)
  shapeCasts_S5000x128_S5000x128 : S5000x128.ShapeCasts S5000x128
  packedbf16_S5000x128_S5000x128_0_0 : (Rect.unit (s := S5000x128) ![0, 0] S5000x128.size inb_S5000x128_S5000x128_0_0).PackedRows (EltTy.packing .bf16)
  slices_S3x128_S1x128_1_0 : S3x128.Slices ![1, 0] S1x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S128x128_S128x128_0_0 : ∀ a, (![0, 0] : Fin 2 → Nat) a + S128x128.size a ≤ S128x128.size a
  h_S128x128 : 0 < S128x128.numel
  slices_S3x128_S1x128_2_0 : S3x128.Slices ![2, 0] S1x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S64_S1x64 : S64.ShapeCasts S1x64
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S80x128.size a
  hwx0_6 : ∀ i : grid0.Coords, EltTy.bits .f32 = 32 ∨ (Rect.block (s := S80x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S80x128.size a
  hwx0_7 : ∀ i : grid0.Coords, EltTy.bits .f32 = 32 ∨ (Rect.block (s := S80x128) S8x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .bf16 = 32 ∨ (Rect.block (s := S50000x128) S5000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S80x128.size a
  hwx2_6 : ∀ i : grid2.Coords, EltTy.bits .f32 = 32 ∨ (Rect.block (s := S80x128) S8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S80x128.size a
  hwx2_7 : ∀ i : grid2.Coords, EltTy.bits .f32 = 32 ∨ (Rect.block (s := S80x128) S8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .bf16 = 32 ∨ (Rect.block (s := S50000x128) S5000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .bf16 = 32 ∨ (Rect.block (s := S50000x128) S5000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8x128.size a ≤ S80x128.size a
  hwx4_6 : ∀ i : grid4.Coords, EltTy.bits .f32 = 32 ∨ (Rect.block (s := S80x128) S8x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x128.size a ≤ S80x128.size a
  hwx4_7 : ∀ i : grid4.Coords, EltTy.bits .f32 = 32 ∨ (Rect.block (s := S80x128) S8x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x128.size a ≤ S256x128.size a
  hwx6_0 : ∀ i : grid6.Coords, EltTy.bits .f32 = 32 ∨ (Rect.block (s := S256x128) S256x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x1.size a ≤ S256x1.size a
  hwx6_5 : ∀ i : grid6.Coords, EltTy.bits .f32 = 32 ∨ (Rect.block (s := S256x1) S256x1.size (cc6_transform_5 i) (hinb6_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_v28) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30_1) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v30_2) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v72_1) S8x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v72_2) S8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v72_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v112) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v113) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v114_1) S8x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v114_2) S8x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v114_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v135) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v136) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v137) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v149) S256x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v150) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v151) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v152) S256x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S256x128 : Shape := ⟨2, ![256, 128]⟩
abbrev S256 : Shape := ⟨1, ![256]⟩
abbrev S256x1 : Shape := ⟨2, ![256, 1]⟩
abbrev S256x64 : Shape := ⟨2, ![256, 64]⟩
abbrev S1x64 : Shape := ⟨2, ![1, 64]⟩
abbrev S1x1 : Shape := ⟨2, ![1, 1]⟩

abbrev nBuf : Space → Nat
  | .hbm => 286
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S64x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S3x128, .f32⟩
  | 13 => ⟨S3x128, .f32⟩
  | 14 => ⟨S128x64, .f32⟩
  | 15 => ⟨S64, .f32⟩
  | 16 => ⟨S64x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S_, .f32⟩
  | 32 => ⟨S50000, .f32⟩
  | 33 => ⟨S50000, .f32⟩
  | 34 => ⟨S50000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x64, .f32⟩
  | 49 => ⟨S50000x64, .f32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x64, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S50000x128, .f32⟩
  | 17 => ⟨S50000x128, .f32⟩
  | 18 => ⟨S50000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S128, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S50000x128, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S128, .f32⟩
  | 109 => ⟨S128, .f32⟩
  | 110 => ⟨S128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S256x128, .f32⟩
  | 125 => ⟨S50000x1, .i32⟩
  | 126 => ⟨S256x128, .f32⟩
  | 127 => ⟨S_, .f32⟩
  | _ => ⟨S50000x64, .f32⟩

abbrev hbmTy0_2 (i : Nat) : BufTy := match i % 128 with
  | 0 => ⟨S50000, .f32⟩
  | 1 => ⟨S_, .f32⟩
  | 2 => ⟨S256, .f32⟩
  | 3 => ⟨S50000x1, .i32⟩
  | 4 => ⟨S256, .f32⟩
  | 5 => ⟨S_, .f32⟩
  | 6 => ⟨S256, .f32⟩
  | 7 => ⟨S256, .f32⟩
  | 8 => ⟨S256x1, .f32⟩
  | 9 => ⟨S256x128, .f32⟩
  | 10 => ⟨S256x128, .f32⟩
  | 11 => ⟨S256x64, .f32⟩
  | 12 => ⟨S1x64, .f32⟩
  | 13 => ⟨S256x64, .f32⟩
  | 14 => ⟨S256x64, .f32⟩
  | 15 => ⟨S_, .f32⟩
  | 16 => ⟨S256x64, .f32⟩
  | 17 => ⟨S256x64, .f32⟩
  | 18 => ⟨S256x1, .f32⟩
  | 19 => ⟨S1x1, .f32⟩
  | 20 => ⟨S256x1, .f32⟩
  | 21 => ⟨S256x1, .f32⟩
  | 22 => ⟨S256x1, .f32⟩
  | 23 => ⟨S256x1, .f32⟩
  | 24 => ⟨S_, .f32⟩
  | 25 => ⟨S256x1, .f32⟩
  | 26 => ⟨S256x1, .f32⟩
  | 27 => ⟨S_, .f32⟩
  | 28 => ⟨S256x1, .f32⟩
  | 29 => ⟨S256x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_cst_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_cst_6 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_cst_3 : Ref sig .tc := ⟨.hbm, 82, rfl⟩
abbrev main_call0_v12 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_8 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_call1_cst : Ref sig .tc := ⟨.hbm, 104, rfl⟩
abbrev main_call1_v0 : Ref sig .tc := ⟨.hbm, 105, rfl⟩
abbrev main_v54 : Ref sig .tc := ⟨.hbm, 106, rfl⟩
abbrev main_c_9 : Ref sig .tc := ⟨.hbm, 107, rfl⟩
abbrev main_v55 : Ref sig .tc := ⟨.hbm, 108, rfl⟩
abbrev main_v56 : Ref sig .tc := ⟨.hbm, 109, rfl⟩
abbrev main_c_10 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_cst_11 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_12 : Ref sig .tc := ⟨.hbm, 132, rfl⟩
abbrev main_v77 : Ref sig .tc := ⟨.hbm, 133, rfl⟩
abbrev main_cst_13 : Ref sig .tc := ⟨.hbm, 134, rfl⟩
abbrev main_v78 : Ref sig .tc := ⟨.hbm, 135, rfl⟩
abbrev main_v79 : Ref sig .tc := ⟨.hbm, 136, rfl⟩
abbrev main_c_14 : Ref sig .tc := ⟨.hbm, 137, rfl⟩
abbrev main_call2_cst : Ref sig .tc := ⟨.hbm, 138, rfl⟩
abbrev main_call2_v0 : Ref sig .tc := ⟨.hbm, 139, rfl⟩
abbrev main_call2_v1 : Ref sig .tc := ⟨.hbm, 140, rfl⟩
abbrev main_call2_cst_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_v6 : Ref sig .tc := ⟨.hbm, 146, rfl⟩
abbrev main_call2_v7 : Ref sig .tc := ⟨.hbm, 147, rfl⟩
abbrev main_call2_cst_1 : Ref sig .tc := ⟨.hbm, 148, rfl⟩
abbrev main_call2_v8 : Ref sig .tc := ⟨.hbm, 149, rfl⟩
abbrev main_call2_cst_2 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_cst_3 : Ref sig .tc := ⟨.hbm, 154, rfl⟩
abbrev main_call2_v12 : Ref sig .tc := ⟨.hbm, 155, rfl⟩
abbrev main_call2_cst_4 : Ref sig .tc := ⟨.hbm, 156, rfl⟩
abbrev main_call2_call0_v0 : Ref sig .tc := ⟨.hbm, 157, rfl⟩
abbrev main_call2_call0_v1 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_cst_15 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_call3_cst : Ref sig .tc := ⟨.hbm, 176, rfl⟩
abbrev main_call3_v0 : Ref sig .tc := ⟨.hbm, 177, rfl⟩
abbrev main_v96 : Ref sig .tc := ⟨.hbm, 178, rfl⟩
abbrev main_c_16 : Ref sig .tc := ⟨.hbm, 179, rfl⟩
abbrev main_v97 : Ref sig .tc := ⟨.hbm, 180, rfl⟩
abbrev main_v98 : Ref sig .tc := ⟨.hbm, 181, rfl⟩
abbrev main_c_17 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_cst_18 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_cst_19 : Ref sig .tc := ⟨.hbm, 204, rfl⟩
abbrev main_v119 : Ref sig .tc := ⟨.hbm, 205, rfl⟩
abbrev main_cst_20 : Ref sig .tc := ⟨.hbm, 206, rfl⟩
abbrev main_v120 : Ref sig .tc := ⟨.hbm, 207, rfl⟩
abbrev main_v121 : Ref sig .tc := ⟨.hbm, 208, rfl⟩
abbrev main_c_21 : Ref sig .tc := ⟨.hbm, 209, rfl⟩
abbrev main_call4_cst : Ref sig .tc := ⟨.hbm, 210, rfl⟩
abbrev main_call4_v0 : Ref sig .tc := ⟨.hbm, 211, rfl⟩
abbrev main_call4_v1 : Ref sig .tc := ⟨.hbm, 212, rfl⟩
abbrev main_call4_cst_0 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_call4_v5 : Ref sig .tc := ⟨.hbm, 217, rfl⟩
abbrev main_call4_v6 : Ref sig .tc := ⟨.hbm, 218, rfl⟩
abbrev main_call4_v7 : Ref sig .tc := ⟨.hbm, 219, rfl⟩
abbrev main_call4_cst_1 : Ref sig .tc := ⟨.hbm, 220, rfl⟩
abbrev main_call4_v8 : Ref sig .tc := ⟨.hbm, 221, rfl⟩
abbrev main_call4_cst_2 : Ref sig .tc := ⟨.hbm, 222, rfl⟩
abbrev main_call4_v9 : Ref sig .tc := ⟨.hbm, 223, rfl⟩
abbrev main_call4_v10 : Ref sig .tc := ⟨.hbm, 224, rfl⟩
abbrev main_call4_v11 : Ref sig .tc := ⟨.hbm, 225, rfl⟩
abbrev main_call4_cst_3 : Ref sig .tc := ⟨.hbm, 226, rfl⟩
abbrev main_call4_v12 : Ref sig .tc := ⟨.hbm, 227, rfl⟩
abbrev main_call4_cst_4 : Ref sig .tc := ⟨.hbm, 228, rfl⟩
abbrev main_call4_call0_v0 : Ref sig .tc := ⟨.hbm, 229, rfl⟩
abbrev main_call4_call0_v1 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_cst_22 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_call5_cst : Ref sig .tc := ⟨.hbm, 248, rfl⟩
abbrev main_call5_v0 : Ref sig .tc := ⟨.hbm, 249, rfl⟩
abbrev main_v138 : Ref sig .tc := ⟨.hbm, 250, rfl⟩
abbrev main_cst_23 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_cst_24 : Ref sig .tc := ⟨.hbm, 255, rfl⟩
abbrev main_v142 : Ref sig .tc := ⟨.hbm, 256, rfl⟩
abbrev main_cst_25 : Ref sig .tc := ⟨.hbm, 257, rfl⟩
abbrev main_v143 : Ref sig .tc := ⟨.hbm, 258, rfl⟩
abbrev main_v144 : Ref sig .tc := ⟨.hbm, 259, rfl⟩
abbrev main_v145 : Ref sig .tc := ⟨.hbm, 260, rfl⟩
abbrev main_cst_26 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_call6_cst : Ref sig .tc := ⟨.hbm, 271, rfl⟩
abbrev main_call6_v0 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_v161 : Ref sig .tc := ⟨.hbm, 279, rfl⟩
abbrev main_cst_27 : Ref sig .tc := ⟨.hbm, 280, rfl⟩
abbrev main_v162 : Ref sig .tc := ⟨.hbm, 281, rfl⟩
abbrev main_v163 : Ref sig .tc := ⟨.hbm, 282, rfl⟩
abbrev main_cst_28 : Ref sig .tc := ⟨.hbm, 283, rfl⟩
abbrev main_v164 : Ref sig .tc := ⟨.hbm, 284, rfl⟩
abbrev main_v165 : Ref sig .tc := ⟨.hbm, 285, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128_S1x128_0_0 : S3x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_1_0 : S3x128.Slices ![1, 0] S1x128
  slices_S3x128_S1x128_2_0 : S3x128.Slices ![2, 0] S1x128
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x64_S256x64_1_0_0_1_n_n_wf : DotDims.WF S256x128 S128x64 S256x64 [1] [0] [0] [1] [] []
  dot_S256x64_S64x1_S256x1_1_0_0_1_n_n_wf : DotDims.WF S256x64 S64x1 S256x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KerRun.lean ====
/-
  The idealized kernel program's run with its RESULT named: @main is seven kernel regions among seven stretches of host
  operations, and the buffer contents at every boundary are a fold from the launch memory (the generated frame's
  `W0 … W14`). The frame theorem keeps only the arguments; the same launch argument keeps, besides them, the result
  array at the last fold's contents. Every weakly fair execution terminates with the result at `W14` and the
  arguments as launched.
-/
import proofs.«181322_j48155173322905_2_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the result
    array ends at the last boundary's contents and every argument array as launched. -/
theorem run_main : θ_run defs (onTc (τ := τ) (main (F := F))) ⟨m, fun _ => 0, ρ⟩ (fun r => ∀ c : Dev nD,
      r.2.mem ((c.tc : Thread nD τ).loc main_v152) = W14 m ρ c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v152 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c)⟩)

end Cert.KernelIdeal.HandRun

end
-- ==== Proof.KerStages.lean ====
/-
  The host-side stages of the idealized kernel program, each as ONE whole-array function of the arrays it reads, stated
  for any float instance: the two rows of the edge list, the reciprocal clipped degree, the gather start indices, the
  degree-normalised neighbour sum at width 64 and at width 128, a row of a three-row table, a vector as a one-row
  matrix, the total over the ten row-tiles of a per-tile column sum, the batch statistics' scale and shift rows, and the
  per-graph mean pool. Their bodies are the printed operations, in order.
-/
import proofs.«181322_j48155173322905_2_alg».proof.Proof.Gen.KernelIdeal

noncomputable section

namespace Cert.KernelIdeal.HandRun

open Idealize.ShloMosaic Idealize.ShloMosaic.TcCoe
open Cert.KernelIdeal Cert.KernelIdeal.Gen

variable {F : FTy → Type} [FloatOps F]

/-- Row 0 of the edge list (the sources) as a flat vector. -/
def edgeSrc (ei : (⟨S2x800000, .i32⟩ : BufTy).Contents (Elt F)) : (⟨S800000, .i32⟩ : BufTy).Contents (Elt F) :=
  fun i => shapeCast S800000 (extractStridedSlice S1x800000 ![0, 0] ei slices_S2x800000_S1x800000_0_0) shapeCasts_S1x800000_S800000 i

/-- Row 1 of the edge list (the destinations) as a flat vector. -/
def edgeDst (ei : (⟨S2x800000, .i32⟩ : BufTy).Contents (Elt F)) : (⟨S800000, .i32⟩ : BufTy).Contents (Elt F) :=
  fun i => shapeCast S800000 (extractStridedSlice S1x800000 ![1, 0] ei slices_S2x800000_S1x800000_1_0) shapeCasts_S1x800000_S800000 i

/-- The destinations as a column of scatter indices. -/
def dstIdx (dst : (⟨S800000, .i32⟩ : BufTy).Contents (Elt F)) : (⟨S800000x1, .i32⟩ : BufTy).Contents (Elt F) :=
  broadcastInDim S800000x1 ![0] bcast_S800000_S800000x1_0 dst

/-- `1 / max(deg, 1)` per node, as a column: `deg` counts the edges arriving at the node. -/
def invDeg (dst : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32))
          (dstIdx dst)
          (broadcastInDim S800000 ![] bcast_S_S800000 (constant S_ .f32 0x3F800000#32)))
        (broadcastInDim S50000 ![] bcast_S_S50000 (constant S_ .f32 0x3F800000#32))))

/-- The sources as gather start indices: a negative index is counted from the end. -/
def startIdx (src : (⟨S800000, .i32⟩ : BufTy).Contents (Elt F)) : (⟨S800000x1, .i32⟩ : BufTy).Contents (Elt F) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32)))
      src)

/-- The mean over a node's incoming neighbours of their feature rows, width 64. -/
def agg64 (src dst : (⟨S800000, .i32⟩ : BufTy).Contents (Elt F)) (inv : (⟨S50000x1, .f32⟩ : BufTy).Contents (Elt F)) (h : (⟨S50000x64, .f32⟩ : BufTy).Contents (Elt F)) :
    (⟨S50000x64, .f32⟩ : BufTy).Contents (Elt F) :=
  mulf
    (Host.scatterAdd scatter_S50000x64_S800000x1_S800000x64_1_0_0_1
      (broadcastInDim S50000x64 ![] bcast_S_S50000x64 (constant S_ .f32 0x00000000#32))
      (dstIdx dst)
      (Host.gather gather_S50000x64_S800000x1_S800000x64_1_0_n_n_0_1_164 h (startIdx src)))
    (broadcastInDim S50000x64 ![0, 1] bcast_S50000x1_S50000x64_0_1 inv)

/-- The same at width 128, the features carried in the narrow format between layers. -/
def agg128 (src dst : (⟨S800000, .i32⟩ : BufTy).Contents (Elt F)) (inv : (⟨S50000x1, .f32⟩ : BufTy).Contents (Elt F)) (h : (⟨S50000x128, .bf16⟩ : BufTy).Contents (Elt F)) :
    (⟨S50000x128, .f32⟩ : BufTy).Contents (Elt F) :=
  mulf
    (Host.scatterAdd scatter_S50000x128_S800000x1_S800000x128_1_0_0_1
      (broadcastInDim S50000x128 ![] bcast_S_S50000x128 (constant S_ .f32 0x00000000#32))
      (dstIdx dst)
      (extf .f32 (Host.gather gather_S50000x128_S800000x1_S800000x128_1_0_n_n_0_1_1128 h (startIdx src)) bitsLt_bf16_f32))
    (broadcastInDim S50000x128 ![0, 1] bcast_S50000x1_S50000x128_0_1 inv)

/-- Row 0, 1, 2 of a three-row table as a vector. -/
def tableRow0 (G : (⟨S3x128, .f32⟩ : BufTy).Contents (Elt F)) : (⟨S128, .f32⟩ : BufTy).Contents (Elt F) :=
  fun i => shapeCast S128 (extractStridedSlice S1x128 ![0, 0] G slices_S3x128_S1x128_0_0) shapeCasts_S1x128_S128 i
def tableRow1 (G : (⟨S3x128, .f32⟩ : BufTy).Contents (Elt F)) : (⟨S128, .f32⟩ : BufTy).Contents (Elt F) :=
  fun i => shapeCast S128 (extractStridedSlice S1x128 ![1, 0] G slices_S3x128_S1x128_1_0) shapeCasts_S1x128_S128 i
def tableRow2 (G : (⟨S3x128, .f32⟩ : BufTy).Contents (Elt F)) : (⟨S128, .f32⟩ : BufTy).Contents (Elt F) :=
  fun i => shapeCast S128 (extractStridedSlice S1x128 ![2, 0] G slices_S3x128_S1x128_2_0) shapeCasts_S1x128_S128 i

/-- A vector as a one-row matrix. -/
def asRow128 (b : (⟨S128, .f32⟩ : BufTy).Contents (Elt F)) : (⟨S1x128, .f32⟩ : BufTy).Contents (Elt F) := fun i => shapeCast S1x128 b shapeCasts_S128_S1x128 i
def asRow64 (b : (⟨S64, .f32⟩ : BufTy).Contents (Elt F)) : (⟨S1x64, .f32⟩ : BufTy).Contents (Elt F) := fun i => shapeCast S1x64 b shapeCasts_S64_S1x64 i
def asRow1 (b : (⟨S1, .f32⟩ : BufTy).Contents (Elt F)) : (⟨S1x1, .f32⟩ : BufTy).Contents (Elt F) := fun i => shapeCast S1x1 b shapeCasts_S1_S1x1 i

/-- The total over the ten row-tiles: each tile's eight-row block holds the tile's column sums in every row; row 0 of
    each block is taken and the ten are added. -/
def tileTotal (P : (⟨S80x128, .f32⟩ : BufTy).Contents (Elt F)) : (⟨S128, .f32⟩ : BufTy).Contents (Elt F) :=
  Host.reduceAdd
    (fun i => shapeCast S10x128
      (extractStridedSlice S10x1x128 ![0, 0, 0] (fun i => shapeCast S10x8x128 P shapeCasts_S80x128_S10x8x128 i)
        slices_S10x8x128_S10x1x128_0_0_0)
      shapeCasts_S10x1x128_S10x128 i)
    (constant S_ .f32 0x00000000#32) reducesTo_S10x128_S128_d0 h_S_

/-- A total divided by the number of rows. -/
def overN (s : (⟨S128, .f32⟩ : BufTy).Contents (Elt F)) : (⟨S128, .f32⟩ : BufTy).Contents (Elt F) :=
  Host.divf s (broadcastInDim S128 ![] bcast_S_S128 (constant S_ .f32 0x47435000#32))

/-- The scale `g · (E[x²] − E[x]² + ε)^(-1/2)` per column, from the tile sums `P` and tile sums of squares `Q`. -/
def scaleOf (P Q : (⟨S80x128, .f32⟩ : BufTy).Contents (Elt F)) (g : (⟨S128, .f32⟩ : BufTy).Contents (Elt F)) : (⟨S128, .f32⟩ : BufTy).Contents (Elt F) :=
  mulf g (Host.rsqrt (addf (subf (overN (tileTotal Q)) (mulf (overN (tileTotal P)) (overN (tileTotal P))))
    (broadcastInDim S128 ![] bcast_S_S128 (constant S_ .f32 0x3727C5AC#32))))

/-- The shift `β − E[x] · scale` per column. -/
def shiftOf (P Q : (⟨S80x128, .f32⟩ : BufTy).Contents (Elt F)) (g bt : (⟨S128, .f32⟩ : BufTy).Contents (Elt F)) : (⟨S128, .f32⟩ : BufTy).Contents (Elt F) :=
  subf bt (mulf (overN (tileTotal P)) (scaleOf P Q g))

/-- The mean of the node rows of each graph: the per-graph sum over the per-graph count clipped below at 1. -/
def pool (batch : (⟨S50000, .i32⟩ : BufTy).Contents (Elt F)) (h : (⟨S50000x128, .f32⟩ : BufTy).Contents (Elt F)) : (⟨S256x128, .f32⟩ : BufTy).Contents (Elt F) :=
  Host.divf
    (Host.scatterAdd scatter_S256x128_S50000x1_S50000x128_1_0_0_1
      (broadcastInDim S256x128 ![] bcast_S_S256x128 (constant S_ .f32 0x00000000#32))
      (broadcastInDim S50000x1 ![0] bcast_S50000_S50000x1_0 batch) h)
    (broadcastInDim S256x128 ![0, 1] bcast_S256x1_S256x128_0_1
      (broadcastInDim S256x1 ![0] bcast_S256_S256x1_0
        (maximumf
          (Host.scatterAdd scatter_S256_S50000x1_S50000_n_0_0_1
            (broadcastInDim S256 ![] bcast_S_S256 (constant S_ .f32 0x00000000#32))
            (broadcastInDim S50000x1 ![0] bcast_S50000_S50000x1_0 batch)
            (broadcastInDim S50000 ![] bcast_S_S50000 (constant S_ .f32 0x3F800000#32)))
          (broadcastInDim S256 ![] bcast_S_S256 (constant S_ .f32 0x3F800000#32)))))

end Cert.KernelIdeal.HandRun

end
-- ==== Proof.KerHost.lean ====
/-
  Each stretch of host operations of the idealized kernel program read back: the buffers a later region or stretch
  reads, as the stage functions of the buffers the stretch itself reads, from ANY contents at its start; and that a
  buffer the stretch does not write keeps its contents.
-/
import proofs.«181322_j48155173322905_2_alg».proof.Proof.KerStages
import proofs.«181322_j48155173322905_2_alg».proof.Proof.Gen.KernelIdeal.Launch
import Idealize.ShloMosaic.Lib.StableHlo.Run

set_option maxRecDepth 16384

noncomputable section

namespace Cert.KernelIdeal.HandRun

open Idealize.ShloMosaic Idealize.ShloMosaic.TcCoe Idealize.SL.Sem Idealize.ShloMosaic.StableHlo
open Cert.KernelIdeal Cert.KernelIdeal.Gen

variable {F : FTy → Type} [FloatOps F]

theorem h0_src (Wv : Valuation τ sig (Elt F)) :
    after (hostOps0 (F := F)) Wv (Proc.devRef .tc main_v1) = edgeSrc (Wv (Proc.devRef .tc main_arg1)) := by
  after_results_simp <;> rfl

theorem h0_dst (Wv : Valuation τ sig (Elt F)) :
    after (hostOps0 (F := F)) Wv (Proc.devRef .tc main_v3) = edgeDst (Wv (Proc.devRef .tc main_arg1)) := by
  after_results_simp <;> rfl

theorem h0_inv (Wv : Valuation τ sig (Elt F)) :
    after (hostOps0 (F := F)) Wv (Proc.devRef .tc main_v12) = invDeg (edgeDst (Wv (Proc.devRef .tc main_arg1))) := by
  after_results_simp <;> rfl

theorem h0_g (Wv : Valuation τ sig (Elt F)) :
    after (hostOps0 (F := F)) Wv (Proc.devRef .tc main_v14) = tableRow0 (Wv (Proc.devRef .tc main_arg12)) := by
  after_results_simp <;> rfl

theorem h0_bt (Wv : Valuation τ sig (Elt F)) :
    after (hostOps0 (F := F)) Wv (Proc.devRef .tc main_v16) = tableRow0 (Wv (Proc.devRef .tc main_arg13)) := by
  after_results_simp <;> rfl

theorem h0_agg (Wv : Valuation τ sig (Elt F)) :
    after (hostOps0 (F := F)) Wv (Proc.devRef .tc main_v28) = agg64 (edgeSrc (Wv (Proc.devRef .tc main_arg1))) (edgeDst (Wv (Proc.devRef .tc main_arg1))) (invDeg (edgeDst (Wv (Proc.devRef .tc main_arg1)))) (Wv (Proc.devRef .tc main_arg0)) := by
  after_results_simp <;> rfl

theorem h0_b (Wv : Valuation τ sig (Elt F)) :
    after (hostOps0 (F := F)) Wv (Proc.devRef .tc main_v29) = asRow128 (Wv (Proc.devRef .tc main_arg5)) := by
  after_results_simp <;> rfl

theorem h1_sc (Wv : Valuation τ sig (Elt F)) :
    after (hostOps1 (F := F)) Wv (Proc.devRef .tc main_v51) = asRow128 (scaleOf (Wv (Proc.devRef .tc main_v30_1)) (Wv (Proc.devRef .tc main_v30_2)) (Wv (Proc.devRef .tc main_v14))) := by
  after_results_simp <;> rfl

theorem h1_sh (Wv : Valuation τ sig (Elt F)) :
    after (hostOps1 (F := F)) Wv (Proc.devRef .tc main_v52) = asRow128 (shiftOf (Wv (Proc.devRef .tc main_v30_1)) (Wv (Proc.devRef .tc main_v30_2)) (Wv (Proc.devRef .tc main_v14)) (Wv (Proc.devRef .tc main_v16))) := by
  after_results_simp <;> rfl

theorem h2_g (Wv : Valuation τ sig (Elt F)) :
    after (hostOps2 (F := F)) Wv (Proc.devRef .tc main_v55) = tableRow1 (Wv (Proc.devRef .tc main_arg12)) := by
  after_results_simp <;> rfl

theorem h2_bt (Wv : Valuation τ sig (Elt F)) :
    after (hostOps2 (F := F)) Wv (Proc.devRef .tc main_v57) = tableRow1 (Wv (Proc.devRef .tc main_arg13)) := by
  after_results_simp <;> rfl

theorem h2_agg (Wv : Valuation τ sig (Elt F)) :
    after (hostOps2 (F := F)) Wv (Proc.devRef .tc main_v70) = agg128 (Wv (Proc.devRef .tc main_v1)) (Wv (Proc.devRef .tc main_v3)) (Wv (Proc.devRef .tc main_v12)) (Wv (Proc.devRef .tc main_v53)) := by
  after_results_simp <;> rfl

theorem h2_b (Wv : Valuation τ sig (Elt F)) :
    after (hostOps2 (F := F)) Wv (Proc.devRef .tc main_v71) = asRow128 (Wv (Proc.devRef .tc main_arg8)) := by
  after_results_simp <;> rfl

theorem h3_sc (Wv : Valuation τ sig (Elt F)) :
    after (hostOps3 (F := F)) Wv (Proc.devRef .tc main_v93) = asRow128 (scaleOf (Wv (Proc.devRef .tc main_v72_1)) (Wv (Proc.devRef .tc main_v72_2)) (Wv (Proc.devRef .tc main_v55))) := by
  after_results_simp <;> rfl

theorem h3_sh (Wv : Valuation τ sig (Elt F)) :
    after (hostOps3 (F := F)) Wv (Proc.devRef .tc main_v94) = asRow128 (shiftOf (Wv (Proc.devRef .tc main_v72_1)) (Wv (Proc.devRef .tc main_v72_2)) (Wv (Proc.devRef .tc main_v55)) (Wv (Proc.devRef .tc main_v57))) := by
  after_results_simp <;> rfl

theorem h4_g (Wv : Valuation τ sig (Elt F)) :
    after (hostOps4 (F := F)) Wv (Proc.devRef .tc main_v97) = tableRow2 (Wv (Proc.devRef .tc main_arg12)) := by
  after_results_simp <;> rfl

theorem h4_bt (Wv : Valuation τ sig (Elt F)) :
    after (hostOps4 (F := F)) Wv (Proc.devRef .tc main_v99) = tableRow2 (Wv (Proc.devRef .tc main_arg13)) := by
  after_results_simp <;> rfl

theorem h4_agg (Wv : Valuation τ sig (Elt F)) :
    after (hostOps4 (F := F)) Wv (Proc.devRef .tc main_v112) = agg128 (Wv (Proc.devRef .tc main_v1)) (Wv (Proc.devRef .tc main_v3)) (Wv (Proc.devRef .tc main_v12)) (Wv (Proc.devRef .tc main_v95)) := by
  after_results_simp <;> rfl

theorem h4_b (Wv : Valuation τ sig (Elt F)) :
    after (hostOps4 (F := F)) Wv (Proc.devRef .tc main_v113) = asRow128 (Wv (Proc.devRef .tc main_arg11)) := by
  after_results_simp <;> rfl

theorem h5_sc (Wv : Valuation τ sig (Elt F)) :
    after (hostOps5 (F := F)) Wv (Proc.devRef .tc main_v135) = asRow128 (scaleOf (Wv (Proc.devRef .tc main_v114_1)) (Wv (Proc.devRef .tc main_v114_2)) (Wv (Proc.devRef .tc main_v97))) := by
  after_results_simp <;> rfl

theorem h5_sh (Wv : Valuation τ sig (Elt F)) :
    after (hostOps5 (F := F)) Wv (Proc.devRef .tc main_v136) = asRow128 (shiftOf (Wv (Proc.devRef .tc main_v114_1)) (Wv (Proc.devRef .tc main_v114_2)) (Wv (Proc.devRef .tc main_v97)) (Wv (Proc.devRef .tc main_v99))) := by
  after_results_simp <;> rfl

theorem h6_pool (Wv : Valuation τ sig (Elt F)) :
    after (hostOps6 (F := F)) Wv (Proc.devRef .tc main_v149) = pool (Wv (Proc.devRef .tc main_arg2)) (Wv (Proc.devRef .tc main_v137)) := by
  after_results_simp <;> rfl

theorem h6_b1 (Wv : Valuation τ sig (Elt F)) :
    after (hostOps6 (F := F)) Wv (Proc.devRef .tc main_v150) = asRow64 (Wv (Proc.devRef .tc main_arg15)) := by
  after_results_simp <;> rfl

theorem h6_b2 (Wv : Valuation τ sig (Elt F)) :
    after (hostOps6 (F := F)) Wv (Proc.devRef .tc main_v151) = asRow1 (Wv (Proc.devRef .tc main_arg17)) := by
  after_results_simp <;> rfl

/-- The buffers the operations of stretch 0 write. -/
abbrev written0 : List (Ref sig .tc) := [main_v0, main_v1, main_v2, main_v3, main_cst, main_v4, main_cst_0, main_v5, main_v6, main_v7, main_cst_1, main_v8, main_v9, main_cst_2, main_v10, main_v11, main_v12, main_v13, main_v14, main_v15, main_v16, main_c, main_v17, main_v18, main_c_3, main_v19, main_v20, main_v21, main_v22, main_v23, main_cst_4, main_v24, main_v25, main_v26, main_v27, main_v28, main_v29]
/-- A buffer stretch 0 does not write keeps its contents across it. -/
theorem carryH0 (Wv : Valuation τ sig (Elt F)) (b : Ref sig .tc) (hb : b ∉ written0) :
    after (hostOps0 (F := F)) Wv (Proc.devRef .tc b) = Wv (Proc.devRef .tc b) := by
  have hne : ∀ y, y ∈ written0 → b ≠ y := fun y hy e => hb (e ▸ hy)
  refine after_of_forall_not_mem (b := Proc.devRef .tc b) _ _ (List.forall_iff_forall_mem.mp ?_)
  simp only [hostOps0, List.Forall, nullary_writes, unary_writes, binary_writes, ternary_writes, quaternary_writes, reshape_writes, Finset.mem_singleton]
  repeat' apply And.intro
  all_goals exact devRef_ne_of_ne (hne _ (by decide))

/-- The buffers the operations of stretch 1 write. -/
abbrev written1 : List (Ref sig .tc) := [main_v31, main_v32, main_v33, main_cst_5, main_v34, main_v35, main_v36, main_v37, main_cst_6, main_v38, main_cst_7, main_v39, main_v40, main_cst_8, main_v41, main_v42, main_v43, main_v44, main_cst_9, main_v45, main_v46, main_v47, main_v48, main_v49, main_v50, main_v51, main_v52]
/-- A buffer stretch 1 does not write keeps its contents across it. -/
theorem carryH1 (Wv : Valuation τ sig (Elt F)) (b : Ref sig .tc) (hb : b ∉ written1) :
    after (hostOps1 (F := F)) Wv (Proc.devRef .tc b) = Wv (Proc.devRef .tc b) := by
  have hne : ∀ y, y ∈ written1 → b ≠ y := fun y hy e => hb (e ▸ hy)
  refine after_of_forall_not_mem (b := Proc.devRef .tc b) _ _ (List.forall_iff_forall_mem.mp ?_)
  simp only [hostOps1, List.Forall, nullary_writes, unary_writes, binary_writes, ternary_writes, quaternary_writes, reshape_writes, Finset.mem_singleton]
  repeat' apply And.intro
  all_goals exact devRef_ne_of_ne (hne _ (by decide))

/-- The buffers the operations of stretch 2 write. -/
abbrev written2 : List (Ref sig .tc) := [main_v54, main_v55, main_v56, main_v57, main_c_10, main_v58, main_v59, main_c_11, main_v60, main_v61, main_v62, main_v63, main_v64, main_v65, main_cst_12, main_v66, main_v67, main_v68, main_v69, main_v70, main_v71]
/-- A buffer stretch 2 does not write keeps its contents across it. -/
theorem carryH2 (Wv : Valuation τ sig (Elt F)) (b : Ref sig .tc) (hb : b ∉ written2) :
    after (hostOps2 (F := F)) Wv (Proc.devRef .tc b) = Wv (Proc.devRef .tc b) := by
  have hne : ∀ y, y ∈ written2 → b ≠ y := fun y hy e => hb (e ▸ hy)
  refine after_of_forall_not_mem (b := Proc.devRef .tc b) _ _ (List.forall_iff_forall_mem.mp ?_)
  simp only [hostOps2, List.Forall, nullary_writes, unary_writes, binary_writes, ternary_writes, quaternary_writes, reshape_writes, Finset.mem_singleton]
  repeat' apply And.intro
  all_goals exact devRef_ne_of_ne (hne _ (by decide))

/-- The buffers the operations of stretch 3 write. -/
abbrev written3 : List (Ref sig .tc) := [main_v73, main_v74, main_v75, main_cst_13, main_v76, main_v77, main_v78, main_v79, main_cst_14, main_v80, main_cst_15, main_v81, main_v82, main_cst_16, main_v83, main_v84, main_v85, main_v86, main_cst_17, main_v87, main_v88, main_v89, main_v90, main_v91, main_v92, main_v93, main_v94]
/-- A buffer stretch 3 does not write keeps its contents across it. -/
theorem carryH3 (Wv : Valuation τ sig (Elt F)) (b : Ref sig .tc) (hb : b ∉ written3) :
    after (hostOps3 (F := F)) Wv (Proc.devRef .tc b) = Wv (Proc.devRef .tc b) := by
  have hne : ∀ y, y ∈ written3 → b ≠ y := fun y hy e => hb (e ▸ hy)
  refine after_of_forall_not_mem (b := Proc.devRef .tc b) _ _ (List.forall_iff_forall_mem.mp ?_)
  simp only [hostOps3, List.Forall, nullary_writes, unary_writes, binary_writes, ternary_writes, quaternary_writes, reshape_writes, Finset.mem_singleton]
  repeat' apply And.intro
  all_goals exact devRef_ne_of_ne (hne _ (by decide))

/-- The buffers the operations of stretch 4 write. -/
abbrev written4 : List (Ref sig .tc) := [main_v96, main_v97, main_v98, main_v99, main_c_18, main_v100, main_v101, main_c_19, main_v102, main_v103, main_v104, main_v105, main_v106, main_v107, main_cst_20, main_v108, main_v109, main_v110, main_v111, main_v112, main_v113]
/-- A buffer stretch 4 does not write keeps its contents across it. -/
theorem carryH4 (Wv : Valuation τ sig (Elt F)) (b : Ref sig .tc) (hb : b ∉ written4) :
    after (hostOps4 (F := F)) Wv (Proc.devRef .tc b) = Wv (Proc.devRef .tc b) := by
  have hne : ∀ y, y ∈ written4 → b ≠ y := fun y hy e => hb (e ▸ hy)
  refine after_of_forall_not_mem (b := Proc.devRef .tc b) _ _ (List.forall_iff_forall_mem.mp ?_)
  simp only [hostOps4, List.Forall, nullary_writes, unary_writes, binary_writes, ternary_writes, quaternary_writes, reshape_writes, Finset.mem_singleton]
  repeat' apply And.intro
  all_goals exact devRef_ne_of_ne (hne _ (by decide))

/-- The buffers the operations of stretch 5 write. -/
abbrev written5 : List (Ref sig .tc) := [main_v115, main_v116, main_v117, main_cst_21, main_v118, main_v119, main_v120, main_v121, main_cst_22, main_v122, main_cst_23, main_v123, main_v124, main_cst_24, main_v125, main_v126, main_v127, main_v128, main_cst_25, main_v129, main_v130, main_v131, main_v132, main_v133, main_v134, main_v135, main_v136]
/-- A buffer stretch 5 does not write keeps its contents across it. -/
theorem carryH5 (Wv : Valuation τ sig (Elt F)) (b : Ref sig .tc) (hb : b ∉ written5) :
    after (hostOps5 (F := F)) Wv (Proc.devRef .tc b) = Wv (Proc.devRef .tc b) := by
  have hne : ∀ y, y ∈ written5 → b ≠ y := fun y hy e => hb (e ▸ hy)
  refine after_of_forall_not_mem (b := Proc.devRef .tc b) _ _ (List.forall_iff_forall_mem.mp ?_)
  simp only [hostOps5, List.Forall, nullary_writes, unary_writes, binary_writes, ternary_writes, quaternary_writes, reshape_writes, Finset.mem_singleton]
  repeat' apply And.intro
  all_goals exact devRef_ne_of_ne (hne _ (by decide))

/-- The buffers the operations of stretch 6 write. -/
abbrev written6 : List (Ref sig .tc) := [main_cst_26, main_v138, main_v139, main_v140, main_cst_27, main_v141, main_cst_28, main_v142, main_v143, main_v144, main_cst_29, main_v145, main_v146, main_v147, main_v148, main_v149, main_v150, main_v151]
/-- A buffer stretch 6 does not write keeps its contents across it. -/
theorem carryH6 (Wv : Valuation τ sig (Elt F)) (b : Ref sig .tc) (hb : b ∉ written6) :
    after (hostOps6 (F := F)) Wv (Proc.devRef .tc b) = Wv (Proc.devRef .tc b) := by
  have hne : ∀ y, y ∈ written6 → b ≠ y := fun y hy e => hb (e ▸ hy)
  refine after_of_forall_not_mem (b := Proc.devRef .tc b) _ _ (List.forall_iff_forall_mem.mp ?_)
  simp only [hostOps6, List.Forall, nullary_writes, unary_writes, binary_writes, ternary_writes, quaternary_writes, reshape_writes, Finset.mem_singleton]
  repeat' apply And.intro
  all_goals exact devRef_ne_of_ne (hne _ (by decide))

end Cert.KernelIdeal.HandRun

end
-- ==== Proof.KerChain1.lean ====
/-
  The idealized kernel program's buffer contents at the first boundaries, in closed form: what the first stretch of
  host operations leaves in the buffers region 0 reads (the sources, destinations, reciprocal degrees, the first rows of
  the scale and shift tables, the neighbour means of the input features, the bias as a row), and each argument array
  still as launched where a later stretch or region reads it.
-/
import proofs.«181322_j48155173322905_2_alg».proof.Proof.KerHost
import proofs.«181322_j48155173322905_2_alg».proof.Proof.Gen.KernelIdeal.Frame
import Idealize.ShloMosaic.PureOps.Ideal
import Idealize.ShloMosaic.Lib.ValueIdx

set_option maxRecDepth 16384

noncomputable section

namespace Cert.KernelIdeal.HandRun

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg) (c : Dev nD)

theorem arg0_W1 : W1 m ρ c (Proc.devRef .tc main_arg0) = (m ((c : Thread nD τ).loc main_arg0)) :=
  (carryH0 (W0 m ρ c) main_arg0 (by decide))
theorem arg3_W1 : W1 m ρ c (Proc.devRef .tc main_arg3) = (m ((c : Thread nD τ).loc main_arg3)) :=
  (carryH0 (W0 m ρ c) main_arg3 (by decide))
theorem arg4_W1 : W1 m ρ c (Proc.devRef .tc main_arg4) = (m ((c : Thread nD τ).loc main_arg4)) :=
  (carryH0 (W0 m ρ c) main_arg4 (by decide))
theorem arg12_W4 : W4 m ρ c (Proc.devRef .tc main_arg12) = (m ((c : Thread nD τ).loc main_arg12)) :=
  ((W4_of_ne m ρ c main_arg12 (by decide)).trans ((carryH1 (W2 m ρ c) main_arg12 (by decide)).trans ((W2_of_ne m ρ c main_arg12 (by decide)).trans (carryH0 (W0 m ρ c) main_arg12 (by decide)))))
theorem arg13_W4 : W4 m ρ c (Proc.devRef .tc main_arg13) = (m ((c : Thread nD τ).loc main_arg13)) :=
  ((W4_of_ne m ρ c main_arg13 (by decide)).trans ((carryH1 (W2 m ρ c) main_arg13 (by decide)).trans ((W2_of_ne m ρ c main_arg13 (by decide)).trans (carryH0 (W0 m ρ c) main_arg13 (by decide)))))
theorem arg8_W4 : W4 m ρ c (Proc.devRef .tc main_arg8) = (m ((c : Thread nD τ).loc main_arg8)) :=
  ((W4_of_ne m ρ c main_arg8 (by decide)).trans ((carryH1 (W2 m ρ c) main_arg8 (by decide)).trans ((W2_of_ne m ρ c main_arg8 (by decide)).trans (carryH0 (W0 m ρ c) main_arg8 (by decide)))))
theorem arg6_W5 : W5 m ρ c (Proc.devRef .tc main_arg6) = (m ((c : Thread nD τ).loc main_arg6)) :=
  ((carryH2 (W4 m ρ c) main_arg6 (by decide)).trans ((W4_of_ne m ρ c main_arg6 (by decide)).trans ((carryH1 (W2 m ρ c) main_arg6 (by decide)).trans ((W2_of_ne m ρ c main_arg6 (by decide)).trans (carryH0 (W0 m ρ c) main_arg6 (by decide))))))
theorem arg7_W5 : W5 m ρ c (Proc.devRef .tc main_arg7) = (m ((c : Thread nD τ).loc main_arg7)) :=
  ((carryH2 (W4 m ρ c) main_arg7 (by decide)).trans ((W4_of_ne m ρ c main_arg7 (by decide)).trans ((carryH1 (W2 m ρ c) main_arg7 (by decide)).trans ((W2_of_ne m ρ c main_arg7 (by decide)).trans (carryH0 (W0 m ρ c) main_arg7 (by decide))))))
theorem arg12_W8 : W8 m ρ c (Proc.devRef .tc main_arg12) = (m ((c : Thread nD τ).loc main_arg12)) :=
  ((W8_of_ne m ρ c main_arg12 (by decide)).trans ((carryH3 (W6 m ρ c) main_arg12 (by decide)).trans ((W6_of_ne m ρ c main_arg12 (by decide)).trans ((carryH2 (W4 m ρ c) main_arg12 (by decide)).trans ((W4_of_ne m ρ c main_arg12 (by decide)).trans ((carryH1 (W2 m ρ c) main_arg12 (by decide)).trans ((W2_of_ne m ρ c main_arg12 (by decide)).trans (carryH0 (W0 m ρ c) main_arg12 (by decide)))))))))
theorem arg13_W8 : W8 m ρ c (Proc.devRef .tc main_arg13) = (m ((c : Thread nD τ).loc main_arg13)) :=
  ((W8_of_ne m ρ c main_arg13 (by decide)).trans ((carryH3 (W6 m ρ c) main_arg13 (by decide)).trans ((W6_of_ne m ρ c main_arg13 (by decide)).trans ((carryH2 (W4 m ρ c) main_arg13 (by decide)).trans ((W4_of_ne m ρ c main_arg13 (by decide)).trans ((carryH1 (W2 m ρ c) main_arg13 (by decide)).trans ((W2_of_ne m ρ c main_arg13 (by decide)).trans (carryH0 (W0 m ρ c) main_arg13 (by decide)))))))))
theorem arg11_W8 : W8 m ρ c (Proc.devRef .tc main_arg11) = (m ((c : Thread nD τ).loc main_arg11)) :=
  ((W8_of_ne m ρ c main_arg11 (by decide)).trans ((carryH3 (W6 m ρ c) main_arg11 (by decide)).trans ((W6_of_ne m ρ c main_arg11 (by decide)).trans ((carryH2 (W4 m ρ c) main_arg11 (by decide)).trans ((W4_of_ne m ρ c main_arg11 (by decide)).trans ((carryH1 (W2 m ρ c) main_arg11 (by decide)).trans ((W2_of_ne m ρ c main_arg11 (by decide)).trans (carryH0 (W0 m ρ c) main_arg11 (by decide)))))))))
theorem arg9_W9 : W9 m ρ c (Proc.devRef .tc main_arg9) = (m ((c : Thread nD τ).loc main_arg9)) :=
  ((carryH4 (W8 m ρ c) main_arg9 (by decide)).trans ((W8_of_ne m ρ c main_arg9 (by decide)).trans ((carryH3 (W6 m ρ c) main_arg9 (by decide)).trans ((W6_of_ne m ρ c main_arg9 (by decide)).trans ((carryH2 (W4 m ρ c) main_arg9 (by decide)).trans ((W4_of_ne m ρ c main_arg9 (by decide)).trans ((carryH1 (W2 m ρ c) main_arg9 (by decide)).trans ((W2_of_ne m ρ c main_arg9 (by decide)).trans (carryH0 (W0 m ρ c) main_arg9 (by decide))))))))))
theorem arg10_W9 : W9 m ρ c (Proc.devRef .tc main_arg10) = (m ((c : Thread nD τ).loc main_arg10)) :=
  ((carryH4 (W8 m ρ c) main_arg10 (by decide)).trans ((W8_of_ne m ρ c main_arg10 (by decide)).trans ((carryH3 (W6 m ρ c) main_arg10 (by decide)).trans ((W6_of_ne m ρ c main_arg10 (by decide)).trans ((carryH2 (W4 m ρ c) main_arg10 (by decide)).trans ((W4_of_ne m ρ c main_arg10 (by decide)).trans ((carryH1 (W2 m ρ c) main_arg10 (by decide)).trans ((W2_of_ne m ρ c main_arg10 (by decide)).trans (carryH0 (W0 m ρ c) main_arg10 (by decide))))))))))
theorem arg2_W12 : W12 m ρ c (Proc.devRef .tc main_arg2) = (m ((c : Thread nD τ).loc main_arg2)) :=
  ((W12_of_ne m ρ c main_arg2 (by decide)).trans ((carryH5 (W10 m ρ c) main_arg2 (by decide)).trans ((W10_of_ne m ρ c main_arg2 (by decide)).trans ((carryH4 (W8 m ρ c) main_arg2 (by decide)).trans ((W8_of_ne m ρ c main_arg2 (by decide)).trans ((carryH3 (W6 m ρ c) main_arg2 (by decide)).trans ((W6_of_ne m ρ c main_arg2 (by decide)).trans ((carryH2 (W4 m ρ c) main_arg2 (by decide)).trans ((W4_of_ne m ρ c main_arg2 (by decide)).trans ((carryH1 (W2 m ρ c) main_arg2 (by decide)).trans ((W2_of_ne m ρ c main_arg2 (by decide)).trans (carryH0 (W0 m ρ c) main_arg2 (by decide)))))))))))))
theorem arg15_W12 : W12 m ρ c (Proc.devRef .tc main_arg15) = (m ((c : Thread nD τ).loc main_arg15)) :=
  ((W12_of_ne m ρ c main_arg15 (by decide)).trans ((carryH5 (W10 m ρ c) main_arg15 (by decide)).trans ((W10_of_ne m ρ c main_arg15 (by decide)).trans ((carryH4 (W8 m ρ c) main_arg15 (by decide)).trans ((W8_of_ne m ρ c main_arg15 (by decide)).trans ((carryH3 (W6 m ρ c) main_arg15 (by decide)).trans ((W6_of_ne m ρ c main_arg15 (by decide)).trans ((carryH2 (W4 m ρ c) main_arg15 (by decide)).trans ((W4_of_ne m ρ c main_arg15 (by decide)).trans ((carryH1 (W2 m ρ c) main_arg15 (by decide)).trans ((W2_of_ne m ρ c main_arg15 (by decide)).trans (carryH0 (W0 m ρ c) main_arg15 (by decide)))))))))))))
theorem arg17_W12 : W12 m ρ c (Proc.devRef .tc main_arg17) = (m ((c : Thread nD τ).loc main_arg17)) :=
  ((W12_of_ne m ρ c main_arg17 (by decide)).trans ((carryH5 (W10 m ρ c) main_arg17 (by decide)).trans ((W10_of_ne m ρ c main_arg17 (by decide)).trans ((carryH4 (W8 m ρ c) main_arg17 (by decide)).trans ((W8_of_ne m ρ c main_arg17 (by decide)).trans ((carryH3 (W6 m ρ c) main_arg17 (by decide)).trans ((W6_of_ne m ρ c main_arg17 (by decide)).trans ((carryH2 (W4 m ρ c) main_arg17 (by decide)).trans ((W4_of_ne m ρ c main_arg17 (by decide)).trans ((carryH1 (W2 m ρ c) main_arg17 (by decide)).trans ((W2_of_ne m ρ c main_arg17 (by decide)).trans (carryH0 (W0 m ρ c) main_arg17 (by decide)))))))))))))
theorem arg14_W13 : W13 m ρ c (Proc.devRef .tc main_arg14) = (m ((c : Thread nD τ).loc main_arg14)) :=
  ((carryH6 (W12 m ρ c) main_arg14 (by decide)).trans ((W12_of_ne m ρ c main_arg14 (by decide)).trans ((carryH5 (W10 m ρ c) main_arg14 (by decide)).trans ((W10_of_ne m ρ c main_arg14 (by decide)).trans ((carryH4 (W8 m ρ c) main_arg14 (by decide)).trans ((W8_of_ne m ρ c main_arg14 (by decide)).trans ((carryH3 (W6 m ρ c) main_arg14 (by decide)).trans ((W6_of_ne m ρ c main_arg14 (by decide)).trans ((carryH2 (W4 m ρ c) main_arg14 (by decide)).trans ((W4_of_ne m ρ c main_arg14 (by decide)).trans ((carryH1 (W2 m ρ c) main_arg14 (by decide)).trans ((W2_of_ne m ρ c main_arg14 (by decide)).trans (carryH0 (W0 m ρ c) main_arg14 (by decide))))))))))))))
theorem arg16_W13 : W13 m ρ c (Proc.devRef .tc main_arg16) = (m ((c : Thread nD τ).loc main_arg16)) :=
  ((carryH6 (W12 m ρ c) main_arg16 (by decide)).trans ((W12_of_ne m ρ c main_arg16 (by decide)).trans ((carryH5 (W10 m ρ c) main_arg16 (by decide)).trans ((W10_of_ne m ρ c main_arg16 (by decide)).trans ((carryH4 (W8 m ρ c) main_arg16 (by decide)).trans ((W8_of_ne m ρ c main_arg16 (by decide)).trans ((carryH3 (W6 m ρ c) main_arg16 (by decide)).trans ((W6_of_ne m ρ c main_arg16 (by decide)).trans ((carryH2 (W4 m ρ c) main_arg16 (by decide)).trans ((W4_of_ne m ρ c main_arg16 (by decide)).trans ((carryH1 (W2 m ρ c) main_arg16 (by decide)).trans ((W2_of_ne m ρ c main_arg16 (by decide)).trans (carryH0 (W0 m ρ c) main_arg16 (by decide))))))))))))))

/-! ## After the first stretch -/
theorem w1_src : W1 m ρ c (Proc.devRef .tc main_v1) = (edgeSrc (m ((c : Thread nD τ).loc main_arg1))) :=
  h0_src (W0 m ρ c)
theorem w1_dst : W1 m ρ c (Proc.devRef .tc main_v3) = (edgeDst (m ((c : Thread nD τ).loc main_arg1))) :=
  h0_dst (W0 m ρ c)
theorem w1_inv : W1 m ρ c (Proc.devRef .tc main_v12) = (invDeg (edgeDst (m ((c : Thread nD τ).loc main_arg1)))) :=
  h0_inv (W0 m ρ c)
theorem w1_g : W1 m ρ c (Proc.devRef .tc main_v14) = tableRow0 (m ((c : Thread nD τ).loc main_arg12)) :=
  h0_g (W0 m ρ c)
theorem w1_bt : W1 m ρ c (Proc.devRef .tc main_v16) = tableRow0 (m ((c : Thread nD τ).loc main_arg13)) :=
  h0_bt (W0 m ρ c)
theorem w1_agg : W1 m ρ c (Proc.devRef .tc main_v28) = agg64 (edgeSrc (m ((c : Thread nD τ).loc main_arg1))) (edgeDst (m ((c : Thread nD τ).loc main_arg1))) (invDeg (edgeDst (m ((c : Thread nD τ).loc main_arg1)))) (m ((c : Thread nD τ).loc main_arg0)) :=
  h0_agg (W0 m ρ c)
theorem w1_b : W1 m ρ c (Proc.devRef .tc main_v29) = asRow128 (m ((c : Thread nD τ).loc main_arg5)) :=
  h0_b (W0 m ρ c)

end Cert.KernelIdeal.HandRun

end
-- ==== Proof.LinSpec.lean ====
/- The values the three linear layers' kernels leave, as plain index formulas over the arrays they read: no program is
   imported here. linF d A X Wn Wr B is the [50000,128] array A·Wn + X·Wr + B (rows of A and X against columns of the two
   weights, the bias added last, in the association the kernel body computes); tileSum L is the [80,128] array whose row
   q holds, for each column, the sum of L over the 5000 rows of row-tile q / 8 (the kernel writes each tile's column sums into
   all eight rows of the tile's [8,128] block). -/
import Idealize.ShloMosaic.PureOps.Ideal
import Idealize.ShloMosaic.Lib.ValueIdx

noncomputable section

namespace Cert.KernelIdeal.HandLin

open Idealize.ShloMosaic Idealize.ShloMosaic.ValueIdx

/-- The linear layer at (row, column): ∑ₖ A[row,k]·Wn[k,col] + ∑ₖ X[row,k]·Wr[k,col], then + B[0,col]. -/
def linF (d : Nat) (A X : (⟨2, ![50000, d]⟩ : Shape).Idx → EReal) (Wn Wr : (⟨2, ![d, 128]⟩ : Shape).Idx → EReal)
    (B : (⟨2, ![1, 128]⟩ : Shape).Idx → EReal) : (⟨2, ![50000, 128]⟩ : Shape).Idx → EReal :=
  fun i => ((∑ k : Fin d, A (ix2 (i 0) k) * Wn (ix2 k (i 1))) + (∑ k : Fin d, X (ix2 (i 0) k) * Wr (ix2 k (i 1))))
    + B (ix2 (0 : Fin 1) (i 1))

/-- Row 5000 * (q / 8) + r of a [50000, ·] array, for a row q of the [80,128] array of per-tile sums and a row r of the tile. -/
def tileRow (q : Fin 80) (r : Fin 5000) : Fin 50000 := ⟨5000 * (q.val / 8) + r.val, by have := q.isLt; have := r.isLt; omega⟩

/-- Per-tile column sums, each tile's sums repeated over the eight rows of its block. -/
def tileSum (L : (⟨2, ![50000, 128]⟩ : Shape).Idx → EReal) : (⟨2, ![80, 128]⟩ : Shape).Idx → EReal :=
  fun i => ∑ r : Fin 5000, L (ix2 (tileRow (i 0) r) (i 1))

theorem linF_apply (d : Nat) (A X : (⟨2, ![50000, d]⟩ : Shape).Idx → EReal) (Wn Wr : (⟨2, ![d, 128]⟩ : Shape).Idx → EReal)
    (B : (⟨2, ![1, 128]⟩ : Shape).Idx → EReal) (p : Fin 50000) (q : Fin 128) :
    linF d A X Wn Wr B (ix2 p q) = ((∑ k : Fin d, A (ix2 p k) * Wn (ix2 k q)) + (∑ k : Fin d, X (ix2 p k) * Wr (ix2 k q)))
      + B (ix2 (0 : Fin 1) q) := rfl

theorem tileSum_apply (L : (⟨2, ![50000, 128]⟩ : Shape).Idx → EReal) (s : Fin 80) (q : Fin 128) :
    tileSum L (ix2 s q) = ∑ r : Fin 5000, L (ix2 (tileRow s r) q) := rfl

theorem tileRow_val (q : Fin 80) (r : Fin 5000) : (tileRow q r).val = 5000 * (q.val / 8) + r.val := rfl

end Cert.KernelIdeal.HandLin

end
-- ==== Proof.BnSpec.lean ====
/- The two closed forms the pointwise regions compute, index by index, at the exact (extended-real) values.
   `bnF`: batch-norm as an affine map per column followed by ReLU, `max (lin * scale + shift) 0`.
   `mlpF`: the read-out MLP of one graph, `sigmoid (relu (pooled · W1 + b1) · W2 + b2)`, the sigmoid being
   `1 / (1 + exp (-z))` in the extended reals' division and exponential. -/
import Idealize.ShloMosaic.PureOps.Ideal
import Idealize.ShloMosaic.Lib.ValueIdx

noncomputable section

namespace Cert.KernelIdeal.HandBn

open Idealize.ShloMosaic Idealize.ShloMosaic.ValueIdx
open scoped BigOperators

/-- Entry `(r, q)` is `max (L[r,q] * Sc[0,q] + Sh[0,q]) 0`, the zero being the f32 zero word. -/
def bnF (L : (⟨2, ![50000, 128]⟩ : Shape).Idx → EReal) (Sc Sh : (⟨2, ![1, 128]⟩ : Shape).Idx → EReal) :
    (⟨2, ![50000, 128]⟩ : Shape).Idx → EReal :=
  fun i => max (L i * Sc (ix2 (0 : Fin 1) (i 1)) + Sh (ix2 (0 : Fin 1) (i 1))) (Ideal.ofBits .f32 0x00000000#32)

/-- Entry `(r, o)` is `1 / (1 + exp (-((∑ k, max ((∑ k', P[r,k'] * W1[k',k]) + b1[0,k]) 0 * W2[k,o]) + b2[0,o])))`. -/
def mlpF (P : (⟨2, ![256, 128]⟩ : Shape).Idx → EReal) (W1 : (⟨2, ![128, 64]⟩ : Shape).Idx → EReal)
    (b1 : (⟨2, ![1, 64]⟩ : Shape).Idx → EReal) (W2 : (⟨2, ![64, 1]⟩ : Shape).Idx → EReal)
    (b2 : (⟨2, ![1, 1]⟩ : Shape).Idx → EReal) : (⟨2, ![256, 1]⟩ : Shape).Idx → EReal :=
  fun i => Ideal.div 1 (1 + Ideal.exp (-((∑ k : Fin 64,
      max ((∑ k' : Fin 128, P (ix2 (i 0) k') * W1 (ix2 k' k)) + b1 (ix2 (0 : Fin 1) k)) (Ideal.ofBits .f32 0x00000000#32)
        * W2 (ix2 k (i 1))) + b2 (ix2 (0 : Fin 1) (i 1)))))

end Cert.KernelIdeal.HandBn

end
-- ==== Proof.KerTower.lean ====
/-
  The idealized kernel program's value as a tower of whole-array functions of its eighteen argument arrays: per layer
  the neighbour mean, the linear map's output, and the normalised, rectified features — the normalisation's scale and
  shift rows computed from the per-tile column sums of the linear output and of its square — then the pooled means and
  the two-layer perceptron with its logistic output.
-/
import proofs.«181322_j48155173322905_2_alg».proof.Proof.KerStages
import proofs.«181322_j48155173322905_2_alg».proof.Proof.LinSpec
import proofs.«181322_j48155173322905_2_alg».proof.Proof.BnSpec
import Idealize.ShloMosaic.PureOps.Ideal
import Idealize.ShloMosaic.Lib.ValueIdx

noncomputable section

namespace Cert.KernelIdeal.HandRun

open Idealize.ShloMosaic Idealize.ShloMosaic.TcCoe Idealize.ShloMosaic.ValueIdx
open Cert.KernelIdeal Cert.KernelIdeal.Gen Cert.KernelIdeal.HandLin Cert.KernelIdeal.HandBn

/-- One layer's normalisation as the kernel computes it: `max(L·scale + shift, 0)`, the scale and shift rows from the
    tile sums of `L` and of `L²`. -/
def bnLayer (L : (⟨2, ![50000, 128]⟩ : Shape).Idx → EReal) (g bt : (⟨S128, .f32⟩ : BufTy).Contents (Elt Ideal)) : (⟨2, ![50000, 128]⟩ : Shape).Idx → EReal :=
  bnF L (asRow128 (F := Ideal) (scaleOf (F := Ideal) (tileSum L) (tileSum (fun i => L i * L i)) g))
    (asRow128 (F := Ideal) (shiftOf (F := Ideal) (tileSum L) (tileSum (fun i => L i * L i)) g bt))

def kA0 (x : (⟨S50000x64, .f32⟩ : BufTy).Contents (Elt Ideal)) (ei : (⟨S2x800000, .i32⟩ : BufTy).Contents (Elt Ideal)) := agg64 (F := Ideal) (edgeSrc ei) (edgeDst ei) (invDeg (edgeDst ei)) x
def kL0 (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) : (⟨2, ![50000, 128]⟩ : Shape).Idx → EReal := linF 64 (kA0 x ei) x Wn0 Wr0 (asRow128 (F := Ideal) b0)
def kH1 (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) (gam : (⟨S3x128, .f32⟩ : BufTy).Contents (Elt Ideal)) (bet : (⟨S3x128, .f32⟩ : BufTy).Contents (Elt Ideal)) : (⟨2, ![50000, 128]⟩ : Shape).Idx → EReal := bnLayer (kL0 x ei Wn0 Wr0 b0) (tableRow0 (F := Ideal) gam) (tableRow0 (F := Ideal) bet)
def kA1 (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) (gam : (⟨S3x128, .f32⟩ : BufTy).Contents (Elt Ideal)) (bet : (⟨S3x128, .f32⟩ : BufTy).Contents (Elt Ideal)) := agg128 (F := Ideal) (edgeSrc ei) (edgeDst ei) (invDeg (edgeDst ei)) (kH1 x ei Wn0 Wr0 b0 gam bet)
def kL1 (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) (gam : (⟨S3x128, .f32⟩ : BufTy).Contents (Elt Ideal)) (bet : (⟨S3x128, .f32⟩ : BufTy).Contents (Elt Ideal)) (Wn1 : (⟨S128x128, .f32⟩ : BufTy).Contents (Elt Ideal)) (Wr1 : (⟨S128x128, .f32⟩ : BufTy).Contents (Elt Ideal)) (b1 : (⟨S128, .f32⟩ : BufTy).Contents (Elt Ideal)) : (⟨2, ![50000, 128]⟩ : Shape).Idx → EReal := linF 128 (kA1 x ei Wn0 Wr0 b0 gam bet) (kH1 x ei Wn0 Wr0 b0 gam bet) Wn1 Wr1 (asRow128 (F := Ideal) b1)
def kH2 (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) (gam : (⟨S3x128, .f32⟩ : BufTy).Contents (Elt Ideal)) (bet : (⟨S3x128, .f32⟩ : BufTy).Contents (Elt Ideal)) (Wn1 : (⟨S128x128, .f32⟩ : BufTy).Contents (Elt Ideal)) (Wr1 : (⟨S128x128, .f32⟩ : BufTy).Contents (Elt Ideal)) (b1 : (⟨S128, .f32⟩ : BufTy).Contents (Elt Ideal)) : (⟨2, ![50000, 128]⟩ : Shape).Idx → EReal := bnLayer (kL1 x ei Wn0 Wr0 b0 gam bet Wn1 Wr1 b1) (tableRow1 (F := Ideal) gam) (tableRow1 (F := Ideal) bet)
def kA2 (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) (gam : (⟨S3x128, .f32⟩ : BufTy).Contents (Elt Ideal)) (bet : (⟨S3x128, .f32⟩ : BufTy).Contents (Elt Ideal)) (Wn1 : (⟨S128x128, .f32⟩ : BufTy).Contents (Elt Ideal)) (Wr1 : (⟨S128x128, .f32⟩ : BufTy).Contents (Elt Ideal)) (b1 : (⟨S128, .f32⟩ : BufTy).Contents (Elt Ideal)) := agg128 (F := Ideal) (edgeSrc ei) (edgeDst ei) (invDeg (edgeDst ei)) (kH2 x ei Wn0 Wr0 b0 gam bet Wn1 Wr1 b1)
def kL2 (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) (gam : (⟨S3x128, .f32⟩ : BufTy).Contents (Elt Ideal)) (bet : (⟨S3x128, .f32⟩ : BufTy).Contents (Elt Ideal)) (Wn1 : (⟨S128x128, .f32⟩ : BufTy).Contents (Elt Ideal)) (Wr1 : (⟨S128x128, .f32⟩ : BufTy).Contents (Elt Ideal)) (b1 : (⟨S128, .f32⟩ : BufTy).Contents (Elt Ideal)) (Wn2 : (⟨S128x128, .f32⟩ : BufTy).Contents (Elt Ideal)) (Wr2 : (⟨S128x128, .f32⟩ : BufTy).Contents (Elt Ideal)) (b2 : (⟨S128, .f32⟩ : BufTy).Contents (Elt Ideal)) : (⟨2, ![50000, 128]⟩ : Shape).Idx → EReal := linF 128 (kA2 x ei Wn0 Wr0 b0 gam bet Wn1 Wr1 b1) (kH2 x ei Wn0 Wr0 b0 gam bet Wn1 Wr1 b1) Wn2 Wr2 (asRow128 (F := Ideal) b2)
def kH3 (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) (gam : (⟨S3x128, .f32⟩ : BufTy).Contents (Elt Ideal)) (bet : (⟨S3x128, .f32⟩ : BufTy).Contents (Elt Ideal)) (Wn1 : (⟨S128x128, .f32⟩ : BufTy).Contents (Elt Ideal)) (Wr1 : (⟨S128x128, .f32⟩ : BufTy).Contents (Elt Ideal)) (b1 : (⟨S128, .f32⟩ : BufTy).Contents (Elt Ideal)) (Wn2 : (⟨S128x128, .f32⟩ : BufTy).Contents (Elt Ideal)) (Wr2 : (⟨S128x128, .f32⟩ : BufTy).Contents (Elt Ideal)) (b2 : (⟨S128, .f32⟩ : BufTy).Contents (Elt Ideal)) : (⟨2, ![50000, 128]⟩ : Shape).Idx → EReal := bnLayer (kL2 x ei Wn0 Wr0 b0 gam bet Wn1 Wr1 b1 Wn2 Wr2 b2) (tableRow2 (F := Ideal) gam) (tableRow2 (F := Ideal) bet)
def kOut (x : (⟨S50000x64, .f32⟩ : BufTy).Contents (Elt Ideal)) (ei : (⟨S2x800000, .i32⟩ : BufTy).Contents (Elt Ideal)) (Wn0 : (⟨S64x128, .f32⟩ : BufTy).Contents (Elt Ideal)) (Wr0 : (⟨S64x128, .f32⟩ : BufTy).Contents (Elt Ideal)) (b0 : (⟨S128, .f32⟩ : BufTy).Contents (Elt Ideal)) (gam : (⟨S3x128, .f32⟩ : BufTy).Contents (Elt Ideal)) (bet : (⟨S3x128, .f32⟩ : BufTy).Contents (Elt Ideal)) (Wn1 : (⟨S128x128, .f32⟩ : BufTy).Contents (Elt Ideal)) (Wr1 : (⟨S128x128, .f32⟩ : BufTy).Contents (Elt Ideal)) (b1 : (⟨S128, .f32⟩ : BufTy).Contents (Elt Ideal)) (Wn2 : (⟨S128x128, .f32⟩ : BufTy).Contents (Elt Ideal)) (Wr2 : (⟨S128x128, .f32⟩ : BufTy).Contents (Elt Ideal)) (b2 : (⟨S128, .f32⟩ : BufTy).Contents (Elt Ideal)) (bat : (⟨S50000, .i32⟩ : BufTy).Contents (Elt Ideal)) (fW1 : (⟨S128x64, .f32⟩ : BufTy).Contents (Elt Ideal)) (fb1 : (⟨S64, .f32⟩ : BufTy).Contents (Elt Ideal)) (fW2 : (⟨S64x1, .f32⟩ : BufTy).Contents (Elt Ideal)) (fb2 : (⟨S1, .f32⟩ : BufTy).Contents (Elt Ideal)) : (⟨2, ![256, 1]⟩ : Shape).Idx → EReal :=
  mlpF (pool (F := Ideal) bat (kH3 x ei Wn0 Wr0 b0 gam bet Wn1 Wr1 b1 Wn2 Wr2 b2)) fW1 (asRow64 (F := Ideal) fb1) fW2 (asRow1 (F := Ideal) fb2)

end Cert.KernelIdeal.HandRun

end
-- ==== Proof.LinPay0.lean ====
/- The three values the first linear layer's kernel body stores, read at an index, at the ideal values: the [5000,128] block
   of agg·Wn + x·Wr + b from the five loaded blocks (two block products with one contracted axis of 64, a row broadcast of
   the bias), and the two [8,128] blocks holding its column sums and the column sums of its squares in every row. Stated
   over variables of the literal vector types. -/
import proofs.«181322_j48155173322905_2_alg».proof.Proof.Gen.KernelIdeal.Frame
import Idealize.ShloMosaic.Lib.ValueLayout
import Idealize.ShloMosaic.PureOps.Ideal.Laws

set_option maxRecDepth 16384

noncomputable section

namespace Cert.KernelIdeal.HandLin

open Idealize.ShloMosaic Idealize.ShloMosaic.TcCoe Idealize.SL.Sem
open Idealize.ShloMosaic.Pipeline (Dat)
open Idealize.ShloMosaic.ValueIdx
open Cert.KernelIdeal Cert.KernelIdeal.Gen

/-! ## A block product with one contracted axis, read at an output index -/

theorem lhs64_0 (i : S5000x128.Idx) (q : (dot_S5000x64_S64x128_S5000x128_1_0_0_1_n_n).contr.Idx) :
    ((dot_S5000x64_S64x128_S5000x128_1_0_0_1_n_n).lhsIdx i q 0).val = (i 0).val := by
  unfold DotDims.lhsIdx
  rw [dif_neg (show ¬(0 : Fin S5000x64.rank) ∈ (dot_S5000x64_S64x128_S5000x128_1_0_0_1_n_n).lhsBatch by decide),
    dif_pos (show (0 : Fin S5000x64.rank) ∈ (dot_S5000x64_S64x128_S5000x128_1_0_0_1_n_n).lhsNonContracting by decide)]
  rfl

theorem lhs64_1 (i : S5000x128.Idx) (q : (dot_S5000x64_S64x128_S5000x128_1_0_0_1_n_n).contr.Idx) :
    ((dot_S5000x64_S64x128_S5000x128_1_0_0_1_n_n).lhsIdx i q 1).val = (q ⟨0, by decide⟩).val :=
  (dot_S5000x64_S64x128_S5000x128_1_0_0_1_n_n).lhsIdx_val_of_single rfl i q

theorem rhs64_0 (i : S5000x128.Idx) (q : (dot_S5000x64_S64x128_S5000x128_1_0_0_1_n_n).contr.Idx) :
    ((dot_S5000x64_S64x128_S5000x128_1_0_0_1_n_n).rhsIdx i q 0).val = (q ⟨0, by decide⟩).val :=
  (dot_S5000x64_S64x128_S5000x128_1_0_0_1_n_n).rhsIdx_val_of_single rfl i q

theorem rhs64_1 (i : S5000x128.Idx) (q : (dot_S5000x64_S64x128_S5000x128_1_0_0_1_n_n).contr.Idx) :
    ((dot_S5000x64_S64x128_S5000x128_1_0_0_1_n_n).rhsIdx i q 1).val = (i 1).val := by
  unfold DotDims.rhsIdx
  rw [dif_neg (show ¬(1 : Fin S64x128.rank) ∈ (dot_S5000x64_S64x128_S5000x128_1_0_0_1_n_n).rhsBatch by decide),
    dif_pos (show (1 : Fin S64x128.rank) ∈ (dot_S5000x64_S64x128_S5000x128_1_0_0_1_n_n).rhsNonContracting by decide)]
  rfl

/-- The [5000,64] by [64,128] product into a zero accumulator at (p, q): the sum over the 64 contracted coordinates. -/
theorem mm64_apply {φ₁ φ₂ : FTy} (L : FVec Ideal S5000x64 φ₁) (R : FVec Ideal S64x128 φ₂) (p : Fin 5000) (q : Fin 128) :
    matmul dot_S5000x64_S64x128_S5000x128_1_0_0_1_n_n none L R (constant (F := Ideal) S5000x128 .f32 0x00000000#32) (ix2 p q)
      = ∑ k : Fin 64, L (ix2 p k) * R (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : (dot_S5000x64_S64x128_S5000x128_1_0_0_1_n_n).lhsIdx (ix2 p q) ((contrEquiv1 dot_S5000x64_S64x128_S5000x128_1_0_0_1_n_n 64 rfl rfl).symm k) = ix2 p k :=
    funext fun a => Fin.ext (by
      match a with
      | ⟨0, _⟩ => exact lhs64_0 _ _
      | ⟨1, _⟩ => exact (lhs64_1 _ _).trans hk)
  have er : (dot_S5000x64_S64x128_S5000x128_1_0_0_1_n_n).rhsIdx (ix2 p q) ((contrEquiv1 dot_S5000x64_S64x128_S5000x128_1_0_0_1_n_n 64 rfl rfl).symm k) = ix2 k q :=
    funext fun a => Fin.ext (by
      match a with
      | ⟨0, _⟩ => exact (rhs64_0 _ _).trans hk
      | ⟨1, _⟩ => exact rhs64_1 _ _)
  rw [el, er]

/-! ## The body's three stored values at an index, from the five loaded blocks -/

/-- The stored [5000,128] block at (p, q): row p of the first block against column q of the first weight, plus row p of the
    second block against column q of the second weight, plus the bias at q. -/
theorem pay0_1_apply (x0 x1 : FVec Ideal S5000x64 .f32) (x2 x3 : FVec Ideal S64x128 .f32) (x4 : FVec Ideal S1x128 .f32)
    (p : Fin 5000) (q : Fin 128) :
    k0_pay1 (F := Ideal) x0 x1 x2 x3 x4 (ix2 p q)
      = ((∑ k : Fin 64, x0 (ix2 p k) * x2 (ix2 k q)) + (∑ k : Fin 64, x1 (ix2 p k) * x3 (ix2 k q))) + x4 (ix2 (0 : Fin 1) q) := by
  unfold k0_pay1
  simp only [addf_apply]
  rw [mm64_apply, mm64_apply, broadcastTo_1b_ab_apply]
  simp only [shapeCast_self, truncf_apply]

/-- A sum over the 5000 rows of a [5000,128] vector, read at column q. -/
theorem colsum_apply (src : FVec Ideal S5000x128 .f32) (hacc : (0x00000000#32 : BitVec 32) = 0x00000000#32) (q : Fin 128) :
    multiReduction (F := Ideal) .add [0] S128 src 0x00000000#32 reduces_S5000x128_S128 (.inl rfl) hacc (ix1 q)
      = ∑ p : Fin 5000, src (ix2 p q) := by
  refine (Ideal.multiReduction_add_single src 0x00000000#32 reduces_S5000x128_S128 (.inl rfl) hacc (ix1 q)).trans ?_
  refine Finset.sum_congr rfl fun k _ => congrArg src ?_
  funext a
  match a with
  | ⟨0, _⟩ => rfl
  | ⟨1, _⟩ => rfl

/-- The stored [8,128] block of column sums at (r, q): every row holds the sum over the block's 5000 rows of column q. -/
theorem pay0_2_apply (x0 x1 : FVec Ideal S5000x64 .f32) (x2 x3 : FVec Ideal S64x128 .f32) (x4 : FVec Ideal S1x128 .f32)
    (r : Fin 8) (q : Fin 128) :
    k0_pay2 (F := Ideal) x0 x1 x2 x3 x4 (ix2 r q) = ∑ p : Fin 5000, k0_pay1 (F := Ideal) x0 x1 x2 x3 x4 (ix2 p q) := by
  unfold k0_pay2
  dsimp only
  rw [broadcastTo_1b_ab_apply, shapeCast_self, shapeCast_a_1a_apply]
  exact colsum_apply _ _ q

/-- The stored [8,128] block of column sums of squares at (r, q). -/
theorem pay0_3_apply (x0 x1 : FVec Ideal S5000x64 .f32) (x2 x3 : FVec Ideal S64x128 .f32) (x4 : FVec Ideal S1x128 .f32)
    (r : Fin 8) (q : Fin 128) :
    k0_pay3 (F := Ideal) x0 x1 x2 x3 x4 (ix2 r q)
      = ∑ p : Fin 5000, k0_pay1 (F := Ideal) x0 x1 x2 x3 x4 (ix2 p q) * k0_pay1 (F := Ideal) x0 x1 x2 x3 x4 (ix2 p q) := by
  unfold k0_pay3
  dsimp only
  rw [broadcastTo_1b_ab_apply, shapeCast_self, shapeCast_a_1a_apply]
  exact colsum_apply _ _ q

end Cert.KernelIdeal.HandLin

end
-- ==== Proof.LinArr0.lean ====
/- The three arrays the first linear layer's kernel region leaves, at the ideal values and for any contents V the region is
   entered with: the [50000,128] output holds A·Wn + X·Wr + B of the five arrays read (lin0_arr), and the two [80,128] outputs
   hold, in every row of tile t's eight, the sums over tile t's 5000 rows of its columns (sum0_arr) and of their squares
   (sq0_arr). Each input block is read as entries of its array (row 5000 t + x of the two row-tiled inputs; the weights and
   the bias whole), each stored block entry is the entry of one whole-array function, every point writes its block back, and
   the blocks cover the arrays. -/
import proofs.«181322_j48155173322905_2_alg».proof.Proof.LinSpec
import proofs.«181322_j48155173322905_2_alg».proof.Proof.LinPay0
import Idealize.ShloMosaic.Lib.Pipeline.Value

set_option maxRecDepth 16384

noncomputable section

namespace Cert.KernelIdeal.HandLin

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem hz0 : (![0, 0] : Fin 2 → Nat) = fun _ => 0 := funext fun a => by fin_cases a <;> rfl

/-- The block index of every window at every grid point, decided over the ten points: the two row-tiled inputs and the three
    outputs sit at block (t, 0), the two weights and the bias at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- The linear layer of the five arrays the region reads, as it finds them. -/
abbrev lin0 (c : Dev nD) : S50000x128.Idx → EReal :=
  linF 64 (V c (Pipeline.arrRef spec0 0)) (V c (Pipeline.arrRef spec0 1)) (V c (Pipeline.arrRef spec0 2))
    (V c (Pipeline.arrRef spec0 3)) (V c (Pipeline.arrRef spec0 4))

/-! ## The input blocks as entries of their arrays -/

/-- Row x₀ of point t's block of the first input is row 5000 t + x₀ of the array. -/
theorem iblk0_0_apply (c : Dev nD) (t : Fin cfg0.N) (x : S5000x64.Idx) (k : S50000x64.Idx)
    (hk0 : (k 0).val = 5000 * t.val + (x 0).val) (hk1 : (k 1).val = (x 1).val) :
    (iblk0 V c 0 t : FVec Ideal S5000x64 .f32) x = (V c (Pipeline.arrRef spec0 0) : S50000x64.Idx → EReal) k := by
  obtain ⟨⟨h0, h1⟩, -⟩ := idx0 t
  unfold iblk0
  show (V c (Pipeline.arrRef spec0 0) : S50000x64.Idx → EReal) (((cfg0.win 0).blk t).view.emb x) = _
  refine congrArg _ (funext fun a => Fin.ext ?_)
  match a with
  | ⟨0, _⟩ => show win0_0.index t (0 : Fin 2) * 5000 + 1 * (x 0).val = (k 0).val; rw [h0, hk0]; omega
  | ⟨1, _⟩ => show win0_0.index t (1 : Fin 2) * 64 + 1 * (x 1).val = (k 1).val; rw [h1, hk1]; omega

/-- The same for the second input. -/
theorem iblk0_1_apply (c : Dev nD) (t : Fin cfg0.N) (x : S5000x64.Idx) (k : S50000x64.Idx)
    (hk0 : (k 0).val = 5000 * t.val + (x 0).val) (hk1 : (k 1).val = (x 1).val) :
    (iblk0 V c 1 t : FVec Ideal S5000x64 .f32) x = (V c (Pipeline.arrRef spec0 1) : S50000x64.Idx → EReal) k := by
  obtain ⟨-, ⟨h0, h1⟩, -⟩ := idx0 t
  unfold iblk0
  show (V c (Pipeline.arrRef spec0 1) : S50000x64.Idx → EReal) (((cfg0.win 1).blk t).view.emb x) = _
  refine congrArg _ (funext fun a => Fin.ext ?_)
  match a with
  | ⟨0, _⟩ => show win0_1.index t (0 : Fin 2) * 5000 + 1 * (x 0).val = (k 0).val; rw [h0, hk0]; omega
  | ⟨1, _⟩ => show win0_1.index t (1 : Fin 2) * 64 + 1 * (x 1).val = (k 1).val; rw [h1, hk1]; omega

/-- The first weight's block is the whole array at every point. -/
theorem iblk0_2_apply (c : Dev nD) (t : Fin cfg0.N) (x : S64x128.Idx) :
    (iblk0 V c 2 t : FVec Ideal S64x128 .f32) x = (V c (Pipeline.arrRef spec0 2) : S64x128.Idx → EReal) x := by
  obtain ⟨-, -, ⟨h0, h1⟩, -⟩ := idx0 t
  unfold iblk0
  show (V c (Pipeline.arrRef spec0 2) : S64x128.Idx → EReal) (((cfg0.win 2).blk t).view.emb x) = _
  refine congrArg _ (funext fun a => Fin.ext ?_)
  match a with
  | ⟨0, _⟩ => show win0_2.index t (0 : Fin 2) * 64 + 1 * (x 0).val = (x 0).val; rw [h0]; omega
  | ⟨1, _⟩ => show win0_2.index t (1 : Fin 2) * 128 + 1 * (x 1).val = (x 1).val; rw [h1]; omega

/-- So is the second weight's. -/
theorem iblk0_3_apply (c : Dev nD) (t : Fin cfg0.N) (x : S64x128.Idx) :
    (iblk0 V c 3 t : FVec Ideal S64x128 .f32) x = (V c (Pipeline.arrRef spec0 3) : S64x128.Idx → EReal) x := by
  obtain ⟨-, -, -, ⟨h0, h1⟩, -⟩ := idx0 t
  unfold iblk0
  show (V c (Pipeline.arrRef spec0 3) : S64x128.Idx → EReal) (((cfg0.win 3).blk t).view.emb x) = _
  refine congrArg _ (funext fun a => Fin.ext ?_)
  match a with
  | ⟨0, _⟩ => show win0_3.index t (0 : Fin 2) * 64 + 1 * (x 0).val = (x 0).val; rw [h0]; omega
  | ⟨1, _⟩ => show win0_3.index t (1 : Fin 2) * 128 + 1 * (x 1).val = (x 1).val; rw [h1]; omega

/-- So is the bias's. -/
theorem iblk0_4_apply (c : Dev nD) (t : Fin cfg0.N) (x : S1x128.Idx) :
    (iblk0 V c 4 t : FVec Ideal S1x128 .f32) x = (V c (Pipeline.arrRef spec0 4) : S1x128.Idx → EReal) x := by
  obtain ⟨-, -, -, -, ⟨h0, h1⟩, -⟩ := idx0 t
  unfold iblk0
  show (V c (Pipeline.arrRef spec0 4) : S1x128.Idx → EReal) (((cfg0.win 4).blk t).view.emb x) = _
  refine congrArg _ (funext fun a => Fin.ext ?_)
  match a with
  | ⟨0, _⟩ => show win0_4.index t (0 : Fin 2) * 1 + 1 * (x 0).val = (x 0).val; rw [h0]; omega
  | ⟨1, _⟩ => show win0_4.index t (1 : Fin 2) * 128 + 1 * (x 1).val = (x 1).val; rw [h1]; omega

/-! ## What point t stores, entry by entry -/

/-- Entry (j₀, j₁) of the block point t stores into the first output is entry (5000 t + j₀, j₁) of the linear layer. -/
theorem lin0_point (c : Dev nD) (t : Fin cfg0.N) (j : S5000x128.Idx) (i : S50000x128.Idx)
    (h0 : (i 0).val = 5000 * t.val + (j 0).val) (h1 : (i 1).val = (j 1).val) :
    k0_pay1 (F := Ideal) (iblk0 V c 0 t) (iblk0 V c 1 t) (iblk0 V c 2 t) (iblk0 V c 3 t) (iblk0 V c 4 t) j = lin0 V c i := by
  obtain ⟨p, q, rfl⟩ : ∃ (p : Fin 5000) (q : Fin 128), j = ix2 p q := ⟨j 0, j 1, eq_ix2 j⟩
  refine (pay0_1_apply (iblk0 V c 0 t) (iblk0 V c 1 t) (iblk0 V c 2 t) (iblk0 V c 3 t) (iblk0 V c 4 t) p q).trans ?_
  have hq : q = i 1 := Fin.ext h1.symm
  subst hq
  refine congrArg₂ (· + ·) (congrArg₂ (· + ·) (Finset.sum_congr rfl fun k _ => ?_) (Finset.sum_congr rfl fun k _ => ?_)) ?_
  · exact congrArg₂ (· * ·) (iblk0_0_apply V c t (ix2 p k) (ix2 (i 0) k) h0 rfl) (iblk0_2_apply V c t (ix2 k (i 1)))
  · exact congrArg₂ (· * ·) (iblk0_1_apply V c t (ix2 p k) (ix2 (i 0) k) h0 rfl) (iblk0_3_apply V c t (ix2 k (i 1)))
  · exact iblk0_4_apply V c t (ix2 (0 : Fin 1) (i 1))

/-- Entry (j₀, j₁) of the block of column sums point t stores is, whatever the row j₀, entry (8 t + j₀, j₁) of the per-tile
    sums of the linear layer: the sum over the 5000 rows of tile t. -/
theorem sum0_point (c : Dev nD) (t : Fin cfg0.N) (j : S8x128.Idx) (i : S80x128.Idx)
    (h0 : (i 0).val = 8 * t.val + (j 0).val) (h1 : (i 1).val = (j 1).val) :
    k0_pay2 (F := Ideal) (iblk0 V c 0 t) (iblk0 V c 1 t) (iblk0 V c 2 t) (iblk0 V c 3 t) (iblk0 V c 4 t) j = tileSum (lin0 V c) i := by
  obtain ⟨r, q, rfl⟩ : ∃ (r : Fin 8) (q : Fin 128), j = ix2 r q := ⟨j 0, j 1, eq_ix2 j⟩
  refine (pay0_2_apply (iblk0 V c 0 t) (iblk0 V c 1 t) (iblk0 V c 2 t) (iblk0 V c 3 t) (iblk0 V c 4 t) r q).trans ?_
  refine Finset.sum_congr rfl fun p _ => ?_
  have hr : r.val < 8 := r.isLt
  exact lin0_point V c t (ix2 p q) (ix2 (tileRow (i 0) p) (i 1))
    (by show 5000 * ((i 0).val / 8) + p.val = 5000 * t.val + p.val
        have e : (ix2 r q : S8x128.Idx) 0 = r := rfl
        rw [e] at h0; rw [h0]; omega) h1

/-- The same for the sums of squares. -/
theorem sq0_point (c : Dev nD) (t : Fin cfg0.N) (j : S8x128.Idx) (i : S80x128.Idx)
    (h0 : (i 0).val = 8 * t.val + (j 0).val) (h1 : (i 1).val = (j 1).val) :
    k0_pay3 (F := Ideal) (iblk0 V c 0 t) (iblk0 V c 1 t) (iblk0 V c 2 t) (iblk0 V c 3 t) (iblk0 V c 4 t) j
      = tileSum (fun i => lin0 V c i * lin0 V c i) i := by
  obtain ⟨r, q, rfl⟩ : ∃ (r : Fin 8) (q : Fin 128), j = ix2 r q := ⟨j 0, j 1, eq_ix2 j⟩
  refine (pay0_3_apply (iblk0 V c 0 t) (iblk0 V c 1 t) (iblk0 V c 2 t) (iblk0 V c 3 t) (iblk0 V c 4 t) r q).trans ?_
  refine Finset.sum_congr rfl fun p _ => ?_
  have hr : r.val < 8 := r.isLt
  have e := lin0_point V c t (ix2 p q) (ix2 (tileRow (i 0) p) (i 1))
    (by show 5000 * ((i 0).val / 8) + p.val = 5000 * t.val + p.val
        have e : (ix2 r q : S8x128.Idx) 0 = r := rfl
        rw [e] at h0; rw [h0]; omega) h1
  exact congrArg₂ (· * ·) e e

/-! ## What each point writes back is its block of one whole-array function -/

theorem flushed0_5_eq (c : Dev nD) (t : Fin cfg0.N) :
    (dat0 (F := Ideal) V c).flushed 5 t = ((cfg0.win 5).blk t).view.read (Elt Ideal) (lin0 V c) := by
  obtain ⟨-, -, -, -, -, ⟨e0, e1⟩, -⟩ := idx0 t
  show (cfg0.win 5).cut (grid0.coords t) ((dat0 (F := Ideal) V c).after 5 t) = _
  rw [after0_5]
  unfold out0_5
  rw [View.canon_unit_zero hz0]
  simp only [View.ld_unit_zero (S := S5000x64) hz0, View.ld_unit_zero (S := S64x128) hz0, View.ld_unit_zero (S := S1x128) hz0]
  funext j
  show k0_pay1 (F := Ideal) (iblk0 V c 0 t) (iblk0 V c 1 t) (iblk0 V c 2 t) (iblk0 V c 3 t) (iblk0 V c 4 t) j
    = lin0 V c (((cfg0.win 5).blk t).view.emb j)
  refine lin0_point V c t j _ ?_ ?_
  · show win0_5.index t (0 : Fin 2) * 5000 + 1 * (j 0).val = 5000 * t.val + (j 0).val; rw [e0]; omega
  · show win0_5.index t (1 : Fin 2) * 128 + 1 * (j 1).val = (j 1).val; rw [e1]; omega

theorem flushed0_6_eq (c : Dev nD) (t : Fin cfg0.N) :
    (dat0 (F := Ideal) V c).flushed 6 t = ((cfg0.win 6).blk t).view.read (Elt Ideal) (tileSum (lin0 V c)) := by
  obtain ⟨-, -, -, -, -, -, ⟨e0, e1⟩, -⟩ := idx0 t
  show (cfg0.win 6).cut (grid0.coords t) ((dat0 (F := Ideal) V c).after 6 t) = _
  rw [after0_6]
  unfold out0_6
  rw [View.canon_unit_zero hz0]
  simp only [View.ld_unit_zero (S := S5000x64) hz0, View.ld_unit_zero (S := S64x128) hz0, View.ld_unit_zero (S := S1x128) hz0]
  funext j
  show k0_pay2 (F := Ideal) (iblk0 V c 0 t) (iblk0 V c 1 t) (iblk0 V c 2 t) (iblk0 V c 3 t) (iblk0 V c 4 t) j
    = tileSum (lin0 V c) (((cfg0.win 6).blk t).view.emb j)
  refine sum0_point V c t j _ ?_ ?_
  · show win0_6.index t (0 : Fin 2) * 8 + 1 * (j 0).val = 8 * t.val + (j 0).val; rw [e0]; omega
  · show win0_6.index t (1 : Fin 2) * 128 + 1 * (j 1).val = (j 1).val; rw [e1]; omega

theorem flushed0_7_eq (c : Dev nD) (t : Fin cfg0.N) :
    (dat0 (F := Ideal) V c).flushed 7 t
      = ((cfg0.win 7).blk t).view.read (Elt Ideal) (tileSum (fun i => lin0 V c i * lin0 V c i)) := by
  obtain ⟨-, -, -, -, -, -, -, ⟨e0, e1⟩⟩ := idx0 t
  show (cfg0.win 7).cut (grid0.coords t) ((dat0 (F := Ideal) V c).after 7 t) = _
  rw [after0_7]
  unfold out0_7
  rw [View.canon_unit_zero hz0]
  simp only [View.ld_unit_zero (S := S5000x64) hz0, View.ld_unit_zero (S := S64x128) hz0, View.ld_unit_zero (S := S1x128) hz0]
  funext j
  show k0_pay3 (F := Ideal) (iblk0 V c 0 t) (iblk0 V c 1 t) (iblk0 V c 2 t) (iblk0 V c 3 t) (iblk0 V c 4 t) j
    = tileSum (fun i => lin0 V c i * lin0 V c i) (((cfg0.win 7).blk t).view.emb j)
  refine sq0_point V c t j _ ?_ ?_
  · show win0_7.index t (0 : Fin 2) * 8 + 1 * (j 0).val = 8 * t.val + (j 0).val; rw [e0]; omega
  · show win0_7.index t (1 : Fin 2) * 128 + 1 * (j 1).val = (j 1).val; rw [e1]; omega

/-! ## The blocks cover the arrays -/

theorem mem_blk0_5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v30_0).slice (win0_5.rect t)).set ↔ _
  rw [View.set_slice_whole, Rect.mem_set_unit]
  exact Iff.rfl

theorem mem_blk0_6 (t : Fin cfg0.N) (i : S80x128.Idx) :
    i ∈ ((cfg0.win 6).blk t).view.set ↔ ∀ a : Fin 2, win0_6.index t a * S8x128.size a ≤ (i a).val
      ∧ (i a).val < win0_6.index t a * S8x128.size a + S8x128.size a := by
  show i ∈ ((View.whole main_v30_1).slice (win0_6.rect t)).set ↔ _
  rw [View.set_slice_whole, Rect.mem_set_unit]
  exact Iff.rfl

theorem mem_blk0_7 (t : Fin cfg0.N) (i : S80x128.Idx) :
    i ∈ ((cfg0.win 7).blk t).view.set ↔ ∀ a : Fin 2, win0_7.index t a * S8x128.size a ≤ (i a).val
      ∧ (i a).val < win0_7.index t a * S8x128.size a + S8x128.size a := by
  show i ∈ ((View.whole main_v30_2).slice (win0_7.rect t)).set ↔ _
  rw [View.set_slice_whole, Rect.mem_set_unit]
  exact Iff.rfl

/-- Row r of the [50000,128] array is in the block of point r / 5000. -/
theorem covered0_5 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  have hN : grid0.N = 10 := N_0
  have ht : (i 0).val / 5000 < cfg0.N := by show _ < grid0.N; omega
  obtain ⟨-, -, -, -, -, ⟨e0, e1⟩, -⟩ := idx0 ⟨(i 0).val / 5000, ht⟩
  refine ⟨⟨(i 0).val / 5000, ht⟩, flush0_5 _, ?_⟩
  rw [mem_blk0_5]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- Row q of an [80,128] array of per-tile sums is in the block of point q / 8. -/
theorem covered0_6 (i : S80x128.Idx) :
    ∃ t : Fin cfg0.N, (cfg0.win 6).flush t = true ∧ i ∈ ((cfg0.win 6).blk t).view.set := by
  have hi0 : (i 0).val < 80 := idx2_lt0 i
  have hi1 : (i 1).val < 128 := idx2_lt1 i
  have hN : grid0.N = 10 := N_0
  have ht : (i 0).val / 8 < cfg0.N := by show _ < grid0.N; omega
  obtain ⟨-, -, -, -, -, -, ⟨e0, e1⟩, -⟩ := idx0 ⟨(i 0).val / 8, ht⟩
  refine ⟨⟨(i 0).val / 8, ht⟩, flush0_6 _, ?_⟩
  rw [mem_blk0_6]
  intro a
  match a with
  | ⟨0, _⟩ =>
    show win0_6.index ⟨(i 0).val / 8, ht⟩ (0 : Fin 2) * 8 ≤ (i 0).val
      ∧ (i 0).val < win0_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_6.index ⟨(i 0).val / 8, ht⟩ (1 : Fin 2) * 128 ≤ (i 1).val
      ∧ (i 1).val < win0_6.index ⟨(i 0).val / 8, ht⟩ (1 : Fin 2) * 128 + 128
    rw [e1]; omega

theorem covered0_7 (i : S80x128.Idx) :
    ∃ t : Fin cfg0.N, (cfg0.win 7).flush t = true ∧ i ∈ ((cfg0.win 7).blk t).view.set := by
  have hi0 : (i 0).val < 80 := idx2_lt0 i
  have hi1 : (i 1).val < 128 := idx2_lt1 i
  have hN : grid0.N = 10 := N_0
  have ht : (i 0).val / 8 < cfg0.N := by show _ < grid0.N; omega
  obtain ⟨-, -, -, -, -, -, -, ⟨e0, e1⟩⟩ := idx0 ⟨(i 0).val / 8, ht⟩
  refine ⟨⟨(i 0).val / 8, ht⟩, flush0_7 _, ?_⟩
  rw [mem_blk0_7]
  intro a
  match a with
  | ⟨0, _⟩ =>
    show win0_7.index ⟨(i 0).val / 8, ht⟩ (0 : Fin 2) * 8 ≤ (i 0).val
      ∧ (i 0).val < win0_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_7.index ⟨(i 0).val / 8, ht⟩ (1 : Fin 2) * 128 ≤ (i 1).val
      ∧ (i 1).val < win0_7.index ⟨(i 0).val / 8, ht⟩ (1 : Fin 2) * 128 + 128
    rw [e1]; omega

/-! ## The three output arrays after the region -/

/-- The first output ends holding the linear layer of the arrays the region found. -/
theorem lin0_arr (c : Dev nD) : (dat0 (F := Ideal) V c).arrAt 5 cfg0.N = lin0 V c :=
  (dat0 (F := Ideal) V c).arrAt_eq_of_cover 5 (lin0 V c) (fun t _ => flushed0_5_eq V c t) covered0_5

/-- The second ends holding its per-tile column sums, -/
theorem sum0_arr (c : Dev nD) : (dat0 (F := Ideal) V c).arrAt 6 cfg0.N = tileSum (lin0 V c) :=
  (dat0 (F := Ideal) V c).arrAt_eq_of_cover 6 (tileSum (lin0 V c)) (fun t _ => flushed0_6_eq V c t) covered0_6

/-- and the third the per-tile column sums of its squares. -/
theorem sq0_arr (c : Dev nD) : (dat0 (F := Ideal) V c).arrAt 7 cfg0.N = tileSum (fun i => lin0 V c i * lin0 V c i) :=
  (dat0 (F := Ideal) V c).arrAt_eq_of_cover 7 (tileSum (fun i => lin0 V c i * lin0 V c i)) (fun t _ => flushed0_7_eq V c t) covered0_7

end Cert.KernelIdeal.HandLin

end
-- ==== Proof.LinPay2.lean ====
/- The values the second and third linear layers' kernel bodies store, read at an index, at the ideal values: as for the
   first layer, with 128 contracted coordinates and the second input block loaded in a narrower format, which at the ideal
   values is the same extended real. -/
import proofs.«181322_j48155173322905_2_alg».proof.Proof.Gen.KernelIdeal.Frame
import proofs.«181322_j48155173322905_2_alg».proof.Proof.LinPay0
import Idealize.ShloMosaic.Lib.ValueLayout
import Idealize.ShloMosaic.PureOps.Ideal.Laws

set_option maxRecDepth 16384

noncomputable section

namespace Cert.KernelIdeal.HandLin

open Idealize.ShloMosaic Idealize.ShloMosaic.TcCoe Idealize.SL.Sem
open Idealize.ShloMosaic.Pipeline (Dat)
open Idealize.ShloMosaic.ValueIdx
open Cert.KernelIdeal Cert.KernelIdeal.Gen

/-! ## A block product with one contracted axis of 128, read at an output index -/
theorem lhs128_0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl

theorem lhs128_1 (i : S5000x128.Idx) (q : (dot_S5000x128_S128x128_S5000x128_1_0_0_1_n_n).contr.Idx) :
    ((dot_S5000x128_S128x128_S5000x128_1_0_0_1_n_n).lhsIdx i q 1).val = (q ⟨0, by decide⟩).val :=
  (dot_S5000x128_S128x128_S5000x128_1_0_0_1_n_n).lhsIdx_val_of_single rfl i q

theorem rhs128_0 (i : S5000x128.Idx) (q : (dot_S5000x128_S128x128_S5000x128_1_0_0_1_n_n).contr.Idx) :
    ((dot_S5000x128_S128x128_S5000x128_1_0_0_1_n_n).rhsIdx i q 0).val = (q ⟨0, by decide⟩).val :=
  (dot_S5000x128_S128x128_S5000x128_1_0_0_1_n_n).rhsIdx_val_of_single rfl i q

theorem rhs128_1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- The [5000,128] by [128,128] product into a zero accumulator at (p, q): the sum over the 128 contracted coordinates. -/
theorem mm128_apply {φ₁ φ₂ : FTy} (L : FVec Ideal S5000x128 φ₁) (R : FVec Ideal S128x128 φ₂) (p : Fin 5000) (q : Fin 128) :
    matmul dot_S5000x128_S128x128_S5000x128_1_0_0_1_n_n none L R (constant (F := Ideal) S5000x128 .f32 0x00000000#32) (ix2 p q)
      = ∑ k : Fin 128, L (ix2 p k) * R (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p q) ((contrEquiv1 dot_S5000x128_S128x128_S5000x128_1_0_0_1_n_n 128 rfl rfl).symm k) = ix2 p k :=
    funext fun a => Fin.ext (by
      match a with
      | ⟨0, _⟩ => exact lhs128_0 _ _
      | ⟨1, _⟩ => exact (lhs128_1 _ _).trans hk)
  have er : (dot_S5000x128_S128x128_S5000x128_1_0_0_1_n_n).rhsIdx (ix2 p q) ((contrEquiv1 dot_S5000x128_S128x128_S5000x128_1_0_0_1_n_n 128 rfl rfl).symm k) = ix2 k q :=
    funext fun a => Fin.ext (by
      match a with
      | ⟨0, _⟩ => exact (rhs128_0 _ _).trans hk
      | ⟨1, _⟩ => exact rhs128_1 _ _)
  rw [el, er]

/-! ## The bodies' stored values at an index -/

/-- Region 2's stored [5000,128] block at (p, q). -/
theorem pay2_1_apply (x0 : FVec Ideal S5000x128 .f32) (x1 : FVec Ideal S5000x128 .bf16) (x2 x3 : FVec Ideal S128x128 .f32)
    (x4 : FVec Ideal S1x128 .f32) (p : Fin 5000) (q : Fin 128) :
    k2_pay1 (F := Ideal) x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold k2_pay1
  simp only [addf_apply]
  rw [mm128_apply, mm128_apply, broadcastTo_1b_ab_apply]
  simp only [shapeCast_self, truncf_apply]

/-- Region 2's stored [8,128] block of column sums at (r, q). -/
theorem pay2_2_apply (x0 : FVec Ideal S5000x128 .f32) (x1 : FVec Ideal S5000x128 .bf16) (x2 x3 : FVec Ideal S128x128 .f32)
    (x4 : FVec Ideal S1x128 .f32) (r : Fin 8) (q : Fin 128) :
    k2_pay2 (F := Ideal) x0 x1 x2 x3 x4 (ix2 r q) = ∑ p : Fin 5000, k2_pay1 (F := Ideal) x0 x1 x2 x3 x4 (ix2 p q) := by
  unfold k2_pay2
  dsimp only
  rw [broadcastTo_1b_ab_apply, shapeCast_self, shapeCast_a_1a_apply]
  exact colsum_apply _ _ q

/-- Region 2's stored [8,128] block of column sums of squares at (r, q). -/
theorem pay2_3_apply (x0 : FVec Ideal S5000x128 .f32) (x1 : FVec Ideal S5000x128 .bf16) (x2 x3 : FVec Ideal S128x128 .f32)
    (x4 : FVec Ideal S1x128 .f32) (r : Fin 8) (q : Fin 128) :
    k2_pay3 (F := Ideal) x0 x1 x2 x3 x4 (ix2 r q)
      = ∑ p : Fin 5000, k2_pay1 (F := Ideal) x0 x1 x2 x3 x4 (ix2 p q) * k2_pay1 (F := Ideal) x0 x1 x2 x3 x4 (ix2 p q) := by
  unfold k2_pay3
  dsimp only
  rw [broadcastTo_1b_ab_apply, shapeCast_self, shapeCast_a_1a_apply]
  exact colsum_apply _ _ q

/-- Region 4's stored [5000,128] block at (p, q). -/
theorem pay4_1_apply (x0 : FVec Ideal S5000x128 .f32) (x1 : FVec Ideal S5000x128 .bf16) (x2 x3 : FVec Ideal S128x128 .f32)
    (x4 : FVec Ideal S1x128 .f32) (p : Fin 5000) (q : Fin 128) :
    k4_pay1 (F := Ideal) x0 x1 x2 x3 x4 (ix2 p q)
      = ((∑ k : Fin 128, x0 (ix2 p k) * x2 (ix2 k q)) + (∑ k : Fin 128, x1 (ix2 p k) * x3 (ix2 k q))) + x4 (ix2 (0 : Fin 1) q) := by
  unfold k4_pay1
  simp only [addf_apply]
  rw [mm128_apply, mm128_apply, broadcastTo_1b_ab_apply]
  simp only [shapeCast_self, truncf_apply]

/-- Region 4's stored [8,128] block of column sums at (r, q). -/
theorem pay4_2_apply (x0 : FVec Ideal S5000x128 .f32) (x1 : FVec Ideal S5000x128 .bf16) (x2 x3 : FVec Ideal S128x128 .f32)
    (x4 : FVec Ideal S1x128 .f32) (r : Fin 8) (q : Fin 128) :
    k4_pay2 (F := Ideal) x0 x1 x2 x3 x4 (ix2 r q) = ∑ p : Fin 5000, k4_pay1 (F := Ideal) x0 x1 x2 x3 x4 (ix2 p q) := by
  unfold k4_pay2
  dsimp only
  rw [broadcastTo_1b_ab_apply, shapeCast_self, shapeCast_a_1a_apply]
  exact colsum_apply _ _ q

/-- Region 4's stored [8,128] block of column sums of squares at (r, q). -/
theorem pay4_3_apply (x0 : FVec Ideal S5000x128 .f32) (x1 : FVec Ideal S5000x128 .bf16) (x2 x3 : FVec Ideal S128x128 .f32)
    (x4 : FVec Ideal S1x128 .f32) (r : Fin 8) (q : Fin 128) :
    k4_pay3 (F := Ideal) x0 x1 x2 x3 x4 (ix2 r q)
      = ∑ p : Fin 5000, k4_pay1 (F := Ideal) x0 x1 x2 x3 x4 (ix2 p q) * k4_pay1 (F := Ideal) x0 x1 x2 x3 x4 (ix2 p q) := by
  unfold k4_pay3
  dsimp only
  rw [broadcastTo_1b_ab_apply, shapeCast_self, shapeCast_a_1a_apply]
  exact colsum_apply _ _ q

end Cert.KernelIdeal.HandLin

end
-- ==== Proof.LinArr2.lean ====
/- The three arrays the second linear layer's kernel region leaves, at the ideal values and for any contents V the region is
   entered with: the [50000,128] output holds A·Wn + X·Wr + B of the five arrays read, and the two [80,128] outputs hold, in
   every row of tile t's eight, the sums over tile t's 5000 rows of its columns and of their squares. The steps are those of
   the first layer's module, with 128 contracted coordinates. -/
import proofs.«181322_j48155173322905_2_alg».proof.Proof.LinSpec
import proofs.«181322_j48155173322905_2_alg».proof.Proof.LinPay2
import Idealize.ShloMosaic.Lib.Pipeline.Value

set_option maxRecDepth 16384

noncomputable section

namespace Cert.KernelIdeal.HandLin

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl

/-- The block index of every window at every grid point, decided over the ten points: the two row-tiled inputs and the three
    outputs sit at block (t, 0), the two weights and the bias at block (0, 0). -/
theorem idx2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-- The linear layer of the five arrays the region reads, as it finds them. -/
abbrev lin2 (c : Dev nD) : S50000x128.Idx → EReal :=
  linF 128 (V c (Pipeline.arrRef spec2 0)) (V c (Pipeline.arrRef spec2 1)) (V c (Pipeline.arrRef spec2 2))
    (V c (Pipeline.arrRef spec2 3)) (V c (Pipeline.arrRef spec2 4))

/-! ## The input blocks as entries of their arrays -/

/-- Row x₀ of point t's block of the first input is row 5000 t + x₀ of the array. -/
theorem iblk2_0_apply (c : Dev nD) (t : Fin cfg2.N) (x : S5000x128.Idx) (k : S50000x128.Idx)
    (hk0 : (k 0).val = 5000 * t.val + (x 0).val) (hk1 : (k 1).val = (x 1).val) :
    (iblk2 V c 0 t : FVec Ideal S5000x128 .f32) x = (V c (Pipeline.arrRef spec2 0) : S50000x128.Idx → EReal) k := by
  obtain ⟨⟨h0, h1⟩, -⟩ := idx2 t
  unfold iblk2
  show (V c (Pipeline.arrRef spec2 0) : S50000x128.Idx → EReal) (((cfg2.win 0).blk t).view.emb x) = _
  refine congrArg _ (funext fun a => Fin.ext ?_)
  match a with
  | ⟨0, _⟩ => show win2_0.index t (0 : Fin 2) * 5000 + 1 * (x 0).val = (k 0).val; rw [h0, hk0]; omega
  | ⟨1, _⟩ => show win2_0.index t (1 : Fin 2) * 128 + 1 * (x 1).val = (k 1).val; rw [h1, hk1]; omega

/-- The same for the second input. -/
theorem iblk2_1_apply (c : Dev nD) (t : Fin cfg2.N) (x : S5000x128.Idx) (k : S50000x128.Idx)
    (hk0 : (k 0).val = 5000 * t.val + (x 0).val) (hk1 : (k 1).val = (x 1).val) :
    (iblk2 V c 1 t : FVec Ideal S5000x128 .bf16) x = (V c (Pipeline.arrRef spec2 1) : S50000x128.Idx → EReal) k := by
  obtain ⟨-, ⟨h0, h1⟩, -⟩ := idx2 t
  unfold iblk2
  show (V c (Pipeline.arrRef spec2 1) : S50000x128.Idx → EReal) (((cfg2.win 1).blk t).view.emb x) = _
  refine congrArg _ (funext fun a => Fin.ext ?_)
  match a with
  | ⟨0, _⟩ => show win2_1.index t (0 : Fin 2) * 5000 + 1 * (x 0).val = (k 0).val; rw [h0, hk0]; omega
  | ⟨1, _⟩ => show win2_1.index t (1 : Fin 2) * 128 + 1 * (x 1).val = (k 1).val; rw [h1, hk1]; omega

/-- The first weight's block is the whole array at every point. -/
theorem iblk2_2_apply (c : Dev nD) (t : Fin cfg2.N) (x : S128x128.Idx) :
    (iblk2 V c 2 t : FVec Ideal S128x128 .f32) x = (V c (Pipeline.arrRef spec2 2) : S128x128.Idx → EReal) x := by
  obtain ⟨-, -, ⟨h0, h1⟩, -⟩ := idx2 t
  unfold iblk2
  show (V c (Pipeline.arrRef spec2 2) : S128x128.Idx → EReal) (((cfg2.win 2).blk t).view.emb x) = _
  refine congrArg _ (funext fun a => Fin.ext ?_)
  match a with
  | ⟨0, _⟩ => show win2_2.index t (0 : Fin 2) * 128 + 1 * (x 0).val = (x 0).val; rw [h0]; omega
  | ⟨1, _⟩ => show win2_2.index t (1 : Fin 2) * 128 + 1 * (x 1).val = (x 1).val; rw [h1]; omega

/-- So is the second weight's. -/
theorem iblk2_3_apply (c : Dev nD) (t : Fin cfg2.N) (x : S128x128.Idx) :
    (iblk2 V c 3 t : FVec Ideal S128x128 .f32) x = (V c (Pipeline.arrRef spec2 3) : S128x128.Idx → EReal) x := by
  obtain ⟨-, -, -, ⟨h0, h1⟩, -⟩ := idx2 t
  unfold iblk2
  show (V c (Pipeline.arrRef spec2 3) : S128x128.Idx → EReal) (((cfg2.win 3).blk t).view.emb x) = _
  refine congrArg _ (funext fun a => Fin.ext ?_)
  match a with
  | ⟨0, _⟩ => show win2_3.index t (0 : Fin 2) * 128 + 1 * (x 0).val = (x 0).val; rw [h0]; omega
  | ⟨1, _⟩ => show win2_3.index t (1 : Fin 2) * 128 + 1 * (x 1).val = (x 1).val; rw [h1]; omega

/-- So is the bias's. -/
theorem iblk2_4_apply (c : Dev nD) (t : Fin cfg2.N) (x : S1x128.Idx) :
    (iblk2 V c 4 t : FVec Ideal S1x128 .f32) x = (V c (Pipeline.arrRef spec2 4) : S1x128.Idx → EReal) x := by
  obtain ⟨-, -, -, -, ⟨h0, h1⟩, -⟩ := idx2 t
  unfold iblk2
  show (V c (Pipeline.arrRef spec2 4) : S1x128.Idx → EReal) (((cfg2.win 4).blk t).view.emb x) = _
  refine congrArg _ (funext fun a => Fin.ext ?_)
  match a with
  | ⟨0, _⟩ => show win2_4.index t (0 : Fin 2) * 1 + 1 * (x 0).val = (x 0).val; rw [h0]; omega
  | ⟨1, _⟩ => show win2_4.index t (1 : Fin 2) * 128 + 1 * (x 1).val = (x 1).val; rw [h1]; omega

/-! ## What point t stores, entry by entry -/

/-- Entry (j₀, j₁) of the block point t stores into the first output is entry (5000 t + j₀, j₁) of the linear layer. -/
theorem lin2_point (c : Dev nD) (t : Fin cfg2.N) (j : S5000x128.Idx) (i : S50000x128.Idx)
    (h0 : (i 0).val = 5000 * t.val + (j 0).val) (h1 : (i 1).val = (j 1).val) :
    k2_pay1 (F := Ideal) (iblk2 V c 0 t) (iblk2 V c 1 t) (iblk2 V c 2 t) (iblk2 V c 3 t) (iblk2 V c 4 t) j = lin2 V c i := by
  obtain ⟨p, q, rfl⟩ : ∃ (p : Fin 5000) (q : Fin 128), j = ix2 p q := ⟨j 0, j 1, eq_ix2 j⟩
  refine (pay2_1_apply (iblk2 V c 0 t) (iblk2 V c 1 t) (iblk2 V c 2 t) (iblk2 V c 3 t) (iblk2 V c 4 t) p q).trans ?_
  have hq : q = i 1 := Fin.ext h1.symm
  subst hq
  refine congrArg₂ (· + ·) (congrArg₂ (· + ·) (Finset.sum_congr rfl fun k _ => ?_) (Finset.sum_congr rfl fun k _ => ?_)) ?_
  · exact congrArg₂ (· * ·) (iblk2_0_apply V c t (ix2 p k) (ix2 (i 0) k) h0 rfl) (iblk2_2_apply V c t (ix2 k (i 1)))
  · exact congrArg₂ (· * ·) (iblk2_1_apply V c t (ix2 p k) (ix2 (i 0) k) h0 rfl) (iblk2_3_apply V c t (ix2 k (i 1)))
  · exact iblk2_4_apply V c t (ix2 (0 : Fin 1) (i 1))

/-- Entry (j₀, j₁) of the block of column sums point t stores is, whatever the row j₀, entry (8 t + j₀, j₁) of the per-tile
    sums of the linear layer: the sum over the 5000 rows of tile t. -/
theorem sum2_point (c : Dev nD) (t : Fin cfg2.N) (j : S8x128.Idx) (i : S80x128.Idx)
    (h0 : (i 0).val = 8 * t.val + (j 0).val) (h1 : (i 1).val = (j 1).val) :
    k2_pay2 (F := Ideal) (iblk2 V c 0 t) (iblk2 V c 1 t) (iblk2 V c 2 t) (iblk2 V c 3 t) (iblk2 V c 4 t) j = tileSum (lin2 V c) i := by
  obtain ⟨r, q, rfl⟩ : ∃ (r : Fin 8) (q : Fin 128), j = ix2 r q := ⟨j 0, j 1, eq_ix2 j⟩
  refine (pay2_2_apply (iblk2 V c 0 t) (iblk2 V c 1 t) (iblk2 V c 2 t) (iblk2 V c 3 t) (iblk2 V c 4 t) r q).trans ?_
  refine Finset.sum_congr rfl fun p _ => ?_
  have hr : r.val < 8 := r.isLt
  exact lin2_point V c t (ix2 p q) (ix2 (tileRow (i 0) p) (i 1))
    (by show 5000 * ((i 0).val / 8) + p.val = 5000 * t.val + p.val
        have e : (ix2 r q : S8x128.Idx) 0 = r := rfl
        rw [e] at h0; rw [h0]; omega) h1

/-- The same for the sums of squares. -/
theorem sq2_point (c : Dev nD) (t : Fin cfg2.N) (j : S8x128.Idx) (i : S80x128.Idx)
    (h0 : (i 0).val = 8 * t.val + (j 0).val) (h1 : (i 1).val = (j 1).val) :
    k2_pay3 (F := Ideal) (iblk2 V c 0 t) (iblk2 V c 1 t) (iblk2 V c 2 t) (iblk2 V c 3 t) (iblk2 V c 4 t) j
      = tileSum (fun i => lin2 V c i * lin2 V c i) i := by
  obtain ⟨r, q, rfl⟩ : ∃ (r : Fin 8) (q : Fin 128), j = ix2 r q := ⟨j 0, j 1, eq_ix2 j⟩
  refine (pay2_3_apply (iblk2 V c 0 t) (iblk2 V c 1 t) (iblk2 V c 2 t) (iblk2 V c 3 t) (iblk2 V c 4 t) r q).trans ?_
  refine Finset.sum_congr rfl fun p _ => ?_
  have hr : r.val < 8 := r.isLt
  have e := lin2_point V c t (ix2 p q) (ix2 (tileRow (i 0) p) (i 1))
    (by show 5000 * ((i 0).val / 8) + p.val = 5000 * t.val + p.val
        have e : (ix2 r q : S8x128.Idx) 0 = r := rfl
        rw [e] at h0; rw [h0]; omega) h1
  exact congrArg₂ (· * ·) e e

/-! ## What each point writes back is its block of one whole-array function -/

theorem flushed2_5_eq (c : Dev nD) (t : Fin cfg2.N) :
    (dat2 (F := Ideal) V c).flushed 5 t = ((cfg2.win 5).blk t).view.read (Elt Ideal) (lin2 V c) := by
  obtain ⟨-, -, -, -, -, ⟨e0, e1⟩, -⟩ := idx2 t
  show (cfg2.win 5).cut (grid2.coords t) ((dat2 (F := Ideal) V c).after 5 t) = _
  rw [after2_5]
  unfold out2_5
  rw [View.canon_unit_zero hz2]
  simp only [View.ld_unit_zero (S := S5000x128) hz2, View.ld_unit_zero (S := S128x128) hz2, View.ld_unit_zero (S := S1x128) hz2]
  funext j
  show k2_pay1 (F := Ideal) (iblk2 V c 0 t) (iblk2 V c 1 t) (iblk2 V c 2 t) (iblk2 V c 3 t) (iblk2 V c 4 t) j
    = lin2 V c (((cfg2.win 5).blk t).view.emb j)
  refine lin2_point V c t j _ ?_ ?_
  · show win2_5.index t (0 : Fin 2) * 5000 + 1 * (j 0).val = 5000 * t.val + (j 0).val; rw [e0]; omega
  · show win2_5.index t (1 : Fin 2) * 128 + 1 * (j 1).val = (j 1).val; rw [e1]; omega

theorem flushed2_6_eq (c : Dev nD) (t : Fin cfg2.N) :
    (dat2 (F := Ideal) V c).flushed 6 t = ((cfg2.win 6).blk t).view.read (Elt Ideal) (tileSum (lin2 V c)) := by
  obtain ⟨-, -, -, -, -, -, ⟨e0, e1⟩, -⟩ := idx2 t
  show (cfg2.win 6).cut (grid2.coords t) ((dat2 (F := Ideal) V c).after 6 t) = _
  rw [after2_6]
  unfold out2_6
  rw [View.canon_unit_zero hz2]
  simp only [View.ld_unit_zero (S := S5000x128) hz2, View.ld_unit_zero (S := S128x128) hz2, View.ld_unit_zero (S := S1x128) hz2]
  funext j
  show k2_pay2 (F := Ideal) (iblk2 V c 0 t) (iblk2 V c 1 t) (iblk2 V c 2 t) (iblk2 V c 3 t) (iblk2 V c 4 t) j
    = tileSum (lin2 V c) (((cfg2.win 6).blk t).view.emb j)
  refine sum2_point V c t j _ ?_ ?_
  · show win2_6.index t (0 : Fin 2) * 8 + 1 * (j 0).val = 8 * t.val + (j 0).val; rw [e0]; omega
  · show win2_6.index t (1 : Fin 2) * 128 + 1 * (j 1).val = (j 1).val; rw [e1]; omega

theorem flushed2_7_eq (c : Dev nD) (t : Fin cfg2.N) :
    (dat2 (F := Ideal) V c).flushed 7 t
      = ((cfg2.win 7).blk t).view.read (Elt Ideal) (tileSum (fun i => lin2 V c i * lin2 V c i)) := by
  obtain ⟨-, -, -, -, -, -, -, ⟨e0, e1⟩⟩ := idx2 t
  show (cfg2.win 7).cut (grid2.coords t) ((dat2 (F := Ideal) V c).after 7 t) = _
  rw [after2_7]
  unfold out2_7
  rw [View.canon_unit_zero hz2]
  simp only [View.ld_unit_zero (S := S5000x128) hz2, View.ld_unit_zero (S := S128x128) hz2, View.ld_unit_zero (S := S1x128) hz2]
  funext j
  show k2_pay3 (F := Ideal) (iblk2 V c 0 t) (iblk2 V c 1 t) (iblk2 V c 2 t) (iblk2 V c 3 t) (iblk2 V c 4 t) j
    = tileSum (fun i => lin2 V c i * lin2 V c i) (((cfg2.win 7).blk t).view.emb j)
  refine sq2_point V c t j _ ?_ ?_
  · show win2_7.index t (0 : Fin 2) * 8 + 1 * (j 0).val = 8 * t.val + (j 0).val; rw [e0]; omega
  · show win2_7.index t (1 : Fin 2) * 128 + 1 * (j 1).val = (j 1).val; rw [e1]; omega

/-! ## The blocks cover the arrays -/

theorem mem_blk2_5 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v72_0).slice (win2_5.rect t)).set ↔ _
  rw [View.set_slice_whole, Rect.mem_set_unit]
  exact Iff.rfl

theorem mem_blk2_6 (t : Fin cfg2.N) (i : S80x128.Idx) :
    i ∈ ((cfg2.win 6).blk t).view.set ↔ ∀ a : Fin 2, win2_6.index t a * S8x128.size a ≤ (i a).val
      ∧ (i a).val < win2_6.index t a * S8x128.size a + S8x128.size a := by
  show i ∈ ((View.whole main_v72_1).slice (win2_6.rect t)).set ↔ _
  rw [View.set_slice_whole, Rect.mem_set_unit]
  exact Iff.rfl

theorem mem_blk2_7 (t : Fin cfg2.N) (i : S80x128.Idx) :
    i ∈ ((cfg2.win 7).blk t).view.set ↔ ∀ a : Fin 2, win2_7.index t a * S8x128.size a ≤ (i a).val
      ∧ (i a).val < win2_7.index t a * S8x128.size a + S8x128.size a := by
  show i ∈ ((View.whole main_v72_2).slice (win2_7.rect t)).set ↔ _
  rw [View.set_slice_whole, Rect.mem_set_unit]
  exact Iff.rfl

/-- Row r of the [50000,128] array is in the block of point r / 5000. -/
theorem covered2_5 (i : S50000x128.Idx) :
    ∃ t : Fin cfg2.N, (cfg2.win 5).flush t = true ∧ i ∈ ((cfg2.win 5).blk t).view.set := by
  have hi0 : (i 0).val < 50000 := idx2_lt0 i
  have hi1 : (i 1).val < 128 := idx2_lt1 i
  have hN : grid2.N = 10 := N_2
  have ht : (i 0).val / 5000 < cfg2.N := by show _ < grid2.N; omega
  obtain ⟨-, -, -, -, -, ⟨e0, e1⟩, -⟩ := idx2 ⟨(i 0).val / 5000, ht⟩
  refine ⟨⟨(i 0).val / 5000, ht⟩, flush2_5 _, ?_⟩
  rw [mem_blk2_5]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e1]; omega

/-- Row q of an [80,128] array of per-tile sums is in the block of point q / 8. -/
theorem covered2_6 (i : S80x128.Idx) :
    ∃ t : Fin cfg2.N, (cfg2.win 6).flush t = true ∧ i ∈ ((cfg2.win 6).blk t).view.set := by
  have hi0 : (i 0).val < 80 := idx2_lt0 i
  have hi1 : (i 1).val < 128 := idx2_lt1 i
  have hN : grid2.N = 10 := N_2
  have ht : (i 0).val / 8 < cfg2.N := by show _ < grid2.N; omega
  obtain ⟨-, -, -, -, -, -, ⟨e0, e1⟩, -⟩ := idx2 ⟨(i 0).val / 8, ht⟩
  refine ⟨⟨(i 0).val / 8, ht⟩, flush2_6 _, ?_⟩
  rw [mem_blk2_6]
  intro a
  match a with
  | ⟨0, _⟩ =>
    show win2_6.index ⟨(i 0).val / 8, ht⟩ (0 : Fin 2) * 8 ≤ (i 0).val
      ∧ (i 0).val < win2_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win2_6.index ⟨(i 0).val / 8, ht⟩ (1 : Fin 2) * 128 ≤ (i 1).val
      ∧ (i 1).val < win2_6.index ⟨(i 0).val / 8, ht⟩ (1 : Fin 2) * 128 + 128
    rw [e1]; omega

theorem covered2_7 (i : S80x128.Idx) :
    ∃ t : Fin cfg2.N, (cfg2.win 7).flush t = true ∧ i ∈ ((cfg2.win 7).blk t).view.set := by
  have hi0 : (i 0).val < 80 := idx2_lt0 i
  have hi1 : (i 1).val < 128 := idx2_lt1 i
  have hN : grid2.N = 10 := N_2
  have ht : (i 0).val / 8 < cfg2.N := by show _ < grid2.N; omega
  obtain ⟨-, -, -, -, -, -, -, ⟨e0, e1⟩⟩ := idx2 ⟨(i 0).val / 8, ht⟩
  refine ⟨⟨(i 0).val / 8, ht⟩, flush2_7 _, ?_⟩
  rw [mem_blk2_7]
  intro a
  match a with
  | ⟨0, _⟩ =>
    show win2_7.index ⟨(i 0).val / 8, ht⟩ (0 : Fin 2) * 8 ≤ (i 0).val
      ∧ (i 0).val < win2_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win2_7.index ⟨(i 0).val / 8, ht⟩ (1 : Fin 2) * 128 ≤ (i 1).val
      ∧ (i 1).val < win2_7.index ⟨(i 0).val / 8, ht⟩ (1 : Fin 2) * 128 + 128
    rw [e1]; omega

/-! ## The three output arrays after the region -/

/-- The first output ends holding the linear layer of the arrays the region found. -/
theorem lin2_arr (c : Dev nD) : (dat2 (F := Ideal) V c).arrAt 5 cfg2.N = lin2 V c :=
  (dat2 (F := Ideal) V c).arrAt_eq_of_cover 5 (lin2 V c) (fun t _ => flushed2_5_eq V c t) covered2_5

/-- The second ends holding its per-tile column sums, -/
theorem sum2_arr (c : Dev nD) : (dat2 (F := Ideal) V c).arrAt 6 cfg2.N = tileSum (lin2 V c) :=
  (dat2 (F := Ideal) V c).arrAt_eq_of_cover 6 (tileSum (lin2 V c)) (fun t _ => flushed2_6_eq V c t) covered2_6

/-- and the third the per-tile column sums of its squares. -/
theorem sq2_arr (c : Dev nD) : (dat2 (F := Ideal) V c).arrAt 7 cfg2.N = tileSum (fun i => lin2 V c i * lin2 V c i) :=
  (dat2 (F := Ideal) V c).arrAt_eq_of_cover 7 (tileSum (fun i => lin2 V c i * lin2 V c i)) (fun t _ => flushed2_7_eq V c t) covered2_7

end Cert.KernelIdeal.HandLin

end
-- ==== Proof.LinArr4.lean ====
/- The three arrays the third linear layer's kernel region leaves, at the ideal values and for any contents V the region is
   entered with: the [50000,128] output holds A·Wn + X·Wr + B of the five arrays read, and the two [80,128] outputs hold, in
   every row of tile t's eight, the sums over tile t's 5000 rows of its columns and of their squares. The steps are those of
   the first layer's module, with 128 contracted coordinates. -/
import proofs.«181322_j48155173322905_2_alg».proof.Proof.LinSpec
import proofs.«181322_j48155173322905_2_alg».proof.Proof.LinPay2
import Idealize.ShloMosaic.Lib.Pipeline.Value

set_option maxRecDepth 16384

noncomputable section

namespace Cert.KernelIdeal.HandLin

open Idealize.ShloMosaic Idealize.ShloMosaic.TcCoe Idealize.SL.Sem
open Idealize.ShloMosaic.Pipeline (Dat)
open Idealize.ShloMosaic.ValueIdx
open Cert.KernelIdeal Cert.KernelIdeal.Gen

variable (V : (c : Dev nD) → (b : Ref sig .tc) → Buf (Elt Ideal) ((c : Thread nD τ).loc b))

theorem hz4 : (![0, 0] : Fin 2 → Nat) = fun _ => 0 := funext fun a => by fin_cases a <;> rfl

/-- The block index of every window at every grid point, decided over the ten points: the two row-tiled inputs and the three
    outputs sit at block (t, 0), the two weights and the bias at block (0, 0). -/
theorem idx4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0)
    ∧ (win4_6.index t (0 : Fin 2) = t.val ∧ win4_6.index t (1 : Fin 2) = 0)
    ∧ (win4_7.index t (0 : Fin 2) = t.val ∧ win4_7.index t (1 : Fin 2) = 0) :=
  (by decide +kernel : ∀ t : Fin grid4.N, _)

/-- The linear layer of the five arrays the region reads, as it finds them. -/
abbrev lin4 (c : Dev nD) : S50000x128.Idx → EReal :=
  linF 128 (V c (Pipeline.arrRef spec4 0)) (V c (Pipeline.arrRef spec4 1)) (V c (Pipeline.arrRef spec4 2))
    (V c (Pipeline.arrRef spec4 3)) (V c (Pipeline.arrRef spec4 4))

/-! ## The input blocks as entries of their arrays -/

/-- Row x₀ of point t's block of the first input is row 5000 t + x₀ of the array. -/
theorem iblk4_0_apply (c : Dev nD) (t : Fin cfg4.N) (x : S5000x128.Idx) (k : S50000x128.Idx)
    (hk0 : (k 0).val = 5000 * t.val + (x 0).val) (hk1 : (k 1).val = (x 1).val) :
    (iblk4 V c 0 t : FVec Ideal S5000x128 .f32) x = (V c (Pipeline.arrRef spec4 0) : S50000x128.Idx → EReal) k := by
  obtain ⟨⟨h0, h1⟩, -⟩ := idx4 t
  unfold iblk4
  show (V c (Pipeline.arrRef spec4 0) : S50000x128.Idx → EReal) (((cfg4.win 0).blk t).view.emb x) = _
  refine congrArg _ (funext fun a => Fin.ext ?_)
  match a with
  | ⟨0, _⟩ => show win4_0.index t (0 : Fin 2) * 5000 + 1 * (x 0).val = (k 0).val; rw [h0, hk0]; omega
  | ⟨1, _⟩ => show win4_0.index t (1 : Fin 2) * 128 + 1 * (x 1).val = (k 1).val; rw [h1, hk1]; omega

/-- The same for the second input. -/
theorem iblk4_1_apply (c : Dev nD) (t : Fin cfg4.N) (x : S5000x128.Idx) (k : S50000x128.Idx)
    (hk0 : (k 0).val = 5000 * t.val + (x 0).val) (hk1 : (k 1).val = (x 1).val) :
    (iblk4 V c 1 t : FVec Ideal S5000x128 .bf16) x = (V c (Pipeline.arrRef spec4 1) : S50000x128.Idx → EReal) k := by
  obtain ⟨-, ⟨h0, h1⟩, -⟩ := idx4 t
  unfold iblk4
  show (V c (Pipeline.arrRef spec4 1) : S50000x128.Idx → EReal) (((cfg4.win 1).blk t).view.emb x) = _
  refine congrArg _ (funext fun a => Fin.ext ?_)
  match a with
  | ⟨0, _⟩ => show win4_1.index t (0 : Fin 2) * 5000 + 1 * (x 0).val = (k 0).val; rw [h0, hk0]; omega
  | ⟨1, _⟩ => show win4_1.index t (1 : Fin 2) * 128 + 1 * (x 1).val = (k 1).val; rw [h1, hk1]; omega

/-- The first weight's block is the whole array at every point. -/
theorem iblk4_2_apply (c : Dev nD) (t : Fin cfg4.N) (x : S128x128.Idx) :
    (iblk4 V c 2 t : FVec Ideal S128x128 .f32) x = (V c (Pipeline.arrRef spec4 2) : S128x128.Idx → EReal) x := by
  obtain ⟨-, -, ⟨h0, h1⟩, -⟩ := idx4 t
  unfold iblk4
  show (V c (Pipeline.arrRef spec4 2) : S128x128.Idx → EReal) (((cfg4.win 2).blk t).view.emb x) = _
  refine congrArg _ (funext fun a => Fin.ext ?_)
  match a with
  | ⟨0, _⟩ => show win4_2.index t (0 : Fin 2) * 128 + 1 * (x 0).val = (x 0).val; rw [h0]; omega
  | ⟨1, _⟩ => show win4_2.index t (1 : Fin 2) * 128 + 1 * (x 1).val = (x 1).val; rw [h1]; omega

/-- So is the second weight's. -/
theorem iblk4_3_apply (c : Dev nD) (t : Fin cfg4.N) (x : S128x128.Idx) :
    (iblk4 V c 3 t : FVec Ideal S128x128 .f32) x = (V c (Pipeline.arrRef spec4 3) : S128x128.Idx → EReal) x := by
  obtain ⟨-, -, -, ⟨h0, h1⟩, -⟩ := idx4 t
  unfold iblk4
  show (V c (Pipeline.arrRef spec4 3) : S128x128.Idx → EReal) (((cfg4.win 3).blk t).view.emb x) = _
  refine congrArg _ (funext fun a => Fin.ext ?_)
  match a with
  | ⟨0, _⟩ => show win4_3.index t (0 : Fin 2) * 128 + 1 * (x 0).val = (x 0).val; rw [h0]; omega
  | ⟨1, _⟩ => show win4_3.index t (1 : Fin 2) * 128 + 1 * (x 1).val = (x 1).val; rw [h1]; omega

/-- So is the bias's. -/
theorem iblk4_4_apply (c : Dev nD) (t : Fin cfg4.N) (x : S1x128.Idx) :
    (iblk4 V c 4 t : FVec Ideal S1x128 .f32) x = (V c (Pipeline.arrRef spec4 4) : S1x128.Idx → EReal) x := by
  obtain ⟨-, -, -, -, ⟨h0, h1⟩, -⟩ := idx4 t
  unfold iblk4
  show (V c (Pipeline.arrRef spec4 4) : S1x128.Idx → EReal) (((cfg4.win 4).blk t).view.emb x) = _
  refine congrArg _ (funext fun a => Fin.ext ?_)
  match a with
  | ⟨0, _⟩ => show win4_4.index t (0 : Fin 2) * 1 + 1 * (x 0).val = (x 0).val; rw [h0]; omega
  | ⟨1, _⟩ => show win4_4.index t (1 : Fin 2) * 128 + 1 * (x 1).val = (x 1).val; rw [h1]; omega

/-! ## What point t stores, entry by entry -/

/-- Entry (j₀, j₁) of the block point t stores into the first output is entry (5000 t + j₀, j₁) of the linear layer. -/
theorem lin4_point (c : Dev nD) (t : Fin cfg4.N) (j : S5000x128.Idx) (i : S50000x128.Idx)
    (h0 : (i 0).val = 5000 * t.val + (j 0).val) (h1 : (i 1).val = (j 1).val) :
    k4_pay1 (F := Ideal) (iblk4 V c 0 t) (iblk4 V c 1 t) (iblk4 V c 2 t) (iblk4 V c 3 t) (iblk4 V c 4 t) j = lin4 V c i := by
  obtain ⟨p, q, rfl⟩ : ∃ (p : Fin 5000) (q : Fin 128), j = ix2 p q := ⟨j 0, j 1, eq_ix2 j⟩
  refine (pay4_1_apply (iblk4 V c 0 t) (iblk4 V c 1 t) (iblk4 V c 2 t) (iblk4 V c 3 t) (iblk4 V c 4 t) p q).trans ?_
  have hq : q = i 1 := Fin.ext h1.symm
  subst hq
  refine congrArg₂ (· + ·) (congrArg₂ (· + ·) (Finset.sum_congr rfl fun k _ => ?_) (Finset.sum_congr rfl fun k _ => ?_)) ?_
  · exact congrArg₂ (· * ·) (iblk4_0_apply V c t (ix2 p k) (ix2 (i 0) k) h0 rfl) (iblk4_2_apply V c t (ix2 k (i 1)))
  · exact congrArg₂ (· * ·) (iblk4_1_apply V c t (ix2 p k) (ix2 (i 0) k) h0 rfl) (iblk4_3_apply V c t (ix2 k (i 1)))
  · exact iblk4_4_apply V c t (ix2 (0 : Fin 1) (i 1))

/-- Entry (j₀, j₁) of the block of column sums point t stores is, whatever the row j₀, entry (8 t + j₀, j₁) of the per-tile
    sums of the linear layer: the sum over the 5000 rows of tile t. -/
theorem sum4_point (c : Dev nD) (t : Fin cfg4.N) (j : S8x128.Idx) (i : S80x128.Idx)
    (h0 : (i 0).val = 8 * t.val + (j 0).val) (h1 : (i 1).val = (j 1).val) :
    k4_pay2 (F := Ideal) (iblk4 V c 0 t) (iblk4 V c 1 t) (iblk4 V c 2 t) (iblk4 V c 3 t) (iblk4 V c 4 t) j = tileSum (lin4 V c) i := by
  obtain ⟨r, q, rfl⟩ : ∃ (r : Fin 8) (q : Fin 128), j = ix2 r q := ⟨j 0, j 1, eq_ix2 j⟩
  refine (pay4_2_apply (iblk4 V c 0 t) (iblk4 V c 1 t) (iblk4 V c 2 t) (iblk4 V c 3 t) (iblk4 V c 4 t) r q).trans ?_
  refine Finset.sum_congr rfl fun p _ => ?_
  have hr : r.val < 8 := r.isLt
  exact lin4_point V c t (ix2 p q) (ix2 (tileRow (i 0) p) (i 1))
    (by show 5000 * ((i 0).val / 8) + p.val = 5000 * t.val + p.val
        have e : (ix2 r q : S8x128.Idx) 0 = r := rfl
        rw [e] at h0; rw [h0]; omega) h1

/-- The same for the sums of squares. -/
theorem sq4_point (c : Dev nD) (t : Fin cfg4.N) (j : S8x128.Idx) (i : S80x128.Idx)
    (h0 : (i 0).val = 8 * t.val + (j 0).val) (h1 : (i 1).val = (j 1).val) :
    k4_pay3 (F := Ideal) (iblk4 V c 0 t) (iblk4 V c 1 t) (iblk4 V c 2 t) (iblk4 V c 3 t) (iblk4 V c 4 t) j
      = tileSum (fun i => lin4 V c i * lin4 V c i) i := by
  obtain ⟨r, q, rfl⟩ : ∃ (r : Fin 8) (q : Fin 128), j = ix2 r q := ⟨j 0, j 1, eq_ix2 j⟩
  refine (pay4_3_apply (iblk4 V c 0 t) (iblk4 V c 1 t) (iblk4 V c 2 t) (iblk4 V c 3 t) (iblk4 V c 4 t) r q).trans ?_
  refine Finset.sum_congr rfl fun p _ => ?_
  have hr : r.val < 8 := r.isLt
  have e := lin4_point V c t (ix2 p q) (ix2 (tileRow (i 0) p) (i 1))
    (by show 5000 * ((i 0).val / 8) + p.val = 5000 * t.val + p.val
        have e : (ix2 r q : S8x128.Idx) 0 = r := rfl
        rw [e] at h0; rw [h0]; omega) h1
  exact congrArg₂ (· * ·) e e

/-! ## What each point writes back is its block of one whole-array function -/

theorem flushed4_5_eq (c : Dev nD) (t : Fin cfg4.N) :
    (dat4 (F := Ideal) V c).flushed 5 t = ((cfg4.win 5).blk t).view.read (Elt Ideal) (lin4 V c) := by
  obtain ⟨-, -, -, -, -, ⟨e0, e1⟩, -⟩ := idx4 t
  show (cfg4.win 5).cut (grid4.coords t) ((dat4 (F := Ideal) V c).after 5 t) = _
  rw [after4_5]
  unfold out4_5
  rw [View.canon_unit_zero hz4]
  simp only [View.ld_unit_zero (S := S5000x128) hz4, View.ld_unit_zero (S := S128x128) hz4, View.ld_unit_zero (S := S1x128) hz4]
  funext j
  show k4_pay1 (F := Ideal) (iblk4 V c 0 t) (iblk4 V c 1 t) (iblk4 V c 2 t) (iblk4 V c 3 t) (iblk4 V c 4 t) j
    = lin4 V c (((cfg4.win 5).blk t).view.emb j)
  refine lin4_point V c t j _ ?_ ?_
  · show win4_5.index t (0 : Fin 2) * 5000 + 1 * (j 0).val = 5000 * t.val + (j 0).val; rw [e0]; omega
  · show win4_5.index t (1 : Fin 2) * 128 + 1 * (j 1).val = (j 1).val; rw [e1]; omega

theorem flushed4_6_eq (c : Dev nD) (t : Fin cfg4.N) :
    (dat4 (F := Ideal) V c).flushed 6 t = ((cfg4.win 6).blk t).view.read (Elt Ideal) (tileSum (lin4 V c)) := by
  obtain ⟨-, -, -, -, -, -, ⟨e0, e1⟩, -⟩ := idx4 t
  show (cfg4.win 6).cut (grid4.coords t) ((dat4 (F := Ideal) V c).after 6 t) = _
  rw [after4_6]
  unfold out4_6
  rw [View.canon_unit_zero hz4]
  simp only [View.ld_unit_zero (S := S5000x128) hz4, View.ld_unit_zero (S := S128x128) hz4, View.ld_unit_zero (S := S1x128) hz4]
  funext j
  show k4_pay2 (F := Ideal) (iblk4 V c 0 t) (iblk4 V c 1 t) (iblk4 V c 2 t) (iblk4 V c 3 t) (iblk4 V c 4 t) j
    = tileSum (lin4 V c) (((cfg4.win 6).blk t).view.emb j)
  refine sum4_point V c t j _ ?_ ?_
  · show win4_6.index t (0 : Fin 2) * 8 + 1 * (j 0).val = 8 * t.val + (j 0).val; rw [e0]; omega
  · show win4_6.index t (1 : Fin 2) * 128 + 1 * (j 1).val = (j 1).val; rw [e1]; omega

theorem flushed4_7_eq (c : Dev nD) (t : Fin cfg4.N) :
    (dat4 (F := Ideal) V c).flushed 7 t
      = ((cfg4.win 7).blk t).view.read (Elt Ideal) (tileSum (fun i => lin4 V c i * lin4 V c i)) := by
  obtain ⟨-, -, -, -, -, -, -, ⟨e0, e1⟩⟩ := idx4 t
  show (cfg4.win 7).cut (grid4.coords t) ((dat4 (F := Ideal) V c).after 7 t) = _
  rw [after4_7]
  unfold out4_7
  rw [View.canon_unit_zero hz4]
  simp only [View.ld_unit_zero (S := S5000x128) hz4, View.ld_unit_zero (S := S128x128) hz4, View.ld_unit_zero (S := S1x128) hz4]
  funext j
  show k4_pay3 (F := Ideal) (iblk4 V c 0 t) (iblk4 V c 1 t) (iblk4 V c 2 t) (iblk4 V c 3 t) (iblk4 V c 4 t) j
    = tileSum (fun i => lin4 V c i * lin4 V c i) (((cfg4.win 7).blk t).view.emb j)
  refine sq4_point V c t j _ ?_ ?_
  · show win4_7.index t (0 : Fin 2) * 8 + 1 * (j 0).val = 8 * t.val + (j 0).val; rw [e0]; omega
  · show win4_7.index t (1 : Fin 2) * 128 + 1 * (j 1).val = (j 1).val; rw [e1]; omega

/-! ## The blocks cover the arrays -/

theorem mem_blk4_5 (t : Fin cfg4.N) (i : S50000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v114_0).slice (win4_5.rect t)).set ↔ _
  rw [View.set_slice_whole, Rect.mem_set_unit]
  exact Iff.rfl

theorem mem_blk4_6 (t : Fin cfg4.N) (i : S80x128.Idx) :
    i ∈ ((cfg4.win 6).blk t).view.set ↔ ∀ a : Fin 2, win4_6.index t a * S8x128.size a ≤ (i a).val
      ∧ (i a).val < win4_6.index t a * S8x128.size a + S8x128.size a := by
  show i ∈ ((View.whole main_v114_1).slice (win4_6.rect t)).set ↔ _
  rw [View.set_slice_whole, Rect.mem_set_unit]
  exact Iff.rfl

theorem mem_blk4_7 (t : Fin cfg4.N) (i : S80x128.Idx) :
    i ∈ ((cfg4.win 7).blk t).view.set ↔ ∀ a : Fin 2, win4_7.index t a * S8x128.size a ≤ (i a).val
      ∧ (i a).val < win4_7.index t a * S8x128.size a + S8x128.size a := by
  show i ∈ ((View.whole main_v114_2).slice (win4_7.rect t)).set ↔ _
  rw [View.set_slice_whole, Rect.mem_set_unit]
  exact Iff.rfl

/-- Row r of the [50000,128] array is in the block of point r / 5000. -/
theorem covered4_5 (i : S50000x128.Idx) :
    ∃ t : Fin cfg4.N, (cfg4.win 5).flush t = true ∧ i ∈ ((cfg4.win 5).blk t).view.set := by
  have hi0 : (i 0).val < 50000 := idx2_lt0 i
  have hi1 : (i 1).val < 128 := idx2_lt1 i
  have hN : grid4.N = 10 := N_4
  have ht : (i 0).val / 5000 < cfg4.N := by show _ < grid4.N; omega
  obtain ⟨-, -, -, -, -, ⟨e0, e1⟩, -⟩ := idx4 ⟨(i 0).val / 5000, ht⟩
  refine ⟨⟨(i 0).val / 5000, ht⟩, flush4_5 _, ?_⟩
  rw [mem_blk4_5]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    rw [e1]; omega

/-- Row q of an [80,128] array of per-tile sums is in the block of point q / 8. -/
theorem covered4_6 (i : S80x128.Idx) :
    ∃ t : Fin cfg4.N, (cfg4.win 6).flush t = true ∧ i ∈ ((cfg4.win 6).blk t).view.set := by
  have hi0 : (i 0).val < 80 := idx2_lt0 i
  have hi1 : (i 1).val < 128 := idx2_lt1 i
  have hN : grid4.N = 10 := N_4
  have ht : (i 0).val / 8 < cfg4.N := by show _ < grid4.N; omega
  obtain ⟨-, -, -, -, -, -, ⟨e0, e1⟩, -⟩ := idx4 ⟨(i 0).val / 8, ht⟩
  refine ⟨⟨(i 0).val / 8, ht⟩, flush4_6 _, ?_⟩
  rw [mem_blk4_6]
  intro a
  match a with
  | ⟨0, _⟩ =>
    show win4_6.index ⟨(i 0).val / 8, ht⟩ (0 : Fin 2) * 8 ≤ (i 0).val
      ∧ (i 0).val < win4_6.index ⟨(i 0).val / 8, ht⟩ (0 : Fin 2) * 8 + 8
    rw [e0]; show (i 0).val / 8 * 8 ≤ (i 0).val ∧ (i 0).val < (i 0).val / 8 * 8 + 8; omega
  | ⟨1, _⟩ =>
    show win4_6.index ⟨(i 0).val / 8, ht⟩ (1 : Fin 2) * 128 ≤ (i 1).val
      ∧ (i 1).val < win4_6.index ⟨(i 0).val / 8, ht⟩ (1 : Fin 2) * 128 + 128
    rw [e1]; omega

theorem covered4_7 (i : S80x128.Idx) :
    ∃ t : Fin cfg4.N, (cfg4.win 7).flush t = true ∧ i ∈ ((cfg4.win 7).blk t).view.set := by
  have hi0 : (i 0).val < 80 := idx2_lt0 i
  have hi1 : (i 1).val < 128 := idx2_lt1 i
  have hN : grid4.N = 10 := N_4
  have ht : (i 0).val / 8 < cfg4.N := by show _ < grid4.N; omega
  obtain ⟨-, -, -, -, -, -, -, ⟨e0, e1⟩⟩ := idx4 ⟨(i 0).val / 8, ht⟩
  refine ⟨⟨(i 0).val / 8, ht⟩, flush4_7 _, ?_⟩
  rw [mem_blk4_7]
  intro a
  match a with
  | ⟨0, _⟩ =>
    show win4_7.index ⟨(i 0).val / 8, ht⟩ (0 : Fin 2) * 8 ≤ (i 0).val
      ∧ (i 0).val < win4_7.index ⟨(i 0).val / 8, ht⟩ (0 : Fin 2) * 8 + 8
    rw [e0]; show (i 0).val / 8 * 8 ≤ (i 0).val ∧ (i 0).val < (i 0).val / 8 * 8 + 8; omega
  | ⟨1, _⟩ =>
    show win4_7.index ⟨(i 0).val / 8, ht⟩ (1 : Fin 2) * 128 ≤ (i 1).val
      ∧ (i 1).val < win4_7.index ⟨(i 0).val / 8, ht⟩ (1 : Fin 2) * 128 + 128
    rw [e1]; omega

/-! ## The three output arrays after the region -/

/-- The first output ends holding the linear layer of the arrays the region found. -/
theorem lin4_arr (c : Dev nD) : (dat4 (F := Ideal) V c).arrAt 5 cfg4.N = lin4 V c :=
  (dat4 (F := Ideal) V c).arrAt_eq_of_cover 5 (lin4 V c) (fun t _ => flushed4_5_eq V c t) covered4_5

/-- The second ends holding its per-tile column sums, -/
theorem sum4_arr (c : Dev nD) : (dat4 (F := Ideal) V c).arrAt 6 cfg4.N = tileSum (lin4 V c) :=
  (dat4 (F := Ideal) V c).arrAt_eq_of_cover 6 (tileSum (lin4 V c)) (fun t _ => flushed4_6_eq V c t) covered4_6

/-- and the third the per-tile column sums of its squares. -/
theorem sq4_arr (c : Dev nD) : (dat4 (F := Ideal) V c).arrAt 7 cfg4.N = tileSum (fun i => lin4 V c i * lin4 V c i) :=
  (dat4 (F := Ideal) V c).arrAt_eq_of_cover 7 (tileSum (fun i => lin4 V c i * lin4 V c i)) (fun t _ => flushed4_7_eq V c t) covered4_7

end Cert.KernelIdeal.HandLin

end
-- ==== Proof.BnPoint.lean ====
/- The batch-norm + ReLU kernel body at one index of its row tile, at the exact (extended-real) values.
   The body multiplies the tile of `lin` by the scale row, adds the shift row, and clamps below at zero;
   the final narrowing of the float format is the identity at the exact values. -/
import proofs.«181322_j48155173322905_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.HandBn

open Cert.KernelIdeal Cert.KernelIdeal.Gen Idealize.ShloMosaic Idealize.ShloMosaic.ValueIdx

/-- Entry `(p, q)` of the tile the body stores (layer 1): `max (lin[p,q] * scale[0,q] + shift[0,q]) 0`,
    the zero being the f32 zero word. -/
theorem k1_pay1_apply (x0 : Vec Ideal S5000x128 .f32) (x1 x2 : Vec Ideal S1x128 .f32) (p : Fin 5000) (q : Fin 128) :
    k1_pay1 x0 x1 x2 (ix2 p q)
      = max (x0 (ix2 p q) * x1 (ix2 (0 : Fin 1) q) + x2 (ix2 (0 : Fin 1) q)) (Ideal.ofBits .f32 0x00000000#32) := by
  unfold k1_pay1
  simp only [truncf_apply, maximumf_apply, addf_apply, mulf_apply, broadcast_apply, shapeCast_self,
    broadcastTo_1b_ab_apply]
  rfl

/-- The same for layer 2's body (the same text). -/
theorem k3_pay1_apply (x0 : Vec Ideal S5000x128 .f32) (x1 x2 : Vec Ideal S1x128 .f32) (p : Fin 5000) (q : Fin 128) :
    k3_pay1 x0 x1 x2 (ix2 p q)
      = max (x0 (ix2 p q) * x1 (ix2 (0 : Fin 1) q) + x2 (ix2 (0 : Fin 1) q)) (Ideal.ofBits .f32 0x00000000#32) := by
  unfold k3_pay1
  simp only [truncf_apply, maximumf_apply, addf_apply, mulf_apply, broadcast_apply, shapeCast_self,
    broadcastTo_1b_ab_apply]
  rfl

/-- The same for layer 3's body, which stores f32 (no narrowing at the end). -/
theorem k5_pay1_apply (x0 : Vec Ideal S5000x128 .f32) (x1 x2 : Vec Ideal S1x128 .f32) (p : Fin 5000) (q : Fin 128) :
    k5_pay1 x0 x1 x2 (ix2 p q)
      = max (x0 (ix2 p q) * x1 (ix2 (0 : Fin 1) q) + x2 (ix2 (0 : Fin 1) q)) (Ideal.ofBits .f32 0x00000000#32) := by
  unfold k5_pay1
  simp only [maximumf_apply, addf_apply, mulf_apply, broadcast_apply, shapeCast_self,
    broadcastTo_1b_ab_apply]
  rfl

end Cert.KernelIdeal.HandBn

end
-- ==== Proof.BnArr1.lean ====
/- Layer 1's batch-norm + ReLU region, from row tiles to the whole array: point `t` of the grid writes rows
   `5000 t … 5000 t + 4999` of the result, each entry `max (lin * scale + shift) 0` with the scale and shift
   rows read whole at every point; the ten tiles cover the 50000 rows. -/
import proofs.«181322_j48155173322905_2_alg».proof.Proof.Gen.KernelIdeal.Frame
import proofs.«181322_j48155173322905_2_alg».proof.Proof.BnPoint
import proofs.«181322_j48155173322905_2_alg».proof.Proof.BnSpec
import Idealize.ShloMosaic.Lib.Pipeline.Value

set_option maxRecDepth 16384

noncomputable section

namespace Cert.KernelIdeal.HandBn

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The tile the body stores, at any index of the tile. -/
theorem k1_pay1_at (x0 : Vec Ideal S5000x128 .f32) (x1 x2 : Vec Ideal S1x128 .f32) (j : S5000x128.Idx) :
    k1_pay1 x0 x1 x2 j
      = max (x0 j * x1 (ix2 (0 : Fin 1) (j 1)) + x2 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact k1_pay1_apply x0 x1 x2 p q

/-- Entry `j` of a tile computed from blocks `b0 b1 b2` is entry `i` of `bnF` of the arrays when the blocks
    read the arrays where `i` says. -/
theorem bn_read1 (L : S50000x128.Idx → EReal) (Sc Sh : S1x128.Idx → EReal)
    (b0 : S5000x128.Idx → EReal) (b1 b2 : S1x128.Idx → EReal) (j : S5000x128.Idx) (i : S50000x128.Idx)
    (h0 : b0 j = L i) (h1 : b1 (ix2 (0 : Fin 1) (j 1)) = Sc (ix2 (0 : Fin 1) (i 1)))
    (h2 : b2 (ix2 (0 : Fin 1) (j 1)) = Sh (ix2 (0 : Fin 1) (i 1))) :
    max (b0 j * b1 (ix2 (0 : Fin 1) (j 1)) + b2 (ix2 (0 : Fin 1) (j 1))) (Ideal.ofBits .f32 0x00000000#32)
      = bnF L Sc Sh i := by
  rw [h0, h1, h2]; rfl

/-- The index maps over the grid: the `lin` tile and the result tile are row tile `t`; the scale and shift
    rows stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The `lin` tile and the result tile at point `t` sit at the same rows of their arrays. -/
theorem emb1_0 (t : Fin cfg1.N) (j : S5000x128.Idx) :
    ((cfg1.win 0).blk t).view.emb j = ((cfg1.win 3).blk t).view.emb j := by
  obtain ⟨e00, e01, e10, e11, e20, e21, e30, e31⟩ := idx_facts1 t
  funext a; apply Fin.ext
  match a with
  | ⟨0, _⟩ => show win1_0.index t (0 : Fin 2) * 5000 + 1 * (j 0).val = win1_3.index t (0 : Fin 2) * 5000 + 1 * (j 0).val; omega
  | ⟨1, _⟩ => show win1_0.index t (1 : Fin 2) * 128 + 1 * (j 1).val = win1_3.index t (1 : Fin 2) * 128 + 1 * (j 1).val; omega

/-- The scale row's block is the whole row: its entry `(0, q)` is the array's, `q` the column of the result. -/
theorem emb1_1 (t : Fin cfg1.N) (j : S5000x128.Idx) :
    ((cfg1.win 1).blk t).view.emb (ix2 (0 : Fin 1) (j 1)) = ix2 (0 : Fin 1) ((((cfg1.win 3).blk t).view.emb j) 1) := by
  obtain ⟨e00, e01, e10, e11, e20, e21, e30, e31⟩ := idx_facts1 t
  funext a; apply Fin.ext
  match a with
  | ⟨0, _⟩ => show win1_1.index t (0 : Fin 2) * 1 + 1 * 0 = 0; omega
  | ⟨1, _⟩ => show win1_1.index t (1 : Fin 2) * 128 + 1 * (j 1).val = win1_3.index t (1 : Fin 2) * 128 + 1 * (j 1).val; omega

/-- The same for the shift row. -/
theorem emb1_2 (t : Fin cfg1.N) (j : S5000x128.Idx) :
    ((cfg1.win 2).blk t).view.emb (ix2 (0 : Fin 1) (j 1)) = ix2 (0 : Fin 1) ((((cfg1.win 3).blk t).view.emb j) 1) := by
  obtain ⟨e00, e01, e10, e11, e20, e21, e30, e31⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * (j 1).val = win1_3.index t (1 : Fin 2) * 128 + 1 * (j 1).val; omega

set_option maxHeartbeats 400000 in
/-- What point `t` writes back is tile `t` of `bnF` of the arrays as the region finds them. -/
theorem flushed1_eq (c : Dev nD) (t : Fin cfg1.N) :
    (dat1 V c).flushed 3 t = ((cfg1.win 3).blk t).view.read (Elt Ideal)
      (bnF (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S5000x128) hz1, View.ld_unit_zero (S := S1x128) hz1]
  funext j
  refine (k1_pay1_at (iblk1 V c 0 t) (iblk1 V c 1 t) (iblk1 V c 2 t) j).trans ?_
  exact bn_read1 (V c (Pipeline.arrRef spec1 0)) (V c (Pipeline.arrRef spec1 1)) (V c (Pipeline.arrRef spec1 2))
    (iblk1 V c 0 t) (iblk1 V c 1 t) (iblk1 V c 2 t) j (((cfg1.win 3).blk t).view.emb j)
    (congrArg (V c (Pipeline.arrRef spec1 0)) (emb1_0 t j)) (congrArg (V c (Pipeline.arrRef spec1 1)) (emb1_1 t j))
    (congrArg (V c (Pipeline.arrRef spec1 2)) (emb1_2 t j))

/-- An index of the array is in point `t`'s tile iff each coordinate is in the tile's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v53).slice (win1_3.rect t)).set ↔ _
  rw [View.set_slice_whole, Rect.mem_set_unit]
  exact Iff.rfl

/-- Every row lies in the tile of the point `row / 5000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e00, e01, e10, e11, e20, e21, e30, e31⟩ := idx_facts1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY the region leaves: `bnF` of the arrays it read, at every index. -/
theorem bn1_arr (c : Dev nD) :
    (dat1 V c).arrAt 3 cfg1.N
      = bnF (V c (Pipeline.arrRef spec1 0)) (V c (Pipeline.arrRef spec1 1)) (V c (Pipeline.arrRef spec1 2)) :=
  (dat1 V c).arrAt_eq_of_cover 3 _ (fun t _ => flushed1_eq V c t) (cover1)

end Cert.KernelIdeal.HandBn

end
-- ==== Proof.BnArr3.lean ====
/- Layer 2's batch-norm + ReLU region, from row tiles to the whole array: point `t` of the grid writes rows
   `5000 t … 5000 t + 4999` of the result, each entry `max (lin * scale + shift) 0` with the scale and shift
   rows read whole at every point; the ten tiles cover the 50000 rows. -/
import proofs.«181322_j48155173322905_2_alg».proof.Proof.Gen.KernelIdeal.Frame
import proofs.«181322_j48155173322905_2_alg».proof.Proof.BnPoint
import proofs.«181322_j48155173322905_2_alg».proof.Proof.BnSpec
import Idealize.ShloMosaic.Lib.Pipeline.Value

set_option maxRecDepth 16384

noncomputable section

namespace Cert.KernelIdeal.HandBn

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The tile the body stores, at any index of the tile. -/
theorem k3_pay1_at (x0 : Vec Ideal S5000x128 .f32) (x1 x2 : Vec Ideal S1x128 .f32) (j : S5000x128.Idx) :
    k3_pay1 x0 x1 x2 j
      = max (x0 j * x1 (ix2 (0 : Fin 1) (j 1)) + x2 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact k3_pay1_apply x0 x1 x2 p q

/-- Entry `j` of a tile computed from blocks `b0 b1 b2` is entry `i` of `bnF` of the arrays when the blocks
    read the arrays where `i` says. -/
theorem bn_read3 (L : S50000x128.Idx → EReal) (Sc Sh : S1x128.Idx → EReal)
    (b0 : S5000x128.Idx → EReal) (b1 b2 : S1x128.Idx → EReal) (j : S5000x128.Idx) (i : S50000x128.Idx)
    (h0 : b0 j = L i) (h1 : b1 (ix2 (0 : Fin 1) (j 1)) = Sc (ix2 (0 : Fin 1) (i 1)))
    (h2 : b2 (ix2 (0 : Fin 1) (j 1)) = Sh (ix2 (0 : Fin 1) (i 1))) :
    max (b0 j * b1 (ix2 (0 : Fin 1) (j 1)) + b2 (ix2 (0 : Fin 1) (j 1))) (Ideal.ofBits .f32 0x00000000#32)
      = bnF L Sc Sh i := by
  rw [h0, h1, h2]; rfl

/-- The index maps over the grid: the `lin` tile and the result tile are row tile `t`; the scale and shift
    rows stay at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The `lin` tile and the result tile at point `t` sit at the same rows of their arrays. -/
theorem emb3_0 (t : Fin cfg3.N) (j : S5000x128.Idx) :
    ((cfg3.win 0).blk t).view.emb j = ((cfg3.win 3).blk t).view.emb j := by
  obtain ⟨e00, e01, e10, e11, e20, e21, e30, e31⟩ := idx_facts3 t
  funext a; apply Fin.ext
  match a with
  | ⟨0, _⟩ => show win3_0.index t (0 : Fin 2) * 5000 + 1 * (j 0).val = win3_3.index t (0 : Fin 2) * 5000 + 1 * (j 0).val; omega
  | ⟨1, _⟩ => show win3_0.index t (1 : Fin 2) * 128 + 1 * (j 1).val = win3_3.index t (1 : Fin 2) * 128 + 1 * (j 1).val; omega

/-- The scale row's block is the whole row: its entry `(0, q)` is the array's, `q` the column of the result. -/
theorem emb3_1 (t : Fin cfg3.N) (j : S5000x128.Idx) :
    ((cfg3.win 1).blk t).view.emb (ix2 (0 : Fin 1) (j 1)) = ix2 (0 : Fin 1) ((((cfg3.win 3).blk t).view.emb j) 1) := by
  obtain ⟨e00, e01, e10, e11, e20, e21, e30, e31⟩ := idx_facts3 t
  funext a; apply Fin.ext
  match a with
  | ⟨0, _⟩ => show win3_1.index t (0 : Fin 2) * 1 + 1 * 0 = 0; omega
  | ⟨1, _⟩ => show win3_1.index t (1 : Fin 2) * 128 + 1 * (j 1).val = win3_3.index t (1 : Fin 2) * 128 + 1 * (j 1).val; omega

/-- The same for the shift row. -/
theorem emb3_2 (t : Fin cfg3.N) (j : S5000x128.Idx) :
    ((cfg3.win 2).blk t).view.emb (ix2 (0 : Fin 1) (j 1)) = ix2 (0 : Fin 1) ((((cfg3.win 3).blk t).view.emb j) 1) := by
  obtain ⟨e00, e01, e10, e11, e20, e21, e30, e31⟩ := idx_facts3 t
  funext a; apply Fin.ext
  match a with
  | ⟨0, _⟩ => show win3_2.index t (0 : Fin 2) * 1 + 1 * 0 = 0; omega
  | ⟨1, _⟩ => show win3_2.index t (1 : Fin 2) * 128 + 1 * (j 1).val = win3_3.index t (1 : Fin 2) * 128 + 1 * (j 1).val; omega

set_option maxHeartbeats 400000 in
/-- What point `t` writes back is tile `t` of `bnF` of the arrays as the region finds them. -/
theorem flushed3_eq (c : Dev nD) (t : Fin cfg3.N) :
    (dat3 V c).flushed 3 t = ((cfg3.win 3).blk t).view.read (Elt Ideal)
      (bnF (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S5000x128) hz3, View.ld_unit_zero (S := S1x128) hz3]
  funext j
  refine (k3_pay1_at (iblk3 V c 0 t) (iblk3 V c 1 t) (iblk3 V c 2 t) j).trans ?_
  exact bn_read3 (V c (Pipeline.arrRef spec3 0)) (V c (Pipeline.arrRef spec3 1)) (V c (Pipeline.arrRef spec3 2))
    (iblk3 V c 0 t) (iblk3 V c 1 t) (iblk3 V c 2 t) j (((cfg3.win 3).blk t).view.emb j)
    (congrArg (V c (Pipeline.arrRef spec3 0)) (emb3_0 t j)) (congrArg (V c (Pipeline.arrRef spec3 1)) (emb3_1 t j))
    (congrArg (V c (Pipeline.arrRef spec3 2)) (emb3_2 t j))

/-- An index of the array is in point `t`'s tile iff each coordinate is in the tile's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v95).slice (win3_3.rect t)).set ↔ _
  rw [View.set_slice_whole, Rect.mem_set_unit]
  exact Iff.rfl

/-- Every row lies in the tile of the point `row / 5000`. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e00, e01, e10, e11, e20, e21, e30, e31⟩ := idx_facts3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE ARRAY the region leaves: `bnF` of the arrays it read, at every index. -/
theorem bn3_arr (c : Dev nD) :
    (dat3 V c).arrAt 3 cfg3.N
      = bnF (V c (Pipeline.arrRef spec3 0)) (V c (Pipeline.arrRef spec3 1)) (V c (Pipeline.arrRef spec3 2)) :=
  (dat3 V c).arrAt_eq_of_cover 3 _ (fun t _ => flushed3_eq V c t) (cover3)

end Cert.KernelIdeal.HandBn

end
-- ==== Proof.BnArr5.lean ====
/- Layer 3's batch-norm + ReLU region, from row tiles to the whole array: point `t` of the grid writes rows
   `5000 t … 5000 t + 4999` of the result, each entry `max (lin * scale + shift) 0` with the scale and shift
   rows read whole at every point; the ten tiles cover the 50000 rows. -/
import proofs.«181322_j48155173322905_2_alg».proof.Proof.Gen.KernelIdeal.Frame
import proofs.«181322_j48155173322905_2_alg».proof.Proof.BnPoint
import proofs.«181322_j48155173322905_2_alg».proof.Proof.BnSpec
import Idealize.ShloMosaic.Lib.Pipeline.Value

set_option maxRecDepth 16384

noncomputable section

namespace Cert.KernelIdeal.HandBn

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The tile the body stores, at any index of the tile. -/
theorem k5_pay1_at (x0 : Vec Ideal S5000x128 .f32) (x1 x2 : Vec Ideal S1x128 .f32) (j : S5000x128.Idx) :
    k5_pay1 x0 x1 x2 j
      = max (x0 j * x1 (ix2 (0 : Fin 1) (j 1)) + x2 (ix2 (0 : Fin 1) (j 1))) (Ideal.ofBits .f32 0x00000000#32) := by
  obtain ⟨p, q, rfl⟩ : ∃ (p : Fin 5000) (q : Fin 128), j = ix2 p q := ⟨j 0, j 1, eq_ix2 j⟩
  exact k5_pay1_apply x0 x1 x2 p q

/-- Entry `j` of a tile computed from blocks `b0 b1 b2` is entry `i` of `bnF` of the arrays when the blocks
    read the arrays where `i` says. -/
theorem bn_read5 (L : S50000x128.Idx → EReal) (Sc Sh : S1x128.Idx → EReal)
    (b0 : S5000x128.Idx → EReal) (b1 b2 : S1x128.Idx → EReal) (j : S5000x128.Idx) (i : S50000x128.Idx)
    (h0 : b0 j = L i) (h1 : b1 (ix2 (0 : Fin 1) (j 1)) = Sc (ix2 (0 : Fin 1) (i 1)))
    (h2 : b2 (ix2 (0 : Fin 1) (j 1)) = Sh (ix2 (0 : Fin 1) (i 1))) :
    max (b0 j * b1 (ix2 (0 : Fin 1) (j 1)) + b2 (ix2 (0 : Fin 1) (j 1))) (Ideal.ofBits .f32 0x00000000#32)
      = bnF L Sc Sh i := by
  rw [h0, h1, h2]; rfl

/-- The index maps over the grid: the `lin` tile and the result tile are row tile `t`; the scale and shift
    rows stay at block (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The `lin` tile and the result tile at point `t` sit at the same rows of their arrays. -/
theorem emb5_0 (t : Fin cfg5.N) (j : S5000x128.Idx) :
    ((cfg5.win 0).blk t).view.emb j = ((cfg5.win 3).blk t).view.emb j := by
  obtain ⟨e00, e01, e10, e11, e20, e21, e30, e31⟩ := idx_facts5 t
  funext a; apply Fin.ext
  match a with
  | ⟨0, _⟩ => show win5_0.index t (0 : Fin 2) * 5000 + 1 * (j 0).val = win5_3.index t (0 : Fin 2) * 5000 + 1 * (j 0).val; omega
  | ⟨1, _⟩ => show win5_0.index t (1 : Fin 2) * 128 + 1 * (j 1).val = win5_3.index t (1 : Fin 2) * 128 + 1 * (j 1).val; omega

/-- The scale row's block is the whole row: its entry `(0, q)` is the array's, `q` the column of the result. -/
theorem emb5_1 (t : Fin cfg5.N) (j : S5000x128.Idx) :
    ((cfg5.win 1).blk t).view.emb (ix2 (0 : Fin 1) (j 1)) = ix2 (0 : Fin 1) ((((cfg5.win 3).blk t).view.emb j) 1) := by
  obtain ⟨e00, e01, e10, e11, e20, e21, e30, e31⟩ := idx_facts5 t
  funext a; apply Fin.ext
  match a with
  | ⟨0, _⟩ => show win5_1.index t (0 : Fin 2) * 1 + 1 * 0 = 0; omega
  | ⟨1, _⟩ => show win5_1.index t (1 : Fin 2) * 128 + 1 * (j 1).val = win5_3.index t (1 : Fin 2) * 128 + 1 * (j 1).val; omega

/-- The same for the shift row. -/
theorem emb5_2 (t : Fin cfg5.N) (j : S5000x128.Idx) :
    ((cfg5.win 2).blk t).view.emb (ix2 (0 : Fin 1) (j 1)) = ix2 (0 : Fin 1) ((((cfg5.win 3).blk t).view.emb j) 1) := by
  obtain ⟨e00, e01, e10, e11, e20, e21, e30, e31⟩ := idx_facts5 t
  funext a; apply Fin.ext
  match a with
  | ⟨0, _⟩ => show win5_2.index t (0 : Fin 2) * 1 + 1 * 0 = 0; omega
  | ⟨1, _⟩ => show win5_2.index t (1 : Fin 2) * 128 + 1 * (j 1).val = win5_3.index t (1 : Fin 2) * 128 + 1 * (j 1).val; omega

set_option maxHeartbeats 400000 in
/-- What point `t` writes back is tile `t` of `bnF` of the arrays as the region finds them. -/
theorem flushed5_eq (c : Dev nD) (t : Fin cfg5.N) :
    (dat5 V c).flushed 3 t = ((cfg5.win 3).blk t).view.read (Elt Ideal)
      (bnF (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S5000x128) hz5, View.ld_unit_zero (S := S1x128) hz5]
  funext j
  refine (k5_pay1_at (iblk5 V c 0 t) (iblk5 V c 1 t) (iblk5 V c 2 t) j).trans ?_
  exact bn_read5 (V c (Pipeline.arrRef spec5 0)) (V c (Pipeline.arrRef spec5 1)) (V c (Pipeline.arrRef spec5 2))
    (iblk5 V c 0 t) (iblk5 V c 1 t) (iblk5 V c 2 t) j (((cfg5.win 3).blk t).view.emb j)
    (congrArg (V c (Pipeline.arrRef spec5 0)) (emb5_0 t j)) (congrArg (V c (Pipeline.arrRef spec5 1)) (emb5_1 t j))
    (congrArg (V c (Pipeline.arrRef spec5 2)) (emb5_2 t j))

/-- An index of the array is in point `t`'s tile iff each coordinate is in the tile's range on its axis. -/
theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v137).slice (win5_3.rect t)).set ↔ _
  rw [View.set_slice_whole, Rect.mem_set_unit]
  exact Iff.rfl

/-- Every row lies in the tile of the point `row / 5000`. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e00, e01, e10, e11, e20, e21, e30, e31⟩ := idx_facts5 t
  have ht : t.val = (i 0).val / 5000 := rfl
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- THE ARRAY the region leaves: `bnF` of the arrays it read, at every index. -/
theorem bn5_arr (c : Dev nD) :
    (dat5 V c).arrAt 3 cfg5.N
      = bnF (V c (Pipeline.arrRef spec5 0)) (V c (Pipeline.arrRef spec5 1)) (V c (Pipeline.arrRef spec5 2)) :=
  (dat5 V c).arrAt_eq_of_cover 3 _ (fun t _ => flushed5_eq V c t) (cover5)

end Cert.KernelIdeal.HandBn

end
-- ==== Proof.MlpPoint.lean ====
/- The read-out MLP body at one index, at the exact (extended-real) values: for graph `r`,
   `sigmoid ((∑ k, max ((∑ k', pooled[r,k'] * W1[k',k]) + b1[0,k]) 0 * W2[k,0]) + b2[0,0])`.
   Each block product is the plain sum over the contracted coordinate (the accumulator is the zero splat,
   the format changes are the identity), the bias rows are broadcast over the 256 rows, and the sigmoid is
   `1 / (1 + exp (-z))` in the extended reals' division and exponential. -/
import proofs.«181322_j48155173322905_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandBn

open Cert.KernelIdeal Cert.KernelIdeal.Gen Idealize.ShloMosaic Idealize.ShloMosaic.ValueIdx
open scoped BigOperators

/-- The sigmoid of a vector, entry by entry. -/
theorem logistic_apply {s : Shape} {φ : FTy} (a : FVec Ideal s φ) (i : s.Idx) :
    logistic a i = Ideal.div 1 (1 + Ideal.exp (-(a i))) := rfl

/-- The first block product `[256,128] · [128,64]` into the zero accumulator, at `(r, k)`. -/
theorem mm1_apply (A : FVec Ideal S256x128 .bf16) (B : FVec Ideal S128x64 .bf16) (r : Fin 256) (k : Fin 64) :
    matmul dot_S256x128_S128x64_S256x64_1_0_0_1_n_n none A B (constant (F := Ideal) S256x64 .f32 0x00000000#32) (ix2 r k)
      = ∑ k' : Fin 128, A (ix2 r k') * B (ix2 k' k) := by
  show FloatOps.matmul dot_S256x128_S128x64_S256x64_1_0_0_1_n_n none A B (constant (F := Ideal) S256x64 .f32 0x00000000#32) (ix2 r k) = _
  rw [Ideal.matmul_constant_zero_apply, ← Equiv.sum_comp (contrEquiv1 dot_S256x128_S128x64_S256x64_1_0_0_1_n_n 128 rfl rfl).symm]
  refine Finset.sum_congr rfl fun c _ => ?_
  have c2 := contrEquiv1_symm_val dot_S256x128_S128x64_S256x64_1_0_0_1_n_n 128 rfl rfl c
  have l2 : (dot_S256x128_S128x64_S256x64_1_0_0_1_n_n).lhsIdx (ix2 r k) ((contrEquiv1 dot_S256x128_S128x64_S256x64_1_0_0_1_n_n 128 rfl rfl).symm c) = ix2 r c := by
    funext ax; apply Fin.ext
    match ax with
    | ⟨0, _⟩ => simp [DotDims.lhsIdx, dot_S256x128_S128x64_S256x64_1_0_0_1_n_n]; rfl
    | ⟨1, _⟩ => simp [DotDims.lhsIdx, dot_S256x128_S128x64_S256x64_1_0_0_1_n_n]; exact c2
  have r2 : (dot_S256x128_S128x64_S256x64_1_0_0_1_n_n).rhsIdx (ix2 r k) ((contrEquiv1 dot_S256x128_S128x64_S256x64_1_0_0_1_n_n 128 rfl rfl).symm c) = ix2 c k := by
    funext ax; apply Fin.ext
    match ax with
    | ⟨0, _⟩ => simp [DotDims.rhsIdx, dot_S256x128_S128x64_S256x64_1_0_0_1_n_n]; exact c2
    | ⟨1, _⟩ => simp [DotDims.rhsIdx, dot_S256x128_S128x64_S256x64_1_0_0_1_n_n]; rfl
  rw [l2, r2]

/-- The second block product `[256,64] · [64,1]` into the zero accumulator, at `(r, o)`. -/
theorem mm2_apply (A : FVec Ideal S256x64 .bf16) (B : FVec Ideal S64x1 .bf16) (r : Fin 256) (o : Fin 1) :
    matmul dot_S256x64_S64x1_S256x1_1_0_0_1_n_n none A B (constant (F := Ideal) S256x1 .f32 0x00000000#32) (ix2 r o)
      = ∑ k : Fin 64, A (ix2 r k) * B (ix2 k o) := by
  show FloatOps.matmul dot_S256x64_S64x1_S256x1_1_0_0_1_n_n none A B (constant (F := Ideal) S256x1 .f32 0x00000000#32) (ix2 r o) = _
  rw [Ideal.matmul_constant_zero_apply, ← Equiv.sum_comp (contrEquiv1 dot_S256x64_S64x1_S256x1_1_0_0_1_n_n 64 rfl rfl).symm]
  refine Finset.sum_congr rfl fun c _ => ?_
  have c2 := contrEquiv1_symm_val dot_S256x64_S64x1_S256x1_1_0_0_1_n_n 64 rfl rfl c
  have l2 : (dot_S256x64_S64x1_S256x1_1_0_0_1_n_n).lhsIdx (ix2 r o) ((contrEquiv1 dot_S256x64_S64x1_S256x1_1_0_0_1_n_n 64 rfl rfl).symm c) = ix2 r c := by
    funext ax; apply Fin.ext
    match ax with
    | ⟨0, _⟩ => simp [DotDims.lhsIdx, dot_S256x64_S64x1_S256x1_1_0_0_1_n_n]; rfl
    | ⟨1, _⟩ => simp [DotDims.lhsIdx, dot_S256x64_S64x1_S256x1_1_0_0_1_n_n]; exact c2
  have r2 : (dot_S256x64_S64x1_S256x1_1_0_0_1_n_n).rhsIdx (ix2 r o) ((contrEquiv1 dot_S256x64_S64x1_S256x1_1_0_0_1_n_n 64 rfl rfl).symm c) = ix2 c o := by
    funext ax; apply Fin.ext
    match ax with
    | ⟨0, _⟩ => simp [DotDims.rhsIdx, dot_S256x64_S64x1_S256x1_1_0_0_1_n_n]; exact c2
    | ⟨1, _⟩ => simp [DotDims.rhsIdx, dot_S256x64_S64x1_S256x1_1_0_0_1_n_n] <;> rfl
  rw [l2, r2]

/-- The value the body stores at `(r, o)`. -/
theorem k6_pay1_apply (x0 : Vec Ideal S256x128 .f32) (x1 : Vec Ideal S128x64 .f32) (x2 : Vec Ideal S1x64 .f32)
    (x3 : Vec Ideal S64x1 .f32) (x4 : Vec Ideal S1x1 .f32) (r : Fin 256) (o : Fin 1) :
    k6_pay1 x0 x1 x2 x3 x4 (ix2 r o)
      = Ideal.div 1 (1 + Ideal.exp (-((∑ k : Fin 64,
            max ((∑ k' : Fin 128, x0 (ix2 r k') * x1 (ix2 k' k)) + x2 (ix2 (0 : Fin 1) k)) (Ideal.ofBits .f32 0x00000000#32)
              * x3 (ix2 k o)) + x4 (ix2 (0 : Fin 1) o)))) := by
  unfold k6_pay1
  simp only [logistic_apply, addf_apply, mm2_apply, mm1_apply, truncf_apply, maximumf_apply, broadcast_apply,
    shapeCast_self, broadcastTo_1b_ab_apply]
  rfl

end Cert.KernelIdeal.HandBn

end
-- ==== Proof.MlpArr.lean ====
/- The read-out MLP region, from its one grid point to the array: every window's block is its whole array,
   so the result array is `mlpF` of the five arrays the region reads. -/
import proofs.«181322_j48155173322905_2_alg».proof.Proof.Gen.KernelIdeal.Frame
import proofs.«181322_j48155173322905_2_alg».proof.Proof.MlpPoint
import proofs.«181322_j48155173322905_2_alg».proof.Proof.BnSpec
import Idealize.ShloMosaic.Lib.Pipeline.Value

set_option maxRecDepth 16384

noncomputable section

namespace Cert.KernelIdeal.HandBn

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem hz6 : (![0, 0] : Fin 2 → Nat) = fun _ => 0 := funext fun a => by fin_cases a <;> rfl

/-- The value the body stores, at any index of the block. -/
theorem k6_pay1_at (x0 : Vec Ideal S256x128 .f32) (x1 : Vec Ideal S128x64 .f32) (x2 : Vec Ideal S1x64 .f32)
    (x3 : Vec Ideal S64x1 .f32) (x4 : Vec Ideal S1x1 .f32) (j : S256x1.Idx) :
    k6_pay1 x0 x1 x2 x3 x4 j = mlpF x0 x1 x2 x3 x4 j := by
  obtain ⟨r, o, rfl⟩ : ∃ (r : Fin 256) (o : Fin 1), j = ix2 r o := ⟨j 0, j 1, eq_ix2 j⟩
  exact k6_pay1_apply x0 x1 x2 x3 x4 r o

/-- `mlpF` of blocks that are the arrays is `mlpF` of the arrays. -/
theorem mlp_read (P : S256x128.Idx → EReal) (W1 : S128x64.Idx → EReal) (b1 : S1x64.Idx → EReal)
    (W2 : S64x1.Idx → EReal) (b2 : S1x1.Idx → EReal)
    (x0 : S256x128.Idx → EReal) (x1 : S128x64.Idx → EReal) (x2 : S1x64.Idx → EReal)
    (x3 : S64x1.Idx → EReal) (x4 : S1x1.Idx → EReal) (j : S256x1.Idx)
    (h0 : ∀ y, x0 y = P y) (h1 : ∀ y, x1 y = W1 y) (h2 : ∀ y, x2 y = b1 y) (h3 : ∀ y, x3 y = W2 y)
    (h4 : ∀ y, x4 y = b2 y) : mlpF x0 x1 x2 x3 x4 j = mlpF P W1 b1 W2 b2 j := by
  rw [funext h0, funext h1, funext h2, funext h3, funext h4]

/-- The index maps at the one grid point: every window sits at block (0, 0). -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Window 0's one block is its whole array: a block index is the array index. -/
theorem emb6_0 (t : Fin cfg6.N) (y : S256x128.Idx) : ((cfg6.win 0).blk t).view.emb y = y := by
  obtain ⟨e00, e01, e10, e11, e20, e21, e30, e31, e40, e41, e50, e51⟩ := idx_facts6 t
  funext a; apply Fin.ext
  match a with
  | ⟨0, _⟩ => show win6_0.index t (0 : Fin 2) * 256 + 1 * (y 0).val = (y 0).val; omega
  | ⟨1, _⟩ => show win6_0.index t (1 : Fin 2) * 128 + 1 * (y 1).val = (y 1).val; omega

/-- Window 1's one block is its whole array: a block index is the array index. -/
theorem emb6_1 (t : Fin cfg6.N) (y : S128x64.Idx) : ((cfg6.win 1).blk t).view.emb y = y := by
  obtain ⟨e00, e01, e10, e11, e20, e21, e30, e31, e40, e41, e50, e51⟩ := idx_facts6 t
  funext a; apply Fin.ext
  match a with
  | ⟨0, _⟩ => show win6_1.index t (0 : Fin 2) * 128 + 1 * (y 0).val = (y 0).val; omega
  | ⟨1, _⟩ => show win6_1.index t (1 : Fin 2) * 64 + 1 * (y 1).val = (y 1).val; omega

/-- Window 2's one block is its whole array: a block index is the array index. -/
theorem emb6_2 (t : Fin cfg6.N) (y : S1x64.Idx) : ((cfg6.win 2).blk t).view.emb y = y := by
  obtain ⟨e00, e01, e10, e11, e20, e21, e30, e31, e40, e41, e50, e51⟩ := idx_facts6 t
  funext a; apply Fin.ext
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- Window 3's one block is its whole array: a block index is the array index. -/
theorem emb6_3 (t : Fin cfg6.N) (y : S64x1.Idx) : ((cfg6.win 3).blk t).view.emb y = y := by
  obtain ⟨e00, e01, e10, e11, e20, e21, e30, e31, e40, e41, e50, e51⟩ := idx_facts6 t
  funext a; apply Fin.ext
  match a with
  | ⟨0, _⟩ => show win6_3.index t (0 : Fin 2) * 64 + 1 * (y 0).val = (y 0).val; omega
  | ⟨1, _⟩ => show win6_3.index t (1 : Fin 2) * 1 + 1 * (y 1).val = (y 1).val; omega

/-- Window 4's one block is its whole array: a block index is the array index. -/
theorem emb6_4 (t : Fin cfg6.N) (y : S1x1.Idx) : ((cfg6.win 4).blk t).view.emb y = y := by
  obtain ⟨e00, e01, e10, e11, e20, e21, e30, e31, e40, e41, e50, e51⟩ := idx_facts6 t
  funext a; apply Fin.ext
  match a with
  | ⟨0, _⟩ => show win6_4.index t (0 : Fin 2) * 1 + 1 * (y 0).val = (y 0).val; omega
  | ⟨1, _⟩ => show win6_4.index t (1 : Fin 2) * 1 + 1 * (y 1).val = (y 1).val; omega

/-- Window 5's one block is its whole array: a block index is the array index. -/
theorem emb6_5 (t : Fin cfg6.N) (y : S256x1.Idx) : ((cfg6.win 5).blk t).view.emb y = y := by
  obtain ⟨e00, e01, e10, e11, e20, e21, e30, e31, e40, e41, e50, e51⟩ := idx_facts6 t
  funext a; apply Fin.ext
  match a with
  | ⟨0, _⟩ => show win6_5.index t (0 : Fin 2) * 256 + 1 * (y 0).val = (y 0).val; omega
  | ⟨1, _⟩ => show win6_5.index t (1 : Fin 2) * 1 + 1 * (y 1).val = (y 1).val; omega

set_option maxHeartbeats 400000 in
/-- What the one point writes back is `mlpF` of the arrays as the region finds them, read through the
    (whole-array) block. -/
theorem flushed6_eq (c : Dev nD) (t : Fin cfg6.N) :
    (dat6 V c).flushed 5 t = ((cfg6.win 5).blk t).view.read (Elt Ideal)
      (mlpF (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz6]
  simp only [View.ld_unit_zero (S := S256x128) hz6, View.ld_unit_zero (S := S128x64) hz6, View.ld_unit_zero (S := S1x64) hz6,
    View.ld_unit_zero (S := S64x1) hz6, View.ld_unit_zero (S := S1x1) hz6]
  funext j
  refine (k6_pay1_at (iblk6 V c 0 t) (iblk6 V c 1 t) (iblk6 V c 2 t) (iblk6 V c 3 t) (iblk6 V c 4 t) j).trans ?_
  refine (mlp_read (V c (Pipeline.arrRef spec6 0)) (V c (Pipeline.arrRef spec6 1)) (V c (Pipeline.arrRef spec6 2))
    (V c (Pipeline.arrRef spec6 3)) (V c (Pipeline.arrRef spec6 4))
    (iblk6 V c 0 t) (iblk6 V c 1 t) (iblk6 V c 2 t) (iblk6 V c 3 t) (iblk6 V c 4 t) j
    (fun y => congrArg (V c (Pipeline.arrRef spec6 0)) (emb6_0 t y))
    (fun y => congrArg (V c (Pipeline.arrRef spec6 1)) (emb6_1 t y))
    (fun y => congrArg (V c (Pipeline.arrRef spec6 2)) (emb6_2 t y))
    (fun y => congrArg (V c (Pipeline.arrRef spec6 3)) (emb6_3 t y))
    (fun y => congrArg (V c (Pipeline.arrRef spec6 4)) (emb6_4 t y))).trans ?_
  exact (congrArg (mlpF (V c (Pipeline.arrRef spec6 0)) (V c (Pipeline.arrRef spec6 1)) (V c (Pipeline.arrRef spec6 2))
    (V c (Pipeline.arrRef spec6 3)) (V c (Pipeline.arrRef spec6 4))) (emb6_5 t j)).symm

/-- The one point's block covers the whole result array. -/
theorem cover6 (i : S256x1.Idx) :
    ∃ t : Fin cfg6.N, (cfg6.win 5).flush t = true ∧ i ∈ ((cfg6.win 5).blk t).view.set := by
  have hi0 : (i 0).val < 256 := (i 0).isLt
  have hi1 : (i 1).val < 1 := (i 1).isLt
  have hN : cfg6.N = 1 := N_6
  let t : Fin cfg6.N := ⟨0, by rw [hN]; omega⟩
  obtain ⟨e00, e01, e10, e11, e20, e21, e30, e31, e40, e41, e50, e51⟩ := idx_facts6 t
  refine ⟨t, flush6_5 t, ?_⟩
  show i ∈ ((View.whole main_v152).slice (win6_5.rect t)).set
  rw [View.set_slice_whole, Rect.mem_set_unit]
  intro a
  match a with
  | ⟨0, _⟩ => show win6_5.index t (0 : Fin 2) * 256 ≤ (i 0).val ∧ (i 0).val < win6_5.index t (0 : Fin 2) * 256 + 256; omega
  | ⟨1, _⟩ => show win6_5.index t (1 : Fin 2) * 1 ≤ (i 1).val ∧ (i 1).val < win6_5.index t (1 : Fin 2) * 1 + 1; omega

/-- THE ARRAY the region leaves: `mlpF` of the five arrays it read. -/
theorem mlp_arr (c : Dev nD) :
    (dat6 V c).arrAt 5 cfg6.N
      = mlpF (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 _ (fun t _ => flushed6_eq V c t) cover6

end Cert.KernelIdeal.HandBn

end
-- ==== Proof.KerChain2.lean ====
/-
  The idealized kernel program's buffer contents at every later boundary, in closed form: region by region and stretch
  by stretch, each buffer a later step reads is the tower's function of the argument arrays — a region's output arrays
  by the region's value theorems at its entry contents, a stretch's results by the stretch read back, a buffer carried
  across untouched steps by the fact that none of them writes it — down to the result array after the last region.
-/
import proofs.«181322_j48155173322905_2_alg».proof.Proof.KerChain1
import proofs.«181322_j48155173322905_2_alg».proof.Proof.KerTower
import proofs.«181322_j48155173322905_2_alg».proof.Proof.LinArr0
import proofs.«181322_j48155173322905_2_alg».proof.Proof.LinArr2
import proofs.«181322_j48155173322905_2_alg».proof.Proof.LinArr4
import proofs.«181322_j48155173322905_2_alg».proof.Proof.BnArr1
import proofs.«181322_j48155173322905_2_alg».proof.Proof.BnArr3
import proofs.«181322_j48155173322905_2_alg».proof.Proof.BnArr5
import proofs.«181322_j48155173322905_2_alg».proof.Proof.MlpArr
import Idealize.ShloMosaic.Lib.ValueIdx

set_option maxRecDepth 16384

noncomputable section

namespace Cert.KernelIdeal.HandRun

open Idealize.ShloMosaic Idealize.ShloMosaic.TcCoe Idealize.SL.Sem Idealize.ShloMosaic.StableHlo Idealize.ShloMosaic.ValueIdx
open Cert.KernelIdeal Cert.KernelIdeal.Gen Cert.KernelIdeal.HandLin Cert.KernelIdeal.HandBn

variable (m : (ℓ : Loc nD τ sig) → Buf (Elt Ideal) ℓ) (ρ : Dev nD → PrngReg) (c : Dev nD)

/-! ## Layer 0 -/
theorem w2_L : W2 m ρ c (Proc.devRef .tc main_v30_0) = (kL0 (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 5).trans ((lin0_arr (V1 m ρ) c).trans ?_)
  show linF 64 (W1 m ρ c (Proc.devRef .tc main_v28)) (W1 m ρ c (Proc.devRef .tc main_arg0)) (W1 m ρ c (Proc.devRef .tc main_arg3)) (W1 m ρ c (Proc.devRef .tc main_arg4)) (W1 m ρ c (Proc.devRef .tc main_v29)) = _
  rw [w1_agg, arg0_W1 m ρ c, arg3_W1 m ρ c, arg4_W1 m ρ c, w1_b] <;> rfl
theorem w2_P : W2 m ρ c (Proc.devRef .tc main_v30_1) = (tileSum (kL0 (m ((c : Thread nD τ).loc main_arg0)) (m ((c : Thread nD τ).loc main_arg1)) (m ((c : Thread nD τ).loc main_arg3)) (m ((c : Thread nD τ).loc main_arg4)) (m ((c : Thread nD τ).loc main_arg5)))) := by
  refine (W2_arr m ρ c 6).trans ((sum0_arr (V1 m ρ) c).trans ?_)
  show tileSum (linF 64 (W1 m ρ c (Proc.devRef .tc main_v28)) (W1 m ρ c (Proc.devRef .tc main_arg0)) (W1 m ρ c (Proc.devRef .tc main_arg3)) (W1 m ρ c (Proc.devRef .tc main_arg4)) (W1 m ρ c (Proc.devRef .tc main_v29))) = _
  rw [w1_agg, arg0_W1 m ρ c, arg3_W1 m ρ c, arg4_W1 m ρ c, w1_b] <;> rfl
theorem w2_Q : W2 m ρ c (Proc.devRef .tc main_v30_2) = (tileSum (fun i => (kL0 (m ((c : Thread nD τ).loc main_arg0)) (m ((c : Thread nD τ).loc main_arg1)) (m ((c : Thread nD τ).loc main_arg3)) (m ((c : Thread nD τ).loc main_arg4)) (m ((c : Thread nD τ).loc main_arg5))) i * (kL0 (m ((c : Thread nD τ).loc main_arg0)) (m ((c : Thread nD τ).loc main_arg1)) (m ((c : Thread nD τ).loc main_arg3)) (m ((c : Thread nD τ).loc main_arg4)) (m ((c : Thread nD τ).loc main_arg5))) i)) := by
  refine (W2_arr m ρ c 7).trans ((sq0_arr (V1 m ρ) c).trans ?_)
  show tileSum (fun i => linF 64 (W1 m ρ c (Proc.devRef .tc main_v28)) (W1 m ρ c (Proc.devRef .tc main_arg0)) (W1 m ρ c (Proc.devRef .tc main_arg3)) (W1 m ρ c (Proc.devRef .tc main_arg4)) (W1 m ρ c (Proc.devRef .tc main_v29)) i * linF 64 (W1 m ρ c (Proc.devRef .tc main_v28)) (W1 m ρ c (Proc.devRef .tc main_arg0)) (W1 m ρ c (Proc.devRef .tc main_arg3)) (W1 m ρ c (Proc.devRef .tc main_arg4)) (W1 m ρ c (Proc.devRef .tc main_v29)) i) = _
  rw [w1_agg, arg0_W1 m ρ c, arg3_W1 m ρ c, arg4_W1 m ρ c, w1_b] <;> rfl
theorem w2_g : W2 m ρ c (Proc.devRef .tc main_v14) = (tableRow0 (m ((c : Thread nD τ).loc main_arg12))) :=
  (W2_of_ne m ρ c main_v14 (by decide)).trans (w1_g m ρ c)
theorem w2_bt : W2 m ρ c (Proc.devRef .tc main_v16) = (tableRow0 (m ((c : Thread nD τ).loc main_arg13))) :=
  (W2_of_ne m ρ c main_v16 (by decide)).trans (w1_bt m ρ c)
theorem w3_sc : W3 m ρ c (Proc.devRef .tc main_v51) = (asRow128 (F := Ideal) (scaleOf (F := Ideal) (tileSum (kL0 (m ((c : Thread nD τ).loc main_arg0)) (m ((c : Thread nD τ).loc main_arg1)) (m ((c : Thread nD τ).loc main_arg3)) (m ((c : Thread nD τ).loc main_arg4)) (m ((c : Thread nD τ).loc main_arg5)))) (tileSum (fun i => (kL0 (m ((c : Thread nD τ).loc main_arg0)) (m ((c : Thread nD τ).loc main_arg1)) (m ((c : Thread nD τ).loc main_arg3)) (m ((c : Thread nD τ).loc main_arg4)) (m ((c : Thread nD τ).loc main_arg5))) i * (kL0 (m ((c : Thread nD τ).loc main_arg0)) (m ((c : Thread nD τ).loc main_arg1)) (m ((c : Thread nD τ).loc main_arg3)) (m ((c : Thread nD τ).loc main_arg4)) (m ((c : Thread nD τ).loc main_arg5))) i)) (tableRow0 (m ((c : Thread nD τ).loc main_arg12))))) :=
  (h1_sc (W2 m ρ c)).trans (by rw [w2_P, w2_Q, w2_g])
theorem w3_sh : W3 m ρ c (Proc.devRef .tc main_v52) = (asRow128 (F := Ideal) (shiftOf (F := Ideal) (tileSum (kL0 (m ((c : Thread nD τ).loc main_arg0)) (m ((c : Thread nD τ).loc main_arg1)) (m ((c : Thread nD τ).loc main_arg3)) (m ((c : Thread nD τ).loc main_arg4)) (m ((c : Thread nD τ).loc main_arg5)))) (tileSum (fun i => (kL0 (m ((c : Thread nD τ).loc main_arg0)) (m ((c : Thread nD τ).loc main_arg1)) (m ((c : Thread nD τ).loc main_arg3)) (m ((c : Thread nD τ).loc main_arg4)) (m ((c : Thread nD τ).loc main_arg5))) i * (kL0 (m ((c : Thread nD τ).loc main_arg0)) (m ((c : Thread nD τ).loc main_arg1)) (m ((c : Thread nD τ).loc main_arg3)) (m ((c : Thread nD τ).loc main_arg4)) (m ((c : Thread nD τ).loc main_arg5))) i)) (tableRow0 (m ((c : Thread nD τ).loc main_arg12))) (tableRow0 (m ((c : Thread nD τ).loc main_arg13))))) :=
  (h1_sh (W2 m ρ c)).trans (by rw [w2_P, w2_Q, w2_g, w2_bt])
theorem w3_L : W3 m ρ c (Proc.devRef .tc main_v30_0) = (kL0 (m ((c : Thread nD τ).loc main_arg0)) (m ((c : Thread nD τ).loc main_arg1)) (m ((c : Thread nD τ).loc main_arg3)) (m ((c : Thread nD τ).loc main_arg4)) (m ((c : Thread nD τ).loc main_arg5))) :=
  (carryH1 (W2 m ρ c) main_v30_0 (by decide)).trans (w2_L m ρ c)
theorem w4_H : W4 m ρ c (Proc.devRef .tc main_v53) = (kH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13))) := by
  refine (W4_arr m ρ c 3).trans ((bn1_arr (V3 m ρ) c).trans ?_)
  show bnF (W3 m ρ c (Proc.devRef .tc main_v30_0)) (W3 m ρ c (Proc.devRef .tc main_v51)) (W3 m ρ c (Proc.devRef .tc main_v52)) = _
  rw [w3_L, w3_sc, w3_sh] <;> rfl

/-! ## Between layers 0 and 1 -/
theorem w4_src : W4 m ρ c (Proc.devRef .tc main_v1) = (edgeSrc (m ((c : Thread nD τ).loc main_arg1))) :=
  ((W4_of_ne m ρ c main_v1 (by decide)).trans ((carryH1 (W2 m ρ c) main_v1 (by decide)).trans (W2_of_ne m ρ c main_v1 (by decide)))).trans (w1_src m ρ c)
theorem w4_dst : W4 m ρ c (Proc.devRef .tc main_v3) = (edgeDst (m ((c : Thread nD τ).loc main_arg1))) :=
  ((W4_of_ne m ρ c main_v3 (by decide)).trans ((carryH1 (W2 m ρ c) main_v3 (by decide)).trans (W2_of_ne m ρ c main_v3 (by decide)))).trans (w1_dst m ρ c)
theorem w4_inv : W4 m ρ c (Proc.devRef .tc main_v12) = (invDeg (edgeDst (m ((c : Thread nD τ).loc main_arg1)))) :=
  ((W4_of_ne m ρ c main_v12 (by decide)).trans ((carryH1 (W2 m ρ c) main_v12 (by decide)).trans (W2_of_ne m ρ c main_v12 (by decide)))).trans (w1_inv m ρ c)
theorem w5_agg : W5 m ρ c (Proc.devRef .tc main_v70) = (kA1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13))) :=
  (h2_agg (W4 m ρ c)).trans (by rw [w4_src, w4_dst, w4_inv, w4_H] <;> rfl)
theorem w5_g : W5 m ρ c (Proc.devRef .tc main_v55) = (tableRow1 (m ((c : Thread nD τ).loc main_arg12))) :=
  (h2_g (W4 m ρ c)).trans (by rw [arg12_W4])
theorem w5_bt : W5 m ρ c (Proc.devRef .tc main_v57) = (tableRow1 (m ((c : Thread nD τ).loc main_arg13))) :=
  (h2_bt (W4 m ρ c)).trans (by rw [arg13_W4])
theorem w5_b : W5 m ρ c (Proc.devRef .tc main_v71) = asRow128 (m ((c : Thread nD τ).loc main_arg8)) :=
  (h2_b (W4 m ρ c)).trans (by rw [arg8_W4])
theorem w5_H : W5 m ρ c (Proc.devRef .tc main_v53) = (kH1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13))) :=
  (carryH2 (W4 m ρ c) main_v53 (by decide)).trans (w4_H m ρ c)

/-! ## Layer 1 -/
theorem w6_L : W6 m ρ c (Proc.devRef .tc main_v72_0) = (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) := by
  refine (W6_arr m ρ c 5).trans ((lin2_arr (V5 m ρ) c).trans ?_)
  show linF 128 (W5 m ρ c (Proc.devRef .tc main_v70)) (W5 m ρ c (Proc.devRef .tc main_v53)) (W5 m ρ c (Proc.devRef .tc main_arg6)) (W5 m ρ c (Proc.devRef .tc main_arg7)) (W5 m ρ c (Proc.devRef .tc main_v71)) = _
  rw [w5_agg, w5_H, arg6_W5 m ρ c, arg7_W5 m ρ c, w5_b] <;> rfl
theorem w6_P : W6 m ρ c (Proc.devRef .tc main_v72_1) = (tileSum (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)))) := by
  refine (W6_arr m ρ c 6).trans ((sum2_arr (V5 m ρ) c).trans ?_)
  show tileSum (linF 128 (W5 m ρ c (Proc.devRef .tc main_v70)) (W5 m ρ c (Proc.devRef .tc main_v53)) (W5 m ρ c (Proc.devRef .tc main_arg6)) (W5 m ρ c (Proc.devRef .tc main_arg7)) (W5 m ρ c (Proc.devRef .tc main_v71))) = _
  rw [w5_agg, w5_H, arg6_W5 m ρ c, arg7_W5 m ρ c, w5_b] <;> rfl
theorem w6_Q : W6 m ρ c (Proc.devRef .tc main_v72_2) = (tileSum (fun i => (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) i * (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) i)) := by
  refine (W6_arr m ρ c 7).trans ((sq2_arr (V5 m ρ) c).trans ?_)
  show tileSum (fun i => linF 128 (W5 m ρ c (Proc.devRef .tc main_v70)) (W5 m ρ c (Proc.devRef .tc main_v53)) (W5 m ρ c (Proc.devRef .tc main_arg6)) (W5 m ρ c (Proc.devRef .tc main_arg7)) (W5 m ρ c (Proc.devRef .tc main_v71)) i * linF 128 (W5 m ρ c (Proc.devRef .tc main_v70)) (W5 m ρ c (Proc.devRef .tc main_v53)) (W5 m ρ c (Proc.devRef .tc main_arg6)) (W5 m ρ c (Proc.devRef .tc main_arg7)) (W5 m ρ c (Proc.devRef .tc main_v71)) i) = _
  rw [w5_agg, w5_H, arg6_W5 m ρ c, arg7_W5 m ρ c, w5_b] <;> rfl
theorem w6_g : W6 m ρ c (Proc.devRef .tc main_v55) = (tableRow1 (m ((c : Thread nD τ).loc main_arg12))) :=
  (W6_of_ne m ρ c main_v55 (by decide)).trans (w5_g m ρ c)
theorem w6_bt : W6 m ρ c (Proc.devRef .tc main_v57) = (tableRow1 (m ((c : Thread nD τ).loc main_arg13))) :=
  (W6_of_ne m ρ c main_v57 (by decide)).trans (w5_bt m ρ c)
theorem w7_sc : W7 m ρ c (Proc.devRef .tc main_v93) = (asRow128 (F := Ideal) (scaleOf (F := Ideal) (tileSum (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)))) (tileSum (fun i => (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) i * (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) i)) (tableRow1 (m ((c : Thread nD τ).loc main_arg12))))) :=
  (h3_sc (W6 m ρ c)).trans (by rw [w6_P, w6_Q, w6_g])
theorem w7_sh : W7 m ρ c (Proc.devRef .tc main_v94) = (asRow128 (F := Ideal) (shiftOf (F := Ideal) (tileSum (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)))) (tileSum (fun i => (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) i * (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) i)) (tableRow1 (m ((c : Thread nD τ).loc main_arg12))) (tableRow1 (m ((c : Thread nD τ).loc main_arg13))))) :=
  (h3_sh (W6 m ρ c)).trans (by rw [w6_P, w6_Q, w6_g, w6_bt])
theorem w7_L : W7 m ρ c (Proc.devRef .tc main_v72_0) = (kL1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) :=
  (carryH3 (W6 m ρ c) main_v72_0 (by decide)).trans (w6_L m ρ c)
theorem w8_H : W8 m ρ c (Proc.devRef .tc main_v95) = (kH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) := by
  refine (W8_arr m ρ c 3).trans ((bn3_arr (V7 m ρ) c).trans ?_)
  show bnF (W7 m ρ c (Proc.devRef .tc main_v72_0)) (W7 m ρ c (Proc.devRef .tc main_v93)) (W7 m ρ c (Proc.devRef .tc main_v94)) = _
  rw [w7_L, w7_sc, w7_sh] <;> rfl

/-! ## Between layers 1 and 2 -/
theorem w8_src : W8 m ρ c (Proc.devRef .tc main_v1) = (edgeSrc (m ((c : Thread nD τ).loc main_arg1))) :=
  ((W8_of_ne m ρ c main_v1 (by decide)).trans ((carryH3 (W6 m ρ c) main_v1 (by decide)).trans ((W6_of_ne m ρ c main_v1 (by decide)).trans ((carryH2 (W4 m ρ c) main_v1 (by decide)).trans ((W4_of_ne m ρ c main_v1 (by decide)).trans ((carryH1 (W2 m ρ c) main_v1 (by decide)).trans (W2_of_ne m ρ c main_v1 (by decide)))))))).trans (w1_src m ρ c)
theorem w8_dst : W8 m ρ c (Proc.devRef .tc main_v3) = (edgeDst (m ((c : Thread nD τ).loc main_arg1))) :=
  ((W8_of_ne m ρ c main_v3 (by decide)).trans ((carryH3 (W6 m ρ c) main_v3 (by decide)).trans ((W6_of_ne m ρ c main_v3 (by decide)).trans ((carryH2 (W4 m ρ c) main_v3 (by decide)).trans ((W4_of_ne m ρ c main_v3 (by decide)).trans ((carryH1 (W2 m ρ c) main_v3 (by decide)).trans (W2_of_ne m ρ c main_v3 (by decide)))))))).trans (w1_dst m ρ c)
theorem w8_inv : W8 m ρ c (Proc.devRef .tc main_v12) = (invDeg (edgeDst (m ((c : Thread nD τ).loc main_arg1)))) :=
  ((W8_of_ne m ρ c main_v12 (by decide)).trans ((carryH3 (W6 m ρ c) main_v12 (by decide)).trans ((W6_of_ne m ρ c main_v12 (by decide)).trans ((carryH2 (W4 m ρ c) main_v12 (by decide)).trans ((W4_of_ne m ρ c main_v12 (by decide)).trans ((carryH1 (W2 m ρ c) main_v12 (by decide)).trans (W2_of_ne m ρ c main_v12 (by decide)))))))).trans (w1_inv m ρ c)
theorem w9_agg : W9 m ρ c (Proc.devRef .tc main_v112) = (kA2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) :=
  (h4_agg (W8 m ρ c)).trans (by rw [w8_src, w8_dst, w8_inv, w8_H] <;> rfl)
theorem w9_g : W9 m ρ c (Proc.devRef .tc main_v97) = (tableRow2 (m ((c : Thread nD τ).loc main_arg12))) :=
  (h4_g (W8 m ρ c)).trans (by rw [arg12_W8])
theorem w9_bt : W9 m ρ c (Proc.devRef .tc main_v99) = (tableRow2 (m ((c : Thread nD τ).loc main_arg13))) :=
  (h4_bt (W8 m ρ c)).trans (by rw [arg13_W8])
theorem w9_b : W9 m ρ c (Proc.devRef .tc main_v113) = asRow128 (m ((c : Thread nD τ).loc main_arg11)) :=
  (h4_b (W8 m ρ c)).trans (by rw [arg11_W8])
theorem w9_H : W9 m ρ c (Proc.devRef .tc main_v95) = (kH2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8))) :=
  (carryH4 (W8 m ρ c) main_v95 (by decide)).trans (w8_H m ρ c)

/-! ## Layer 2 -/
theorem w10_L : W10 m ρ c (Proc.devRef .tc main_v114_0) = (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W10_arr m ρ c 5).trans ((lin4_arr (V9 m ρ) c).trans ?_)
  show linF 128 (W9 m ρ c (Proc.devRef .tc main_v112)) (W9 m ρ c (Proc.devRef .tc main_v95)) (W9 m ρ c (Proc.devRef .tc main_arg9)) (W9 m ρ c (Proc.devRef .tc main_arg10)) (W9 m ρ c (Proc.devRef .tc main_v113)) = _
  rw [w9_agg, w9_H, arg9_W9 m ρ c, arg10_W9 m ρ c, w9_b] <;> rfl
theorem w10_P : W10 m ρ c (Proc.devRef .tc main_v114_1) = (tileSum (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) := by
  refine (W10_arr m ρ c 6).trans ((sum4_arr (V9 m ρ) c).trans ?_)
  show tileSum (linF 128 (W9 m ρ c (Proc.devRef .tc main_v112)) (W9 m ρ c (Proc.devRef .tc main_v95)) (W9 m ρ c (Proc.devRef .tc main_arg9)) (W9 m ρ c (Proc.devRef .tc main_arg10)) (W9 m ρ c (Proc.devRef .tc main_v113))) = _
  rw [w9_agg, w9_H, arg9_W9 m ρ c, arg10_W9 m ρ c, w9_b] <;> rfl
theorem w10_Q : W10 m ρ c (Proc.devRef .tc main_v114_2) = (tileSum (fun i => (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) i * (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) i)) := by
  refine (W10_arr m ρ c 7).trans ((sq4_arr (V9 m ρ) c).trans ?_)
  show tileSum (fun i => linF 128 (W9 m ρ c (Proc.devRef .tc main_v112)) (W9 m ρ c (Proc.devRef .tc main_v95)) (W9 m ρ c (Proc.devRef .tc main_arg9)) (W9 m ρ c (Proc.devRef .tc main_arg10)) (W9 m ρ c (Proc.devRef .tc main_v113)) i * linF 128 (W9 m ρ c (Proc.devRef .tc main_v112)) (W9 m ρ c (Proc.devRef .tc main_v95)) (W9 m ρ c (Proc.devRef .tc main_arg9)) (W9 m ρ c (Proc.devRef .tc main_arg10)) (W9 m ρ c (Proc.devRef .tc main_v113)) i) = _
  rw [w9_agg, w9_H, arg9_W9 m ρ c, arg10_W9 m ρ c, w9_b] <;> rfl
theorem w10_g : W10 m ρ c (Proc.devRef .tc main_v97) = (tableRow2 (m ((c : Thread nD τ).loc main_arg12))) :=
  (W10_of_ne m ρ c main_v97 (by decide)).trans (w9_g m ρ c)
theorem w10_bt : W10 m ρ c (Proc.devRef .tc main_v99) = (tableRow2 (m ((c : Thread nD τ).loc main_arg13))) :=
  (W10_of_ne m ρ c main_v99 (by decide)).trans (w9_bt m ρ c)
theorem w11_sc : W11 m ρ c (Proc.devRef .tc main_v135) = (asRow128 (F := Ideal) (scaleOf (F := Ideal) (tileSum (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) (tileSum (fun i => (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) i * (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) i)) (tableRow2 (m ((c : Thread nD τ).loc main_arg12))))) :=
  (h5_sc (W10 m ρ c)).trans (by rw [w10_P, w10_Q, w10_g])
theorem w11_sh : W11 m ρ c (Proc.devRef .tc main_v136) = (asRow128 (F := Ideal) (shiftOf (F := Ideal) (tileSum (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))) (tileSum (fun i => (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) i * (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) i)) (tableRow2 (m ((c : Thread nD τ).loc main_arg12))) (tableRow2 (m ((c : Thread nD τ).loc main_arg13))))) :=
  (h5_sh (W10 m ρ c)).trans (by rw [w10_P, w10_Q, w10_g, w10_bt])
theorem w11_L : W11 m ρ c (Proc.devRef .tc main_v114_0) = (kL2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (carryH5 (W10 m ρ c) main_v114_0 (by decide)).trans (w10_L m ρ c)
theorem w12_H : W12 m ρ c (Proc.devRef .tc main_v137) = (kH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W12_arr m ρ c 3).trans ((bn5_arr (V11 m ρ) c).trans ?_)
  show bnF (W11 m ρ c (Proc.devRef .tc main_v114_0)) (W11 m ρ c (Proc.devRef .tc main_v135)) (W11 m ρ c (Proc.devRef .tc main_v136)) = _
  rw [w11_L, w11_sc, w11_sh] <;> rfl

/-! ## The pool and the perceptron -/
theorem w13_pool : W13 m ρ c (Proc.devRef .tc main_v149) = pool (F := Ideal) (m ((c : Thread nD τ).loc main_arg2)) (kH3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) :=
  (h6_pool (W12 m ρ c)).trans (by rw [arg2_W12, w12_H])
theorem w13_b1 : W13 m ρ c (Proc.devRef .tc main_v150) = asRow64 (m ((c : Thread nD τ).loc main_arg15)) :=
  (h6_b1 (W12 m ρ c)).trans (by rw [arg15_W12])
theorem w13_b2 : W13 m ρ c (Proc.devRef .tc main_v151) = asRow1 (m ((c : Thread nD τ).loc main_arg17)) :=
  (h6_b2 (W12 m ρ c)).trans (by rw [arg17_W12])
/-- The result array after the last region is the tower's value of the argument arrays. -/
theorem w14_out : W14 m ρ c (Proc.devRef .tc main_v152) = (kOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg14)) (m ((c : Thread nD τ).loc main_arg15)) (m ((c : Thread nD τ).loc main_arg16)) (m ((c : Thread nD τ).loc main_arg17))) := by
  refine (W14_arr m ρ c 5).trans ((mlp_arr (V13 m ρ) c).trans ?_)
  show mlpF (W13 m ρ c (Proc.devRef .tc main_v149)) (W13 m ρ c (Proc.devRef .tc main_arg14)) (W13 m ρ c (Proc.devRef .tc main_v150)) (W13 m ρ c (Proc.devRef .tc main_arg16)) (W13 m ρ c (Proc.devRef .tc main_v151)) = _
  rw [w13_pool, arg14_W13 m ρ c, w13_b1, arg16_W13 m ρ c, w13_b2] <;> rfl

end Cert.KernelIdeal.HandRun

end
-- ==== Proof.KerValue.lean ====
/-
  The idealized kernel program's run with its result in closed form: every weakly fair execution terminates with the
  result array at the tower's value of the argument arrays, and every argument array as launched.
-/
import proofs.«181322_j48155173322905_2_alg».proof.Proof.KerRun
import proofs.«181322_j48155173322905_2_alg».proof.Proof.KerChain2
import Idealize.ShloMosaic.Lib.ValueIdx

set_option maxRecDepth 16384

noncomputable section

namespace Cert.KernelIdeal.HandRun

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

theorem run_ker : θ_run defs (onTc (τ := τ) (main (F := Ideal))) ⟨m, fun _ => 0, ρ⟩ (fun r => ∀ c : Dev nD,
      r.2.mem ((c.tc : Thread nD τ).loc main_v152) = (kOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg12)) (m ((c : Thread nD τ).loc main_arg13)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg2)) (m ((c : Thread nD τ).loc main_arg14)) (m ((c : Thread nD τ).loc main_arg15)) (m ((c : Thread nD τ).loc main_arg16)) (m ((c : Thread nD τ).loc main_arg17)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c).1.trans (w14_out m ρ c), (h c).2⟩) (run_main (F := Ideal) m ρ)

end Cert.KernelIdeal.HandRun

end
-- ==== Proof.RefOps.lean ====
import proofs.«181322_j48155173322905_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A line's fold over two lists run one after the other is the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation whose written set is the one buffer `y`, a member of the list `wl`, writes inside `wl`. -/
theorem writes_sub_of_mem {op : HloOp τ sig (Elt F)} {y : Ref sig .tc} {wl : List (Ref sig .tc)}
    (hw : op.writes = {(Proc.devRef .tc y : DevRef τ sig)}) (hy : y ∈ wl) :
    op.writes ⊆ (wl.map (Proc.devRef (τ := τ) .tc)).toFinset := by
  rw [hw, Finset.singleton_subset_iff, List.mem_toFinset]
  exact List.mem_map.mpr ⟨y, hy, rfl⟩

/-! ## The program's operations, in order, in consecutive pieces

Each piece is a run of consecutive operations of the program text (a callee's operations are listed at the
call, over that call's buffers). -/

/-- Operations 0 … 16 of the program. -/
def c00 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)) ]

/-- The buffers the piece writes, in order. -/
def w00 : List (Ref sig .tc) :=
  [main_v0, main_v1, main_v2, main_v3, main_cst, main_v4, main_cst_0, main_v5, main_v6, main_v7, main_cst_1, main_v8, main_v9, main_cst_2, main_v10, main_v11, main_v12]

theorem c00_sub : (c00 : List (HloOp τ sig (Elt F))).Forall fun op => op.bufs ⊆ tcRefs τ sig := by
  unfold c00
  exact ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩

theorem c00_fresh : (c00 : List (HloOp τ sig (Elt F))).Forall fun op => op.fresh = ∅ := by
  unfold c00
  exact ⟨rfl, rfl, rfl, rfl, rfl, rfl, rfl, rfl, rfl, rfl, rfl, rfl, rfl, rfl, rfl, rfl, rfl⟩

theorem c00_writes : (c00 : List (HloOp τ sig (Elt F))).Forall fun op =>
    op.writes ⊆ (w00.map (Proc.devRef (τ := τ) .tc)).toFinset := by
  unfold c00
  exact ⟨writes_sub_of_mem (y := main_v0) rfl (by decide),
    writes_sub_of_mem (y := main_v1) rfl (by decide),
    writes_sub_of_mem (y := main_v2) rfl (by decide),
    writes_sub_of_mem (y := main_v3) rfl (by decide),
    writes_sub_of_mem (y := main_cst) rfl (by decide),
    writes_sub_of_mem (y := main_v4) rfl (by decide),
    writes_sub_of_mem (y := main_cst_0) rfl (by decide),
    writes_sub_of_mem (y := main_v5) rfl (by decide),
    writes_sub_of_mem (y := main_v6) rfl (by decide),
    writes_sub_of_mem (y := main_v7) rfl (by decide),
    writes_sub_of_mem (y := main_cst_1) rfl (by decide),
    writes_sub_of_mem (y := main_v8) rfl (by decide),
    writes_sub_of_mem (y := main_v9) rfl (by decide),
    writes_sub_of_mem (y := main_cst_2) rfl (by decide),
    writes_sub_of_mem (y := main_v10) rfl (by decide),
    writes_sub_of_mem (y := main_v11) rfl (by decide),
    writes_sub_of_mem (y := main_v12) rfl (by decide)⟩

/-- Operations 17 … 24 of the program. -/
def c01 : List (HloOp τ sig (Elt F)) :=
  [ StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_v1 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v15 (broadcastInDim S800000 ![] bcast_S_S800000 : (⟨S_, .i32⟩ : BufTy).Contents (Elt F) → (⟨S800000, .i32⟩ : BufTy).Contents (Elt F)),
    StableHlo.binary main_v1 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)) ]

/-- The buffers the piece writes, in order. -/
def w01 : List (Ref sig .tc) :=
  [main_c, main_v13, main_v14, main_c_3, main_v15, main_v16, main_v17, main_v18]

theorem c01_sub : (c01 : List (HloOp τ sig (Elt F))).Forall fun op => op.bufs ⊆ tcRefs τ sig := by
  unfold c01
  exact ⟨nullary_bufs_sub .., unary_bufs_sub .., binary_bufs_sub .., nullary_bufs_sub .., unary_bufs_sub .., binary_bufs_sub .., ternary_bufs_sub .., unary_bufs_sub ..⟩

theorem c01_fresh : (c01 : List (HloOp τ sig (Elt F))).Forall fun op => op.fresh = ∅ := by
  unfold c01
  exact ⟨rfl, rfl, rfl, rfl, rfl, rfl, rfl, rfl⟩

theorem c01_writes : (c01 : List (HloOp τ sig (Elt F))).Forall fun op =>
    op.writes ⊆ (w01.map (Proc.devRef (τ := τ) .tc)).toFinset := by
  unfold c01
  exact ⟨writes_sub_of_mem (y := main_c) rfl (by decide),
    writes_sub_of_mem (y := main_v13) rfl (by decide),
    writes_sub_of_mem (y := main_v14) rfl (by decide),
    writes_sub_of_mem (y := main_c_3) rfl (by decide),
    writes_sub_of_mem (y := main_v15) rfl (by decide),
    writes_sub_of_mem (y := main_v16) rfl (by decide),
    writes_sub_of_mem (y := main_v17) rfl (by decide),
    writes_sub_of_mem (y := main_v18) rfl (by decide)⟩

/-- Operations 25 … 31 of the program. -/
def c02 : List (HloOp τ sig (Elt F)) :=
  [ StableHlo.binary main_arg0 main_v18 main_v19 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_4 (constant S_ .f32 0x00000000#32),
    StableHlo.unary main_cst_4 main_v20 (broadcastInDim S50000x64 ![] bcast_S_S50000x64 : (⟨S_, .f32⟩ : BufTy).Contents (Elt F) → (⟨S50000x64, .f32⟩ : BufTy).Contents (Elt F)),
    StableHlo.unary main_v3 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.unary main_v12 main_v23 (broadcastInDim S50000x64 ![0, 1] bcast_S50000x1_S50000x64_0_1 : (⟨S50000x1, .f32⟩ : BufTy).Contents (Elt F) → (⟨S50000x64, .f32⟩ : BufTy).Contents (Elt F)),
    StableHlo.binary main_v22 main_v23 main_v24 (mulf : (⟨S50000x64, .f32⟩ : BufTy).Contents (Elt F) → (⟨S50000x64, .f32⟩ : BufTy).Contents (Elt F) → (⟨S50000x64, .f32⟩ : BufTy).Contents (Elt F)) ]

/-- The buffers the piece writes, in order. -/
def w02 : List (Ref sig .tc) :=
  [main_v19, main_cst_4, main_v20, main_v21, main_v22, main_v23, main_v24]

theorem c02_sub : (c02 : List (HloOp τ sig (Elt F))).Forall fun op => op.bufs ⊆ tcRefs τ sig := by
  unfold c02
  exact ⟨binary_bufs_sub .., nullary_bufs_sub .., unary_bufs_sub .., unary_bufs_sub .., ternary_bufs_sub .., unary_bufs_sub .., binary_bufs_sub ..⟩

theorem c02_fresh : (c02 : List (HloOp τ sig (Elt F))).Forall fun op => op.fresh = ∅ := by
  unfold c02
  exact ⟨rfl, rfl, rfl, rfl, rfl, rfl, rfl⟩

theorem c02_writes : (c02 : List (HloOp τ sig (Elt F))).Forall fun op =>
    op.writes ⊆ (w02.map (Proc.devRef (τ := τ) .tc)).toFinset := by
  unfold c02
  exact ⟨writes_sub_of_mem (y := main_v19) rfl (by decide),
    writes_sub_of_mem (y := main_cst_4) rfl (by decide),
    writes_sub_of_mem (y := main_v20) rfl (by decide),
    writes_sub_of_mem (y := main_v21) rfl (by decide),
    writes_sub_of_mem (y := main_v22) rfl (by decide),
    writes_sub_of_mem (y := main_v23) rfl (by decide),
    writes_sub_of_mem (y := main_v24) rfl (by decide)⟩

/-- Operations 32 … 37 of the program. -/
def c03 : List (HloOp τ sig (Elt F)) :=
  [ StableHlo.binary main_v24 main_arg3 main_v25 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.binary main_arg0 main_arg4 main_v26 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.binary main_v25 main_v26 main_v27 (addf : (⟨S50000x128, .f32⟩ : BufTy).Contents (Elt F) → (⟨S50000x128, .f32⟩ : BufTy).Contents (Elt F) → (⟨S50000x128, .f32⟩ : BufTy).Contents (Elt F)),
    StableHlo.unary main_arg5 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v29 main_v30 (addf : (⟨S50000x128, .f32⟩ : BufTy).Contents (Elt F) → (⟨S50000x128, .f32⟩ : BufTy).Contents (Elt F) → (⟨S50000x128, .f32⟩ : BufTy).Contents (Elt F)) ]

/-- The buffers the piece writes, in order. -/
def w03 : List (Ref sig .tc) :=
  [main_v25, main_v26, main_v27, main_v28, main_v29, main_v30]

theorem c03_sub : (c03 : List (HloOp τ sig (Elt F))).Forall fun op => op.bufs ⊆ tcRefs τ sig := by
  unfold c03
  exact ⟨binary_bufs_sub .., binary_bufs_sub .., binary_bufs_sub .., unary_bufs_sub .., unary_bufs_sub .., binary_bufs_sub ..⟩

theorem c03_fresh : (c03 : List (HloOp τ sig (Elt F))).Forall fun op => op.fresh = ∅ := by
  unfold c03
  exact ⟨rfl, rfl, rfl, rfl, rfl, rfl⟩

theorem c03_writes : (c03 : List (HloOp τ sig (Elt F))).Forall fun op =>
    op.writes ⊆ (w03.map (Proc.devRef (τ := τ) .tc)).toFinset := by
  unfold c03
  exact ⟨writes_sub_of_mem (y := main_v25) rfl (by decide),
    writes_sub_of_mem (y := main_v26) rfl (by decide),
    writes_sub_of_mem (y := main_v27) rfl (by decide),
    writes_sub_of_mem (y := main_v28) rfl (by decide),
    writes_sub_of_mem (y := main_v29) rfl (by decide),
    writes_sub_of_mem (y := main_v30) rfl (by decide)⟩

/-- Operations 38 … 41 of the program. -/
def c04 : List (HloOp τ sig (Elt F)) :=
  [ StableHlo.unary main_arg12 main_v31 ((extractStridedSlice S1x128 ![0, 0] · slices_S3x128_S1x128_0_0) : (⟨S3x128, .f32⟩ : BufTy).Contents (Elt F) → (⟨S1x128, .f32⟩ : BufTy).Contents (Elt F)),
    StableHlo.reshape main_v31 main_v32 rfl shapeCasts_S1x128_S128,
    StableHlo.unary main_arg13 main_v33 ((extractStridedSlice S1x128 ![0, 0] · slices_S3x128_S1x128_0_0) : (⟨S3x128, .f32⟩ : BufTy).Contents (Elt F) → (⟨S1x128, .f32⟩ : BufTy).Contents (Elt F)),
    StableHlo.reshape main_v33 main_v34 rfl shapeCasts_S1x128_S128 ]

/-- The buffers the piece writes, in order. -/
def w04 : List (Ref sig .tc) :=
  [main_v31, main_v32, main_v33, main_v34]

theorem c04_sub : (c04 : List (HloOp τ sig (Elt F))).Forall fun op => op.bufs ⊆ tcRefs τ sig := by
  unfold c04
  exact ⟨unary_bufs_sub .., reshape_bufs_sub .., unary_bufs_sub .., reshape_bufs_sub ..⟩

theorem c04_fresh : (c04 : List (HloOp τ sig (Elt F))).Forall fun op => op.fresh = ∅ := by
  unfold c04
  exact ⟨rfl, rfl, rfl, rfl⟩

theorem c04_writes : (c04 : List (HloOp τ sig (Elt F))).Forall fun op =>
    op.writes ⊆ (w04.map (Proc.devRef (τ := τ) .tc)).toFinset := by
  unfold c04
  exact ⟨writes_sub_of_mem (y := main_v31) rfl (by decide),
    writes_sub_of_mem (y := main_v32) rfl (by decide),
    writes_sub_of_mem (y := main_v33) rfl (by decide),
    writes_sub_of_mem (y := main_v34) rfl (by decide)⟩

/-- Operations 42 … 46 of the program. -/
def c05 : List (HloOp τ sig (Elt F)) :=
  [ StableHlo.nullary main_cst_5 (constant S_ .f32 0x00000000#32),
    StableHlo.binary main_v30 main_cst_5 main_v35 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v36 (broadcastInDim S128 ![] bcast_S_S128 : (⟨S_, .f32⟩ : BufTy).Contents (Elt F) → (⟨S128, .f32⟩ : BufTy).Contents (Elt F)),
    StableHlo.binary main_v35 main_v36 main_v37 (Host.divf : (⟨S128, .f32⟩ : BufTy).Contents (Elt F) → (⟨S128, .f32⟩ : BufTy).Contents (Elt F) → (⟨S128, .f32⟩ : BufTy).Contents (Elt F)) ]

/-- The buffers the piece writes, in order. -/
def w05 : List (Ref sig .tc) :=
  [main_cst_5, main_v35, main_cst_6, main_v36, main_v37]

theorem c05_sub : (c05 : List (HloOp τ sig (Elt F))).Forall fun op => op.bufs ⊆ tcRefs τ sig := by
  unfold c05
  exact ⟨nullary_bufs_sub .., binary_bufs_sub .., nullary_bufs_sub .., unary_bufs_sub .., binary_bufs_sub ..⟩

theorem c05_fresh : (c05 : List (HloOp τ sig (Elt F))).Forall fun op => op.fresh = ∅ := by
  unfold c05
  exact ⟨rfl, rfl, rfl, rfl, rfl⟩

theorem c05_writes : (c05 : List (HloOp τ sig (Elt F))).Forall fun op =>
    op.writes ⊆ (w05.map (Proc.devRef (τ := τ) .tc)).toFinset := by
  unfold c05
  exact ⟨writes_sub_of_mem (y := main_cst_5) rfl (by decide),
    writes_sub_of_mem (y := main_v35) rfl (by decide),
    writes_sub_of_mem (y := main_cst_6) rfl (by decide),
    writes_sub_of_mem (y := main_v36) rfl (by decide),
    writes_sub_of_mem (y := main_v37) rfl (by decide)⟩

/-- Operations 47 … 69 of the program. -/
def c06 : List (HloOp τ sig (Elt F)) :=
  [ StableHlo.nullary main_c_7 (constantI S_ 32 0#32),
    StableHlo.TRef.nullary main_call0.cst (constant S_ .f32 0x00000000#32),
    StableHlo.TRef.binary (.of main_v30) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v30) main_call0.v4 main_call0.v5 subf,
    StableHlo.TRef.binary main_call0.v5 main_call0.v5 main_call0.v6 mulf,
    StableHlo.TRef.unary (.of main_c_7) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- The buffers the piece writes, in order. -/
def w06 : List (Ref sig .tc) :=
  [main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v38]

theorem c06_sub : (c06 : List (HloOp τ sig (Elt F))).Forall fun op => op.bufs ⊆ tcRefs τ sig := by
  unfold c06
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem c06_fresh : (c06 : List (HloOp τ sig (Elt F))).Forall fun op => op.fresh = ∅ := by
  unfold c06
  exact ⟨rfl, rfl, rfl, rfl, rfl, rfl, rfl, rfl, rfl, rfl, rfl, rfl, rfl, rfl, rfl, rfl, rfl, rfl, rfl, rfl, rfl, rfl, rfl⟩

theorem c06_writes : (c06 : List (HloOp τ sig (Elt F))).Forall fun op =>
    op.writes ⊆ (w06.map (Proc.devRef (τ := τ) .tc)).toFinset := by
  unfold c06
  exact ⟨writes_sub_of_mem (y := main_c_7) rfl (by decide),
    writes_sub_of_mem (y := main_call0_cst) rfl (by decide),
    writes_sub_of_mem (y := main_call0_v0) rfl (by decide),
    writes_sub_of_mem (y := main_call0_v1) rfl (by decide),
    writes_sub_of_mem (y := main_call0_cst_0) rfl (by decide),
    writes_sub_of_mem (y := main_call0_v2) rfl (by decide),
    writes_sub_of_mem (y := main_call0_v3) rfl (by decide),
    writes_sub_of_mem (y := main_call0_v4) rfl (by decide),
    writes_sub_of_mem (y := main_call0_v5) rfl (by decide),
    writes_sub_of_mem (y := main_call0_v6) rfl (by decide),
    writes_sub_of_mem (y := main_call0_v7) rfl (by decide),
    writes_sub_of_mem (y := main_call0_cst_1) rfl (by decide),
    writes_sub_of_mem (y := main_call0_v8) rfl (by decide),
    writes_sub_of_mem (y := main_call0_cst_2) rfl (by decide),
    writes_sub_of_mem (y := main_call0_v9) rfl (by decide),
    writes_sub_of_mem (y := main_call0_v10) rfl (by decide),
    writes_sub_of_mem (y := main_call0_v11) rfl (by decide),
    writes_sub_of_mem (y := main_call0_cst_3) rfl (by decide),
    writes_sub_of_mem (y := main_call0_v12) rfl (by decide),
    writes_sub_of_mem (y := main_call0_cst_4) rfl (by decide),
    writes_sub_of_mem (y := main_call0_call0_v0) rfl (by decide),
    writes_sub_of_mem (y := main_call0_call0_v1) rfl (by decide),
    writes_sub_of_mem (y := main_v38) rfl (by decide)⟩

/-- Operations 70 … 80 of the program. -/
def c07 : List (HloOp τ sig (Elt F)) :=
  [ StableHlo.unary main_v37 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v40 main_v41 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v42 (broadcastInDim S128 ![] bcast_S_S128 : (⟨S_, .f32⟩ : BufTy).Contents (Elt F) → (⟨S128, .f32⟩ : BufTy).Contents (Elt F)),
    StableHlo.binary main_v38 main_v42 main_v43 (addf : (⟨S128, .f32⟩ : BufTy).Contents (Elt F) → (⟨S128, .f32⟩ : BufTy).Contents (Elt F) → (⟨S128, .f32⟩ : BufTy).Contents (Elt F)),
    StableHlo.unary main_v43 main_v44 (Host.rsqrt : (⟨S128, .f32⟩ : BufTy).Contents (Elt F) → (⟨S128, .f32⟩ : BufTy).Contents (Elt F)),
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v46 main_v47 (mulf : (⟨S50000x128, .f32⟩ : BufTy).Contents (Elt F) → (⟨S50000x128, .f32⟩ : BufTy).Contents (Elt F) → (⟨S50000x128, .f32⟩ : BufTy).Contents (Elt F)),
    StableHlo.unary main_v32 main_v48 (broadcastInDim S1x128 ![1] bcast_S128_S1x128_1 : (⟨S128, .f32⟩ : BufTy).Contents (Elt F) → (⟨S1x128, .f32⟩ : BufTy).Contents (Elt F)) ]

/-- The buffers the piece writes, in order. -/
def w07 : List (Ref sig .tc) :=
  [main_v39, main_v40, main_v41, main_cst_8, main_v42, main_v43, main_v44, main_v45, main_v46, main_v47, main_v48]

theorem c07_sub : (c07 : List (HloOp τ sig (Elt F))).Forall fun op => op.bufs ⊆ tcRefs τ sig := by
  unfold c07
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

theorem c07_fresh : (c07 : List (HloOp τ sig (Elt F))).Forall fun op => op.fresh = ∅ := by
  unfold c07
  exact ⟨rfl, rfl, rfl, rfl, rfl, rfl, rfl, rfl, rfl, rfl, rfl⟩

theorem c07_writes : (c07 : List (HloOp τ sig (Elt F))).Forall fun op =>
    op.writes ⊆ (w07.map (Proc.devRef (τ := τ) .tc)).toFinset := by
  unfold c07
  exact ⟨writes_sub_of_mem (y := main_v39) rfl (by decide),
    writes_sub_of_mem (y := main_v40) rfl (by decide),
    writes_sub_of_mem (y := main_v41) rfl (by decide),
    writes_sub_of_mem (y := main_cst_8) rfl (by decide),
    writes_sub_of_mem (y := main_v42) rfl (by decide),
    writes_sub_of_mem (y := main_v43) rfl (by decide),
    writes_sub_of_mem (y := main_v44) rfl (by decide),
    writes_sub_of_mem (y := main_v45) rfl (by decide),
    writes_sub_of_mem (y := main_v46) rfl (by decide),
    writes_sub_of_mem (y := main_v47) rfl (by decide),
    writes_sub_of_mem (y := main_v48) rfl (by decide)⟩

/-- Operations 81 … 85 of the program. -/
def c08 : List (HloOp τ sig (Elt F)) :=
  [ StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v49 main_v50 (mulf : (⟨S50000x128, .f32⟩ : BufTy).Contents (Elt F) → (⟨S50000x128, .f32⟩ : BufTy).Contents (Elt F) → (⟨S50000x128, .f32⟩ : BufTy).Contents (Elt F)),
    StableHlo.unary main_v34 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (addf : (⟨S50000x128, .f32⟩ : BufTy).Contents (Elt F) → (⟨S50000x128, .f32⟩ : BufTy).Contents (Elt F) → (⟨S50000x128, .f32⟩ : BufTy).Contents (Elt F)) ]

/-- The buffers the piece writes, in order. -/
def w08 : List (Ref sig .tc) :=
  [main_v49, main_v50, main_v51, main_v52, main_v53]

theorem c08_sub : (c08 : List (HloOp τ sig (Elt F))).Forall fun op => op.bufs ⊆ tcRefs τ sig := by
  unfold c08
  exact ⟨unary_bufs_sub .., binary_bufs_sub .., unary_bufs_sub .., unary_bufs_sub .., binary_bufs_sub ..⟩

theorem c08_fresh : (c08 : List (HloOp τ sig (Elt F))).Forall fun op => op.fresh = ∅ := by
  unfold c08
  exact ⟨rfl, rfl, rfl, rfl, rfl⟩

theorem c08_writes : (c08 : List (HloOp τ sig (Elt F))).Forall fun op =>
    op.writes ⊆ (w08.map (Proc.devRef (τ := τ) .tc)).toFinset := by
  unfold c08
  exact ⟨writes_sub_of_mem (y := main_v49) rfl (by decide),
    writes_sub_of_mem (y := main_v50) rfl (by decide),
    writes_sub_of_mem (y := main_v51) rfl (by decide),
    writes_sub_of_mem (y := main_v52) rfl (by decide),
    writes_sub_of_mem (y := main_v53) rfl (by decide)⟩

/-- Operations 86 … 88 of the program. -/
def c09 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v53) main_call1.v0 main_call1.v1 maximumf ]

/-- The buffers the piece writes, in order. -/
def w09 : List (Ref sig .tc) :=
  [main_call1_cst, main_call1_v0, main_v54]

theorem c09_sub : (c09 : List (HloOp τ sig (Elt F))).Forall fun op => op.bufs ⊆ tcRefs τ sig := by
  unfold c09
  exact ⟨nullary_bufs_sub .., unary_bufs_sub .., binary_bufs_sub ..⟩

theorem c09_fresh : (c09 : List (HloOp τ sig (Elt F))).Forall fun op => op.fresh = ∅ := by
  unfold c09
  exact ⟨rfl, rfl, rfl⟩

theorem c09_writes : (c09 : List (HloOp τ sig (Elt F))).Forall fun op =>
    op.writes ⊆ (w09.map (Proc.devRef (τ := τ) .tc)).toFinset := by
  unfold c09
  exact ⟨writes_sub_of_mem (y := main_call1_cst) rfl (by decide),
    writes_sub_of_mem (y := main_call1_v0) rfl (by decide),
    writes_sub_of_mem (y := main_v54) rfl (by decide)⟩

/-- Operations 89 … 96 of the program. -/
def c10 : List (HloOp τ sig (Elt F)) :=
  [ StableHlo.nullary main_c_9 (constantI S_ 32 0#32),
    StableHlo.unary main_c_9 main_v55 (broadcastInDim S800000 ![] bcast_S_S800000 : (⟨S_, .i32⟩ : BufTy).Contents (Elt F) → (⟨S800000, .i32⟩ : BufTy).Contents (Elt F)),
    StableHlo.binary main_v1 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v57 (broadcastInDim S800000 ![] bcast_S_S800000 : (⟨S_, .i32⟩ : BufTy).Contents (Elt F) → (⟨S800000, .i32⟩ : BufTy).Contents (Elt F)),
    StableHlo.binary main_v1 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)) ]

/-- The buffers the piece writes, in order. -/
def w10 : List (Ref sig .tc) :=
  [main_c_9, main_v55, main_v56, main_c_10, main_v57, main_v58, main_v59, main_v60]

theorem c10_sub : (c10 : List (HloOp τ sig (Elt F))).Forall fun op => op.bufs ⊆ tcRefs τ sig := by
  unfold c10
  exact ⟨nullary_bufs_sub .., unary_bufs_sub .., binary_bufs_sub .., nullary_bufs_sub .., unary_bufs_sub .., binary_bufs_sub .., ternary_bufs_sub .., unary_bufs_sub ..⟩

theorem c10_fresh : (c10 : List (HloOp τ sig (Elt F))).Forall fun op => op.fresh = ∅ := by
  unfold c10
  exact ⟨rfl, rfl, rfl, rfl, rfl, rfl, rfl, rfl⟩

theorem c10_writes : (c10 : List (HloOp τ sig (Elt F))).Forall fun op =>
    op.writes ⊆ (w10.map (Proc.devRef (τ := τ) .tc)).toFinset := by
  unfold c10
  exact ⟨writes_sub_of_mem (y := main_c_9) rfl (by decide),
    writes_sub_of_mem (y := main_v55) rfl (by decide),
    writes_sub_of_mem (y := main_v56) rfl (by decide),
    writes_sub_of_mem (y := main_c_10) rfl (by decide),
    writes_sub_of_mem (y := main_v57) rfl (by decide),
    writes_sub_of_mem (y := main_v58) rfl (by decide),
    writes_sub_of_mem (y := main_v59) rfl (by decide),
    writes_sub_of_mem (y := main_v60) rfl (by decide)⟩

/-- Operations 97 … 103 of the program. -/
def c11 : List (HloOp τ sig (Elt F)) :=
  [ StableHlo.binary main_v54 main_v60 main_v61 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v62 (broadcastInDim S50000x128 ![] bcast_S_S50000x128 : (⟨S_, .f32⟩ : BufTy).Contents (Elt F) → (⟨S50000x128, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v65 (broadcastInDim S50000x128 ![0, 1] bcast_S50000x1_S50000x128_0_1 : (⟨S50000x1, .f32⟩ : BufTy).Contents (Elt F) → (⟨S50000x128, .f32⟩ : BufTy).Contents (Elt F)),
    StableHlo.binary main_v64 main_v65 main_v66 (mulf : (⟨S50000x128, .f32⟩ : BufTy).Contents (Elt F) → (⟨S50000x128, .f32⟩ : BufTy).Contents (Elt F) → (⟨S50000x128, .f32⟩ : BufTy).Contents (Elt F)) ]

/-- The buffers the piece writes, in order. -/
def w11 : List (Ref sig .tc) :=
  [main_v61, main_cst_11, main_v62, main_v63, main_v64, main_v65, main_v66]

theorem c11_sub : (c11 : List (HloOp τ sig (Elt F))).Forall fun op => op.bufs ⊆ tcRefs τ sig := by
  unfold c11
  exact ⟨binary_bufs_sub .., nullary_bufs_sub .., unary_bufs_sub .., unary_bufs_sub .., ternary_bufs_sub .., unary_bufs_sub .., binary_bufs_sub ..⟩

theorem c11_fresh : (c11 : List (HloOp τ sig (Elt F))).Forall fun op => op.fresh = ∅ := by
  unfold c11
  exact ⟨rfl, rfl, rfl, rfl, rfl, rfl, rfl⟩

theorem c11_writes : (c11 : List (HloOp τ sig (Elt F))).Forall fun op =>
    op.writes ⊆ (w11.map (Proc.devRef (τ := τ) .tc)).toFinset := by
  unfold c11
  exact ⟨writes_sub_of_mem (y := main_v61) rfl (by decide),
    writes_sub_of_mem (y := main_cst_11) rfl (by decide),
    writes_sub_of_mem (y := main_v62) rfl (by decide),
    writes_sub_of_mem (y := main_v63) rfl (by decide),
    writes_sub_of_mem (y := main_v64) rfl (by decide),
    writes_sub_of_mem (y := main_v65) rfl (by decide),
    writes_sub_of_mem (y := main_v66) rfl (by decide)⟩

/-- Operations 104 … 109 of the program. -/
def c12 : List (HloOp τ sig (Elt F)) :=
  [ StableHlo.binary main_v66 main_arg6 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v54 main_arg7 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v67 main_v68 main_v69 (addf : (⟨S50000x128, .f32⟩ : BufTy).Contents (Elt F) → (⟨S50000x128, .f32⟩ : BufTy).Contents (Elt F) → (⟨S50000x128, .f32⟩ : BufTy).Contents (Elt F)),
    StableHlo.unary main_arg8 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)) ]

/-- The buffers the piece writes, in order. -/
def w12 : List (Ref sig .tc) :=
  [main_v67, main_v68, main_v69, main_v70, main_v71, main_v72]

theorem c12_sub : (c12 : List (HloOp τ sig (Elt F))).Forall fun op => op.bufs ⊆ tcRefs τ sig := by
  unfold c12
  exact ⟨binary_bufs_sub .., binary_bufs_sub .., binary_bufs_sub .., unary_bufs_sub .., unary_bufs_sub .., binary_bufs_sub ..⟩

theorem c12_fresh : (c12 : List (HloOp τ sig (Elt F))).Forall fun op => op.fresh = ∅ := by
  unfold c12
  exact ⟨rfl, rfl, rfl, rfl, rfl, rfl⟩

theorem c12_writes : (c12 : List (HloOp τ sig (Elt F))).Forall fun op =>
    op.writes ⊆ (w12.map (Proc.devRef (τ := τ) .tc)).toFinset := by
  unfold c12
  exact ⟨writes_sub_of_mem (y := main_v67) rfl (by decide),
    writes_sub_of_mem (y := main_v68) rfl (by decide),
    writes_sub_of_mem (y := main_v69) rfl (by decide),
    writes_sub_of_mem (y := main_v70) rfl (by decide),
    writes_sub_of_mem (y := main_v71) rfl (by decide),
    writes_sub_of_mem (y := main_v72) rfl (by decide)⟩

/-- Operations 110 … 113 of the program. -/
def c13 : List (HloOp τ sig (Elt F)) :=
  [ StableHlo.unary main_arg12 main_v73 ((extractStridedSlice S1x128 ![1, 0] · slices_S3x128_S1x128_1_0) : (⟨S3x128, .f32⟩ : BufTy).Contents (Elt F) → (⟨S1x128, .f32⟩ : BufTy).Contents (Elt F)),
    StableHlo.reshape main_v73 main_v74 rfl shapeCasts_S1x128_S128,
    StableHlo.unary main_arg13 main_v75 ((extractStridedSlice S1x128 ![1, 0] · slices_S3x128_S1x128_1_0) : (⟨S3x128, .f32⟩ : BufTy).Contents (Elt F) → (⟨S1x128, .f32⟩ : BufTy).Contents (Elt F)),
    StableHlo.reshape main_v75 main_v76 rfl shapeCasts_S1x128_S128 ]

/-- The buffers the piece writes, in order. -/
def w13 : List (Ref sig .tc) :=
  [main_v73, main_v74, main_v75, main_v76]

theorem c13_sub : (c13 : List (HloOp τ sig (Elt F))).Forall fun op => op.bufs ⊆ tcRefs τ sig := by
  unfold c13
  exact ⟨unary_bufs_sub .., reshape_bufs_sub .., unary_bufs_sub .., reshape_bufs_sub ..⟩

theorem c13_fresh : (c13 : List (HloOp τ sig (Elt F))).Forall fun op => op.fresh = ∅ := by
  unfold c13
  exact ⟨rfl, rfl, rfl, rfl⟩

theorem c13_writes : (c13 : List (HloOp τ sig (Elt F))).Forall fun op =>
    op.writes ⊆ (w13.map (Proc.devRef (τ := τ) .tc)).toFinset := by
  unfold c13
  exact ⟨writes_sub_of_mem (y := main_v73) rfl (by decide),
    writes_sub_of_mem (y := main_v74) rfl (by decide),
    writes_sub_of_mem (y := main_v75) rfl (by decide),
    writes_sub_of_mem (y := main_v76) rfl (by decide)⟩

/-- Operations 114 … 118 of the program. -/
def c14 : List (HloOp τ sig (Elt F)) :=
  [ StableHlo.nullary main_cst_12 (constant S_ .f32 0x00000000#32),
    StableHlo.binary main_v72 main_cst_12 main_v77 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v78 (broadcastInDim S128 ![] bcast_S_S128 : (⟨S_, .f32⟩ : BufTy).Contents (Elt F) → (⟨S128, .f32⟩ : BufTy).Contents (Elt F)),
    StableHlo.binary main_v77 main_v78 main_v79 (Host.divf : (⟨S128, .f32⟩ : BufTy).Contents (Elt F) → (⟨S128, .f32⟩ : BufTy).Contents (Elt F) → (⟨S128, .f32⟩ : BufTy).Contents (Elt F)) ]

/-- The buffers the piece writes, in order. -/
def w14 : List (Ref sig .tc) :=
  [main_cst_12, main_v77, main_cst_13, main_v78, main_v79]

theorem c14_sub : (c14 : List (HloOp τ sig (Elt F))).Forall fun op => op.bufs ⊆ tcRefs τ sig := by
  unfold c14
  exact ⟨nullary_bufs_sub .., binary_bufs_sub .., nullary_bufs_sub .., unary_bufs_sub .., binary_bufs_sub ..⟩

theorem c14_fresh : (c14 : List (HloOp τ sig (Elt F))).Forall fun op => op.fresh = ∅ := by
  unfold c14
  exact ⟨rfl, rfl, rfl, rfl, rfl⟩

theorem c14_writes : (c14 : List (HloOp τ sig (Elt F))).Forall fun op =>
    op.writes ⊆ (w14.map (Proc.devRef (τ := τ) .tc)).toFinset := by
  unfold c14
  exact ⟨writes_sub_of_mem (y := main_cst_12) rfl (by decide),
    writes_sub_of_mem (y := main_v77) rfl (by decide),
    writes_sub_of_mem (y := main_cst_13) rfl (by decide),
    writes_sub_of_mem (y := main_v78) rfl (by decide),
    writes_sub_of_mem (y := main_v79) rfl (by decide)⟩

/-- Operations 119 … 141 of the program. -/
def c15 : List (HloOp τ sig (Elt F)) :=
  [ StableHlo.nullary main_c_14 (constantI S_ 32 0#32),
    StableHlo.TRef.nullary main_call2.cst (constant S_ .f32 0x00000000#32),
    StableHlo.TRef.binary (.of main_v72) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v72) main_call2.v4 main_call2.v5 subf,
    StableHlo.TRef.binary main_call2.v5 main_call2.v5 main_call2.v6 mulf,
    StableHlo.TRef.unary (.of main_c_14) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- The buffers the piece writes, in order. -/
def w15 : List (Ref sig .tc) :=
  [main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v80]

theorem c15_sub : (c15 : List (HloOp τ sig (Elt F))).Forall fun op => op.bufs ⊆ tcRefs τ sig := by
  unfold c15
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem c15_fresh : (c15 : List (HloOp τ sig (Elt F))).Forall fun op => op.fresh = ∅ := by
  unfold c15
  exact ⟨rfl, rfl, rfl, rfl, rfl, rfl, rfl, rfl, rfl, rfl, rfl, rfl, rfl, rfl, rfl, rfl, rfl, rfl, rfl, rfl, rfl, rfl, rfl⟩

theorem c15_writes : (c15 : List (HloOp τ sig (Elt F))).Forall fun op =>
    op.writes ⊆ (w15.map (Proc.devRef (τ := τ) .tc)).toFinset := by
  unfold c15
  exact ⟨writes_sub_of_mem (y := main_c_14) rfl (by decide),
    writes_sub_of_mem (y := main_call2_cst) rfl (by decide),
    writes_sub_of_mem (y := main_call2_v0) rfl (by decide),
    writes_sub_of_mem (y := main_call2_v1) rfl (by decide),
    writes_sub_of_mem (y := main_call2_cst_0) rfl (by decide),
    writes_sub_of_mem (y := main_call2_v2) rfl (by decide),
    writes_sub_of_mem (y := main_call2_v3) rfl (by decide),
    writes_sub_of_mem (y := main_call2_v4) rfl (by decide),
    writes_sub_of_mem (y := main_call2_v5) rfl (by decide),
    writes_sub_of_mem (y := main_call2_v6) rfl (by decide),
    writes_sub_of_mem (y := main_call2_v7) rfl (by decide),
    writes_sub_of_mem (y := main_call2_cst_1) rfl (by decide),
    writes_sub_of_mem (y := main_call2_v8) rfl (by decide),
    writes_sub_of_mem (y := main_call2_cst_2) rfl (by decide),
    writes_sub_of_mem (y := main_call2_v9) rfl (by decide),
    writes_sub_of_mem (y := main_call2_v10) rfl (by decide),
    writes_sub_of_mem (y := main_call2_v11) rfl (by decide),
    writes_sub_of_mem (y := main_call2_cst_3) rfl (by decide),
    writes_sub_of_mem (y := main_call2_v12) rfl (by decide),
    writes_sub_of_mem (y := main_call2_cst_4) rfl (by decide),
    writes_sub_of_mem (y := main_call2_call0_v0) rfl (by decide),
    writes_sub_of_mem (y := main_call2_call0_v1) rfl (by decide),
    writes_sub_of_mem (y := main_v80) rfl (by decide)⟩

/-- Operations 142 … 157 of the program. -/
def c16 : List (HloOp τ sig (Elt F)) :=
  [ StableHlo.unary main_v79 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v82 main_v83 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v84 (broadcastInDim S128 ![] bcast_S_S128 : (⟨S_, .f32⟩ : BufTy).Contents (Elt F) → (⟨S128, .f32⟩ : BufTy).Contents (Elt F)),
    StableHlo.binary main_v80 main_v84 main_v85 (addf : (⟨S128, .f32⟩ : BufTy).Contents (Elt F) → (⟨S128, .f32⟩ : BufTy).Contents (Elt F) → (⟨S128, .f32⟩ : BufTy).Contents (Elt F)),
    StableHlo.unary main_v85 main_v86 (Host.rsqrt : (⟨S128, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_v74 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (mulf : (⟨S50000x128, .f32⟩ : BufTy).Contents (Elt F) → (⟨S50000x128, .f32⟩ : BufTy).Contents (Elt F) → (⟨S50000x128, .f32⟩ : BufTy).Contents (Elt F)),
    StableHlo.unary main_v76 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)) ]

/-- The buffers the piece writes, in order. -/
def w16 : List (Ref sig .tc) :=
  [main_v81, main_v82, main_v83, main_cst_15, main_v84, main_v85, main_v86, main_v87, main_v88, main_v89, main_v90, main_v91, main_v92, main_v93, main_v94, main_v95]

theorem c16_sub : (c16 : List (HloOp τ sig (Elt F))).Forall fun op => op.bufs ⊆ tcRefs τ sig := by
  unfold c16
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem c16_fresh : (c16 : List (HloOp τ sig (Elt F))).Forall fun op => op.fresh = ∅ := by
  unfold c16
  exact ⟨rfl, rfl, rfl, rfl, rfl, rfl, rfl, rfl, rfl, rfl, rfl, rfl, rfl, rfl, rfl, rfl⟩

theorem c16_writes : (c16 : List (HloOp τ sig (Elt F))).Forall fun op =>
    op.writes ⊆ (w16.map (Proc.devRef (τ := τ) .tc)).toFinset := by
  unfold c16
  exact ⟨writes_sub_of_mem (y := main_v81) rfl (by decide),
    writes_sub_of_mem (y := main_v82) rfl (by decide),
    writes_sub_of_mem (y := main_v83) rfl (by decide),
    writes_sub_of_mem (y := main_cst_15) rfl (by decide),
    writes_sub_of_mem (y := main_v84) rfl (by decide),
    writes_sub_of_mem (y := main_v85) rfl (by decide),
    writes_sub_of_mem (y := main_v86) rfl (by decide),
    writes_sub_of_mem (y := main_v87) rfl (by decide),
    writes_sub_of_mem (y := main_v88) rfl (by decide),
    writes_sub_of_mem (y := main_v89) rfl (by decide),
    writes_sub_of_mem (y := main_v90) rfl (by decide),
    writes_sub_of_mem (y := main_v91) rfl (by decide),
    writes_sub_of_mem (y := main_v92) rfl (by decide),
    writes_sub_of_mem (y := main_v93) rfl (by decide),
    writes_sub_of_mem (y := main_v94) rfl (by decide),
    writes_sub_of_mem (y := main_v95) rfl (by decide)⟩

/-- Operations 158 … 160 of the program. -/
def c17 : List (HloOp τ sig (Elt F)) :=
  [ StableHlo.TRef.nullary main_call3.cst (constant S_ .f32 0x00000000#32),
    StableHlo.TRef.unary main_call3.cst main_call3.v0 (broadcastInDim S50000x128 ![] bcast_S_S50000x128),
    StableHlo.TRef.binary (.of main_v95) main_call3.v0 main_call3.v1 maximumf ]

/-- The buffers the piece writes, in order. -/
def w17 : List (Ref sig .tc) :=
  [main_call3_cst, main_call3_v0, main_v96]

theorem c17_sub : (c17 : List (HloOp τ sig (Elt F))).Forall fun op => op.bufs ⊆ tcRefs τ sig := by
  unfold c17
  exact ⟨nullary_bufs_sub .., unary_bufs_sub .., binary_bufs_sub ..⟩

theorem c17_fresh : (c17 : List (HloOp τ sig (Elt F))).Forall fun op => op.fresh = ∅ := by
  unfold c17
  exact ⟨rfl, rfl, rfl⟩

theorem c17_writes : (c17 : List (HloOp τ sig (Elt F))).Forall fun op =>
    op.writes ⊆ (w17.map (Proc.devRef (τ := τ) .tc)).toFinset := by
  unfold c17
  exact ⟨writes_sub_of_mem (y := main_call3_cst) rfl (by decide),
    writes_sub_of_mem (y := main_call3_v0) rfl (by decide),
    writes_sub_of_mem (y := main_v96) rfl (by decide)⟩

/-- Operations 161 … 165 of the program. -/
def c18 : List (HloOp τ sig (Elt F)) :=
  [ StableHlo.nullary main_c_16 (constantI S_ 32 0#32),
    StableHlo.unary main_c_16 main_v97 (broadcastInDim S800000 ![] bcast_S_S800000 : (⟨S_, .i32⟩ : BufTy).Contents (Elt F) → (⟨S800000, .i32⟩ : BufTy).Contents (Elt F)),
    StableHlo.binary main_v1 main_v97 main_v98 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v99 (broadcastInDim S800000 ![] bcast_S_S800000 : (⟨S_, .i32⟩ : BufTy).Contents (Elt F) → (⟨S800000, .i32⟩ : BufTy).Contents (Elt F)) ]

/-- The buffers the piece writes, in order. -/
def w18 : List (Ref sig .tc) :=
  [main_c_16, main_v97, main_v98, main_c_17, main_v99]

theorem c18_sub : (c18 : List (HloOp τ sig (Elt F))).Forall fun op => op.bufs ⊆ tcRefs τ sig := by
  unfold c18
  exact ⟨nullary_bufs_sub .., unary_bufs_sub .., binary_bufs_sub .., nullary_bufs_sub .., unary_bufs_sub ..⟩

theorem c18_fresh : (c18 : List (HloOp τ sig (Elt F))).Forall fun op => op.fresh = ∅ := by
  unfold c18
  exact ⟨rfl, rfl, rfl, rfl, rfl⟩

theorem c18_writes : (c18 : List (HloOp τ sig (Elt F))).Forall fun op =>
    op.writes ⊆ (w18.map (Proc.devRef (τ := τ) .tc)).toFinset := by
  unfold c18
  exact ⟨writes_sub_of_mem (y := main_c_16) rfl (by decide),
    writes_sub_of_mem (y := main_v97) rfl (by decide),
    writes_sub_of_mem (y := main_v98) rfl (by decide),
    writes_sub_of_mem (y := main_c_17) rfl (by decide),
    writes_sub_of_mem (y := main_v99) rfl (by decide)⟩

/-- Operations 166 … 168 of the program. -/
def c19 : List (HloOp τ sig (Elt F)) :=
  [ StableHlo.binary main_v1 main_v99 main_v100 (addi : (⟨S800000, .i32⟩ : BufTy).Contents (Elt F) → (⟨S800000, .i32⟩ : BufTy).Contents (Elt F) → (⟨S800000, .i32⟩ : BufTy).Contents (Elt F)),
    StableHlo.ternary main_v98 main_v100 main_v1 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v101 main_v102 (broadcastInDim S800000x1 ![0] bcast_S800000_S800000x1_0 : (⟨S800000, .i32⟩ : BufTy).Contents (Elt F) → (⟨S800000x1, .i32⟩ : BufTy).Contents (Elt F)) ]

/-- The buffers the piece writes, in order. -/
def w19 : List (Ref sig .tc) :=
  [main_v100, main_v101, main_v102]

theorem c19_sub : (c19 : List (HloOp τ sig (Elt F))).Forall fun op => op.bufs ⊆ tcRefs τ sig := by
  unfold c19
  exact ⟨binary_bufs_sub .., ternary_bufs_sub .., unary_bufs_sub ..⟩

theorem c19_fresh : (c19 : List (HloOp τ sig (Elt F))).Forall fun op => op.fresh = ∅ := by
  unfold c19
  exact ⟨rfl, rfl, rfl⟩

theorem c19_writes : (c19 : List (HloOp τ sig (Elt F))).Forall fun op =>
    op.writes ⊆ (w19.map (Proc.devRef (τ := τ) .tc)).toFinset := by
  unfold c19
  exact ⟨writes_sub_of_mem (y := main_v100) rfl (by decide),
    writes_sub_of_mem (y := main_v101) rfl (by decide),
    writes_sub_of_mem (y := main_v102) rfl (by decide)⟩

/-- Operations 169 … 175 of the program. -/
def c20 : List (HloOp τ sig (Elt F)) :=
  [ StableHlo.binary main_v96 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v104 (broadcastInDim S50000x128 ![] bcast_S_S50000x128 : (⟨S_, .f32⟩ : BufTy).Contents (Elt F) → (⟨S50000x128, .f32⟩ : BufTy).Contents (Elt F)),
    StableHlo.unary main_v3 main_v105 (broadcastInDim S800000x1 ![0] bcast_S800000_S800000x1_0 : (⟨S800000, .i32⟩ : BufTy).Contents (Elt F) → (⟨S800000x1, .i32⟩ : BufTy).Contents (Elt F)),
    StableHlo.ternary main_v104 main_v105 main_v103 main_v106 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v107 (broadcastInDim S50000x128 ![0, 1] bcast_S50000x1_S50000x128_0_1 : (⟨S50000x1, .f32⟩ : BufTy).Contents (Elt F) → (⟨S50000x128, .f32⟩ : BufTy).Contents (Elt F)),
    StableHlo.binary main_v106 main_v107 main_v108 (mulf : (⟨S50000x128, .f32⟩ : BufTy).Contents (Elt F) → (⟨S50000x128, .f32⟩ : BufTy).Contents (Elt F) → (⟨S50000x128, .f32⟩ : BufTy).Contents (Elt F)) ]

/-- The buffers the piece writes, in order. -/
def w20 : List (Ref sig .tc) :=
  [main_v103, main_cst_18, main_v104, main_v105, main_v106, main_v107, main_v108]

theorem c20_sub : (c20 : List (HloOp τ sig (Elt F))).Forall fun op => op.bufs ⊆ tcRefs τ sig := by
  unfold c20
  exact ⟨binary_bufs_sub .., nullary_bufs_sub .., unary_bufs_sub .., unary_bufs_sub .., ternary_bufs_sub .., unary_bufs_sub .., binary_bufs_sub ..⟩

theorem c20_fresh : (c20 : List (HloOp τ sig (Elt F))).Forall fun op => op.fresh = ∅ := by
  unfold c20
  exact ⟨rfl, rfl, rfl, rfl, rfl, rfl, rfl⟩

theorem c20_writes : (c20 : List (HloOp τ sig (Elt F))).Forall fun op =>
    op.writes ⊆ (w20.map (Proc.devRef (τ := τ) .tc)).toFinset := by
  unfold c20
  exact ⟨writes_sub_of_mem (y := main_v103) rfl (by decide),
    writes_sub_of_mem (y := main_cst_18) rfl (by decide),
    writes_sub_of_mem (y := main_v104) rfl (by decide),
    writes_sub_of_mem (y := main_v105) rfl (by decide),
    writes_sub_of_mem (y := main_v106) rfl (by decide),
    writes_sub_of_mem (y := main_v107) rfl (by decide),
    writes_sub_of_mem (y := main_v108) rfl (by decide)⟩

/-- Operations 176 … 181 of the program. -/
def c21 : List (HloOp τ sig (Elt F)) :=
  [ StableHlo.binary main_v108 main_arg9 main_v109 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v96 main_arg10 main_v110 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v109 main_v110 main_v111 (addf : (⟨S50000x128, .f32⟩ : BufTy).Contents (Elt F) → (⟨S50000x128, .f32⟩ : BufTy).Contents (Elt F) → (⟨S50000x128, .f32⟩ : BufTy).Contents (Elt F)),
    StableHlo.unary main_arg11 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v113 main_v114 (addf : (⟨S50000x128, .f32⟩ : BufTy).Contents (Elt F) → (⟨S50000x128, .f32⟩ : BufTy).Contents (Elt F) → (⟨S50000x128, .f32⟩ : BufTy).Contents (Elt F)) ]

/-- The buffers the piece writes, in order. -/
def w21 : List (Ref sig .tc) :=
  [main_v109, main_v110, main_v111, main_v112, main_v113, main_v114]

theorem c21_sub : (c21 : List (HloOp τ sig (Elt F))).Forall fun op => op.bufs ⊆ tcRefs τ sig := by
  unfold c21
  exact ⟨binary_bufs_sub .., binary_bufs_sub .., binary_bufs_sub .., unary_bufs_sub .., unary_bufs_sub .., binary_bufs_sub ..⟩

theorem c21_fresh : (c21 : List (HloOp τ sig (Elt F))).Forall fun op => op.fresh = ∅ := by
  unfold c21
  exact ⟨rfl, rfl, rfl, rfl, rfl, rfl⟩

theorem c21_writes : (c21 : List (HloOp τ sig (Elt F))).Forall fun op =>
    op.writes ⊆ (w21.map (Proc.devRef (τ := τ) .tc)).toFinset := by
  unfold c21
  exact ⟨writes_sub_of_mem (y := main_v109) rfl (by decide),
    writes_sub_of_mem (y := main_v110) rfl (by decide),
    writes_sub_of_mem (y := main_v111) rfl (by decide),
    writes_sub_of_mem (y := main_v112) rfl (by decide),
    writes_sub_of_mem (y := main_v113) rfl (by decide),
    writes_sub_of_mem (y := main_v114) rfl (by decide)⟩

/-- Operations 182 … 185 of the program. -/
def c22 : List (HloOp τ sig (Elt F)) :=
  [ StableHlo.unary main_arg12 main_v115 ((extractStridedSlice S1x128 ![2, 0] · slices_S3x128_S1x128_2_0) : (⟨S3x128, .f32⟩ : BufTy).Contents (Elt F) → (⟨S1x128, .f32⟩ : BufTy).Contents (Elt F)),
    StableHlo.reshape main_v115 main_v116 rfl shapeCasts_S1x128_S128,
    StableHlo.unary main_arg13 main_v117 ((extractStridedSlice S1x128 ![2, 0] · slices_S3x128_S1x128_2_0) : (⟨S3x128, .f32⟩ : BufTy).Contents (Elt F) → (⟨S1x128, .f32⟩ : BufTy).Contents (Elt F)),
    StableHlo.reshape main_v117 main_v118 rfl shapeCasts_S1x128_S128 ]

/-- The buffers the piece writes, in order. -/
def w22 : List (Ref sig .tc) :=
  [main_v115, main_v116, main_v117, main_v118]

theorem c22_sub : (c22 : List (HloOp τ sig (Elt F))).Forall fun op => op.bufs ⊆ tcRefs τ sig := by
  unfold c22
  exact ⟨unary_bufs_sub .., reshape_bufs_sub .., unary_bufs_sub .., reshape_bufs_sub ..⟩

theorem c22_fresh : (c22 : List (HloOp τ sig (Elt F))).Forall fun op => op.fresh = ∅ := by
  unfold c22
  exact ⟨rfl, rfl, rfl, rfl⟩

theorem c22_writes : (c22 : List (HloOp τ sig (Elt F))).Forall fun op =>
    op.writes ⊆ (w22.map (Proc.devRef (τ := τ) .tc)).toFinset := by
  unfold c22
  exact ⟨writes_sub_of_mem (y := main_v115) rfl (by decide),
    writes_sub_of_mem (y := main_v116) rfl (by decide),
    writes_sub_of_mem (y := main_v117) rfl (by decide),
    writes_sub_of_mem (y := main_v118) rfl (by decide)⟩

/-- Operations 186 … 190 of the program. -/
def c23 : List (HloOp τ sig (Elt F)) :=
  [ StableHlo.nullary main_cst_19 (constant S_ .f32 0x00000000#32),
    StableHlo.binary main_v114 main_cst_19 main_v119 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v120 (broadcastInDim S128 ![] bcast_S_S128 : (⟨S_, .f32⟩ : BufTy).Contents (Elt F) → (⟨S128, .f32⟩ : BufTy).Contents (Elt F)),
    StableHlo.binary main_v119 main_v120 main_v121 (Host.divf : (⟨S128, .f32⟩ : BufTy).Contents (Elt F) → (⟨S128, .f32⟩ : BufTy).Contents (Elt F) → (⟨S128, .f32⟩ : BufTy).Contents (Elt F)) ]

/-- The buffers the piece writes, in order. -/
def w23 : List (Ref sig .tc) :=
  [main_cst_19, main_v119, main_cst_20, main_v120, main_v121]

theorem c23_sub : (c23 : List (HloOp τ sig (Elt F))).Forall fun op => op.bufs ⊆ tcRefs τ sig := by
  unfold c23
  exact ⟨nullary_bufs_sub .., binary_bufs_sub .., nullary_bufs_sub .., unary_bufs_sub .., binary_bufs_sub ..⟩

theorem c23_fresh : (c23 : List (HloOp τ sig (Elt F))).Forall fun op => op.fresh = ∅ := by
  unfold c23
  exact ⟨rfl, rfl, rfl, rfl, rfl⟩

theorem c23_writes : (c23 : List (HloOp τ sig (Elt F))).Forall fun op =>
    op.writes ⊆ (w23.map (Proc.devRef (τ := τ) .tc)).toFinset := by
  unfold c23
  exact ⟨writes_sub_of_mem (y := main_cst_19) rfl (by decide),
    writes_sub_of_mem (y := main_v119) rfl (by decide),
    writes_sub_of_mem (y := main_cst_20) rfl (by decide),
    writes_sub_of_mem (y := main_v120) rfl (by decide),
    writes_sub_of_mem (y := main_v121) rfl (by decide)⟩

/-- Operations 191 … 213 of the program. -/
def c24 : List (HloOp τ sig (Elt F)) :=
  [ StableHlo.nullary main_c_21 (constantI S_ 32 0#32),
    StableHlo.TRef.nullary main_call4.cst (constant S_ .f32 0x00000000#32),
    StableHlo.TRef.binary (.of main_v114) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v114) main_call4.v4 main_call4.v5 subf,
    StableHlo.TRef.binary main_call4.v5 main_call4.v5 main_call4.v6 mulf,
    StableHlo.TRef.unary (.of main_c_21) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- The buffers the piece writes, in order. -/
def w24 : List (Ref sig .tc) :=
  [main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v122]

theorem c24_sub : (c24 : List (HloOp τ sig (Elt F))).Forall fun op => op.bufs ⊆ tcRefs τ sig := by
  unfold c24
  exact ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

theorem c24_fresh : (c24 : List (HloOp τ sig (Elt F))).Forall fun op => op.fresh = ∅ := by
  unfold c24
  exact ⟨rfl, rfl, rfl, rfl, rfl, rfl, rfl, rfl, rfl, rfl, rfl, rfl, rfl, rfl, rfl, rfl, rfl, rfl, rfl, rfl, rfl, rfl, rfl⟩

theorem c24_writes : (c24 : List (HloOp τ sig (Elt F))).Forall fun op =>
    op.writes ⊆ (w24.map (Proc.devRef (τ := τ) .tc)).toFinset := by
  unfold c24
  exact ⟨writes_sub_of_mem (y := main_c_21) rfl (by decide),
    writes_sub_of_mem (y := main_call4_cst) rfl (by decide),
    writes_sub_of_mem (y := main_call4_v0) rfl (by decide),
    writes_sub_of_mem (y := main_call4_v1) rfl (by decide),
    writes_sub_of_mem (y := main_call4_cst_0) rfl (by decide),
    writes_sub_of_mem (y := main_call4_v2) rfl (by decide),
    writes_sub_of_mem (y := main_call4_v3) rfl (by decide),
    writes_sub_of_mem (y := main_call4_v4) rfl (by decide),
    writes_sub_of_mem (y := main_call4_v5) rfl (by decide),
    writes_sub_of_mem (y := main_call4_v6) rfl (by decide),
    writes_sub_of_mem (y := main_call4_v7) rfl (by decide),
    writes_sub_of_mem (y := main_call4_cst_1) rfl (by decide),
    writes_sub_of_mem (y := main_call4_v8) rfl (by decide),
    writes_sub_of_mem (y := main_call4_cst_2) rfl (by decide),
    writes_sub_of_mem (y := main_call4_v9) rfl (by decide),
    writes_sub_of_mem (y := main_call4_v10) rfl (by decide),
    writes_sub_of_mem (y := main_call4_v11) rfl (by decide),
    writes_sub_of_mem (y := main_call4_cst_3) rfl (by decide),
    writes_sub_of_mem (y := main_call4_v12) rfl (by decide),
    writes_sub_of_mem (y := main_call4_cst_4) rfl (by decide),
    writes_sub_of_mem (y := main_call4_call0_v0) rfl (by decide),
    writes_sub_of_mem (y := main_call4_call0_v1) rfl (by decide),
    writes_sub_of_mem (y := main_v122) rfl (by decide)⟩

/-- Operations 214 … 229 of the program. -/
def c25 : List (HloOp τ sig (Elt F)) :=
  [ StableHlo.unary main_v121 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v124 main_v125 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v126 (broadcastInDim S128 ![] bcast_S_S128 : (⟨S_, .f32⟩ : BufTy).Contents (Elt F) → (⟨S128, .f32⟩ : BufTy).Contents (Elt F)),
    StableHlo.binary main_v122 main_v126 main_v127 (addf : (⟨S128, .f32⟩ : BufTy).Contents (Elt F) → (⟨S128, .f32⟩ : BufTy).Contents (Elt F) → (⟨S128, .f32⟩ : BufTy).Contents (Elt F)),
    StableHlo.unary main_v127 main_v128 (Host.rsqrt : (⟨S128, .f32⟩ : BufTy).Contents (Elt F) → (⟨S128, .f32⟩ : BufTy).Contents (Elt F)),
    StableHlo.unary main_v128 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S50000x128 ![0, 1] bcast_S1x128_S50000x128_0_1 : (⟨S1x128, .f32⟩ : BufTy).Contents (Elt F) → (⟨S50000x128, .f32⟩ : BufTy).Contents (Elt F)),
    StableHlo.binary main_v125 main_v130 main_v131 (mulf : (⟨S50000x128, .f32⟩ : BufTy).Contents (Elt F) → (⟨S50000x128, .f32⟩ : BufTy).Contents (Elt F) → (⟨S50000x128, .f32⟩ : BufTy).Contents (Elt F)),
    StableHlo.unary main_v116 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S50000x128 ![0, 1] bcast_S1x128_S50000x128_0_1 : (⟨S1x128, .f32⟩ : BufTy).Contents (Elt F) → (⟨S50000x128, .f32⟩ : BufTy).Contents (Elt F)),
    StableHlo.binary main_v131 main_v133 main_v134 (mulf : (⟨S50000x128, .f32⟩ : BufTy).Contents (Elt F) → (⟨S50000x128, .f32⟩ : BufTy).Contents (Elt F) → (⟨S50000x128, .f32⟩ : BufTy).Contents (Elt F)),
    StableHlo.unary main_v118 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S50000x128 ![0, 1] bcast_S1x128_S50000x128_0_1 : (⟨S1x128, .f32⟩ : BufTy).Contents (Elt F) → (⟨S50000x128, .f32⟩ : BufTy).Contents (Elt F)),
    StableHlo.binary main_v134 main_v136 main_v137 (addf : (⟨S50000x128, .f32⟩ : BufTy).Contents (Elt F) → (⟨S50000x128, .f32⟩ : BufTy).Contents (Elt F) → (⟨S50000x128, .f32⟩ : BufTy).Contents (Elt F)) ]

/-- The buffers the piece writes, in order. -/
def w25 : List (Ref sig .tc) :=
  [main_v123, main_v124, main_v125, main_cst_22, main_v126, main_v127, main_v128, main_v129, main_v130, main_v131, main_v132, main_v133, main_v134, main_v135, main_v136, main_v137]

theorem c25_sub : (c25 : List (HloOp τ sig (Elt F))).Forall fun op => op.bufs ⊆ tcRefs τ sig := by
  unfold c25
  exact ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

theorem c25_fresh : (c25 : List (HloOp τ sig (Elt F))).Forall fun op => op.fresh = ∅ := by
  unfold c25
  exact ⟨rfl, rfl, rfl, rfl, rfl, rfl, rfl, rfl, rfl, rfl, rfl, rfl, rfl, rfl, rfl, rfl⟩

theorem c25_writes : (c25 : List (HloOp τ sig (Elt F))).Forall fun op =>
    op.writes ⊆ (w25.map (Proc.devRef (τ := τ) .tc)).toFinset := by
  unfold c25
  exact ⟨writes_sub_of_mem (y := main_v123) rfl (by decide),
    writes_sub_of_mem (y := main_v124) rfl (by decide),
    writes_sub_of_mem (y := main_v125) rfl (by decide),
    writes_sub_of_mem (y := main_cst_22) rfl (by decide),
    writes_sub_of_mem (y := main_v126) rfl (by decide),
    writes_sub_of_mem (y := main_v127) rfl (by decide),
    writes_sub_of_mem (y := main_v128) rfl (by decide),
    writes_sub_of_mem (y := main_v129) rfl (by decide),
    writes_sub_of_mem (y := main_v130) rfl (by decide),
    writes_sub_of_mem (y := main_v131) rfl (by decide),
    writes_sub_of_mem (y := main_v132) rfl (by decide),
    writes_sub_of_mem (y := main_v133) rfl (by decide),
    writes_sub_of_mem (y := main_v134) rfl (by decide),
    writes_sub_of_mem (y := main_v135) rfl (by decide),
    writes_sub_of_mem (y := main_v136) rfl (by decide),
    writes_sub_of_mem (y := main_v137) rfl (by decide)⟩

/-- Operations 230 … 232 of the program. -/
def c26 : List (HloOp τ sig (Elt F)) :=
  [ StableHlo.TRef.nullary main_call5.cst (constant S_ .f32 0x00000000#32),
    StableHlo.TRef.unary main_call5.cst main_call5.v0 (broadcastInDim S50000x128 ![] bcast_S_S50000x128),
    StableHlo.TRef.binary (.of main_v137) main_call5.v0 main_call5.v1 maximumf ]

/-- The buffers the piece writes, in order. -/
def w26 : List (Ref sig .tc) :=
  [main_call5_cst, main_call5_v0, main_v138]

theorem c26_sub : (c26 : List (HloOp τ sig (Elt F))).Forall fun op => op.bufs ⊆ tcRefs τ sig := by
  unfold c26
  exact ⟨nullary_bufs_sub .., unary_bufs_sub .., binary_bufs_sub ..⟩

theorem c26_fresh : (c26 : List (HloOp τ sig (Elt F))).Forall fun op => op.fresh = ∅ := by
  unfold c26
  exact ⟨rfl, rfl, rfl⟩

theorem c26_writes : (c26 : List (HloOp τ sig (Elt F))).Forall fun op =>
    op.writes ⊆ (w26.map (Proc.devRef (τ := τ) .tc)).toFinset := by
  unfold c26
  exact ⟨writes_sub_of_mem (y := main_call5_cst) rfl (by decide),
    writes_sub_of_mem (y := main_call5_v0) rfl (by decide),
    writes_sub_of_mem (y := main_v138) rfl (by decide)⟩

/-- Operations 233 … 248 of the program. -/
def c27 : List (HloOp τ sig (Elt F)) :=
  [ StableHlo.nullary main_cst_23 (constant S_ .f32 0x00000000#32),
    StableHlo.unary main_cst_23 main_v139 (broadcastInDim S256x128 ![] bcast_S_S256x128 : (⟨S_, .f32⟩ : BufTy).Contents (Elt F) → (⟨S256x128, .f32⟩ : BufTy).Contents (Elt F)),
    StableHlo.unary main_arg2 main_v140 (broadcastInDim S50000x1 ![0] bcast_S50000_S50000x1_0 : (⟨S50000, .i32⟩ : BufTy).Contents (Elt F) → (⟨S50000x1, .i32⟩ : BufTy).Contents (Elt F)),
    StableHlo.ternary main_v139 main_v140 main_v138 main_v141 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    StableHlo.nullary main_cst_24 (constant S_ .f32 0x3F800000#32),
    StableHlo.unary main_cst_24 main_v142 (broadcastInDim S50000 ![] bcast_S_S50000 : (⟨S_, .f32⟩ : BufTy).Contents (Elt F) → (⟨S50000, .f32⟩ : BufTy).Contents (Elt F)),
    StableHlo.nullary main_cst_25 (constant S_ .f32 0x00000000#32),
    StableHlo.unary main_cst_25 main_v143 (broadcastInDim S256 ![] bcast_S_S256 : (⟨S_, .f32⟩ : BufTy).Contents (Elt F) → (⟨S256, .f32⟩ : BufTy).Contents (Elt F)),
    StableHlo.unary main_arg2 main_v144 (broadcastInDim S50000x1 ![0] bcast_S50000_S50000x1_0 : (⟨S50000, .i32⟩ : BufTy).Contents (Elt F) → (⟨S50000x1, .i32⟩ : BufTy).Contents (Elt F)),
    StableHlo.ternary main_v143 main_v144 main_v142 main_v145 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_26 (constant S_ .f32 0x3F800000#32),
    StableHlo.unary main_cst_26 main_v146 (broadcastInDim S256 ![] bcast_S_S256 : (⟨S_, .f32⟩ : BufTy).Contents (Elt F) → (⟨S256, .f32⟩ : BufTy).Contents (Elt F)),
    StableHlo.binary main_v145 main_v146 main_v147 (maximumf : (⟨S256, .f32⟩ : BufTy).Contents (Elt F) → (⟨S256, .f32⟩ : BufTy).Contents (Elt F) → (⟨S256, .f32⟩ : BufTy).Contents (Elt F)),
    StableHlo.unary main_v147 main_v148 (broadcastInDim S256x1 ![0] bcast_S256_S256x1_0 : (⟨S256, .f32⟩ : BufTy).Contents (Elt F) → (⟨S256x1, .f32⟩ : BufTy).Contents (Elt F)),
    StableHlo.unary main_v148 main_v149 (broadcastInDim S256x128 ![0, 1] bcast_S256x1_S256x128_0_1 : (⟨S256x1, .f32⟩ : BufTy).Contents (Elt F) → (⟨S256x128, .f32⟩ : BufTy).Contents (Elt F)),
    StableHlo.binary main_v141 main_v149 main_v150 (Host.divf : (⟨S256x128, .f32⟩ : BufTy).Contents (Elt F) → (⟨S256x128, .f32⟩ : BufTy).Contents (Elt F) → (⟨S256x128, .f32⟩ : BufTy).Contents (Elt F)) ]

/-- The buffers the piece writes, in order. -/
def w27 : List (Ref sig .tc) :=
  [main_cst_23, main_v139, main_v140, main_v141, main_cst_24, main_v142, main_cst_25, main_v143, main_v144, main_v145, main_cst_26, main_v146, main_v147, main_v148, main_v149, main_v150]

theorem c27_sub : (c27 : List (HloOp τ sig (Elt F))).Forall fun op => op.bufs ⊆ tcRefs τ sig := by
  unfold c27
  exact ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem c27_fresh : (c27 : List (HloOp τ sig (Elt F))).Forall fun op => op.fresh = ∅ := by
  unfold c27
  exact ⟨rfl, rfl, rfl, rfl, rfl, rfl, rfl, rfl, rfl, rfl, rfl, rfl, rfl, rfl, rfl, rfl⟩

theorem c27_writes : (c27 : List (HloOp τ sig (Elt F))).Forall fun op =>
    op.writes ⊆ (w27.map (Proc.devRef (τ := τ) .tc)).toFinset := by
  unfold c27
  exact ⟨writes_sub_of_mem (y := main_cst_23) rfl (by decide),
    writes_sub_of_mem (y := main_v139) rfl (by decide),
    writes_sub_of_mem (y := main_v140) rfl (by decide),
    writes_sub_of_mem (y := main_v141) rfl (by decide),
    writes_sub_of_mem (y := main_cst_24) rfl (by decide),
    writes_sub_of_mem (y := main_v142) rfl (by decide),
    writes_sub_of_mem (y := main_cst_25) rfl (by decide),
    writes_sub_of_mem (y := main_v143) rfl (by decide),
    writes_sub_of_mem (y := main_v144) rfl (by decide),
    writes_sub_of_mem (y := main_v145) rfl (by decide),
    writes_sub_of_mem (y := main_cst_26) rfl (by decide),
    writes_sub_of_mem (y := main_v146) rfl (by decide),
    writes_sub_of_mem (y := main_v147) rfl (by decide),
    writes_sub_of_mem (y := main_v148) rfl (by decide),
    writes_sub_of_mem (y := main_v149) rfl (by decide),
    writes_sub_of_mem (y := main_v150) rfl (by decide)⟩

/-- Operations 249 … 267 of the program. -/
def c28 : List (HloOp τ sig (Elt F)) :=
  [ StableHlo.binary main_v150 main_arg14 main_v151 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    StableHlo.unary main_arg15 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S256x64 ![0, 1] bcast_S1x64_S256x64_0_1 : (⟨S1x64, .f32⟩ : BufTy).Contents (Elt F) → (⟨S256x64, .f32⟩ : BufTy).Contents (Elt F)),
    StableHlo.binary main_v151 main_v153 main_v154 (addf : (⟨S256x64, .f32⟩ : BufTy).Contents (Elt F) → (⟨S256x64, .f32⟩ : BufTy).Contents (Elt F) → (⟨S256x64, .f32⟩ : BufTy).Contents (Elt F)),
    StableHlo.TRef.nullary main_call6.cst (constant S_ .f32 0x00000000#32),
    StableHlo.TRef.unary main_call6.cst main_call6.v0 (broadcastInDim S256x64 ![] bcast_S_S256x64),
    StableHlo.TRef.binary (.of main_v154) main_call6.v0 main_call6.v1 maximumf,
    StableHlo.binary main_v155 main_arg16 main_v156 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    StableHlo.unary main_arg17 main_v157 (broadcastInDim S1x1 ![1] bcast_S1_S1x1_1 : (⟨S1, .f32⟩ : BufTy).Contents (Elt F) → (⟨S1x1, .f32⟩ : BufTy).Contents (Elt F)),
    StableHlo.unary main_v157 main_v158 (broadcastInDim S256x1 ![0, 1] bcast_S1x1_S256x1_0_1 : (⟨S1x1, .f32⟩ : BufTy).Contents (Elt F) → (⟨S256x1, .f32⟩ : BufTy).Contents (Elt F)),
    StableHlo.binary main_v156 main_v158 main_v159 (addf : (⟨S256x1, .f32⟩ : BufTy).Contents (Elt F) → (⟨S256x1, .f32⟩ : BufTy).Contents (Elt F) → (⟨S256x1, .f32⟩ : BufTy).Contents (Elt F)),
    StableHlo.unary main_v159 main_v160 (Host.negf : (⟨S256x1, .f32⟩ : BufTy).Contents (Elt F) → (⟨S256x1, .f32⟩ : BufTy).Contents (Elt F)),
    StableHlo.unary main_v160 main_v161 (Host.exp : (⟨S256x1, .f32⟩ : BufTy).Contents (Elt F) → (⟨S256x1, .f32⟩ : BufTy).Contents (Elt F)),
    StableHlo.nullary main_cst_27 (constant S_ .f32 0x3F800000#32),
    StableHlo.unary main_cst_27 main_v162 (broadcastInDim S256x1 ![] bcast_S_S256x1 : (⟨S_, .f32⟩ : BufTy).Contents (Elt F) → (⟨S256x1, .f32⟩ : BufTy).Contents (Elt F)),
    StableHlo.binary main_v162 main_v161 main_v163 (addf : (⟨S256x1, .f32⟩ : BufTy).Contents (Elt F) → (⟨S256x1, .f32⟩ : BufTy).Contents (Elt F) → (⟨S256x1, .f32⟩ : BufTy).Contents (Elt F)),
    StableHlo.nullary main_cst_28 (constant S_ .f32 0x3F800000#32),
    StableHlo.unary main_cst_28 main_v164 (broadcastInDim S256x1 ![] bcast_S_S256x1 : (⟨S_, .f32⟩ : BufTy).Contents (Elt F) → (⟨S256x1, .f32⟩ : BufTy).Contents (Elt F)),
    StableHlo.binary main_v164 main_v163 main_v165 (Host.divf : (⟨S256x1, .f32⟩ : BufTy).Contents (Elt F) → (⟨S256x1, .f32⟩ : BufTy).Contents (Elt F) → (⟨S256x1, .f32⟩ : BufTy).Contents (Elt F)) ]

/-- The buffers the piece writes, in order. -/
def w28 : List (Ref sig .tc) :=
  [main_v151, main_v152, main_v153, main_v154, main_call6_cst, main_call6_v0, main_v155, main_v156, main_v157, main_v158, main_v159, main_v160, main_v161, main_cst_27, main_v162, main_v163, main_cst_28, main_v164, main_v165]

theorem c28_sub : (c28 : List (HloOp τ sig (Elt F))).Forall fun op => op.bufs ⊆ tcRefs τ sig := by
  unfold c28
  exact ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem c28_fresh : (c28 : List (HloOp τ sig (Elt F))).Forall fun op => op.fresh = ∅ := by
  unfold c28
  exact ⟨rfl, rfl, rfl, rfl, rfl, rfl, rfl, rfl, rfl, rfl, rfl, rfl, rfl, rfl, rfl, rfl, rfl, rfl, rfl⟩

theorem c28_writes : (c28 : List (HloOp τ sig (Elt F))).Forall fun op =>
    op.writes ⊆ (w28.map (Proc.devRef (τ := τ) .tc)).toFinset := by
  unfold c28
  exact ⟨writes_sub_of_mem (y := main_v151) rfl (by decide),
    writes_sub_of_mem (y := main_v152) rfl (by decide),
    writes_sub_of_mem (y := main_v153) rfl (by decide),
    writes_sub_of_mem (y := main_v154) rfl (by decide),
    writes_sub_of_mem (y := main_call6_cst) rfl (by decide),
    writes_sub_of_mem (y := main_call6_v0) rfl (by decide),
    writes_sub_of_mem (y := main_v155) rfl (by decide),
    writes_sub_of_mem (y := main_v156) rfl (by decide),
    writes_sub_of_mem (y := main_v157) rfl (by decide),
    writes_sub_of_mem (y := main_v158) rfl (by decide),
    writes_sub_of_mem (y := main_v159) rfl (by decide),
    writes_sub_of_mem (y := main_v160) rfl (by decide),
    writes_sub_of_mem (y := main_v161) rfl (by decide),
    writes_sub_of_mem (y := main_cst_27) rfl (by decide),
    writes_sub_of_mem (y := main_v162) rfl (by decide),
    writes_sub_of_mem (y := main_v163) rfl (by decide),
    writes_sub_of_mem (y := main_cst_28) rfl (by decide),
    writes_sub_of_mem (y := main_v164) rfl (by decide),
    writes_sub_of_mem (y := main_v165) rfl (by decide)⟩

/-- Window 0 of the program text, as its pieces. -/
abbrev W0 : List (HloOp τ sig (Elt F)) := c00 ++ (c01 ++ (c02 ++ (c03 ++ (c04 ++ (c05 ++ (c06 ++ (c07)))))))

/-- Window 1 of the program text, as its pieces. -/
abbrev W1 : List (HloOp τ sig (Elt F)) := c08 ++ (c09 ++ (c10 ++ (c11 ++ (c12 ++ (c13 ++ (c14 ++ (c15 ++ (c16 ++ (c17 ++ (c18))))))))))

/-- Window 2 of the program text, as its pieces. -/
abbrev W2 : List (HloOp τ sig (Elt F)) := c19 ++ (c20 ++ (c21 ++ (c22 ++ (c23 ++ (c24 ++ (c25 ++ (c26 ++ (c27))))))))

/-- Window 3 of the program text, as its pieces. -/
abbrev W3 : List (HloOp τ sig (Elt F)) := c28

/-- The whole program's operations. -/
abbrev ops : List (HloOp τ sig (Elt F)) := W0 ++ (W1 ++ (W2 ++ W3))

end Cert.ReferenceIdeal.Hand

end
-- ==== Proof.RefRun.lean ====
import proofs.«181322_j48155173322905_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- Window 0 of the program is the straight line of its operations: the callees' definitions unfolded at their
    calls, sequencing reassociated. -/
theorem part0_eq (c : Dev nD) : main_part0 (F := F) c = seq W0 := by
  simp only [main_part0, fn_var.body, fn_where.body, fn_relu.body, fn_relu_0.body, seq, bind_assoc, pure_bind,
    c00, c01, c02, c03, c04, c05, c06, c07, List.cons_append, List.nil_append]
  try rfl

set_option maxRecDepth 8192 in
set_option maxHeartbeats 400000 in
/-- Window 1 of the program is the straight line of its operations: the callees' definitions unfolded at their
    calls, sequencing reassociated. -/
theorem part1_eq (c : Dev nD) : main_part1 (F := F) c = seq W1 := by
  simp only [main_part1, fn_var.body, fn_where.body, fn_relu.body, fn_relu_0.body, seq, bind_assoc, pure_bind,
    c08, c09, c10, c11, c12, c13, c14, c15, c16, c17, c18, List.cons_append, List.nil_append]
  try rfl

set_option maxRecDepth 8192 in
set_option maxHeartbeats 400000 in
/-- Window 2 of the program is the straight line of its operations: the callees' definitions unfolded at their
    calls, sequencing reassociated. -/
theorem part2_eq (c : Dev nD) : main_part2 (F := F) c = seq W2 := by
  simp only [main_part2, fn_var.body, fn_where.body, fn_relu.body, fn_relu_0.body, seq, bind_assoc, pure_bind,
    c19, c20, c21, c22, c23, c24, c25, c26, c27, List.cons_append, List.nil_append]
  try rfl

set_option maxRecDepth 8192 in
set_option maxHeartbeats 400000 in
/-- Window 3 of the program is the straight line of its operations: the callees' definitions unfolded at their
    calls, sequencing reassociated. -/
theorem part3_eq (c : Dev nD) : main_part3 (F := F) c = seq W3 := by
  simp only [main_part3, fn_var.body, fn_where.body, fn_relu.body, fn_relu_0.body, seq, bind_assoc, pure_bind,
    c28, List.cons_append, List.nil_append]
  try rfl

/-- The program is the straight line of all its operations. -/
theorem main_eq (c : Dev nD) : main (F := F) c = seq ops := by
  simp only [main, part0_eq, part1_eq, part2_eq, part3_eq, ops, seq_append]

theorem scopedRefs_eq : (Finset.univ.filter fun b : Ref sig .tc => b.isScoped) = ∅ := by decide
theorem scopedSems_eq : (Finset.univ.filter fun sm : SemLoc sig => sm.isScoped .tc) = ∅ := by decide

theorem W0_sub : (W0 : List (HloOp τ sig (Elt F))).Forall fun op => op.bufs ⊆ tcRefs τ sig :=
  List.forall_append.mpr ⟨c00_sub, List.forall_append.mpr ⟨c01_sub, List.forall_append.mpr ⟨c02_sub, List.forall_append.mpr ⟨c03_sub, List.forall_append.mpr ⟨c04_sub, List.forall_append.mpr ⟨c05_sub, List.forall_append.mpr ⟨c06_sub, c07_sub⟩⟩⟩⟩⟩⟩⟩

theorem W0_fresh : (W0 : List (HloOp τ sig (Elt F))).Forall fun op => op.fresh = ∅ :=
  List.forall_append.mpr ⟨c00_fresh, List.forall_append.mpr ⟨c01_fresh, List.forall_append.mpr ⟨c02_fresh, List.forall_append.mpr ⟨c03_fresh, List.forall_append.mpr ⟨c04_fresh, List.forall_append.mpr ⟨c05_fresh, List.forall_append.mpr ⟨c06_fresh, c07_fresh⟩⟩⟩⟩⟩⟩⟩

theorem W1_sub : (W1 : List (HloOp τ sig (Elt F))).Forall fun op => op.bufs ⊆ tcRefs τ sig :=
  List.forall_append.mpr ⟨c08_sub, List.forall_append.mpr ⟨c09_sub, List.forall_append.mpr ⟨c10_sub, List.forall_append.mpr ⟨c11_sub, List.forall_append.mpr ⟨c12_sub, List.forall_append.mpr ⟨c13_sub, List.forall_append.mpr ⟨c14_sub, List.forall_append.mpr ⟨c15_sub, List.forall_append.mpr ⟨c16_sub, List.forall_append.mpr ⟨c17_sub, c18_sub⟩⟩⟩⟩⟩⟩⟩⟩⟩⟩

theorem W1_fresh : (W1 : List (HloOp τ sig (Elt F))).Forall fun op => op.fresh = ∅ :=
  List.forall_append.mpr ⟨c08_fresh, List.forall_append.mpr ⟨c09_fresh, List.forall_append.mpr ⟨c10_fresh, List.forall_append.mpr ⟨c11_fresh, List.forall_append.mpr ⟨c12_fresh, List.forall_append.mpr ⟨c13_fresh, List.forall_append.mpr ⟨c14_fresh, List.forall_append.mpr ⟨c15_fresh, List.forall_append.mpr ⟨c16_fresh, List.forall_append.mpr ⟨c17_fresh, c18_fresh⟩⟩⟩⟩⟩⟩⟩⟩⟩⟩

theorem W2_sub : (W2 : List (HloOp τ sig (Elt F))).Forall fun op => op.bufs ⊆ tcRefs τ sig :=
  List.forall_append.mpr ⟨c19_sub, List.forall_append.mpr ⟨c20_sub, List.forall_append.mpr ⟨c21_sub, List.forall_append.mpr ⟨c22_sub, List.forall_append.mpr ⟨c23_sub, List.forall_append.mpr ⟨c24_sub, List.forall_append.mpr ⟨c25_sub, List.forall_append.mpr ⟨c26_sub, c27_sub⟩⟩⟩⟩⟩⟩⟩⟩

theorem W2_fresh : (W2 : List (HloOp τ sig (Elt F))).Forall fun op => op.fresh = ∅ :=
  List.forall_append.mpr ⟨c19_fresh, List.forall_append.mpr ⟨c20_fresh, List.forall_append.mpr ⟨c21_fresh, List.forall_append.mpr ⟨c22_fresh, List.forall_append.mpr ⟨c23_fresh, List.forall_append.mpr ⟨c24_fresh, List.forall_append.mpr ⟨c25_fresh, List.forall_append.mpr ⟨c26_fresh, c27_fresh⟩⟩⟩⟩⟩⟩⟩⟩

theorem W3_sub : (W3 : List (HloOp τ sig (Elt F))).Forall fun op => op.bufs ⊆ tcRefs τ sig :=
  c28_sub

theorem W3_fresh : (W3 : List (HloOp τ sig (Elt F))).Forall fun op => op.fresh = ∅ :=
  c28_fresh

theorem ops_sub : (ops : List (HloOp τ sig (Elt F))).Forall fun op => op.bufs ⊆ tcRefs τ sig :=
  List.forall_append.mpr ⟨W0_sub, List.forall_append.mpr ⟨W1_sub, List.forall_append.mpr ⟨W2_sub, W3_sub⟩⟩⟩

theorem ops_fresh : (ops : List (HloOp τ sig (Elt F))).Forall fun op => op.fresh = ∅ :=
  List.forall_append.mpr ⟨W0_fresh, List.forall_append.mpr ⟨W1_fresh, List.forall_append.mpr ⟨W2_fresh, W3_fresh⟩⟩⟩

/-- At the compiled mesh, for any float values, from any memory with zero counters: every weakly fair execution of the
    program on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## What a piece leaves alone -/

theorem c00_kept (V : Valuation τ sig (Elt F)) {r : Ref sig .tc} (hr : r ∉ w00) :
    after c00 V (no_index (Proc.devRef .tc r)) = V (Proc.devRef .tc r) := after_of_writes_sub c00 V c00_writes hr

theorem c01_kept (V : Valuation τ sig (Elt F)) {r : Ref sig .tc} (hr : r ∉ w01) :
    after c01 V (no_index (Proc.devRef .tc r)) = V (Proc.devRef .tc r) := after_of_writes_sub c01 V c01_writes hr

theorem c02_kept (V : Valuation τ sig (Elt F)) {r : Ref sig .tc} (hr : r ∉ w02) :
    after c02 V (no_index (Proc.devRef .tc r)) = V (Proc.devRef .tc r) := after_of_writes_sub c02 V c02_writes hr

theorem c03_kept (V : Valuation τ sig (Elt F)) {r : Ref sig .tc} (hr : r ∉ w03) :
    after c03 V (no_index (Proc.devRef .tc r)) = V (Proc.devRef .tc r) := after_of_writes_sub c03 V c03_writes hr

theorem c04_kept (V : Valuation τ sig (Elt F)) {r : Ref sig .tc} (hr : r ∉ w04) :
    after c04 V (no_index (Proc.devRef .tc r)) = V (Proc.devRef .tc r) := after_of_writes_sub c04 V c04_writes hr

theorem c05_kept (V : Valuation τ sig (Elt F)) {r : Ref sig .tc} (hr : r ∉ w05) :
    after c05 V (no_index (Proc.devRef .tc r)) = V (Proc.devRef .tc r) := after_of_writes_sub c05 V c05_writes hr

theorem c06_kept (V : Valuation τ sig (Elt F)) {r : Ref sig .tc} (hr : r ∉ w06) :
    after c06 V (no_index (Proc.devRef .tc r)) = V (Proc.devRef .tc r) := after_of_writes_sub c06 V c06_writes hr

theorem c07_kept (V : Valuation τ sig (Elt F)) {r : Ref sig .tc} (hr : r ∉ w07) :
    after c07 V (no_index (Proc.devRef .tc r)) = V (Proc.devRef .tc r) := after_of_writes_sub c07 V c07_writes hr

theorem c08_kept (V : Valuation τ sig (Elt F)) {r : Ref sig .tc} (hr : r ∉ w08) :
    after c08 V (no_index (Proc.devRef .tc r)) = V (Proc.devRef .tc r) := after_of_writes_sub c08 V c08_writes hr

theorem c09_kept (V : Valuation τ sig (Elt F)) {r : Ref sig .tc} (hr : r ∉ w09) :
    after c09 V (no_index (Proc.devRef .tc r)) = V (Proc.devRef .tc r) := after_of_writes_sub c09 V c09_writes hr

theorem c10_kept (V : Valuation τ sig (Elt F)) {r : Ref sig .tc} (hr : r ∉ w10) :
    after c10 V (no_index (Proc.devRef .tc r)) = V (Proc.devRef .tc r) := after_of_writes_sub c10 V c10_writes hr

theorem c11_kept (V : Valuation τ sig (Elt F)) {r : Ref sig .tc} (hr : r ∉ w11) :
    after c11 V (no_index (Proc.devRef .tc r)) = V (Proc.devRef .tc r) := after_of_writes_sub c11 V c11_writes hr

theorem c12_kept (V : Valuation τ sig (Elt F)) {r : Ref sig .tc} (hr : r ∉ w12) :
    after c12 V (no_index (Proc.devRef .tc r)) = V (Proc.devRef .tc r) := after_of_writes_sub c12 V c12_writes hr

theorem c13_kept (V : Valuation τ sig (Elt F)) {r : Ref sig .tc} (hr : r ∉ w13) :
    after c13 V (no_index (Proc.devRef .tc r)) = V (Proc.devRef .tc r) := after_of_writes_sub c13 V c13_writes hr

theorem c14_kept (V : Valuation τ sig (Elt F)) {r : Ref sig .tc} (hr : r ∉ w14) :
    after c14 V (no_index (Proc.devRef .tc r)) = V (Proc.devRef .tc r) := after_of_writes_sub c14 V c14_writes hr

theorem c15_kept (V : Valuation τ sig (Elt F)) {r : Ref sig .tc} (hr : r ∉ w15) :
    after c15 V (no_index (Proc.devRef .tc r)) = V (Proc.devRef .tc r) := after_of_writes_sub c15 V c15_writes hr

theorem c16_kept (V : Valuation τ sig (Elt F)) {r : Ref sig .tc} (hr : r ∉ w16) :
    after c16 V (no_index (Proc.devRef .tc r)) = V (Proc.devRef .tc r) := after_of_writes_sub c16 V c16_writes hr

theorem c17_kept (V : Valuation τ sig (Elt F)) {r : Ref sig .tc} (hr : r ∉ w17) :
    after c17 V (no_index (Proc.devRef .tc r)) = V (Proc.devRef .tc r) := after_of_writes_sub c17 V c17_writes hr

theorem c18_kept (V : Valuation τ sig (Elt F)) {r : Ref sig .tc} (hr : r ∉ w18) :
    after c18 V (no_index (Proc.devRef .tc r)) = V (Proc.devRef .tc r) := after_of_writes_sub c18 V c18_writes hr

theorem c19_kept (V : Valuation τ sig (Elt F)) {r : Ref sig .tc} (hr : r ∉ w19) :
    after c19 V (no_index (Proc.devRef .tc r)) = V (Proc.devRef .tc r) := after_of_writes_sub c19 V c19_writes hr

theorem c20_kept (V : Valuation τ sig (Elt F)) {r : Ref sig .tc} (hr : r ∉ w20) :
    after c20 V (no_index (Proc.devRef .tc r)) = V (Proc.devRef .tc r) := after_of_writes_sub c20 V c20_writes hr

theorem c21_kept (V : Valuation τ sig (Elt F)) {r : Ref sig .tc} (hr : r ∉ w21) :
    after c21 V (no_index (Proc.devRef .tc r)) = V (Proc.devRef .tc r) := after_of_writes_sub c21 V c21_writes hr

theorem c22_kept (V : Valuation τ sig (Elt F)) {r : Ref sig .tc} (hr : r ∉ w22) :
    after c22 V (no_index (Proc.devRef .tc r)) = V (Proc.devRef .tc r) := after_of_writes_sub c22 V c22_writes hr

theorem c23_kept (V : Valuation τ sig (Elt F)) {r : Ref sig .tc} (hr : r ∉ w23) :
    after c23 V (no_index (Proc.devRef .tc r)) = V (Proc.devRef .tc r) := after_of_writes_sub c23 V c23_writes hr

theorem c24_kept (V : Valuation τ sig (Elt F)) {r : Ref sig .tc} (hr : r ∉ w24) :
    after c24 V (no_index (Proc.devRef .tc r)) = V (Proc.devRef .tc r) := after_of_writes_sub c24 V c24_writes hr

theorem c25_kept (V : Valuation τ sig (Elt F)) {r : Ref sig .tc} (hr : r ∉ w25) :
    after c25 V (no_index (Proc.devRef .tc r)) = V (Proc.devRef .tc r) := after_of_writes_sub c25 V c25_writes hr

theorem c26_kept (V : Valuation τ sig (Elt F)) {r : Ref sig .tc} (hr : r ∉ w26) :
    after c26 V (no_index (Proc.devRef .tc r)) = V (Proc.devRef .tc r) := after_of_writes_sub c26 V c26_writes hr

theorem c27_kept (V : Valuation τ sig (Elt F)) {r : Ref sig .tc} (hr : r ∉ w27) :
    after c27 V (no_index (Proc.devRef .tc r)) = V (Proc.devRef .tc r) := after_of_writes_sub c27 V c27_writes hr

theorem c28_kept (V : Valuation τ sig (Elt F)) {r : Ref sig .tc} (hr : r ∉ w28) :
    after c28 V (no_index (Proc.devRef .tc r)) = V (Proc.devRef .tc r) := after_of_writes_sub c28 V c28_writes hr

/-! ## No operation writes an argument -/

theorem arg0_kept (V : Valuation τ sig (Elt F)) : after ops V (main_arg0 : DevRef τ sig) = V (main_arg0 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg1_kept (V : Valuation τ sig (Elt F)) : after ops V (main_arg1 : DevRef τ sig) = V (main_arg1 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg2_kept (V : Valuation τ sig (Elt F)) : after ops V (main_arg2 : DevRef τ sig) = V (main_arg2 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg3_kept (V : Valuation τ sig (Elt F)) : after ops V (main_arg3 : DevRef τ sig) = V (main_arg3 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg4_kept (V : Valuation τ sig (Elt F)) : after ops V (main_arg4 : DevRef τ sig) = V (main_arg4 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg5_kept (V : Valuation τ sig (Elt F)) : after ops V (main_arg5 : DevRef τ sig) = V (main_arg5 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg6_kept (V : Valuation τ sig (Elt F)) : after ops V (main_arg6 : DevRef τ sig) = V (main_arg6 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg7_kept (V : Valuation τ sig (Elt F)) : after ops V (main_arg7 : DevRef τ sig) = V (main_arg7 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg8_kept (V : Valuation τ sig (Elt F)) : after ops V (main_arg8 : DevRef τ sig) = V (main_arg8 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg9_kept (V : Valuation τ sig (Elt F)) : after ops V (main_arg9 : DevRef τ sig) = V (main_arg9 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg10_kept (V : Valuation τ sig (Elt F)) : after ops V (main_arg10 : DevRef τ sig) = V (main_arg10 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg11_kept (V : Valuation τ sig (Elt F)) : after ops V (main_arg11 : DevRef τ sig) = V (main_arg11 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg12_kept (V : Valuation τ sig (Elt F)) : after ops V (main_arg12 : DevRef τ sig) = V (main_arg12 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg13_kept (V : Valuation τ sig (Elt F)) : after ops V (main_arg13 : DevRef τ sig) = V (main_arg13 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg14_kept (V : Valuation τ sig (Elt F)) : after ops V (main_arg14 : DevRef τ sig) = V (main_arg14 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg15_kept (V : Valuation τ sig (Elt F)) : after ops V (main_arg15 : DevRef τ sig) = V (main_arg15 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg16_kept (V : Valuation τ sig (Elt F)) : after ops V (main_arg16 : DevRef τ sig) = V (main_arg16 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

theorem arg17_kept (V : Valuation τ sig (Elt F)) : after ops V (main_arg17 : DevRef τ sig) = V (main_arg17 : DevRef τ sig) := by
  simp (disch := decide) only [ops, W0, W1, W2, W3, after_app, c00_kept, c01_kept, c02_kept, c03_kept, c04_kept, c05_kept, c06_kept, c07_kept, c08_kept, c09_kept, c10_kept, c11_kept, c12_kept, c13_kept, c14_kept, c15_kept, c16_kept, c17_kept, c18_kept, c19_kept, c20_kept, c21_kept, c22_kept, c23_kept, c24_kept, c25_kept, c26_kept, c27_kept, c28_kept]

/-- The program runs (terminates, no fault) and its argument arrays end unchanged. -/
theorem frame_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_arg0).trans (arg0_kept _),
    (h c main_arg1).trans (arg1_kept _),
    (h c main_arg2).trans (arg2_kept _),
    (h c main_arg3).trans (arg3_kept _),
    (h c main_arg4).trans (arg4_kept _),
    (h c main_arg5).trans (arg5_kept _),
    (h c main_arg6).trans (arg6_kept _),
    (h c main_arg7).trans (arg7_kept _),
    (h c main_arg8).trans (arg8_kept _),
    (h c main_arg9).trans (arg9_kept _),
    (h c main_arg10).trans (arg10_kept _),
    (h c main_arg11).trans (arg11_kept _),
    (h c main_arg12).trans (arg12_kept _),
    (h c main_arg13).trans (arg13_kept _),
    (h c main_arg14).trans (arg14_kept _),
    (h c main_arg15).trans (arg15_kept _),
    (h c main_arg16).trans (arg16_kept _),
    (h c main_arg17).trans (arg17_kept _)⟩)
    (run_main m ρ)

end Cert.ReferenceIdeal.Hand

end
-- ==== Proof.RefVal.lean ====
import proofs.«181322_j48155173322905_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program's stages, as whole-array functions

Each definition's body is the operations of one stretch of the program text, composed. -/

/-- The edges' source node ids, flat: row 0 of the edge index. -/
def srcFlat (ei : (⟨S2x800000, .i32⟩ : BufTy).Contents (Elt F)) :
    (⟨S800000, .i32⟩ : BufTy).Contents (Elt F) :=
  (shapeCast S800000 (((extractStridedSlice S1x800000 ![0, 0] · slices_S2x800000_S1x800000_0_0) : (⟨S2x800000, .i32⟩ : BufTy).Contents (Elt F) →
    (⟨S1x800000, .i32⟩ : BufTy).Contents (Elt F)) ei) shapeCasts_S1x800000_S800000 : (⟨S800000, .i32⟩ : BufTy).Contents (Elt F))

/-- The edges' destination node ids, flat: row 1 of the edge index. -/
def dstFlat (ei : (⟨S2x800000, .i32⟩ : BufTy).Contents (Elt F)) :
    (⟨S800000, .i32⟩ : BufTy).Contents (Elt F) :=
  (shapeCast S800000 (((extractStridedSlice S1x800000 ![1, 0] · slices_S2x800000_S1x800000_1_0) : (⟨S2x800000, .i32⟩ : BufTy).Contents (Elt F) →
    (⟨S1x800000, .i32⟩ : BufTy).Contents (Elt F)) ei) shapeCasts_S1x800000_S800000 : (⟨S800000, .i32⟩ : BufTy).Contents (Elt F))

/-- One over the in-degree (at least one) of every node, as a column: ones scatter-added at the destinations, `max · 1`, `1 / ·`. -/
def invDegOf (d : (⟨S800000, .i32⟩ : BufTy).Contents (Elt F)) :
    (⟨S50000x1, .f32⟩ : BufTy).Contents (Elt F) :=
  ((broadcastInDim S50000x1 ![0] bcast_S50000_S50000x1_0 : (⟨S50000, .f32⟩ : BufTy).Contents (Elt F) → (⟨S50000x1, .f32⟩ : BufTy).Contents (Elt F))
    ((Host.divf : (⟨S50000, .f32⟩ : BufTy).Contents (Elt F) → (⟨S50000, .f32⟩ : BufTy).Contents (Elt F) → (⟨S50000, .f32⟩ : BufTy).Contents (Elt F))
    ((broadcastInDim S50000 ![] bcast_S_S50000 : (⟨S_, .f32⟩ : BufTy).Contents (Elt F) → (⟨S50000, .f32⟩ : BufTy).Contents (Elt F))
    ((constant S_ .f32 0x3F800000#32) : (⟨S_, .f32⟩ : BufTy).Contents (Elt F))) ((maximumf : (⟨S50000, .f32⟩ : BufTy).Contents (Elt F) →
    (⟨S50000, .f32⟩ : BufTy).Contents (Elt F) → (⟨S50000, .f32⟩ : BufTy).Contents (Elt F))
    (((fun x i u => Host.scatterAdd scatter_S50000_S800000x1_S800000_n_0_0_1 x i u) : (⟨S50000, .f32⟩ : BufTy).Contents (Elt F) →
    (⟨S800000x1, .i32⟩ : BufTy).Contents (Elt F) → (⟨S800000, .f32⟩ : BufTy).Contents (Elt F) → (⟨S50000, .f32⟩ : BufTy).Contents (Elt F))
    ((broadcastInDim S50000 ![] bcast_S_S50000 : (⟨S_, .f32⟩ : BufTy).Contents (Elt F) → (⟨S50000, .f32⟩ : BufTy).Contents (Elt F))
    ((constant S_ .f32 0x00000000#32) : (⟨S_, .f32⟩ : BufTy).Contents (Elt F))) ((broadcastInDim S800000x1 ![0] bcast_S800000_S800000x1_0 :
    (⟨S800000, .i32⟩ : BufTy).Contents (Elt F) → (⟨S800000x1, .i32⟩ : BufTy).Contents (Elt F)) d) ((broadcastInDim S800000 ![] bcast_S_S800000 :
    (⟨S_, .f32⟩ : BufTy).Contents (Elt F) → (⟨S800000, .f32⟩ : BufTy).Contents (Elt F)) ((constant S_ .f32 0x3F800000#32) :
    (⟨S_, .f32⟩ : BufTy).Contents (Elt F)))) ((broadcastInDim S50000 ![] bcast_S_S50000 : (⟨S_, .f32⟩ : BufTy).Contents (Elt F) →
    (⟨S50000, .f32⟩ : BufTy).Contents (Elt F)) ((constant S_ .f32 0x3F800000#32) : (⟨S_, .f32⟩ : BufTy).Contents (Elt F))))))

/-- The gather's start indices: a negative source id wrapped by the node count, as a column. -/
def srcIdx (s : (⟨S800000, .i32⟩ : BufTy).Contents (Elt F)) :
    (⟨S800000x1, .i32⟩ : BufTy).Contents (Elt F) :=
  ((broadcastInDim S800000x1 ![0] bcast_S800000_S800000x1_0 : (⟨S800000, .i32⟩ : BufTy).Contents (Elt F) → (⟨S800000x1, .i32⟩ : BufTy).Contents
    (Elt F)) ((select : (⟨S800000, .i1⟩ : BufTy).Contents (Elt F) → (⟨S800000, .i32⟩ : BufTy).Contents (Elt F) → (⟨S800000, .i32⟩ : BufTy).Contents
    (Elt F) → (⟨S800000, .i32⟩ : BufTy).Contents (Elt F)) ((cmpi .slt : (⟨S800000, .i32⟩ : BufTy).Contents (Elt F) →
    (⟨S800000, .i32⟩ : BufTy).Contents (Elt F) → (⟨S800000, .i1⟩ : BufTy).Contents (Elt F)) s ((broadcastInDim S800000 ![] bcast_S_S800000 :
    (⟨S_, .i32⟩ : BufTy).Contents (Elt F) → (⟨S800000, .i32⟩ : BufTy).Contents (Elt F)) ((constantI S_ 32 0#32) : (⟨S_, .i32⟩ : BufTy).Contents
    (Elt F)))) ((addi : (⟨S800000, .i32⟩ : BufTy).Contents (Elt F) → (⟨S800000, .i32⟩ : BufTy).Contents (Elt F) → (⟨S800000, .i32⟩ : BufTy).Contents
    (Elt F)) s ((broadcastInDim S800000 ![] bcast_S_S800000 : (⟨S_, .i32⟩ : BufTy).Contents (Elt F) → (⟨S800000, .i32⟩ : BufTy).Contents (Elt F))
    ((constantI S_ 32 50000#32) : (⟨S_, .i32⟩ : BufTy).Contents (Elt F)))) s))

/-- Which source ids are negative. -/
def srcNeg (s : (⟨S800000, .i32⟩ : BufTy).Contents (Elt F)) :
    (⟨S800000, .i1⟩ : BufTy).Contents (Elt F) :=
  ((cmpi .slt : (⟨S800000, .i32⟩ : BufTy).Contents (Elt F) → (⟨S800000, .i32⟩ : BufTy).Contents (Elt F) → (⟨S800000, .i1⟩ : BufTy).Contents (Elt F)) s
    ((broadcastInDim S800000 ![] bcast_S_S800000 : (⟨S_, .i32⟩ : BufTy).Contents (Elt F) → (⟨S800000, .i32⟩ : BufTy).Contents (Elt F))
    ((constantI S_ 32 0#32) : (⟨S_, .i32⟩ : BufTy).Contents (Elt F))))

/-- The node count, once per edge. -/
def nodeCount  :
    (⟨S800000, .i32⟩ : BufTy).Contents (Elt F) :=
  ((broadcastInDim S800000 ![] bcast_S_S800000 : (⟨S_, .i32⟩ : BufTy).Contents (Elt F) → (⟨S800000, .i32⟩ : BufTy).Contents (Elt F))
    ((constantI S_ 32 50000#32) : (⟨S_, .i32⟩ : BufTy).Contents (Elt F)))

/-- The start indices from the ids, the node count and the sign test. -/
def srcIdxOf (s : (⟨S800000, .i32⟩ : BufTy).Contents (Elt F)) (n : (⟨S800000, .i32⟩ : BufTy).Contents (Elt F)) (neg : (⟨S800000, .i1⟩ : BufTy).Contents (Elt F)) :
    (⟨S800000x1, .i32⟩ : BufTy).Contents (Elt F) :=
  ((broadcastInDim S800000x1 ![0] bcast_S800000_S800000x1_0 : (⟨S800000, .i32⟩ : BufTy).Contents (Elt F) → (⟨S800000x1, .i32⟩ : BufTy).Contents
    (Elt F)) ((select : (⟨S800000, .i1⟩ : BufTy).Contents (Elt F) → (⟨S800000, .i32⟩ : BufTy).Contents (Elt F) → (⟨S800000, .i32⟩ : BufTy).Contents
    (Elt F) → (⟨S800000, .i32⟩ : BufTy).Contents (Elt F)) neg ((addi : (⟨S800000, .i32⟩ : BufTy).Contents (Elt F) → (⟨S800000, .i32⟩ : BufTy).Contents
    (Elt F) → (⟨S800000, .i32⟩ : BufTy).Contents (Elt F)) s n) s))

/-- Mean aggregation of 64-wide rows: the rows gathered at the sources, scatter-added at the destinations, times one over the degree. -/
def agg64 (h : (⟨S50000x64, .f32⟩ : BufTy).Contents (Elt F)) (si : (⟨S800000x1, .i32⟩ : BufTy).Contents (Elt F)) (d : (⟨S800000, .i32⟩ : BufTy).Contents (Elt F)) (w : (⟨S50000x1, .f32⟩ : BufTy).Contents (Elt F)) :
    (⟨S50000x64, .f32⟩ : BufTy).Contents (Elt F) :=
  ((mulf : (⟨S50000x64, .f32⟩ : BufTy).Contents (Elt F) → (⟨S50000x64, .f32⟩ : BufTy).Contents (Elt F) → (⟨S50000x64, .f32⟩ : BufTy).Contents (Elt F))
    (((fun x i u => Host.scatterAdd scatter_S50000x64_S800000x1_S800000x64_1_0_0_1 x i u) : (⟨S50000x64, .f32⟩ : BufTy).Contents (Elt F) →
    (⟨S800000x1, .i32⟩ : BufTy).Contents (Elt F) → (⟨S800000x64, .f32⟩ : BufTy).Contents (Elt F) → (⟨S50000x64, .f32⟩ : BufTy).Contents (Elt F))
    ((broadcastInDim S50000x64 ![] bcast_S_S50000x64 : (⟨S_, .f32⟩ : BufTy).Contents (Elt F) → (⟨S50000x64, .f32⟩ : BufTy).Contents (Elt F))
    ((constant S_ .f32 0x00000000#32) : (⟨S_, .f32⟩ : BufTy).Contents (Elt F))) ((broadcastInDim S800000x1 ![0] bcast_S800000_S800000x1_0 :
    (⟨S800000, .i32⟩ : BufTy).Contents (Elt F) → (⟨S800000x1, .i32⟩ : BufTy).Contents (Elt F)) d)
    (((fun x i => Host.gather gather_S50000x64_S800000x1_S800000x64_1_0_n_n_0_1_164 x i) : (⟨S50000x64, .f32⟩ : BufTy).Contents (Elt F) →
    (⟨S800000x1, .i32⟩ : BufTy).Contents (Elt F) → (⟨S800000x64, .f32⟩ : BufTy).Contents (Elt F)) h si))
    ((broadcastInDim S50000x64 ![0, 1] bcast_S50000x1_S50000x64_0_1 : (⟨S50000x1, .f32⟩ : BufTy).Contents (Elt F) →
    (⟨S50000x64, .f32⟩ : BufTy).Contents (Elt F)) w))

/-- Mean aggregation of 128-wide rows. -/
def agg128 (h : (⟨S50000x128, .f32⟩ : BufTy).Contents (Elt F)) (si : (⟨S800000x1, .i32⟩ : BufTy).Contents (Elt F)) (d : (⟨S800000, .i32⟩ : BufTy).Contents (Elt F)) (w : (⟨S50000x1, .f32⟩ : BufTy).Contents (Elt F)) :
    (⟨S50000x128, .f32⟩ : BufTy).Contents (Elt F) :=
  ((mulf : (⟨S50000x128, .f32⟩ : BufTy).Contents (Elt F) → (⟨S50000x128, .f32⟩ : BufTy).Contents (Elt F) → (⟨S50000x128, .f32⟩ : BufTy).Contents
    (Elt F)) (((fun x i u => Host.scatterAdd scatter_S50000x128_S800000x1_S800000x128_1_0_0_1 x i u) : (⟨S50000x128, .f32⟩ : BufTy).Contents (Elt F) →
    (⟨S800000x1, .i32⟩ : BufTy).Contents (Elt F) → (⟨S800000x128, .f32⟩ : BufTy).Contents (Elt F) → (⟨S50000x128, .f32⟩ : BufTy).Contents (Elt F))
    ((broadcastInDim S50000x128 ![] bcast_S_S50000x128 : (⟨S_, .f32⟩ : BufTy).Contents (Elt F) → (⟨S50000x128, .f32⟩ : BufTy).Contents (Elt F))
    ((constant S_ .f32 0x00000000#32) : (⟨S_, .f32⟩ : BufTy).Contents (Elt F))) ((broadcastInDim S800000x1 ![0] bcast_S800000_S800000x1_0 :
    (⟨S800000, .i32⟩ : BufTy).Contents (Elt F) → (⟨S800000x1, .i32⟩ : BufTy).Contents (Elt F)) d)
    (((fun x i => Host.gather gather_S50000x128_S800000x1_S800000x128_1_0_n_n_0_1_1128 x i) : (⟨S50000x128, .f32⟩ : BufTy).Contents (Elt F) →
    (⟨S800000x1, .i32⟩ : BufTy).Contents (Elt F) → (⟨S800000x128, .f32⟩ : BufTy).Contents (Elt F)) h si))
    ((broadcastInDim S50000x128 ![0, 1] bcast_S50000x1_S50000x128_0_1 : (⟨S50000x1, .f32⟩ : BufTy).Contents (Elt F) →
    (⟨S50000x128, .f32⟩ : BufTy).Contents (Elt F)) w))

/-- `A · Wn + H · Wr + b` on 64-wide rows. -/
def lin64 (A : (⟨S50000x64, .f32⟩ : BufTy).Contents (Elt F)) (H : (⟨S50000x64, .f32⟩ : BufTy).Contents (Elt F)) (Wn : (⟨S64x128, .f32⟩ : BufTy).Contents (Elt F)) (Wr : (⟨S64x128, .f32⟩ : BufTy).Contents (Elt F)) (b : (⟨S128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents
    (Elt F)) ((addf : (⟨S50000x128, .f32⟩ : BufTy).Contents (Elt F) → (⟨S50000x128, .f32⟩ : BufTy).Contents (Elt F) →
    (⟨S50000x128, .f32⟩ : BufTy).Contents (Elt F)) (((fun l r => Host.dotGeneral dot_S50000x64_S64x128_S50000x128_1_0_0_1_n_n none l r) :
    (⟨S50000x64, .f32⟩ : BufTy).Contents (Elt F) → (⟨S64x128, .f32⟩ : BufTy).Contents (Elt F) → (⟨S50000x128, .f32⟩ : BufTy).Contents (Elt F)) A Wn)
    (((fun l r => Host.dotGeneral dot_S50000x64_S64x128_S50000x128_1_0_0_1_n_n none l r) : (⟨S50000x64, .f32⟩ : BufTy).Contents (Elt F) →
    (⟨S64x128, .f32⟩ : BufTy).Contents (Elt F) → (⟨S50000x128, .f32⟩ : BufTy).Contents (Elt F)) H Wr))
    ((broadcastInDim S50000x128 ![0, 1] bcast_S1x128_S50000x128_0_1 : (⟨S1x128, .f32⟩ : BufTy).Contents (Elt F) →
    (⟨S50000x128, .f32⟩ : BufTy).Contents (Elt F)) ((broadcastInDim S1x128 ![1] bcast_S128_S1x128_1 : (⟨S128, .f32⟩ : BufTy).Contents (Elt F) →
    (⟨S1x128, .f32⟩ : BufTy).Contents (Elt F)) b)))

/-- `A · Wn + H · Wr + b` on 128-wide rows. -/
def lin128 (A : (⟨S50000x128, .f32⟩ : BufTy).Contents (Elt F)) (H : (⟨S50000x128, .f32⟩ : BufTy).Contents (Elt F)) (Wn : (⟨S128x128, .f32⟩ : BufTy).Contents (Elt F)) (Wr : (⟨S128x128, .f32⟩ : BufTy).Contents (Elt F)) (b : (⟨S128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents
    (Elt F)) ((addf : (⟨S50000x128, .f32⟩ : BufTy).Contents (Elt F) → (⟨S50000x128, .f32⟩ : BufTy).Contents (Elt F) →
    (⟨S50000x128, .f32⟩ : BufTy).Contents (Elt F)) (((fun l r => Host.dotGeneral dot_S50000x128_S128x128_S50000x128_1_0_0_1_n_n none l r) :
    (⟨S50000x128, .f32⟩ : BufTy).Contents (Elt F) → (⟨S128x128, .f32⟩ : BufTy).Contents (Elt F) → (⟨S50000x128, .f32⟩ : BufTy).Contents (Elt F)) A Wn)
    (((fun l r => Host.dotGeneral dot_S50000x128_S128x128_S50000x128_1_0_0_1_n_n none l r) : (⟨S50000x128, .f32⟩ : BufTy).Contents (Elt F) →
    (⟨S128x128, .f32⟩ : BufTy).Contents (Elt F) → (⟨S50000x128, .f32⟩ : BufTy).Contents (Elt F)) H Wr))
    ((broadcastInDim S50000x128 ![0, 1] bcast_S1x128_S50000x128_0_1 : (⟨S1x128, .f32⟩ : BufTy).Contents (Elt F) →
    (⟨S50000x128, .f32⟩ : BufTy).Contents (Elt F)) ((broadcastInDim S1x128 ![1] bcast_S128_S1x128_1 : (⟨S128, .f32⟩ : BufTy).Contents (Elt F) →
    (⟨S1x128, .f32⟩ : BufTy).Contents (Elt F)) b)))

/-- Row 0 of a three-row table. -/
def row0 (G : (⟨S3x128, .f32⟩ : BufTy).Contents (Elt F)) :
    (⟨S128, .f32⟩ : BufTy).Contents (Elt F) :=
  (shapeCast S128 (((extractStridedSlice S1x128 ![0, 0] · slices_S3x128_S1x128_0_0) : (⟨S3x128, .f32⟩ : BufTy).Contents (Elt F) →
    (⟨S1x128, .f32⟩ : BufTy).Contents (Elt F)) G) shapeCasts_S1x128_S128 : (⟨S128, .f32⟩ : BufTy).Contents (Elt F))

/-- Row 1 of a three-row table. -/
def row1 (G : (⟨S3x128, .f32⟩ : BufTy).Contents (Elt F)) :
    (⟨S128, .f32⟩ : BufTy).Contents (Elt F) :=
  (shapeCast S128 (((extractStridedSlice S1x128 ![1, 0] · slices_S3x128_S1x128_1_0) : (⟨S3x128, .f32⟩ : BufTy).Contents (Elt F) →
    (⟨S1x128, .f32⟩ : BufTy).Contents (Elt F)) G) shapeCasts_S1x128_S128 : (⟨S128, .f32⟩ : BufTy).Contents (Elt F))

/-- Row 2 of a three-row table. -/
def row2 (G : (⟨S3x128, .f32⟩ : BufTy).Contents (Elt F)) :
    (⟨S128, .f32⟩ : BufTy).Contents (Elt F) :=
  (shapeCast S128 (((extractStridedSlice S1x128 ![2, 0] · slices_S3x128_S1x128_2_0) : (⟨S3x128, .f32⟩ : BufTy).Contents (Elt F) →
    (⟨S1x128, .f32⟩ : BufTy).Contents (Elt F)) G) shapeCasts_S1x128_S128 : (⟨S128, .f32⟩ : BufTy).Contents (Elt F))

/-- The column means: the sum over the rows divided by the row count. -/
def colMean (L : (⟨S50000x128, .f32⟩ : BufTy).Contents (Elt F)) :
    (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F))
    (((fun x v => Host.reduceAdd x v reducesTo_S50000x128_S128_d0 h_S_) : (⟨S50000x128, .f32⟩ : BufTy).Contents (Elt F) →
    (⟨S_, .f32⟩ : BufTy).Contents (Elt F) → (⟨S128, .f32⟩ : BufTy).Contents (Elt F)) L ((constant S_ .f32 0x00000000#32) :
    (⟨S_, .f32⟩ : BufTy).Contents (Elt F))) ((broadcastInDim S128 ![] bcast_S_S128 : (⟨S_, .f32⟩ : BufTy).Contents (Elt F) →
    (⟨S128, .f32⟩ : BufTy).Contents (Elt F)) ((constant S_ .f32 0x47435000#32) : (⟨S_, .f32⟩ : BufTy).Contents (Elt F))))

/-- The column variances: the mean of the squared deviations from the column mean (the count minus zero degrees of freedom; the guarded division's select included). -/
def colVar (L : (⟨S50000x128, .f32⟩ : BufTy).Contents (Elt F)) :
    (⟨S128, .f32⟩ : BufTy).Contents (Elt F) :=
  (((fun p a b => select (broadcastInDim S128 ![] bcast_S_S128 p) a b) : (⟨S_, .i1⟩ : BufTy).Contents (Elt F) → (⟨S128, .f32⟩ : BufTy).Contents
    (Elt F) → (⟨S128, .f32⟩ : BufTy).Contents (Elt F) → (⟨S128, .f32⟩ : BufTy).Contents (Elt F)) (((cmpf .ogt) : (⟨S_, .f32⟩ : BufTy).Contents
    (Elt F) → (⟨S_, .f32⟩ : BufTy).Contents (Elt F) → (⟨S_, .i1⟩ : BufTy).Contents (Elt F)) ((subf : (⟨S_, .f32⟩ : BufTy).Contents (Elt F) →
    (⟨S_, .f32⟩ : BufTy).Contents (Elt F) → (⟨S_, .f32⟩ : BufTy).Contents (Elt F)) ((constant S_ .f32 0x47435000#32) : (⟨S_, .f32⟩ : BufTy).Contents
    (Elt F)) (((sitofp .f32) : (⟨S_, .i32⟩ : BufTy).Contents (Elt F) → (⟨S_, .f32⟩ : BufTy).Contents (Elt F)) ((constantI S_ 32 0#32) :
    (⟨S_, .i32⟩ : BufTy).Contents (Elt F)))) ((constant S_ .f32 0x00000000#32) : (⟨S_, .f32⟩ : BufTy).Contents (Elt F))) ((Host.divf :
    (⟨S128, .f32⟩ : BufTy).Contents (Elt F) → (⟨S128, .f32⟩ : BufTy).Contents (Elt F) → (⟨S128, .f32⟩ : BufTy).Contents (Elt F))
    (((fun x v => Host.reduceAdd x v reducesTo_S50000x128_S128_d0 h_S_) : (⟨S50000x128, .f32⟩ : BufTy).Contents (Elt F) →
    (⟨S_, .f32⟩ : BufTy).Contents (Elt F) → (⟨S128, .f32⟩ : BufTy).Contents (Elt F)) ((mulf : (⟨S50000x128, .f32⟩ : BufTy).Contents (Elt F) →
    (⟨S50000x128, .f32⟩ : BufTy).Contents (Elt F) → (⟨S50000x128, .f32⟩ : BufTy).Contents (Elt F)) ((subf : (⟨S50000x128, .f32⟩ : BufTy).Contents
    (Elt F) → (⟨S50000x128, .f32⟩ : BufTy).Contents (Elt F) → (⟨S50000x128, .f32⟩ : BufTy).Contents (Elt F)) L
    (((broadcastInDim S50000x128 ![0, 1] bcast_S1x128_S50000x128_0_1) : (⟨S1x128, .f32⟩ : BufTy).Contents (Elt F) →
    (⟨S50000x128, .f32⟩ : BufTy).Contents (Elt F)) ((Host.divf : (⟨S1x128, .f32⟩ : BufTy).Contents (Elt F) → (⟨S1x128, .f32⟩ : BufTy).Contents
    (Elt F) → (⟨S1x128, .f32⟩ : BufTy).Contents (Elt F)) (((broadcastInDim S1x128 ![1] bcast_S128_S1x128_1) : (⟨S128, .f32⟩ : BufTy).Contents
    (Elt F) → (⟨S1x128, .f32⟩ : BufTy).Contents (Elt F)) (((fun x v => Host.reduceAdd x v reducesTo_S50000x128_S128_d0 h_S_) :
    (⟨S50000x128, .f32⟩ : BufTy).Contents (Elt F) → (⟨S_, .f32⟩ : BufTy).Contents (Elt F) → (⟨S128, .f32⟩ : BufTy).Contents (Elt F)) L
    ((constant S_ .f32 0x00000000#32) : (⟨S_, .f32⟩ : BufTy).Contents (Elt F)))) (((broadcastInDim S1x128 ![] bcast_S_S1x128) :
    (⟨S_, .f32⟩ : BufTy).Contents (Elt F) → (⟨S1x128, .f32⟩ : BufTy).Contents (Elt F)) ((constant S_ .f32 0x47435000#32) :
    (⟨S_, .f32⟩ : BufTy).Contents (Elt F)))))) ((subf : (⟨S50000x128, .f32⟩ : BufTy).Contents (Elt F) → (⟨S50000x128, .f32⟩ : BufTy).Contents
    (Elt F) → (⟨S50000x128, .f32⟩ : BufTy).Contents (Elt F)) L (((broadcastInDim S50000x128 ![0, 1] bcast_S1x128_S50000x128_0_1) :
    (⟨S1x128, .f32⟩ : BufTy).Contents (Elt F) → (⟨S50000x128, .f32⟩ : BufTy).Contents (Elt F)) ((Host.divf : (⟨S1x128, .f32⟩ : BufTy).Contents
    (Elt F) → (⟨S1x128, .f32⟩ : BufTy).Contents (Elt F) → (⟨S1x128, .f32⟩ : BufTy).Contents (Elt F))
    (((broadcastInDim S1x128 ![1] bcast_S128_S1x128_1) : (⟨S128, .f32⟩ : BufTy).Contents (Elt F) → (⟨S1x128, .f32⟩ : BufTy).Contents (Elt F))
    (((fun x v => Host.reduceAdd x v reducesTo_S50000x128_S128_d0 h_S_) : (⟨S50000x128, .f32⟩ : BufTy).Contents (Elt F) →
    (⟨S_, .f32⟩ : BufTy).Contents (Elt F) → (⟨S128, .f32⟩ : BufTy).Contents (Elt F)) L ((constant S_ .f32 0x00000000#32) :
    (⟨S_, .f32⟩ : BufTy).Contents (Elt F)))) (((broadcastInDim S1x128 ![] bcast_S_S1x128) : (⟨S_, .f32⟩ : BufTy).Contents (Elt F) →
    (⟨S1x128, .f32⟩ : BufTy).Contents (Elt F)) ((constant S_ .f32 0x47435000#32) : (⟨S_, .f32⟩ : BufTy).Contents (Elt F)))))))
    ((constant S_ .f32 0x00000000#32) : (⟨S_, .f32⟩ : BufTy).Contents (Elt F))) (((broadcastInDim S128 ![] bcast_S_S128) :
    (⟨S_, .f32⟩ : BufTy).Contents (Elt F) → (⟨S128, .f32⟩ : BufTy).Contents (Elt F)) ((subf : (⟨S_, .f32⟩ : BufTy).Contents (Elt F) →
    (⟨S_, .f32⟩ : BufTy).Contents (Elt F) → (⟨S_, .f32⟩ : BufTy).Contents (Elt F)) ((constant S_ .f32 0x47435000#32) : (⟨S_, .f32⟩ : BufTy).Contents
    (Elt F)) (((sitofp .f32) : (⟨S_, .i32⟩ : BufTy).Contents (Elt F) → (⟨S_, .f32⟩ : BufTy).Contents (Elt F)) ((constantI S_ 32 0#32) :
    (⟨S_, .i32⟩ : BufTy).Contents (Elt F)))))) (((broadcastInDim S128 ![] bcast_S_S128) : (⟨S_, .f32⟩ : BufTy).Contents (Elt F) →
    (⟨S128, .f32⟩ : BufTy).Contents (Elt F)) ((id : (⟨S_, .f32⟩ : BufTy).Contents (Elt F) → (⟨S_, .f32⟩ : BufTy).Contents (Elt F))
    ((constant S_ .f32 0x7FC00000#32) : (⟨S_, .f32⟩ : BufTy).Contents (Elt F)))))

/-- `(L - mu) * rsqrt (v + eps)`, mean and variance broadcast over the rows. -/
def bnCore (L : (⟨S50000x128, .f32⟩ : BufTy).Contents (Elt F)) (mu : (⟨S128, .f32⟩ : BufTy).Contents (Elt F)) (v : (⟨S128, .f32⟩ : BufTy).Contents (Elt F)) :
    (⟨S50000x128, .f32⟩ : BufTy).Contents (Elt F) :=
  ((mulf : (⟨S50000x128, .f32⟩ : BufTy).Contents (Elt F) → (⟨S50000x128, .f32⟩ : BufTy).Contents (Elt F) → (⟨S50000x128, .f32⟩ : BufTy).Contents
    (Elt F)) ((subf : (⟨S50000x128, .f32⟩ : BufTy).Contents (Elt F) → (⟨S50000x128, .f32⟩ : BufTy).Contents (Elt F) →
    (⟨S50000x128, .f32⟩ : BufTy).Contents (Elt F)) L ((broadcastInDim S50000x128 ![0, 1] bcast_S1x128_S50000x128_0_1 :
    (⟨S1x128, .f32⟩ : BufTy).Contents (Elt F) → (⟨S50000x128, .f32⟩ : BufTy).Contents (Elt F)) ((broadcastInDim S1x128 ![1] bcast_S128_S1x128_1 :
    (⟨S128, .f32⟩ : BufTy).Contents (Elt F) → (⟨S1x128, .f32⟩ : BufTy).Contents (Elt F)) mu)))
    ((broadcastInDim S50000x128 ![0, 1] bcast_S1x128_S50000x128_0_1 : (⟨S1x128, .f32⟩ : BufTy).Contents (Elt F) →
    (⟨S50000x128, .f32⟩ : BufTy).Contents (Elt F)) ((broadcastInDim S1x128 ![1] bcast_S128_S1x128_1 : (⟨S128, .f32⟩ : BufTy).Contents (Elt F) →
    (⟨S1x128, .f32⟩ : BufTy).Contents (Elt F)) ((Host.rsqrt : (⟨S128, .f32⟩ : BufTy).Contents (Elt F) → (⟨S128, .f32⟩ : BufTy).Contents (Elt F))
    ((addf : (⟨S128, .f32⟩ : BufTy).Contents (Elt F) → (⟨S128, .f32⟩ : BufTy).Contents (Elt F) → (⟨S128, .f32⟩ : BufTy).Contents (Elt F)) v
    ((broadcastInDim S128 ![] bcast_S_S128 : (⟨S_, .f32⟩ : BufTy).Contents (Elt F) → (⟨S128, .f32⟩ : BufTy).Contents (Elt F))
    ((constant S_ .f32 0x3727C5AC#32) : (⟨S_, .f32⟩ : BufTy).Contents (Elt F))))))))

/-- A row as a one-row matrix. -/
def rowB (g : (⟨S128, .f32⟩ : BufTy).Contents (Elt F)) :
    (⟨S1x128, .f32⟩ : BufTy).Contents (Elt F) :=
  ((broadcastInDim S1x128 ![1] bcast_S128_S1x128_1 : (⟨S128, .f32⟩ : BufTy).Contents (Elt F) → (⟨S1x128, .f32⟩ : BufTy).Contents (Elt F)) g)

/-- `X * g + beta`, the rows broadcast. -/
def bnTail (X : (⟨S50000x128, .f32⟩ : BufTy).Contents (Elt F)) (gb : (⟨S1x128, .f32⟩ : BufTy).Contents (Elt F)) (beta : (⟨S128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents
    (Elt F)) ((mulf : (⟨S50000x128, .f32⟩ : BufTy).Contents (Elt F) → (⟨S50000x128, .f32⟩ : BufTy).Contents (Elt F) →
    (⟨S50000x128, .f32⟩ : BufTy).Contents (Elt F)) X ((broadcastInDim S50000x128 ![0, 1] bcast_S1x128_S50000x128_0_1 :
    (⟨S1x128, .f32⟩ : BufTy).Contents (Elt F) → (⟨S50000x128, .f32⟩ : BufTy).Contents (Elt F)) gb))
    ((broadcastInDim S50000x128 ![0, 1] bcast_S1x128_S50000x128_0_1 : (⟨S1x128, .f32⟩ : BufTy).Contents (Elt F) →
    (⟨S50000x128, .f32⟩ : BufTy).Contents (Elt F)) ((broadcastInDim S1x128 ![1] bcast_S128_S1x128_1 : (⟨S128, .f32⟩ : BufTy).Contents (Elt F) →
    (⟨S1x128, .f32⟩ : BufTy).Contents (Elt F)) beta)))

/-- `(L - mu) * rsqrt (v + eps) * g + beta`. -/
def bn (L : (⟨S50000x128, .f32⟩ : BufTy).Contents (Elt F)) (mu : (⟨S128, .f32⟩ : BufTy).Contents (Elt F)) (v : (⟨S128, .f32⟩ : BufTy).Contents (Elt F)) (g : (⟨S128, .f32⟩ : BufTy).Contents (Elt F)) (beta : (⟨S128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents
    (Elt F)) ((mulf : (⟨S50000x128, .f32⟩ : BufTy).Contents (Elt F) → (⟨S50000x128, .f32⟩ : BufTy).Contents (Elt F) →
    (⟨S50000x128, .f32⟩ : BufTy).Contents (Elt F)) ((mulf : (⟨S50000x128, .f32⟩ : BufTy).Contents (Elt F) → (⟨S50000x128, .f32⟩ : BufTy).Contents
    (Elt F) → (⟨S50000x128, .f32⟩ : BufTy).Contents (Elt F)) ((subf : (⟨S50000x128, .f32⟩ : BufTy).Contents (Elt F) →
    (⟨S50000x128, .f32⟩ : BufTy).Contents (Elt F) → (⟨S50000x128, .f32⟩ : BufTy).Contents (Elt F)) L
    ((broadcastInDim S50000x128 ![0, 1] bcast_S1x128_S50000x128_0_1 : (⟨S1x128, .f32⟩ : BufTy).Contents (Elt F) →
    (⟨S50000x128, .f32⟩ : BufTy).Contents (Elt F)) ((broadcastInDim S1x128 ![1] bcast_S128_S1x128_1 : (⟨S128, .f32⟩ : BufTy).Contents (Elt F) →
    (⟨S1x128, .f32⟩ : BufTy).Contents (Elt F)) mu))) ((broadcastInDim S50000x128 ![0, 1] bcast_S1x128_S50000x128_0_1 :
    (⟨S1x128, .f32⟩ : BufTy).Contents (Elt F) → (⟨S50000x128, .f32⟩ : BufTy).Contents (Elt F)) ((broadcastInDim S1x128 ![1] bcast_S128_S1x128_1 :
    (⟨S128, .f32⟩ : BufTy).Contents (Elt F) → (⟨S1x128, .f32⟩ : BufTy).Contents (Elt F)) ((Host.rsqrt : (⟨S128, .f32⟩ : BufTy).Contents (Elt F) →
    (⟨S128, .f32⟩ : BufTy).Contents (Elt F)) ((addf : (⟨S128, .f32⟩ : BufTy).Contents (Elt F) → (⟨S128, .f32⟩ : BufTy).Contents (Elt F) →
    (⟨S128, .f32⟩ : BufTy).Contents (Elt F)) v ((broadcastInDim S128 ![] bcast_S_S128 : (⟨S_, .f32⟩ : BufTy).Contents (Elt F) →
    (⟨S128, .f32⟩ : BufTy).Contents (Elt F)) ((constant S_ .f32 0x3727C5AC#32) : (⟨S_, .f32⟩ : BufTy).Contents (Elt F))))))))
    ((broadcastInDim S50000x128 ![0, 1] bcast_S1x128_S50000x128_0_1 : (⟨S1x128, .f32⟩ : BufTy).Contents (Elt F) →
    (⟨S50000x128, .f32⟩ : BufTy).Contents (Elt F)) ((broadcastInDim S1x128 ![1] bcast_S128_S1x128_1 : (⟨S128, .f32⟩ : BufTy).Contents (Elt F) →
    (⟨S1x128, .f32⟩ : BufTy).Contents (Elt F)) g))) ((broadcastInDim S50000x128 ![0, 1] bcast_S1x128_S50000x128_0_1 :
    (⟨S1x128, .f32⟩ : BufTy).Contents (Elt F) → (⟨S50000x128, .f32⟩ : BufTy).Contents (Elt F)) ((broadcastInDim S1x128 ![1] bcast_S128_S1x128_1 :
    (⟨S128, .f32⟩ : BufTy).Contents (Elt F) → (⟨S1x128, .f32⟩ : BufTy).Contents (Elt F)) beta)))

/-- `max · 0`. -/
def relu (X : (⟨S50000x128, .f32⟩ : BufTy).Contents (Elt F)) :
    (⟨S50000x128, .f32⟩ : BufTy).Contents (Elt F) :=
  ((maximumf : (⟨S50000x128, .f32⟩ : BufTy).Contents (Elt F) → (⟨S50000x128, .f32⟩ : BufTy).Contents (Elt F) → (⟨S50000x128, .f32⟩ : BufTy).Contents
    (Elt F)) X (((broadcastInDim S50000x128 ![] bcast_S_S50000x128) : (⟨S_, .f32⟩ : BufTy).Contents (Elt F) → (⟨S50000x128, .f32⟩ : BufTy).Contents
    (Elt F)) ((constant S_ .f32 0x00000000#32) : (⟨S_, .f32⟩ : BufTy).Contents (Elt F))))

/-- Mean pooling by graph id: rows scatter-added per graph, divided by the graph's node count (at least one). -/
def pool (batch : (⟨S50000, .i32⟩ : BufTy).Contents (Elt F)) (h : (⟨S50000x128, .f32⟩ : BufTy).Contents (Elt F)) :
    (⟨S256x128, .f32⟩ : BufTy).Contents (Elt F) :=
  ((Host.divf : (⟨S256x128, .f32⟩ : BufTy).Contents (Elt F) → (⟨S256x128, .f32⟩ : BufTy).Contents (Elt F) → (⟨S256x128, .f32⟩ : BufTy).Contents
    (Elt F)) (((fun x i u => Host.scatterAdd scatter_S256x128_S50000x1_S50000x128_1_0_0_1 x i u) : (⟨S256x128, .f32⟩ : BufTy).Contents (Elt F) →
    (⟨S50000x1, .i32⟩ : BufTy).Contents (Elt F) → (⟨S50000x128, .f32⟩ : BufTy).Contents (Elt F) → (⟨S256x128, .f32⟩ : BufTy).Contents (Elt F))
    ((broadcastInDim S256x128 ![] bcast_S_S256x128 : (⟨S_, .f32⟩ : BufTy).Contents (Elt F) → (⟨S256x128, .f32⟩ : BufTy).Contents (Elt F))
    ((constant S_ .f32 0x00000000#32) : (⟨S_, .f32⟩ : BufTy).Contents (Elt F))) ((broadcastInDim S50000x1 ![0] bcast_S50000_S50000x1_0 :
    (⟨S50000, .i32⟩ : BufTy).Contents (Elt F) → (⟨S50000x1, .i32⟩ : BufTy).Contents (Elt F)) batch) h)
    ((broadcastInDim S256x128 ![0, 1] bcast_S256x1_S256x128_0_1 : (⟨S256x1, .f32⟩ : BufTy).Contents (Elt F) → (⟨S256x128, .f32⟩ : BufTy).Contents
    (Elt F)) ((broadcastInDim S256x1 ![0] bcast_S256_S256x1_0 : (⟨S256, .f32⟩ : BufTy).Contents (Elt F) → (⟨S256x1, .f32⟩ : BufTy).Contents (Elt F))
    ((maximumf : (⟨S256, .f32⟩ : BufTy).Contents (Elt F) → (⟨S256, .f32⟩ : BufTy).Contents (Elt F) → (⟨S256, .f32⟩ : BufTy).Contents (Elt F))
    (((fun x i u => Host.scatterAdd scatter_S256_S50000x1_S50000_n_0_0_1 x i u) : (⟨S256, .f32⟩ : BufTy).Contents (Elt F) →
    (⟨S50000x1, .i32⟩ : BufTy).Contents (Elt F) → (⟨S50000, .f32⟩ : BufTy).Contents (Elt F) → (⟨S256, .f32⟩ : BufTy).Contents (Elt F))
    ((broadcastInDim S256 ![] bcast_S_S256 : (⟨S_, .f32⟩ : BufTy).Contents (Elt F) → (⟨S256, .f32⟩ : BufTy).Contents (Elt F))
    ((constant S_ .f32 0x00000000#32) : (⟨S_, .f32⟩ : BufTy).Contents (Elt F))) ((broadcastInDim S50000x1 ![0] bcast_S50000_S50000x1_0 :
    (⟨S50000, .i32⟩ : BufTy).Contents (Elt F) → (⟨S50000x1, .i32⟩ : BufTy).Contents (Elt F)) batch) ((broadcastInDim S50000 ![] bcast_S_S50000 :
    (⟨S_, .f32⟩ : BufTy).Contents (Elt F) → (⟨S50000, .f32⟩ : BufTy).Contents (Elt F)) ((constant S_ .f32 0x3F800000#32) :
    (⟨S_, .f32⟩ : BufTy).Contents (Elt F)))) ((broadcastInDim S256 ![] bcast_S_S256 : (⟨S_, .f32⟩ : BufTy).Contents (Elt F) →
    (⟨S256, .f32⟩ : BufTy).Contents (Elt F)) ((constant S_ .f32 0x3F800000#32) : (⟨S_, .f32⟩ : BufTy).Contents (Elt F)))))))

/-- The readout: `sigmoid (relu (P · W1 + b1) · W2 + b2)`. -/
def mlp (P : (⟨S256x128, .f32⟩ : BufTy).Contents (Elt F)) (W1 : (⟨S128x64, .f32⟩ : BufTy).Contents (Elt F)) (b1 : (⟨S64, .f32⟩ : BufTy).Contents (Elt F)) (W2 : (⟨S64x1, .f32⟩ : BufTy).Contents (Elt F)) (b2 : (⟨S1, .f32⟩ : BufTy).Contents (Elt F)) :
    (⟨S256x1, .f32⟩ : BufTy).Contents (Elt F) :=
  ((Host.divf : (⟨S256x1, .f32⟩ : BufTy).Contents (Elt F) → (⟨S256x1, .f32⟩ : BufTy).Contents (Elt F) → (⟨S256x1, .f32⟩ : BufTy).Contents (Elt F))
    ((broadcastInDim S256x1 ![] bcast_S_S256x1 : (⟨S_, .f32⟩ : BufTy).Contents (Elt F) → (⟨S256x1, .f32⟩ : BufTy).Contents (Elt F))
    ((constant S_ .f32 0x3F800000#32) : (⟨S_, .f32⟩ : BufTy).Contents (Elt F))) ((addf : (⟨S256x1, .f32⟩ : BufTy).Contents (Elt F) →
    (⟨S256x1, .f32⟩ : BufTy).Contents (Elt F) → (⟨S256x1, .f32⟩ : BufTy).Contents (Elt F)) ((broadcastInDim S256x1 ![] bcast_S_S256x1 :
    (⟨S_, .f32⟩ : BufTy).Contents (Elt F) → (⟨S256x1, .f32⟩ : BufTy).Contents (Elt F)) ((constant S_ .f32 0x3F800000#32) :
    (⟨S_, .f32⟩ : BufTy).Contents (Elt F))) ((Host.exp : (⟨S256x1, .f32⟩ : BufTy).Contents (Elt F) → (⟨S256x1, .f32⟩ : BufTy).Contents (Elt F))
    ((Host.negf : (⟨S256x1, .f32⟩ : BufTy).Contents (Elt F) → (⟨S256x1, .f32⟩ : BufTy).Contents (Elt F)) ((addf : (⟨S256x1, .f32⟩ : BufTy).Contents
    (Elt F) → (⟨S256x1, .f32⟩ : BufTy).Contents (Elt F) → (⟨S256x1, .f32⟩ : BufTy).Contents (Elt F))
    (((fun l r => Host.dotGeneral dot_S256x64_S64x1_S256x1_1_0_0_1_n_n none l r) : (⟨S256x64, .f32⟩ : BufTy).Contents (Elt F) →
    (⟨S64x1, .f32⟩ : BufTy).Contents (Elt F) → (⟨S256x1, .f32⟩ : BufTy).Contents (Elt F)) ((maximumf : (⟨S256x64, .f32⟩ : BufTy).Contents (Elt F) →
    (⟨S256x64, .f32⟩ : BufTy).Contents (Elt F) → (⟨S256x64, .f32⟩ : BufTy).Contents (Elt F)) ((addf : (⟨S256x64, .f32⟩ : BufTy).Contents (Elt F) →
    (⟨S256x64, .f32⟩ : BufTy).Contents (Elt F) → (⟨S256x64, .f32⟩ : BufTy).Contents (Elt F))
    (((fun l r => Host.dotGeneral dot_S256x128_S128x64_S256x64_1_0_0_1_n_n none l r) : (⟨S256x128, .f32⟩ : BufTy).Contents (Elt F) →
    (⟨S128x64, .f32⟩ : BufTy).Contents (Elt F) → (⟨S256x64, .f32⟩ : BufTy).Contents (Elt F)) P W1)
    ((broadcastInDim S256x64 ![0, 1] bcast_S1x64_S256x64_0_1 : (⟨S1x64, .f32⟩ : BufTy).Contents (Elt F) → (⟨S256x64, .f32⟩ : BufTy).Contents (Elt F))
    ((broadcastInDim S1x64 ![1] bcast_S64_S1x64_1 : (⟨S64, .f32⟩ : BufTy).Contents (Elt F) → (⟨S1x64, .f32⟩ : BufTy).Contents (Elt F)) b1)))
    (((broadcastInDim S256x64 ![] bcast_S_S256x64) : (⟨S_, .f32⟩ : BufTy).Contents (Elt F) → (⟨S256x64, .f32⟩ : BufTy).Contents (Elt F))
    ((constant S_ .f32 0x00000000#32) : (⟨S_, .f32⟩ : BufTy).Contents (Elt F)))) W2) ((broadcastInDim S256x1 ![0, 1] bcast_S1x1_S256x1_0_1 :
    (⟨S1x1, .f32⟩ : BufTy).Contents (Elt F) → (⟨S256x1, .f32⟩ : BufTy).Contents (Elt F)) ((broadcastInDim S1x1 ![1] bcast_S1_S1x1_1 :
    (⟨S1, .f32⟩ : BufTy).Contents (Elt F) → (⟨S1x1, .f32⟩ : BufTy).Contents (Elt F)) b2)))))))

/-- The batch normalization in two steps. -/
theorem bn_split (L : (⟨S50000x128, .f32⟩ : BufTy).Contents (Elt F)) (mu v g beta : (⟨S128, .f32⟩ : BufTy).Contents (Elt F)) :
    bn L mu v g beta = bnTail (bnCore L mu v) (rowB g) beta := rfl

/-- The start indices in two steps. -/
theorem srcIdx_split (s : (⟨S800000, .i32⟩ : BufTy).Contents (Elt F)) : srcIdxOf s (nodeCount (F := F)) (srcNeg (F := F) s) = srcIdx (F := F) s := rfl

/-! ## Each piece's results, read as a stage of the buffers it reads

The fold unrolled, each operation's result decided at the buffer read: by computation; the reductions, gathers,
scatters and contractions are kept folded meanwhile (the equations never look inside them). -/

attribute [local irreducible] Host.reduceAdd Host.gather Host.scatterAdd in
set_option maxRecDepth 8192 in
set_option maxHeartbeats 400000 in
theorem c00_v1 (W : Valuation τ sig (Elt F)) :
    after c00 W (main_v1 : DevRef τ sig) = srcFlat (W (main_arg1 : DevRef τ sig)) := by
  simp only [c00, after_cons, after_nil]
  rfl

attribute [local irreducible] Host.reduceAdd Host.gather Host.scatterAdd in
set_option maxRecDepth 8192 in
set_option maxHeartbeats 400000 in
theorem c00_v3 (W : Valuation τ sig (Elt F)) :
    after c00 W (main_v3 : DevRef τ sig) = dstFlat (W (main_arg1 : DevRef τ sig)) := by
  simp only [c00, after_cons, after_nil]
  rfl

attribute [local irreducible] Host.reduceAdd Host.gather Host.scatterAdd in
set_option maxRecDepth 8192 in
set_option maxHeartbeats 400000 in
theorem c00_v12 (W : Valuation τ sig (Elt F)) :
    after c00 W (main_v12 : DevRef τ sig) = invDegOf (dstFlat (W (main_arg1 : DevRef τ sig))) := by
  simp only [c00, after_cons, after_nil]
  rfl

attribute [local irreducible] Host.reduceAdd Host.gather Host.scatterAdd in
set_option maxRecDepth 8192 in
set_option maxHeartbeats 400000 in
theorem c01_v18 (W : Valuation τ sig (Elt F)) :
    after c01 W (main_v18 : DevRef τ sig) = srcIdx (W (main_v1 : DevRef τ sig)) := by
  simp only [c01, after_cons, after_nil]
  rfl

attribute [local irreducible] Host.reduceAdd Host.gather Host.scatterAdd in
set_option maxRecDepth 8192 in
set_option maxHeartbeats 400000 in
theorem c02_v24 (W : Valuation τ sig (Elt F)) :
    after c02 W (main_v24 : DevRef τ sig) = agg64 (W (main_arg0 : DevRef τ sig)) (W (main_v18 : DevRef τ sig)) (W (main_v3 : DevRef τ sig)) (W (main_v12 : DevRef τ sig)) := by
  simp only [c02, after_cons, after_nil]
  rfl

attribute [local irreducible] Host.reduceAdd Host.gather Host.scatterAdd in
set_option maxRecDepth 8192 in
set_option maxHeartbeats 400000 in
theorem c03_v30 (W : Valuation τ sig (Elt F)) :
    after c03 W (main_v30 : DevRef τ sig) = lin64 (W (main_v24 : DevRef τ sig)) (W (main_arg0 : DevRef τ sig)) (W (main_arg3 : DevRef τ sig)) (W (main_arg4 : DevRef τ sig)) (W (main_arg5 : DevRef τ sig)) := by
  simp only [c03, after_cons, after_nil]
  rfl

attribute [local irreducible] Host.reduceAdd Host.gather Host.scatterAdd in
set_option maxRecDepth 8192 in
set_option maxHeartbeats 400000 in
theorem c04_v32 (W : Valuation τ sig (Elt F)) :
    after c04 W (main_v32 : DevRef τ sig) = row0 (W (main_arg12 : DevRef τ sig)) := by
  simp only [c04, after_cons, after_nil]
  rfl

attribute [local irreducible] Host.reduceAdd Host.gather Host.scatterAdd in
set_option maxRecDepth 8192 in
set_option maxHeartbeats 400000 in
theorem c04_v34 (W : Valuation τ sig (Elt F)) :
    after c04 W (main_v34 : DevRef τ sig) = row0 (W (main_arg13 : DevRef τ sig)) := by
  simp only [c04, after_cons, after_nil]
  rfl

attribute [local irreducible] Host.reduceAdd Host.gather Host.scatterAdd in
set_option maxRecDepth 8192 in
set_option maxHeartbeats 400000 in
theorem c05_v37 (W : Valuation τ sig (Elt F)) :
    after c05 W (main_v37 : DevRef τ sig) = colMean (W (main_v30 : DevRef τ sig)) := by
  simp only [c05, after_cons, after_nil]
  rfl

attribute [local irreducible] Host.reduceAdd Host.gather Host.scatterAdd in
set_option maxRecDepth 8192 in
set_option maxHeartbeats 400000 in
theorem c06_v38 (W : Valuation τ sig (Elt F)) :
    after c06 W (main_v38 : DevRef τ sig) = colVar (W (main_v30 : DevRef τ sig)) := by
  simp only [c06, after_cons, after_nil]
  rfl

attribute [local irreducible] Host.reduceAdd Host.gather Host.scatterAdd in
set_option maxRecDepth 8192 in
set_option maxHeartbeats 400000 in
theorem c07_v47 (W : Valuation τ sig (Elt F)) :
    after c07 W (main_v47 : DevRef τ sig) = bnCore (W (main_v30 : DevRef τ sig)) (W (main_v37 : DevRef τ sig)) (W (main_v38 : DevRef τ sig)) := by
  simp only [c07, after_cons, after_nil]
  rfl

attribute [local irreducible] Host.reduceAdd Host.gather Host.scatterAdd in
set_option maxRecDepth 8192 in
set_option maxHeartbeats 400000 in
theorem c07_v48 (W : Valuation τ sig (Elt F)) :
    after c07 W (main_v48 : DevRef τ sig) = rowB (W (main_v32 : DevRef τ sig)) := by
  simp only [c07, after_cons, after_nil]
  rfl

attribute [local irreducible] Host.reduceAdd Host.gather Host.scatterAdd in
set_option maxRecDepth 8192 in
set_option maxHeartbeats 400000 in
theorem c08_v53 (W : Valuation τ sig (Elt F)) :
    after c08 W (main_v53 : DevRef τ sig) = bnTail (W (main_v47 : DevRef τ sig)) (W (main_v48 : DevRef τ sig)) (W (main_v34 : DevRef τ sig)) := by
  simp only [c08, after_cons, after_nil]
  rfl

attribute [local irreducible] Host.reduceAdd Host.gather Host.scatterAdd in
set_option maxRecDepth 8192 in
set_option maxHeartbeats 400000 in
theorem c09_v54 (W : Valuation τ sig (Elt F)) :
    after c09 W (main_v54 : DevRef τ sig) = relu (W (main_v53 : DevRef τ sig)) := by
  simp only [c09, after_cons, after_nil]
  rfl

attribute [local irreducible] Host.reduceAdd Host.gather Host.scatterAdd in
set_option maxRecDepth 8192 in
set_option maxHeartbeats 400000 in
theorem c10_v60 (W : Valuation τ sig (Elt F)) :
    after c10 W (main_v60 : DevRef τ sig) = srcIdx (W (main_v1 : DevRef τ sig)) := by
  simp only [c10, after_cons, after_nil]
  rfl

attribute [local irreducible] Host.reduceAdd Host.gather Host.scatterAdd in
set_option maxRecDepth 8192 in
set_option maxHeartbeats 400000 in
theorem c11_v66 (W : Valuation τ sig (Elt F)) :
    after c11 W (main_v66 : DevRef τ sig) = agg128 (W (main_v54 : DevRef τ sig)) (W (main_v60 : DevRef τ sig)) (W (main_v3 : DevRef τ sig)) (W (main_v12 : DevRef τ sig)) := by
  simp only [c11, after_cons, after_nil]
  rfl

attribute [local irreducible] Host.reduceAdd Host.gather Host.scatterAdd in
set_option maxRecDepth 8192 in
set_option maxHeartbeats 400000 in
theorem c12_v72 (W : Valuation τ sig (Elt F)) :
    after c12 W (main_v72 : DevRef τ sig) = lin128 (W (main_v66 : DevRef τ sig)) (W (main_v54 : DevRef τ sig)) (W (main_arg6 : DevRef τ sig)) (W (main_arg7 : DevRef τ sig)) (W (main_arg8 : DevRef τ sig)) := by
  simp only [c12, after_cons, after_nil]
  rfl

attribute [local irreducible] Host.reduceAdd Host.gather Host.scatterAdd in
set_option maxRecDepth 8192 in
set_option maxHeartbeats 400000 in
theorem c13_v74 (W : Valuation τ sig (Elt F)) :
    after c13 W (main_v74 : DevRef τ sig) = row1 (W (main_arg12 : DevRef τ sig)) := by
  simp only [c13, after_cons, after_nil]
  rfl

attribute [local irreducible] Host.reduceAdd Host.gather Host.scatterAdd in
set_option maxRecDepth 8192 in
set_option maxHeartbeats 400000 in
theorem c13_v76 (W : Valuation τ sig (Elt F)) :
    after c13 W (main_v76 : DevRef τ sig) = row1 (W (main_arg13 : DevRef τ sig)) := by
  simp only [c13, after_cons, after_nil]
  rfl

attribute [local irreducible] Host.reduceAdd Host.gather Host.scatterAdd in
set_option maxRecDepth 8192 in
set_option maxHeartbeats 400000 in
theorem c14_v79 (W : Valuation τ sig (Elt F)) :
    after c14 W (main_v79 : DevRef τ sig) = colMean (W (main_v72 : DevRef τ sig)) := by
  simp only [c14, after_cons, after_nil]
  rfl

attribute [local irreducible] Host.reduceAdd Host.gather Host.scatterAdd in
set_option maxRecDepth 8192 in
set_option maxHeartbeats 400000 in
theorem c15_v80 (W : Valuation τ sig (Elt F)) :
    after c15 W (main_v80 : DevRef τ sig) = colVar (W (main_v72 : DevRef τ sig)) := by
  simp only [c15, after_cons, after_nil]
  rfl

attribute [local irreducible] Host.reduceAdd Host.gather Host.scatterAdd in
set_option maxRecDepth 8192 in
set_option maxHeartbeats 400000 in
theorem c16_v95 (W : Valuation τ sig (Elt F)) :
    after c16 W (main_v95 : DevRef τ sig) = bn (W (main_v72 : DevRef τ sig)) (W (main_v79 : DevRef τ sig)) (W (main_v80 : DevRef τ sig)) (W (main_v74 : DevRef τ sig)) (W (main_v76 : DevRef τ sig)) := by
  simp only [c16, after_cons, after_nil]
  rfl

attribute [local irreducible] Host.reduceAdd Host.gather Host.scatterAdd in
set_option maxRecDepth 8192 in
set_option maxHeartbeats 400000 in
theorem c17_v96 (W : Valuation τ sig (Elt F)) :
    after c17 W (main_v96 : DevRef τ sig) = relu (W (main_v95 : DevRef τ sig)) := by
  simp only [c17, after_cons, after_nil]
  rfl

attribute [local irreducible] Host.reduceAdd Host.gather Host.scatterAdd in
set_option maxRecDepth 8192 in
set_option maxHeartbeats 400000 in
theorem c18_v98 (W : Valuation τ sig (Elt F)) :
    after c18 W (main_v98 : DevRef τ sig) = srcNeg (W (main_v1 : DevRef τ sig)) := by
  simp only [c18, after_cons, after_nil]
  rfl

attribute [local irreducible] Host.reduceAdd Host.gather Host.scatterAdd in
set_option maxRecDepth 8192 in
set_option maxHeartbeats 400000 in
theorem c18_v99 (W : Valuation τ sig (Elt F)) :
    after c18 W (main_v99 : DevRef τ sig) = nodeCount := by
  simp only [c18, after_cons, after_nil]
  rfl

attribute [local irreducible] Host.reduceAdd Host.gather Host.scatterAdd in
set_option maxRecDepth 8192 in
set_option maxHeartbeats 400000 in
theorem c19_v102 (W : Valuation τ sig (Elt F)) :
    after c19 W (main_v102 : DevRef τ sig) = srcIdxOf (W (main_v1 : DevRef τ sig)) (W (main_v99 : DevRef τ sig)) (W (main_v98 : DevRef τ sig)) := by
  simp only [c19, after_cons, after_nil]
  rfl

attribute [local irreducible] Host.reduceAdd Host.gather Host.scatterAdd in
set_option maxRecDepth 8192 in
set_option maxHeartbeats 400000 in
theorem c20_v108 (W : Valuation τ sig (Elt F)) :
    after c20 W (main_v108 : DevRef τ sig) = agg128 (W (main_v96 : DevRef τ sig)) (W (main_v102 : DevRef τ sig)) (W (main_v3 : DevRef τ sig)) (W (main_v12 : DevRef τ sig)) := by
  simp only [c20, after_cons, after_nil]
  rfl

attribute [local irreducible] Host.reduceAdd Host.gather Host.scatterAdd in
set_option maxRecDepth 8192 in
set_option maxHeartbeats 400000 in
theorem c21_v114 (W : Valuation τ sig (Elt F)) :
    after c21 W (main_v114 : DevRef τ sig) = lin128 (W (main_v108 : DevRef τ sig)) (W (main_v96 : DevRef τ sig)) (W (main_arg9 : DevRef τ sig)) (W (main_arg10 : DevRef τ sig)) (W (main_arg11 : DevRef τ sig)) := by
  simp only [c21, after_cons, after_nil]
  rfl

attribute [local irreducible] Host.reduceAdd Host.gather Host.scatterAdd in
set_option maxRecDepth 8192 in
set_option maxHeartbeats 400000 in
theorem c22_v116 (W : Valuation τ sig (Elt F)) :
    after c22 W (main_v116 : DevRef τ sig) = row2 (W (main_arg12 : DevRef τ sig)) := by
  simp only [c22, after_cons, after_nil]
  rfl

attribute [local irreducible] Host.reduceAdd Host.gather Host.scatterAdd in
set_option maxRecDepth 8192 in
set_option maxHeartbeats 400000 in
theorem c22_v118 (W : Valuation τ sig (Elt F)) :
    after c22 W (main_v118 : DevRef τ sig) = row2 (W (main_arg13 : DevRef τ sig)) := by
  simp only [c22, after_cons, after_nil]
  rfl

attribute [local irreducible] Host.reduceAdd Host.gather Host.scatterAdd in
set_option maxRecDepth 8192 in
set_option maxHeartbeats 400000 in
theorem c23_v121 (W : Valuation τ sig (Elt F)) :
    after c23 W (main_v121 : DevRef τ sig) = colMean (W (main_v114 : DevRef τ sig)) := by
  simp only [c23, after_cons, after_nil]
  rfl

attribute [local irreducible] Host.reduceAdd Host.gather Host.scatterAdd in
set_option maxRecDepth 8192 in
set_option maxHeartbeats 400000 in
theorem c24_v122 (W : Valuation τ sig (Elt F)) :
    after c24 W (main_v122 : DevRef τ sig) = colVar (W (main_v114 : DevRef τ sig)) := by
  simp only [c24, after_cons, after_nil]
  rfl

attribute [local irreducible] Host.reduceAdd Host.gather Host.scatterAdd in
set_option maxRecDepth 8192 in
set_option maxHeartbeats 400000 in
theorem c25_v137 (W : Valuation τ sig (Elt F)) :
    after c25 W (main_v137 : DevRef τ sig) = bn (W (main_v114 : DevRef τ sig)) (W (main_v121 : DevRef τ sig)) (W (main_v122 : DevRef τ sig)) (W (main_v116 : DevRef τ sig)) (W (main_v118 : DevRef τ sig)) := by
  simp only [c25, after_cons, after_nil]
  rfl

attribute [local irreducible] Host.reduceAdd Host.gather Host.scatterAdd in
set_option maxRecDepth 8192 in
set_option maxHeartbeats 400000 in
theorem c26_v138 (W : Valuation τ sig (Elt F)) :
    after c26 W (main_v138 : DevRef τ sig) = relu (W (main_v137 : DevRef τ sig)) := by
  simp only [c26, after_cons, after_nil]
  rfl

attribute [local irreducible] Host.reduceAdd Host.gather Host.scatterAdd in
set_option maxRecDepth 8192 in
set_option maxHeartbeats 400000 in
theorem c27_v150 (W : Valuation τ sig (Elt F)) :
    after c27 W (main_v150 : DevRef τ sig) = pool (W (main_arg2 : DevRef τ sig)) (W (main_v138 : DevRef τ sig)) := by
  simp only [c27, after_cons, after_nil]
  rfl

attribute [local irreducible] Host.reduceAdd Host.gather Host.scatterAdd in
set_option maxRecDepth 8192 in
set_option maxHeartbeats 400000 in
theorem c28_v165 (W : Valuation τ sig (Elt F)) :
    after c28 W (main_v165 : DevRef τ sig) = mlp (W (main_v150 : DevRef τ sig)) (W (main_arg14 : DevRef τ sig)) (W (main_arg15 : DevRef τ sig)) (W (main_arg16 : DevRef τ sig)) (W (main_arg17 : DevRef τ sig)) := by
  simp only [c28, after_cons, after_nil]
  rfl

end Cert.ReferenceIdeal.Hand

end
-- ==== Proof.RefOut.lean ====
import proofs.«181322_j48155173322905_2_alg».proof.Proof.RefRun
import proofs.«181322_j48155173322905_2_alg».proof.Proof.RefVal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The contents after each piece -/

/-- The buffers' contents after pieces 0 … 0. -/
def P00 (V : Valuation τ sig (Elt F)) : Valuation τ sig (Elt F) := after c00 V

/-- The buffers' contents after pieces 0 … 1. -/
def P01 (V : Valuation τ sig (Elt F)) : Valuation τ sig (Elt F) := after c01 (P00 V)

/-- The buffers' contents after pieces 0 … 2. -/
def P02 (V : Valuation τ sig (Elt F)) : Valuation τ sig (Elt F) := after c02 (P01 V)

/-- The buffers' contents after pieces 0 … 3. -/
def P03 (V : Valuation τ sig (Elt F)) : Valuation τ sig (Elt F) := after c03 (P02 V)

/-- The buffers' contents after pieces 0 … 4. -/
def P04 (V : Valuation τ sig (Elt F)) : Valuation τ sig (Elt F) := after c04 (P03 V)

/-- The buffers' contents after pieces 0 … 5. -/
def P05 (V : Valuation τ sig (Elt F)) : Valuation τ sig (Elt F) := after c05 (P04 V)

/-- The buffers' contents after pieces 0 … 6. -/
def P06 (V : Valuation τ sig (Elt F)) : Valuation τ sig (Elt F) := after c06 (P05 V)

/-- The buffers' contents after pieces 0 … 7. -/
def P07 (V : Valuation τ sig (Elt F)) : Valuation τ sig (Elt F) := after c07 (P06 V)

/-- The buffers' contents after pieces 0 … 8. -/
def P08 (V : Valuation τ sig (Elt F)) : Valuation τ sig (Elt F) := after c08 (P07 V)

/-- The buffers' contents after pieces 0 … 9. -/
def P09 (V : Valuation τ sig (Elt F)) : Valuation τ sig (Elt F) := after c09 (P08 V)

/-- The buffers' contents after pieces 0 … 10. -/
def P10 (V : Valuation τ sig (Elt F)) : Valuation τ sig (Elt F) := after c10 (P09 V)

/-- The buffers' contents after pieces 0 … 11. -/
def P11 (V : Valuation τ sig (Elt F)) : Valuation τ sig (Elt F) := after c11 (P10 V)

/-- The buffers' contents after pieces 0 … 12. -/
def P12 (V : Valuation τ sig (Elt F)) : Valuation τ sig (Elt F) := after c12 (P11 V)

/-- The buffers' contents after pieces 0 … 13. -/
def P13 (V : Valuation τ sig (Elt F)) : Valuation τ sig (Elt F) := after c13 (P12 V)

/-- The buffers' contents after pieces 0 … 14. -/
def P14 (V : Valuation τ sig (Elt F)) : Valuation τ sig (Elt F) := after c14 (P13 V)

/-- The buffers' contents after pieces 0 … 15. -/
def P15 (V : Valuation τ sig (Elt F)) : Valuation τ sig (Elt F) := after c15 (P14 V)

/-- The buffers' contents after pieces 0 … 16. -/
def P16 (V : Valuation τ sig (Elt F)) : Valuation τ sig (Elt F) := after c16 (P15 V)

/-- The buffers' contents after pieces 0 … 17. -/
def P17 (V : Valuation τ sig (Elt F)) : Valuation τ sig (Elt F) := after c17 (P16 V)

/-- The buffers' contents after pieces 0 … 18. -/
def P18 (V : Valuation τ sig (Elt F)) : Valuation τ sig (Elt F) := after c18 (P17 V)

/-- The buffers' contents after pieces 0 … 19. -/
def P19 (V : Valuation τ sig (Elt F)) : Valuation τ sig (Elt F) := after c19 (P18 V)

/-- The buffers' contents after pieces 0 … 20. -/
def P20 (V : Valuation τ sig (Elt F)) : Valuation τ sig (Elt F) := after c20 (P19 V)

/-- The buffers' contents after pieces 0 … 21. -/
def P21 (V : Valuation τ sig (Elt F)) : Valuation τ sig (Elt F) := after c21 (P20 V)

/-- The buffers' contents after pieces 0 … 22. -/
def P22 (V : Valuation τ sig (Elt F)) : Valuation τ sig (Elt F) := after c22 (P21 V)

/-- The buffers' contents after pieces 0 … 23. -/
def P23 (V : Valuation τ sig (Elt F)) : Valuation τ sig (Elt F) := after c23 (P22 V)

/-- The buffers' contents after pieces 0 … 24. -/
def P24 (V : Valuation τ sig (Elt F)) : Valuation τ sig (Elt F) := after c24 (P23 V)

/-- The buffers' contents after pieces 0 … 25. -/
def P25 (V : Valuation τ sig (Elt F)) : Valuation τ sig (Elt F) := after c25 (P24 V)

/-- The buffers' contents after pieces 0 … 26. -/
def P26 (V : Valuation τ sig (Elt F)) : Valuation τ sig (Elt F) := after c26 (P25 V)

/-- The buffers' contents after pieces 0 … 27. -/
def P27 (V : Valuation τ sig (Elt F)) : Valuation τ sig (Elt F) := after c27 (P26 V)

/-- The buffers' contents after pieces 0 … 28. -/
def P28 (V : Valuation τ sig (Elt F)) : Valuation τ sig (Elt F) := after c28 (P27 V)

theorem ops_P (V : Valuation τ sig (Elt F)) : after ops V = P28 V := by
  simp only [ops, W0, W1, W2, W3, after_app]
  rfl

theorem P00_kept (V : Valuation τ sig (Elt F)) {r : Ref sig .tc} (hr : r ∉ w00) :
    P00 V (no_index (Proc.devRef .tc r)) = V (Proc.devRef .tc r) := c00_kept _ hr

theorem P01_kept (V : Valuation τ sig (Elt F)) {r : Ref sig .tc} (hr : r ∉ w01) :
    P01 V (no_index (Proc.devRef .tc r)) = P00 V (Proc.devRef .tc r) := c01_kept _ hr

theorem P02_kept (V : Valuation τ sig (Elt F)) {r : Ref sig .tc} (hr : r ∉ w02) :
    P02 V (no_index (Proc.devRef .tc r)) = P01 V (Proc.devRef .tc r) := c02_kept _ hr

theorem P03_kept (V : Valuation τ sig (Elt F)) {r : Ref sig .tc} (hr : r ∉ w03) :
    P03 V (no_index (Proc.devRef .tc r)) = P02 V (Proc.devRef .tc r) := c03_kept _ hr

theorem P04_kept (V : Valuation τ sig (Elt F)) {r : Ref sig .tc} (hr : r ∉ w04) :
    P04 V (no_index (Proc.devRef .tc r)) = P03 V (Proc.devRef .tc r) := c04_kept _ hr

theorem P05_kept (V : Valuation τ sig (Elt F)) {r : Ref sig .tc} (hr : r ∉ w05) :
    P05 V (no_index (Proc.devRef .tc r)) = P04 V (Proc.devRef .tc r) := c05_kept _ hr

theorem P06_kept (V : Valuation τ sig (Elt F)) {r : Ref sig .tc} (hr : r ∉ w06) :
    P06 V (no_index (Proc.devRef .tc r)) = P05 V (Proc.devRef .tc r) := c06_kept _ hr

theorem P07_kept (V : Valuation τ sig (Elt F)) {r : Ref sig .tc} (hr : r ∉ w07) :
    P07 V (no_index (Proc.devRef .tc r)) = P06 V (Proc.devRef .tc r) := c07_kept _ hr

theorem P08_kept (V : Valuation τ sig (Elt F)) {r : Ref sig .tc} (hr : r ∉ w08) :
    P08 V (no_index (Proc.devRef .tc r)) = P07 V (Proc.devRef .tc r) := c08_kept _ hr

theorem P09_kept (V : Valuation τ sig (Elt F)) {r : Ref sig .tc} (hr : r ∉ w09) :
    P09 V (no_index (Proc.devRef .tc r)) = P08 V (Proc.devRef .tc r) := c09_kept _ hr

theorem P10_kept (V : Valuation τ sig (Elt F)) {r : Ref sig .tc} (hr : r ∉ w10) :
    P10 V (no_index (Proc.devRef .tc r)) = P09 V (Proc.devRef .tc r) := c10_kept _ hr

theorem P11_kept (V : Valuation τ sig (Elt F)) {r : Ref sig .tc} (hr : r ∉ w11) :
    P11 V (no_index (Proc.devRef .tc r)) = P10 V (Proc.devRef .tc r) := c11_kept _ hr

theorem P12_kept (V : Valuation τ sig (Elt F)) {r : Ref sig .tc} (hr : r ∉ w12) :
    P12 V (no_index (Proc.devRef .tc r)) = P11 V (Proc.devRef .tc r) := c12_kept _ hr

theorem P13_kept (V : Valuation τ sig (Elt F)) {r : Ref sig .tc} (hr : r ∉ w13) :
    P13 V (no_index (Proc.devRef .tc r)) = P12 V (Proc.devRef .tc r) := c13_kept _ hr

theorem P14_kept (V : Valuation τ sig (Elt F)) {r : Ref sig .tc} (hr : r ∉ w14) :
    P14 V (no_index (Proc.devRef .tc r)) = P13 V (Proc.devRef .tc r) := c14_kept _ hr

theorem P15_kept (V : Valuation τ sig (Elt F)) {r : Ref sig .tc} (hr : r ∉ w15) :
    P15 V (no_index (Proc.devRef .tc r)) = P14 V (Proc.devRef .tc r) := c15_kept _ hr

theorem P16_kept (V : Valuation τ sig (Elt F)) {r : Ref sig .tc} (hr : r ∉ w16) :
    P16 V (no_index (Proc.devRef .tc r)) = P15 V (Proc.devRef .tc r) := c16_kept _ hr

theorem P17_kept (V : Valuation τ sig (Elt F)) {r : Ref sig .tc} (hr : r ∉ w17) :
    P17 V (no_index (Proc.devRef .tc r)) = P16 V (Proc.devRef .tc r) := c17_kept _ hr

theorem P18_kept (V : Valuation τ sig (Elt F)) {r : Ref sig .tc} (hr : r ∉ w18) :
    P18 V (no_index (Proc.devRef .tc r)) = P17 V (Proc.devRef .tc r) := c18_kept _ hr

theorem P19_kept (V : Valuation τ sig (Elt F)) {r : Ref sig .tc} (hr : r ∉ w19) :
    P19 V (no_index (Proc.devRef .tc r)) = P18 V (Proc.devRef .tc r) := c19_kept _ hr

theorem P20_kept (V : Valuation τ sig (Elt F)) {r : Ref sig .tc} (hr : r ∉ w20) :
    P20 V (no_index (Proc.devRef .tc r)) = P19 V (Proc.devRef .tc r) := c20_kept _ hr

theorem P21_kept (V : Valuation τ sig (Elt F)) {r : Ref sig .tc} (hr : r ∉ w21) :
    P21 V (no_index (Proc.devRef .tc r)) = P20 V (Proc.devRef .tc r) := c21_kept _ hr

theorem P22_kept (V : Valuation τ sig (Elt F)) {r : Ref sig .tc} (hr : r ∉ w22) :
    P22 V (no_index (Proc.devRef .tc r)) = P21 V (Proc.devRef .tc r) := c22_kept _ hr

theorem P23_kept (V : Valuation τ sig (Elt F)) {r : Ref sig .tc} (hr : r ∉ w23) :
    P23 V (no_index (Proc.devRef .tc r)) = P22 V (Proc.devRef .tc r) := c23_kept _ hr

theorem P24_kept (V : Valuation τ sig (Elt F)) {r : Ref sig .tc} (hr : r ∉ w24) :
    P24 V (no_index (Proc.devRef .tc r)) = P23 V (Proc.devRef .tc r) := c24_kept _ hr

theorem P25_kept (V : Valuation τ sig (Elt F)) {r : Ref sig .tc} (hr : r ∉ w25) :
    P25 V (no_index (Proc.devRef .tc r)) = P24 V (Proc.devRef .tc r) := c25_kept _ hr

theorem P26_kept (V : Valuation τ sig (Elt F)) {r : Ref sig .tc} (hr : r ∉ w26) :
    P26 V (no_index (Proc.devRef .tc r)) = P25 V (Proc.devRef .tc r) := c26_kept _ hr

theorem P27_kept (V : Valuation τ sig (Elt F)) {r : Ref sig .tc} (hr : r ∉ w27) :
    P27 V (no_index (Proc.devRef .tc r)) = P26 V (Proc.devRef .tc r) := c27_kept _ hr

theorem P28_kept (V : Valuation τ sig (Elt F)) {r : Ref sig .tc} (hr : r ∉ w28) :
    P28 V (no_index (Proc.devRef .tc r)) = P27 V (Proc.devRef .tc r) := c28_kept _ hr

theorem P00_v1 (V : Valuation τ sig (Elt F)) :
    P00 V (no_index (main_v1 : DevRef τ sig)) = srcFlat (V (main_arg1 : DevRef τ sig)) := c00_v1 _

theorem P00_v3 (V : Valuation τ sig (Elt F)) :
    P00 V (no_index (main_v3 : DevRef τ sig)) = dstFlat (V (main_arg1 : DevRef τ sig)) := c00_v3 _

theorem P00_v12 (V : Valuation τ sig (Elt F)) :
    P00 V (no_index (main_v12 : DevRef τ sig)) = invDegOf (dstFlat (V (main_arg1 : DevRef τ sig))) := c00_v12 _

theorem P01_v18 (V : Valuation τ sig (Elt F)) :
    P01 V (no_index (main_v18 : DevRef τ sig)) = srcIdx (P00 V (main_v1 : DevRef τ sig)) := c01_v18 _

theorem P02_v24 (V : Valuation τ sig (Elt F)) :
    P02 V (no_index (main_v24 : DevRef τ sig)) = agg64 (P01 V (main_arg0 : DevRef τ sig)) (P01 V (main_v18 : DevRef τ sig)) (P01 V (main_v3 : DevRef τ sig)) (P01 V (main_v12 : DevRef τ sig)) := c02_v24 _

theorem P03_v30 (V : Valuation τ sig (Elt F)) :
    P03 V (no_index (main_v30 : DevRef τ sig)) = lin64 (P02 V (main_v24 : DevRef τ sig)) (P02 V (main_arg0 : DevRef τ sig)) (P02 V (main_arg3 : DevRef τ sig)) (P02 V (main_arg4 : DevRef τ sig)) (P02 V (main_arg5 : DevRef τ sig)) := c03_v30 _

theorem P04_v32 (V : Valuation τ sig (Elt F)) :
    P04 V (no_index (main_v32 : DevRef τ sig)) = row0 (P03 V (main_arg12 : DevRef τ sig)) := c04_v32 _

theorem P04_v34 (V : Valuation τ sig (Elt F)) :
    P04 V (no_index (main_v34 : DevRef τ sig)) = row0 (P03 V (main_arg13 : DevRef τ sig)) := c04_v34 _

theorem P05_v37 (V : Valuation τ sig (Elt F)) :
    P05 V (no_index (main_v37 : DevRef τ sig)) = colMean (P04 V (main_v30 : DevRef τ sig)) := c05_v37 _

theorem P06_v38 (V : Valuation τ sig (Elt F)) :
    P06 V (no_index (main_v38 : DevRef τ sig)) = colVar (P05 V (main_v30 : DevRef τ sig)) := c06_v38 _

theorem P07_v47 (V : Valuation τ sig (Elt F)) :
    P07 V (no_index (main_v47 : DevRef τ sig)) = bnCore (P06 V (main_v30 : DevRef τ sig)) (P06 V (main_v37 : DevRef τ sig)) (P06 V (main_v38 : DevRef τ sig)) := c07_v47 _

theorem P07_v48 (V : Valuation τ sig (Elt F)) :
    P07 V (no_index (main_v48 : DevRef τ sig)) = rowB (P06 V (main_v32 : DevRef τ sig)) := c07_v48 _

theorem P08_v53 (V : Valuation τ sig (Elt F)) :
    P08 V (no_index (main_v53 : DevRef τ sig)) = bnTail (P07 V (main_v47 : DevRef τ sig)) (P07 V (main_v48 : DevRef τ sig)) (P07 V (main_v34 : DevRef τ sig)) := c08_v53 _

theorem P09_v54 (V : Valuation τ sig (Elt F)) :
    P09 V (no_index (main_v54 : DevRef τ sig)) = relu (P08 V (main_v53 : DevRef τ sig)) := c09_v54 _

theorem P10_v60 (V : Valuation τ sig (Elt F)) :
    P10 V (no_index (main_v60 : DevRef τ sig)) = srcIdx (P09 V (main_v1 : DevRef τ sig)) := c10_v60 _

theorem P11_v66 (V : Valuation τ sig (Elt F)) :
    P11 V (no_index (main_v66 : DevRef τ sig)) = agg128 (P10 V (main_v54 : DevRef τ sig)) (P10 V (main_v60 : DevRef τ sig)) (P10 V (main_v3 : DevRef τ sig)) (P10 V (main_v12 : DevRef τ sig)) := c11_v66 _

theorem P12_v72 (V : Valuation τ sig (Elt F)) :
    P12 V (no_index (main_v72 : DevRef τ sig)) = lin128 (P11 V (main_v66 : DevRef τ sig)) (P11 V (main_v54 : DevRef τ sig)) (P11 V (main_arg6 : DevRef τ sig)) (P11 V (main_arg7 : DevRef τ sig)) (P11 V (main_arg8 : DevRef τ sig)) := c12_v72 _

theorem P13_v74 (V : Valuation τ sig (Elt F)) :
    P13 V (no_index (main_v74 : DevRef τ sig)) = row1 (P12 V (main_arg12 : DevRef τ sig)) := c13_v74 _

theorem P13_v76 (V : Valuation τ sig (Elt F)) :
    P13 V (no_index (main_v76 : DevRef τ sig)) = row1 (P12 V (main_arg13 : DevRef τ sig)) := c13_v76 _

theorem P14_v79 (V : Valuation τ sig (Elt F)) :
    P14 V (no_index (main_v79 : DevRef τ sig)) = colMean (P13 V (main_v72 : DevRef τ sig)) := c14_v79 _

theorem P15_v80 (V : Valuation τ sig (Elt F)) :
    P15 V (no_index (main_v80 : DevRef τ sig)) = colVar (P14 V (main_v72 : DevRef τ sig)) := c15_v80 _

theorem P16_v95 (V : Valuation τ sig (Elt F)) :
    P16 V (no_index (main_v95 : DevRef τ sig)) = bn (P15 V (main_v72 : DevRef τ sig)) (P15 V (main_v79 : DevRef τ sig)) (P15 V (main_v80 : DevRef τ sig)) (P15 V (main_v74 : DevRef τ sig)) (P15 V (main_v76 : DevRef τ sig)) := c16_v95 _

theorem P17_v96 (V : Valuation τ sig (Elt F)) :
    P17 V (no_index (main_v96 : DevRef τ sig)) = relu (P16 V (main_v95 : DevRef τ sig)) := c17_v96 _

theorem P18_v98 (V : Valuation τ sig (Elt F)) :
    P18 V (no_index (main_v98 : DevRef τ sig)) = srcNeg (P17 V (main_v1 : DevRef τ sig)) := c18_v98 _

theorem P18_v99 (V : Valuation τ sig (Elt F)) :
    P18 V (no_index (main_v99 : DevRef τ sig)) = nodeCount := c18_v99 _

theorem P19_v102 (V : Valuation τ sig (Elt F)) :
    P19 V (no_index (main_v102 : DevRef τ sig)) = srcIdxOf (P18 V (main_v1 : DevRef τ sig)) (P18 V (main_v99 : DevRef τ sig)) (P18 V (main_v98 : DevRef τ sig)) := c19_v102 _

theorem P20_v108 (V : Valuation τ sig (Elt F)) :
    P20 V (no_index (main_v108 : DevRef τ sig)) = agg128 (P19 V (main_v96 : DevRef τ sig)) (P19 V (main_v102 : DevRef τ sig)) (P19 V (main_v3 : DevRef τ sig)) (P19 V (main_v12 : DevRef τ sig)) := c20_v108 _

theorem P21_v114 (V : Valuation τ sig (Elt F)) :
    P21 V (no_index (main_v114 : DevRef τ sig)) = lin128 (P20 V (main_v108 : DevRef τ sig)) (P20 V (main_v96 : DevRef τ sig)) (P20 V (main_arg9 : DevRef τ sig)) (P20 V (main_arg10 : DevRef τ sig)) (P20 V (main_arg11 : DevRef τ sig)) := c21_v114 _

theorem P22_v116 (V : Valuation τ sig (Elt F)) :
    P22 V (no_index (main_v116 : DevRef τ sig)) = row2 (P21 V (main_arg12 : DevRef τ sig)) := c22_v116 _

theorem P22_v118 (V : Valuation τ sig (Elt F)) :
    P22 V (no_index (main_v118 : DevRef τ sig)) = row2 (P21 V (main_arg13 : DevRef τ sig)) := c22_v118 _

theorem P23_v121 (V : Valuation τ sig (Elt F)) :
    P23 V (no_index (main_v121 : DevRef τ sig)) = colMean (P22 V (main_v114 : DevRef τ sig)) := c23_v121 _

theorem P24_v122 (V : Valuation τ sig (Elt F)) :
    P24 V (no_index (main_v122 : DevRef τ sig)) = colVar (P23 V (main_v114 : DevRef τ sig)) := c24_v122 _

theorem P25_v137 (V : Valuation τ sig (Elt F)) :
    P25 V (no_index (main_v137 : DevRef τ sig)) = bn (P24 V (main_v114 : DevRef τ sig)) (P24 V (main_v121 : DevRef τ sig)) (P24 V (main_v122 : DevRef τ sig)) (P24 V (main_v116 : DevRef τ sig)) (P24 V (main_v118 : DevRef τ sig)) := c25_v137 _

theorem P26_v138 (V : Valuation τ sig (Elt F)) :
    P26 V (no_index (main_v138 : DevRef τ sig)) = relu (P25 V (main_v137 : DevRef τ sig)) := c26_v138 _

theorem P27_v150 (V : Valuation τ sig (Elt F)) :
    P27 V (no_index (main_v150 : DevRef τ sig)) = pool (P26 V (main_arg2 : DevRef τ sig)) (P26 V (main_v138 : DevRef τ sig)) := c27_v150 _

theorem P28_v165 (V : Valuation τ sig (Elt F)) :
    P28 V (no_index (main_v165 : DevRef τ sig)) = mlp (P27 V (main_v150 : DevRef τ sig)) (P27 V (main_arg14 : DevRef τ sig)) (P27 V (main_arg15 : DevRef τ sig)) (P27 V (main_arg16 : DevRef τ sig)) (P27 V (main_arg17 : DevRef τ sig)) := c28_v165 _

/-! ## The program's value -/

/-- Batch normalization over the rows, then `max · 0`. -/
def bnRelu (L : (⟨S50000x128, .f32⟩ : BufTy).Contents (Elt F)) (g beta : (⟨S128, .f32⟩ : BufTy).Contents (Elt F)) : (⟨S50000x128, .f32⟩ : BufTy).Contents (Elt F) :=
  relu (bn L (colMean L) (colVar L) g beta)

/-- The first layer's linear part: the mean-aggregated neighbours and the rows themselves, each through its matrix, plus the bias. -/
def lin1 (ei : (⟨S2x800000, .i32⟩ : BufTy).Contents (Elt F)) (x : (⟨S50000x64, .f32⟩ : BufTy).Contents (Elt F)) (Wn Wr : (⟨S64x128, .f32⟩ : BufTy).Contents (Elt F)) (b : (⟨S128, .f32⟩ : BufTy).Contents (Elt F)) : (⟨S50000x128, .f32⟩ : BufTy).Contents (Elt F) :=
  lin64 (agg64 x (srcIdx (srcFlat ei)) (dstFlat ei) (invDegOf (dstFlat ei))) x Wn Wr b

/-- A later layer's linear part. -/
def lin2 (ei : (⟨S2x800000, .i32⟩ : BufTy).Contents (Elt F)) (h : (⟨S50000x128, .f32⟩ : BufTy).Contents (Elt F)) (Wn Wr : (⟨S128x128, .f32⟩ : BufTy).Contents (Elt F)) (b : (⟨S128, .f32⟩ : BufTy).Contents (Elt F)) : (⟨S50000x128, .f32⟩ : BufTy).Contents (Elt F) :=
  lin128 (agg128 h (srcIdx (srcFlat ei)) (dstFlat ei) (invDegOf (dstFlat ei))) h Wn Wr b

/-- The first layer. -/
def layer64 (ei : (⟨S2x800000, .i32⟩ : BufTy).Contents (Elt F)) (x : (⟨S50000x64, .f32⟩ : BufTy).Contents (Elt F)) (Wn Wr : (⟨S64x128, .f32⟩ : BufTy).Contents (Elt F)) (b g beta : (⟨S128, .f32⟩ : BufTy).Contents (Elt F)) : (⟨S50000x128, .f32⟩ : BufTy).Contents (Elt F) :=
  bnRelu (lin1 ei x Wn Wr b) g beta

/-- A later layer. -/
def layer128 (ei : (⟨S2x800000, .i32⟩ : BufTy).Contents (Elt F)) (h : (⟨S50000x128, .f32⟩ : BufTy).Contents (Elt F)) (Wn Wr : (⟨S128x128, .f32⟩ : BufTy).Contents (Elt F)) (b g beta : (⟨S128, .f32⟩ : BufTy).Contents (Elt F)) : (⟨S50000x128, .f32⟩ : BufTy).Contents (Elt F) :=
  bnRelu (lin2 ei h Wn Wr b) g beta

/-- The rows after the three layers. -/
def h3 (a0 : (⟨S50000x64, .f32⟩ : BufTy).Contents (Elt F)) (a1 : (⟨S2x800000, .i32⟩ : BufTy).Contents (Elt F)) (a3 : (⟨S64x128, .f32⟩ : BufTy).Contents (Elt F)) (a4 : (⟨S64x128, .f32⟩ : BufTy).Contents (Elt F)) (a5 : (⟨S128, .f32⟩ : BufTy).Contents (Elt F)) (a6 : (⟨S128x128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F)) (a10 : (⟨S128x128, .f32⟩ : BufTy).Contents (Elt F)) (a11 : (⟨S128, .f32⟩ : BufTy).Contents (Elt F)) (a12 : (⟨S3x128, .f32⟩ : BufTy).Contents (Elt F)) (a13 : (⟨S3x128, .f32⟩ : BufTy).Contents (Elt F)) :
    (⟨S50000x128, .f32⟩ : BufTy).Contents (Elt F) :=
  layer128 a1 (layer128 a1 (layer64 a1 a0 a3 a4 a5 (row0 a12) (row0 a13)) a6 a7 a8 (row1 a12) (row1 a13)) a9 a10 a11 (row2 a12) (row2 a13)

/-- The program's result, of its eighteen arguments. -/
def out (a0 : (⟨S50000x64, .f32⟩ : BufTy).Contents (Elt F)) (a1 : (⟨S2x800000, .i32⟩ : BufTy).Contents (Elt F)) (a2 : (⟨S50000, .i32⟩ : BufTy).Contents (Elt F)) (a3 : (⟨S64x128, .f32⟩ : BufTy).Contents (Elt F)) (a4 : (⟨S64x128, .f32⟩ : BufTy).Contents (Elt F)) (a5 : (⟨S128, .f32⟩ : BufTy).Contents (Elt F)) (a6 : (⟨S128x128, .f32⟩ : BufTy).Contents (Elt F)) (a7 : (⟨S128x128, .f32⟩ : BufTy).Contents (Elt F)) (a8 : (⟨S128, .f32⟩ : BufTy).Contents (Elt F)) (a9 : (⟨S128x128, .f32⟩ : BufTy).Contents (Elt F)) (a10 : (⟨S128x128, .f32⟩ : BufTy).Contents (Elt F)) (a11 : (⟨S128, .f32⟩ : BufTy).Contents (Elt F)) (a12 : (⟨S3x128, .f32⟩ : BufTy).Contents (Elt F)) (a13 : (⟨S3x128, .f32⟩ : BufTy).Contents (Elt F)) (a14 : (⟨S128x64, .f32⟩ : BufTy).Contents (Elt F)) (a15 : (⟨S64, .f32⟩ : BufTy).Contents (Elt F)) (a16 : (⟨S64x1, .f32⟩ : BufTy).Contents (Elt F)) (a17 : (⟨S1, .f32⟩ : BufTy).Contents (Elt F)) :
    (⟨S256x1, .f32⟩ : BufTy).Contents (Elt F) :=
  mlp (pool a2 (h3 a0 a1 a3 a4 a5 a6 a7 a8 a9 a10 a11 a12 a13)) a14 a15 a16 a17

set_option maxRecDepth 8192 in
theorem f_h1 (V : Valuation τ sig (Elt F)) :
    P09 V (no_index (main_v54 : DevRef τ sig)) = layer64 (V (main_arg1 : DevRef τ sig)) (V (main_arg0 : DevRef τ sig)) (V (main_arg3 : DevRef τ sig)) (V (main_arg4 : DevRef τ sig)) (V (main_arg5 : DevRef τ sig)) (row0 (V (main_arg12 : DevRef τ sig))) (row0 (V (main_arg13 : DevRef τ sig))) := by
  simp (disch := decide) only [P00_v1, P00_v3, P00_v12, P01_v18, P02_v24, P03_v30, P04_v32, P04_v34, P05_v37, P06_v38, P07_v47, P07_v48, P08_v53, P09_v54, P00_kept, P01_kept, P02_kept, P03_kept, P04_kept, P05_kept, P06_kept, P07_kept, P08_kept, P09_kept, P10_kept, P11_kept, P12_kept, P13_kept, P14_kept, P15_kept, P16_kept, P17_kept, P18_kept, P19_kept, P20_kept, P21_kept, P22_kept, P23_kept, P24_kept, P25_kept, P26_kept, P27_kept, P28_kept]
  rfl

set_option maxRecDepth 8192 in
theorem f_h2 (V : Valuation τ sig (Elt F)) :
    P17 V (no_index (main_v96 : DevRef τ sig)) = layer128 (V (main_arg1 : DevRef τ sig)) (layer64 (V (main_arg1 : DevRef τ sig)) (V (main_arg0 : DevRef τ sig)) (V (main_arg3 : DevRef τ sig)) (V (main_arg4 : DevRef τ sig)) (V (main_arg5 : DevRef τ sig)) (row0 (V (main_arg12 : DevRef τ sig))) (row0 (V (main_arg13 : DevRef τ sig)))) (V (main_arg6 : DevRef τ sig)) (V (main_arg7 : DevRef τ sig)) (V (main_arg8 : DevRef τ sig)) (row1 (V (main_arg12 : DevRef τ sig))) (row1 (V (main_arg13 : DevRef τ sig))) := by
  simp (disch := decide) only [P10_v60, P11_v66, P12_v72, P13_v74, P13_v76, P14_v79, P15_v80, P16_v95, P17_v96, f_h1, P00_v1, P00_v3, P00_v12, P00_kept, P01_kept, P02_kept, P03_kept, P04_kept, P05_kept, P06_kept, P07_kept, P08_kept, P09_kept, P10_kept, P11_kept, P12_kept, P13_kept, P14_kept, P15_kept, P16_kept, P17_kept, P18_kept, P19_kept, P20_kept, P21_kept, P22_kept, P23_kept, P24_kept, P25_kept, P26_kept, P27_kept, P28_kept]
  rfl

set_option maxRecDepth 8192 in
theorem f_h3 (V : Valuation τ sig (Elt F)) :
    P26 V (no_index (main_v138 : DevRef τ sig)) = layer128 (V (main_arg1 : DevRef τ sig)) (layer128 (V (main_arg1 : DevRef τ sig)) (layer64 (V (main_arg1 : DevRef τ sig)) (V (main_arg0 : DevRef τ sig)) (V (main_arg3 : DevRef τ sig)) (V (main_arg4 : DevRef τ sig)) (V (main_arg5 : DevRef τ sig)) (row0 (V (main_arg12 : DevRef τ sig))) (row0 (V (main_arg13 : DevRef τ sig)))) (V (main_arg6 : DevRef τ sig)) (V (main_arg7 : DevRef τ sig)) (V (main_arg8 : DevRef τ sig)) (row1 (V (main_arg12 : DevRef τ sig))) (row1 (V (main_arg13 : DevRef τ sig)))) (V (main_arg9 : DevRef τ sig)) (V (main_arg10 : DevRef τ sig)) (V (main_arg11 : DevRef τ sig)) (row2 (V (main_arg12 : DevRef τ sig))) (row2 (V (main_arg13 : DevRef τ sig))) := by
  simp (disch := decide) only [P18_v98, P18_v99, P19_v102, P20_v108, P21_v114, P22_v116, P22_v118, P23_v121, P24_v122, P25_v137, P26_v138, srcIdx_split, f_h2, P00_v1, P00_v3, P00_v12, P00_kept, P01_kept, P02_kept, P03_kept, P04_kept, P05_kept, P06_kept, P07_kept, P08_kept, P09_kept, P10_kept, P11_kept, P12_kept, P13_kept, P14_kept, P15_kept, P16_kept, P17_kept, P18_kept, P19_kept, P20_kept, P21_kept, P22_kept, P23_kept, P24_kept, P25_kept, P26_kept, P27_kept, P28_kept]
  rfl

set_option maxRecDepth 8192 in
/-- The fold at the result buffer is `out` of the arguments' contents. -/
theorem out_eq (V : Valuation τ sig (Elt F)) :
    after ops V (main_v165 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [ops_P]
  simp (disch := decide) only [P27_v150, P28_v165, f_h3, P00_kept, P01_kept, P02_kept, P03_kept, P04_kept, P05_kept, P06_kept, P07_kept, P08_kept, P09_kept, P10_kept, P11_kept, P12_kept, P13_kept, P14_kept, P15_kept, P16_kept, P17_kept, P18_kept, P19_kept, P20_kept, P21_kept, P22_kept, P23_kept, P24_kept, P25_kept, P26_kept, P27_kept, P28_kept]
  rfl

/-- The program runs, its result is `out` of its arguments' launch contents, and the arguments end unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v165) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v165).trans (out_eq _), (h c main_arg0).trans (arg0_kept _),
    (h c main_arg1).trans (arg1_kept _),
    (h c main_arg2).trans (arg2_kept _),
    (h c main_arg3).trans (arg3_kept _),
    (h c main_arg4).trans (arg4_kept _),
    (h c main_arg5).trans (arg5_kept _),
    (h c main_arg6).trans (arg6_kept _),
    (h c main_arg7).trans (arg7_kept _),
    (h c main_arg8).trans (arg8_kept _),
    (h c main_arg9).trans (arg9_kept _),
    (h c main_arg10).trans (arg10_kept _),
    (h c main_arg11).trans (arg11_kept _),
    (h c main_arg12).trans (arg12_kept _),
    (h c main_arg13).trans (arg13_kept _),
    (h c main_arg14).trans (arg14_kept _),
    (h c main_arg15).trans (arg15_kept _),
    (h c main_arg16).trans (arg16_kept _),
    (h c main_arg17).trans (arg17_kept _)⟩)
    (run_main m ρ)

end Cert.ReferenceIdeal.Hand

end
-- ==== Proof.MathReal.lean ====
/- Real-valued extended reals: the extended reals' ring laws fail at the infinities, so every algebraic law of
   this development is stated for values that are (coercions of) real numbers. This module defines the
   predicate and proves its closure under the operations the two programs use. -/
import Idealize.ShloMosaic.PureOps.Ideal

noncomputable section

namespace Sage.Math

open Idealize.ShloMosaic

/-- An extended real is REAL when it is the coercion of a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- A real value is the coercion of its own real part. -/
theorem IsReal.eq_coe_toReal {x : EReal} (h : IsReal x) : x = ((x.toReal : ℝ) : EReal) := by
  obtain ⟨r, rfl⟩ := h; rw [EReal.toReal_coe]

/-- A value whose absolute value is below `+∞` is real. -/
theorem isReal_of_abs_lt_top {x : EReal} (h : max x (-x) < ⊤) : IsReal x := by
  rw [isReal_iff]
  refine ⟨?_, ?_⟩
  · rintro rfl; simp at h
  · rintro rfl; simp at h

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The quotient of a real by a nonzero real, as a coerced real quotient. -/
theorem div_coe_coe (a : ℝ) {n : ℝ} (hn : n ≠ 0) : Ideal.div (a : EReal) (n : EReal) = ((a / n : ℝ) : EReal) := by
  rw [Ideal.div_coe hn, ← EReal.coe_mul, mul_one_div]

theorem IsReal.div {x y : EReal} (hx : IsReal x) (hy : IsReal y) (hy0 : y ≠ 0) : IsReal (Ideal.div x y) := by
  obtain ⟨a, rfl⟩ := hx; obtain ⟨b, rfl⟩ := hy
  have hb : b ≠ 0 := by rintro rfl; exact hy0 rfl
  exact ⟨a / b, div_coe_coe a hb⟩

/-- The reciprocal square root of a positive real, as a coerced real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem IsReal.rsqrt {x : EReal} {r : ℝ} (hx : x = (r : EReal)) (hr : 0 < r) : IsReal (Ideal.rsqrt x) := by
  subst hx; exact ⟨_, rsqrt_coe_pos hr⟩

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real values is the coerced sum of their real parts. -/
theorem sum_eq_coe {ι : Type*} (s : Finset ι) (x : ι → EReal) (hx : ∀ i ∈ s, IsReal (x i)) :
    ∑ i ∈ s, x i = ((∑ i ∈ s, (x i).toReal : ℝ) : EReal) := by
  rw [← sum_coe]
  exact Finset.sum_congr rfl (fun i hi => (hx i hi).eq_coe_toReal)

theorem isReal_sum {ι : Type*} (s : Finset ι) (x : ι → EReal) (hx : ∀ i ∈ s, IsReal (x i)) :
    IsReal (∑ i ∈ s, x i) := ⟨_, sum_eq_coe s x hx⟩

/-- A sum over a whole finite type of real values is real. -/
theorem real_sum {ι : Type*} [Fintype ι] (x : ι → EReal) (hx : ∀ i, IsReal (x i)) :
    IsReal (∑ i, x i) ∧ ∑ i, x i = ((∑ i, (x i).toReal : ℝ) : EReal) :=
  ⟨isReal_sum _ x (fun i _ => hx i), sum_eq_coe _ x (fun i _ => hx i)⟩

/-- A sum of products of real values (one entry of a matrix product) is real. -/
theorem isReal_sum_mul {κ : Type*} [Fintype κ] (a b : κ → EReal) (ha : ∀ k, IsReal (a k)) (hb : ∀ k, IsReal (b k)) :
    IsReal (∑ k, a k * b k) :=
  isReal_sum _ _ (fun k _ => (ha k).mul (hb k))

/-- An accumulator plus a sum of products, all real, is real. -/
theorem isReal_add_sum_mul {κ : Type*} [Fintype κ] (c : EReal) (a b : κ → EReal) (hc : IsReal c)
    (ha : ∀ k, IsReal (a k)) (hb : ∀ k, IsReal (b k)) : IsReal (c + ∑ k, a k * b k) :=
  hc.add (isReal_sum_mul a b ha hb)

end Sage.Math

end
-- ==== Proof.FinPre.lean ====
/- The precondition decoded: `finite_inputs` is the conjunction, over the sixteen float arguments, of
   `all (|x| < +∞)`; when it holds every entry of every float argument is a real number (neither infinity). -/
import proofs.«181322_j48155173322905_2_alg».proof.Pre_finite_inputs
import proofs.«181322_j48155173322905_2_alg».proof.Proof.MathReal
import Idealize.ShloMosaic.Lib.ReduceAll
import Idealize.ShloMosaic.Lib.Affine
import Idealize.ShloMosaic.Lib.ValueIdx
import Idealize.ShloMosaic.Lib.IdealHost

noncomputable section

namespace Cert.Finite

open Idealize.ShloMosaic Idealize.ShloMosaic.ValueIdx Cert.Pre_finite_inputs

instance : Subsingleton S_.Idx := ⟨fun a b => funext fun d => d.elim0⟩

/-- The f32 word `0x7F800000` is `+∞`. -/
theorem ofBits_inf : Ideal.ofBits .f32 0x7F800000#32 = ⊤ := by simp [Ideal.ofBits, Ideal.ieee]

/-- A comparison `a < +∞` that came out true. -/
theorem lt_top_of_cmp {a : EReal} (h : Ideal.cmp .olt a ⊤ = 1#1) : a < ⊤ := by
  by_contra hn
  simp [Ideal.cmp, hn] at h

/-- One conjunct: `all (|x| < +∞)` over an array, when true, makes every entry real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1)
    (i : s.Idx) : Sage.Math.IsReal (x i) := by
  have h := Host.reduce_andi_all _ _ hr hu ix0 e i
  rw [cmpf_apply, broadcastInDim_scalar_apply, constant_apply, ofBits_inf] at h
  exact Sage.Math.isReal_of_abs_lt_top (lt_top_of_cmp h)

variable [Facts]

/-- `finite_inputs` all ones: every float argument has real entries. -/
theorem finite_of_pre (a0 : FVec Ideal S50000x64 .f32) (a1 : IVec S2x800000 32) (a2 : IVec S50000 32) (a3 : FVec Ideal S64x128 .f32) (a4 : FVec Ideal S64x128 .f32) (a5 : FVec Ideal S128 .f32) (a6 : FVec Ideal S128x128 .f32) (a7 : FVec Ideal S128x128 .f32) (a8 : FVec Ideal S128 .f32) (a9 : FVec Ideal S128x128 .f32) (a10 : FVec Ideal S128x128 .f32) (a11 : FVec Ideal S128 .f32) (a12 : FVec Ideal S3x128 .f32) (a13 : FVec Ideal S3x128 .f32) (a14 : FVec Ideal S128x64 .f32) (a15 : FVec Ideal S64 .f32) (a16 : FVec Ideal S64x1 .f32) (a17 : FVec Ideal S1 .f32)
    (h : fn (F := Ideal) a0 a1 a2 a3 a4 a5 a6 a7 a8 a9 a10 a11 a12 a13 a14 a15 a16 a17 = fun _ => 1#1) :
    (∀ i, Sage.Math.IsReal (a0 i))
      ∧ (∀ i, Sage.Math.IsReal (a3 i))
      ∧ (∀ i, Sage.Math.IsReal (a4 i))
      ∧ (∀ i, Sage.Math.IsReal (a5 i))
      ∧ (∀ i, Sage.Math.IsReal (a6 i))
      ∧ (∀ i, Sage.Math.IsReal (a7 i))
      ∧ (∀ i, Sage.Math.IsReal (a8 i))
      ∧ (∀ i, Sage.Math.IsReal (a9 i))
      ∧ (∀ i, Sage.Math.IsReal (a10 i))
      ∧ (∀ i, Sage.Math.IsReal (a11 i))
      ∧ (∀ i, Sage.Math.IsReal (a12 i))
      ∧ (∀ i, Sage.Math.IsReal (a13 i))
      ∧ (∀ i, Sage.Math.IsReal (a14 i))
      ∧ (∀ i, Sage.Math.IsReal (a15 i))
      ∧ (∀ i, Sage.Math.IsReal (a16 i))
      ∧ (∀ i, Sage.Math.IsReal (a17 i)) := by
  have h' : fn (F := Ideal) a0 a1 a2 a3 a4 a5 a6 a7 a8 a9 a10 a11 a12 a13 a14 a15 a16 a17 ix0 = 1#1 := congrFun h ix0
  dsimp only [fn, fn_part1, fn_part2, fn_part3, fn_part4, andi] at h'
  simp only [IntOp.andi_eq_one] at h'
  obtain ⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩ := h'
  exact ⟨all_real a0 _ _ _ h0,
    all_real a3 _ _ _ h3,
    all_real a4 _ _ _ h4,
    all_real a5 _ _ _ h5,
    all_real a6 _ _ _ h6,
    all_real a7 _ _ _ h7,
    all_real a8 _ _ _ h8,
    all_real a9 _ _ _ h9,
    all_real a10 _ _ _ h10,
    all_real a11 _ _ _ h11,
    all_real a12 _ _ _ h12,
    all_real a13 _ _ _ h13,
    all_real a14 _ _ _ h14,
    all_real a15 _ _ _ h15,
    all_real a16 _ _ _ h16,
    all_real a17 _ _ _ h17⟩

end Cert.Finite

end
-- ==== Proof.GlueHost.lean ====
/- The host stages of the kernel program against the reference's: the two programs print the same operations on the same
   shapes, so each stage of the one is the like-named stage of the other (the edge list's rows, the reciprocal clipped degree,
   the gather indices, the neighbour means, the table rows, the pooled means), the arguments in the other's order. -/
import proofs.«181322_j48155173322905_2_alg».proof.Proof.KerStages
import proofs.«181322_j48155173322905_2_alg».proof.Proof.RefVal
import Idealize.ShloMosaic.Lib.ValueIdx

noncomputable section

namespace Cert.Glue

open Idealize.ShloMosaic Idealize.ShloMosaic.TcCoe
open Cert.KernelIdeal Cert.KernelIdeal.HandRun

/-! ## The host stages: the two programs print the same operations -/

attribute [local irreducible] Host.reduceAdd Host.gather Host.scatterAdd in
theorem edgeSrc_eq (ei : (⟨S2x800000, .i32⟩ : BufTy).Contents (Elt Ideal)) :
    edgeSrc (F := Ideal) ei = Cert.ReferenceIdeal.Hand.srcFlat (F := Ideal) ei := rfl

attribute [local irreducible] Host.reduceAdd Host.gather Host.scatterAdd in
theorem edgeDst_eq (ei : (⟨S2x800000, .i32⟩ : BufTy).Contents (Elt Ideal)) :
    edgeDst (F := Ideal) ei = Cert.ReferenceIdeal.Hand.dstFlat (F := Ideal) ei := rfl

attribute [local irreducible] Host.reduceAdd Host.gather Host.scatterAdd in
theorem invDeg_eq (d : (⟨S800000, .i32⟩ : BufTy).Contents (Elt Ideal)) :
    invDeg (F := Ideal) d = Cert.ReferenceIdeal.Hand.invDegOf (F := Ideal) d := rfl

attribute [local irreducible] Host.reduceAdd Host.gather Host.scatterAdd in
theorem startIdx_eq (s : (⟨S800000, .i32⟩ : BufTy).Contents (Elt Ideal)) :
    startIdx (F := Ideal) s = Cert.ReferenceIdeal.Hand.srcIdx (F := Ideal) s := rfl

attribute [local irreducible] Host.reduceAdd Host.gather Host.scatterAdd in
theorem agg64_eq (s d : (⟨S800000, .i32⟩ : BufTy).Contents (Elt Ideal)) (inv : (⟨S50000x1, .f32⟩ : BufTy).Contents (Elt Ideal))
    (h : (⟨S50000x64, .f32⟩ : BufTy).Contents (Elt Ideal)) :
    agg64 (F := Ideal) s d inv h
      = Cert.ReferenceIdeal.Hand.agg64 (F := Ideal) h (Cert.ReferenceIdeal.Hand.srcIdx (F := Ideal) s) d inv := rfl

attribute [local irreducible] Host.reduceAdd Host.gather Host.scatterAdd in
/-- The width-128 stage reads its features in the narrow format and widens them after the gather; at the ideal values the
    widening is the identity. -/
theorem agg128_eq (s d : (⟨S800000, .i32⟩ : BufTy).Contents (Elt Ideal)) (inv : (⟨S50000x1, .f32⟩ : BufTy).Contents (Elt Ideal))
    (h : (⟨S50000x128, .bf16⟩ : BufTy).Contents (Elt Ideal)) :
    agg128 (F := Ideal) s d inv h
      = Cert.ReferenceIdeal.Hand.agg128 (F := Ideal) h (Cert.ReferenceIdeal.Hand.srcIdx (F := Ideal) s) d inv := rfl

attribute [local irreducible] Host.reduceAdd Host.gather Host.scatterAdd in
theorem tableRow0_eq (G : (⟨S3x128, .f32⟩ : BufTy).Contents (Elt Ideal)) :
    tableRow0 (F := Ideal) G = Cert.ReferenceIdeal.Hand.row0 (F := Ideal) G := rfl

attribute [local irreducible] Host.reduceAdd Host.gather Host.scatterAdd in
theorem tableRow1_eq (G : (⟨S3x128, .f32⟩ : BufTy).Contents (Elt Ideal)) :
    tableRow1 (F := Ideal) G = Cert.ReferenceIdeal.Hand.row1 (F := Ideal) G := rfl

attribute [local irreducible] Host.reduceAdd Host.gather Host.scatterAdd in
theorem tableRow2_eq (G : (⟨S3x128, .f32⟩ : BufTy).Contents (Elt Ideal)) :
    tableRow2 (F := Ideal) G = Cert.ReferenceIdeal.Hand.row2 (F := Ideal) G := rfl

attribute [local irreducible] Host.reduceAdd Host.gather Host.scatterAdd in
theorem pool_eq (b : (⟨S50000, .i32⟩ : BufTy).Contents (Elt Ideal)) (h : (⟨S50000x128, .f32⟩ : BufTy).Contents (Elt Ideal)) :
    pool (F := Ideal) b h = Cert.ReferenceIdeal.Hand.pool (F := Ideal) b h := rfl

end Cert.Glue

end
-- ==== Proof.GlueLin.lean ====
/- The linear layer as the kernel region computes it (LinSpec's index formula, the bias as a one-row matrix) against the
   reference's text for it (two host matrix products added, the bias vector broadcast to a row and down the rows): equal as
   whole arrays at the ideal values, at width 64 and at width 128. Each host product is read at an index as the sum over its
   one contracted coordinate. Also: real-valued inputs give a real-valued linear layer. -/
import proofs.«181322_j48155173322905_2_alg».proof.Proof.KerStages
import proofs.«181322_j48155173322905_2_alg».proof.Proof.RefVal
import proofs.«181322_j48155173322905_2_alg».proof.Proof.LinSpec
import proofs.«181322_j48155173322905_2_alg».proof.Proof.MathReal
import Idealize.ShloMosaic.Lib.ValueIdx
import Idealize.ShloMosaic.Lib.ValueLayout
import Idealize.ShloMosaic.Lib.KernelVsHost
import Idealize.ShloMosaic.PureOps.Ideal.Laws

noncomputable section

namespace Cert.Glue

open Idealize.ShloMosaic Idealize.ShloMosaic.TcCoe Idealize.ShloMosaic.ValueIdx
open Cert.KernelIdeal Cert.KernelIdeal.HandRun Cert.KernelIdeal.HandLin

/-! ## The reference's matrix products at an index -/

theorem rdot64_l0 (i : Cert.ReferenceIdeal.S50000x128.Idx) (q : (Cert.ReferenceIdeal.dot_S50000x64_S64x128_S50000x128_1_0_0_1_n_n).contr.Idx) : ((Cert.ReferenceIdeal.dot_S50000x64_S64x128_S50000x128_1_0_0_1_n_n).lhsIdx i q 0).val = (i 0).val := by
  unfold DotDims.lhsIdx
  rw [dif_neg (show ¬(0 : Fin Cert.ReferenceIdeal.S50000x64.rank) ∈ (Cert.ReferenceIdeal.dot_S50000x64_S64x128_S50000x128_1_0_0_1_n_n).lhsBatch by decide), dif_pos (show (0 : Fin Cert.ReferenceIdeal.S50000x64.rank) ∈ (Cert.ReferenceIdeal.dot_S50000x64_S64x128_S50000x128_1_0_0_1_n_n).lhsNonContracting by decide)]
  rfl

theorem rdot64_l1 (i : Cert.ReferenceIdeal.S50000x128.Idx) (q : (Cert.ReferenceIdeal.dot_S50000x64_S64x128_S50000x128_1_0_0_1_n_n).contr.Idx) : ((Cert.ReferenceIdeal.dot_S50000x64_S64x128_S50000x128_1_0_0_1_n_n).lhsIdx i q 1).val = (q ⟨0, by decide⟩).val :=
  (Cert.ReferenceIdeal.dot_S50000x64_S64x128_S50000x128_1_0_0_1_n_n).lhsIdx_val_of_single rfl i q

theorem rdot64_r0 (i : Cert.ReferenceIdeal.S50000x128.Idx) (q : (Cert.ReferenceIdeal.dot_S50000x64_S64x128_S50000x128_1_0_0_1_n_n).contr.Idx) : ((Cert.ReferenceIdeal.dot_S50000x64_S64x128_S50000x128_1_0_0_1_n_n).rhsIdx i q 0).val = (q ⟨0, by decide⟩).val :=
  (Cert.ReferenceIdeal.dot_S50000x64_S64x128_S50000x128_1_0_0_1_n_n).rhsIdx_val_of_single rfl i q

theorem rdot64_r1 (i : Cert.ReferenceIdeal.S50000x128.Idx) (q : (Cert.ReferenceIdeal.dot_S50000x64_S64x128_S50000x128_1_0_0_1_n_n).contr.Idx) : ((Cert.ReferenceIdeal.dot_S50000x64_S64x128_S50000x128_1_0_0_1_n_n).rhsIdx i q 1).val = (i 1).val := by
  unfold DotDims.rhsIdx
  rw [dif_neg (show ¬(1 : Fin Cert.ReferenceIdeal.S64x128.rank) ∈ (Cert.ReferenceIdeal.dot_S50000x64_S64x128_S50000x128_1_0_0_1_n_n).rhsBatch by decide), dif_pos (show (1 : Fin Cert.ReferenceIdeal.S64x128.rank) ∈ (Cert.ReferenceIdeal.dot_S50000x64_S64x128_S50000x128_1_0_0_1_n_n).rhsNonContracting by decide)]
  rfl

/-- The host's [50000,64] by [64,128] product at (r, j): the sum over the 64 contracted coordinates. -/
theorem rdot64_apply {φ₁ φ₂ : FTy} (L : FVec Ideal Cert.ReferenceIdeal.S50000x64 φ₁) (R : FVec Ideal Cert.ReferenceIdeal.S64x128 φ₂) (r : Fin 50000) (j : Fin 128) :
    Host.dotGeneral Cert.ReferenceIdeal.dot_S50000x64_S64x128_S50000x128_1_0_0_1_n_n none L R (ix2 r j) = ∑ k : Fin 64, L (ix2 r k) * R (ix2 k j) := by
  simp only [Host.dotGeneral]
  rw [Ideal.dotGeneral_apply, ← Equiv.sum_comp (contrEquiv1 Cert.ReferenceIdeal.dot_S50000x64_S64x128_S50000x128_1_0_0_1_n_n 64 rfl rfl).symm]
  refine Finset.sum_congr rfl fun k _ => ?_
  have hk := contrEquiv1_symm_val Cert.ReferenceIdeal.dot_S50000x64_S64x128_S50000x128_1_0_0_1_n_n 64 rfl rfl k
  have el : (Cert.ReferenceIdeal.dot_S50000x64_S64x128_S50000x128_1_0_0_1_n_n).lhsIdx (ix2 r j) ((contrEquiv1 Cert.ReferenceIdeal.dot_S50000x64_S64x128_S50000x128_1_0_0_1_n_n 64 rfl rfl).symm k) = ix2 r k :=
    funext fun a => Fin.ext (by
      match a with
      | ⟨0, _⟩ => exact rdot64_l0 _ _
      | ⟨1, _⟩ => exact (rdot64_l1 _ _).trans hk)
  have er : (Cert.ReferenceIdeal.dot_S50000x64_S64x128_S50000x128_1_0_0_1_n_n).rhsIdx (ix2 r j) ((contrEquiv1 Cert.ReferenceIdeal.dot_S50000x64_S64x128_S50000x128_1_0_0_1_n_n 64 rfl rfl).symm k) = ix2 k j :=
    funext fun a => Fin.ext (by
      match a with
      | ⟨0, _⟩ => exact (rdot64_r0 _ _).trans hk
      | ⟨1, _⟩ => exact rdot64_r1 _ _)
  rw [el, er]

theorem rdot128_l0 (i : Cert.ReferenceIdeal.S50000x128.Idx) (q : (Cert.ReferenceIdeal.dot_S50000x128_S128x128_S50000x128_1_0_0_1_n_n).contr.Idx) : ((Cert.ReferenceIdeal.dot_S50000x128_S128x128_S50000x128_1_0_0_1_n_n).lhsIdx i q 0).val = (i 0).val := by
  unfold DotDims.lhsIdx
  rw [dif_neg (show ¬(0 : Fin Cert.ReferenceIdeal.S50000x128.rank) ∈ (Cert.ReferenceIdeal.dot_S50000x128_S128x128_S50000x128_1_0_0_1_n_n).lhsBatch by decide), dif_pos (show (0 : Fin Cert.ReferenceIdeal.S50000x128.rank) ∈ (Cert.ReferenceIdeal.dot_S50000x128_S128x128_S50000x128_1_0_0_1_n_n).lhsNonContracting by decide)]
  rfl

theorem rdot128_l1 (i : Cert.ReferenceIdeal.S50000x128.Idx) (q : (Cert.ReferenceIdeal.dot_S50000x128_S128x128_S50000x128_1_0_0_1_n_n).contr.Idx) : ((Cert.ReferenceIdeal.dot_S50000x128_S128x128_S50000x128_1_0_0_1_n_n).lhsIdx i q 1).val = (q ⟨0, by decide⟩).val :=
  (Cert.ReferenceIdeal.dot_S50000x128_S128x128_S50000x128_1_0_0_1_n_n).lhsIdx_val_of_single rfl i q

theorem rdot128_r0 (i : Cert.ReferenceIdeal.S50000x128.Idx) (q : (Cert.ReferenceIdeal.dot_S50000x128_S128x128_S50000x128_1_0_0_1_n_n).contr.Idx) : ((Cert.ReferenceIdeal.dot_S50000x128_S128x128_S50000x128_1_0_0_1_n_n).rhsIdx i q 0).val = (q ⟨0, by decide⟩).val :=
  (Cert.ReferenceIdeal.dot_S50000x128_S128x128_S50000x128_1_0_0_1_n_n).rhsIdx_val_of_single rfl i q

theorem rdot128_r1 (i : Cert.ReferenceIdeal.S50000x128.Idx) (q : (Cert.ReferenceIdeal.dot_S50000x128_S128x128_S50000x128_1_0_0_1_n_n).contr.Idx) : ((Cert.ReferenceIdeal.dot_S50000x128_S128x128_S50000x128_1_0_0_1_n_n).rhsIdx i q 1).val = (i 1).val := by
  unfold DotDims.rhsIdx
  rw [dif_neg (show ¬(1 : Fin Cert.ReferenceIdeal.S128x128.rank) ∈ (Cert.ReferenceIdeal.dot_S50000x128_S128x128_S50000x128_1_0_0_1_n_n).rhsBatch by decide), dif_pos (show (1 : Fin Cert.ReferenceIdeal.S128x128.rank) ∈ (Cert.ReferenceIdeal.dot_S50000x128_S128x128_S50000x128_1_0_0_1_n_n).rhsNonContracting by decide)]
  rfl

/-- The host's [50000,128] by [128,128] product at (r, j): the sum over the 128 contracted coordinates. -/
theorem rdot128_apply {φ₁ φ₂ : FTy} (L : FVec Ideal Cert.ReferenceIdeal.S50000x128 φ₁) (R : FVec Ideal Cert.ReferenceIdeal.S128x128 φ₂) (r : Fin 50000) (j : Fin 128) :
    Host.dotGeneral Cert.ReferenceIdeal.dot_S50000x128_S128x128_S50000x128_1_0_0_1_n_n none L R (ix2 r j) = ∑ k : Fin 128, L (ix2 r k) * R (ix2 k j) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : (Cert.ReferenceIdeal.dot_S50000x128_S128x128_S50000x128_1_0_0_1_n_n).lhsIdx (ix2 r j) ((contrEquiv1 Cert.ReferenceIdeal.dot_S50000x128_S128x128_S50000x128_1_0_0_1_n_n 128 rfl rfl).symm k) = ix2 r k :=
    funext fun a => Fin.ext (by
      match a with
      | ⟨0, _⟩ => exact rdot128_l0 _ _
      | ⟨1, _⟩ => exact (rdot128_l1 _ _).trans hk)
  have er : (Cert.ReferenceIdeal.dot_S50000x128_S128x128_S50000x128_1_0_0_1_n_n).rhsIdx (ix2 r j) ((contrEquiv1 Cert.ReferenceIdeal.dot_S50000x128_S128x128_S50000x128_1_0_0_1_n_n 128 rfl rfl).symm k) = ix2 k j :=
    funext fun a => Fin.ext (by
      match a with
      | ⟨0, _⟩ => exact (rdot128_r0 _ _).trans hk
      | ⟨1, _⟩ => exact rdot128_r1 _ _)
  rw [el, er]

/-! ## The bias row: the reference broadcasts the vector to one row and the row down the rows; the kernel program reshapes the
    vector to one row, which the kernel broadcasts down its block's rows -/

theorem refBias_apply (b : (⟨1, ![128]⟩ : Shape).Idx → EReal)
    (h1 : (⟨1, ![128]⟩ : Shape).BroadcastsInDim ⟨2, ![1, 128]⟩ ![1])
    (h2 : (⟨2, ![1, 128]⟩ : Shape).BroadcastsInDim ⟨2, ![50000, 128]⟩ ![0, 1]) (r : Fin 50000) (j : Fin 128) :
    broadcastInDim ⟨2, ![50000, 128]⟩ ![0, 1] h2 (broadcastInDim ⟨2, ![1, 128]⟩ ![1] h1 b) (ix2 r j) = b (ix1 j) := by
  rw [broadcastInDim_oneRow_apply]
  refine broadcastInDim_apply ![1] h1 b (ix2 (0 : Fin 1) j) (ix1 j) fun a => ?_
  match a with
  | ⟨0, _⟩ => show j.val = if (128 : Nat) = 1 then 0 else j.val; rw [if_neg (by decide)]

theorem asRow128_apply (b : (⟨S128, .f32⟩ : BufTy).Contents (Elt Ideal)) (u : Fin 1) (j : Fin 128) :
    asRow128 (F := Ideal) b (ix2 u j) = b (ix1 j) := by
  unfold asRow128
  exact shapeCast_a_1a_apply b _ u j

/-! ## The linear layers -/

theorem lin64_eq (A X : (⟨S50000x64, .f32⟩ : BufTy).Contents (Elt Ideal)) (Wn Wr : (⟨S64x128, .f32⟩ : BufTy).Contents (Elt Ideal))
    (b : (⟨S128, .f32⟩ : BufTy).Contents (Elt Ideal)) :
    linF 64 A X Wn Wr (asRow128 (F := Ideal) b) = Cert.ReferenceIdeal.Hand.lin64 (F := Ideal) A X Wn Wr b := by
  funext i
  obtain ⟨r, j, rfl⟩ : ∃ (r : Fin 50000) (j : Fin 128), i = ix2 r j := ⟨i 0, i 1, eq_ix2 i⟩
  rw [linF_apply, asRow128_apply]
  unfold Cert.ReferenceIdeal.Hand.lin64
  simp only [addf_apply]
  rw [rdot64_apply, rdot64_apply]
  exact congrArg _ (refBias_apply b _ _ r j).symm

theorem lin128_eq (A X : (⟨S50000x128, .f32⟩ : BufTy).Contents (Elt Ideal)) (Wn Wr : (⟨S128x128, .f32⟩ : BufTy).Contents (Elt Ideal))
    (b : (⟨S128, .f32⟩ : BufTy).Contents (Elt Ideal)) :
    linF 128 A X Wn Wr (asRow128 (F := Ideal) b) = Cert.ReferenceIdeal.Hand.lin128 (F := Ideal) A X Wn Wr b := by
  funext i
  obtain ⟨r, j, rfl⟩ : ∃ (r : Fin 50000) (j : Fin 128), i = ix2 r j := ⟨i 0, i 1, eq_ix2 i⟩
  rw [linF_apply, asRow128_apply]
  unfold Cert.ReferenceIdeal.Hand.lin128
  simp only [addf_apply]
  rw [rdot128_apply, rdot128_apply]
  exact congrArg _ (refBias_apply b _ _ r j).symm

/-! ## Real inputs give a real linear layer -/

open Sage.Math in
theorem linF_isReal (d : Nat) (A X : (⟨2, ![50000, d]⟩ : Shape).Idx → EReal) (Wn Wr : (⟨2, ![d, 128]⟩ : Shape).Idx → EReal)
    (B : (⟨2, ![1, 128]⟩ : Shape).Idx → EReal) (hA : ∀ i, IsReal (A i)) (hX : ∀ i, IsReal (X i)) (hWn : ∀ i, IsReal (Wn i))
    (hWr : ∀ i, IsReal (Wr i)) (hB : ∀ i, IsReal (B i)) (i : (⟨2, ![50000, 128]⟩ : Shape).Idx) : IsReal (linF d A X Wn Wr B i) :=
  ((isReal_sum_mul _ _ (fun k => hA _) (fun k => hWn _)).add (isReal_sum_mul _ _ (fun k => hX _) (fun k => hWr _))).add (hB _)

open Sage.Math in
theorem asRow128_isReal (b : (⟨S128, .f32⟩ : BufTy).Contents (Elt Ideal)) (hb : ∀ i, IsReal (b i)) (i : S1x128.Idx) :
    IsReal (asRow128 (F := Ideal) b i) := by
  obtain ⟨u, j, rfl⟩ : ∃ (u : Fin 1) (j : Fin 128), i = ix2 u j := ⟨i 0, i 1, eq_ix2 i⟩
  rw [asRow128_apply]; exact hb _

open Sage.Math in
theorem lin_isReal (d : Nat) (A X : (⟨2, ![50000, d]⟩ : Shape).Idx → EReal) (Wn Wr : (⟨2, ![d, 128]⟩ : Shape).Idx → EReal)
    (b : (⟨S128, .f32⟩ : BufTy).Contents (Elt Ideal)) (hA : ∀ i, IsReal (A i)) (hX : ∀ i, IsReal (X i)) (hWn : ∀ i, IsReal (Wn i))
    (hWr : ∀ i, IsReal (Wr i)) (hb : ∀ i, IsReal (b i)) (i : (⟨2, ![50000, 128]⟩ : Shape).Idx) :
    IsReal (linF d A X Wn Wr (asRow128 (F := Ideal) b) i) :=
  linF_isReal d A X Wn Wr _ hA hX hWn hWr (asRow128_isReal b hb) i

end Cert.Glue

end
-- ==== Proof.GlueMlp.lean ====
/- The read-out as the kernel region computes it (BnSpec's index formula, the two bias vectors as one-row matrices) against
   the reference's text for it: two host matrix products, each bias broadcast to a row and down the rows, a maximum with
   the zero constant, then 1 / (1 + exp (-z)) spelt with the host's negation, exponential, sum and quotient and the constant
   one broadcast from a scalar. Equal as whole [256,1] arrays at the ideal values. -/
import proofs.«181322_j48155173322905_2_alg».proof.Proof.KerStages
import proofs.«181322_j48155173322905_2_alg».proof.Proof.RefVal
import proofs.«181322_j48155173322905_2_alg».proof.Proof.BnSpec
import Idealize.ShloMosaic.Lib.IdealHost
import Idealize.ShloMosaic.Lib.ValueIdx
import Idealize.ShloMosaic.Lib.ValueLayout
import Idealize.ShloMosaic.Lib.KernelVsHost
import Idealize.ShloMosaic.PureOps.Ideal.Laws

noncomputable section

namespace Cert.Glue

open Idealize.ShloMosaic Idealize.ShloMosaic.TcCoe Idealize.ShloMosaic.ValueIdx
open Cert.KernelIdeal Cert.KernelIdeal.HandRun Cert.KernelIdeal.HandBn

/-! ## The reference's two matrix products of the read-out at an index -/

theorem rdotA_l0 (i : Cert.ReferenceIdeal.S256x64.Idx) (q : (Cert.ReferenceIdeal.dot_S256x128_S128x64_S256x64_1_0_0_1_n_n).contr.Idx) : ((Cert.ReferenceIdeal.dot_S256x128_S128x64_S256x64_1_0_0_1_n_n).lhsIdx i q 0).val = (i 0).val := by
  unfold DotDims.lhsIdx
  rw [dif_neg (show ¬(0 : Fin Cert.ReferenceIdeal.S256x128.rank) ∈ (Cert.ReferenceIdeal.dot_S256x128_S128x64_S256x64_1_0_0_1_n_n).lhsBatch by decide), dif_pos (show (0 : Fin Cert.ReferenceIdeal.S256x128.rank) ∈ (Cert.ReferenceIdeal.dot_S256x128_S128x64_S256x64_1_0_0_1_n_n).lhsNonContracting by decide)]
  rfl

theorem rdotA_l1 (i : Cert.ReferenceIdeal.S256x64.Idx) (q : (Cert.ReferenceIdeal.dot_S256x128_S128x64_S256x64_1_0_0_1_n_n).contr.Idx) : ((Cert.ReferenceIdeal.dot_S256x128_S128x64_S256x64_1_0_0_1_n_n).lhsIdx i q 1).val = (q ⟨0, by decide⟩).val :=
  (Cert.ReferenceIdeal.dot_S256x128_S128x64_S256x64_1_0_0_1_n_n).lhsIdx_val_of_single rfl i q

theorem rdotA_r0 (i : Cert.ReferenceIdeal.S256x64.Idx) (q : (Cert.ReferenceIdeal.dot_S256x128_S128x64_S256x64_1_0_0_1_n_n).contr.Idx) : ((Cert.ReferenceIdeal.dot_S256x128_S128x64_S256x64_1_0_0_1_n_n).rhsIdx i q 0).val = (q ⟨0, by decide⟩).val :=
  (Cert.ReferenceIdeal.dot_S256x128_S128x64_S256x64_1_0_0_1_n_n).rhsIdx_val_of_single rfl i q

theorem rdotA_r1 (i : Cert.ReferenceIdeal.S256x64.Idx) (q : (Cert.ReferenceIdeal.dot_S256x128_S128x64_S256x64_1_0_0_1_n_n).contr.Idx) : ((Cert.ReferenceIdeal.dot_S256x128_S128x64_S256x64_1_0_0_1_n_n).rhsIdx i q 1).val = (i 1).val := by
  unfold DotDims.rhsIdx
  rw [dif_neg (show ¬(1 : Fin Cert.ReferenceIdeal.S128x64.rank) ∈ (Cert.ReferenceIdeal.dot_S256x128_S128x64_S256x64_1_0_0_1_n_n).rhsBatch by decide), dif_pos (show (1 : Fin Cert.ReferenceIdeal.S128x64.rank) ∈ (Cert.ReferenceIdeal.dot_S256x128_S128x64_S256x64_1_0_0_1_n_n).rhsNonContracting by decide)]
  rfl

/-- The host's [256,128] by [128,64] product at (r, j): the sum over the 128 contracted coordinates. -/
theorem rdotA_apply {φ₁ φ₂ : FTy} (L : FVec Ideal Cert.ReferenceIdeal.S256x128 φ₁) (R : FVec Ideal Cert.ReferenceIdeal.S128x64 φ₂) (r : Fin 256) (j : Fin 64) :
    Host.dotGeneral Cert.ReferenceIdeal.dot_S256x128_S128x64_S256x64_1_0_0_1_n_n none L R (ix2 r j) = ∑ k : Fin 128, L (ix2 r k) * R (ix2 k j) := by
  simp only [Host.dotGeneral]
  rw [Ideal.dotGeneral_apply, ← Equiv.sum_comp (contrEquiv1 Cert.ReferenceIdeal.dot_S256x128_S128x64_S256x64_1_0_0_1_n_n 128 rfl rfl).symm]
  refine Finset.sum_congr rfl fun k _ => ?_
  have hk := contrEquiv1_symm_val Cert.ReferenceIdeal.dot_S256x128_S128x64_S256x64_1_0_0_1_n_n 128 rfl rfl k
  have el : (Cert.ReferenceIdeal.dot_S256x128_S128x64_S256x64_1_0_0_1_n_n).lhsIdx (ix2 r j) ((contrEquiv1 Cert.ReferenceIdeal.dot_S256x128_S128x64_S256x64_1_0_0_1_n_n 128 rfl rfl).symm k) = ix2 r k :=
    funext fun a => Fin.ext (by
      match a with
      | ⟨0, _⟩ => exact rdotA_l0 _ _
      | ⟨1, _⟩ => exact (rdotA_l1 _ _).trans hk)
  have er : (Cert.ReferenceIdeal.dot_S256x128_S128x64_S256x64_1_0_0_1_n_n).rhsIdx (ix2 r j) ((contrEquiv1 Cert.ReferenceIdeal.dot_S256x128_S128x64_S256x64_1_0_0_1_n_n 128 rfl rfl).symm k) = ix2 k j :=
    funext fun a => Fin.ext (by
      match a with
      | ⟨0, _⟩ => exact (rdotA_r0 _ _).trans hk
      | ⟨1, _⟩ => exact rdotA_r1 _ _)
  rw [el, er]

theorem rdotB_l0 (i : Cert.ReferenceIdeal.S256x1.Idx) (q : (Cert.ReferenceIdeal.dot_S256x64_S64x1_S256x1_1_0_0_1_n_n).contr.Idx) : ((Cert.ReferenceIdeal.dot_S256x64_S64x1_S256x1_1_0_0_1_n_n).lhsIdx i q 0).val = (i 0).val := by
  unfold DotDims.lhsIdx
  rw [dif_neg (show ¬(0 : Fin Cert.ReferenceIdeal.S256x64.rank) ∈ (Cert.ReferenceIdeal.dot_S256x64_S64x1_S256x1_1_0_0_1_n_n).lhsBatch by decide), dif_pos (show (0 : Fin Cert.ReferenceIdeal.S256x64.rank) ∈ (Cert.ReferenceIdeal.dot_S256x64_S64x1_S256x1_1_0_0_1_n_n).lhsNonContracting by decide)]
  rfl

theorem rdotB_l1 (i : Cert.ReferenceIdeal.S256x1.Idx) (q : (Cert.ReferenceIdeal.dot_S256x64_S64x1_S256x1_1_0_0_1_n_n).contr.Idx) : ((Cert.ReferenceIdeal.dot_S256x64_S64x1_S256x1_1_0_0_1_n_n).lhsIdx i q 1).val = (q ⟨0, by decide⟩).val :=
  (Cert.ReferenceIdeal.dot_S256x64_S64x1_S256x1_1_0_0_1_n_n).lhsIdx_val_of_single rfl i q

theorem rdotB_r0 (i : Cert.ReferenceIdeal.S256x1.Idx) (q : (Cert.ReferenceIdeal.dot_S256x64_S64x1_S256x1_1_0_0_1_n_n).contr.Idx) : ((Cert.ReferenceIdeal.dot_S256x64_S64x1_S256x1_1_0_0_1_n_n).rhsIdx i q 0).val = (q ⟨0, by decide⟩).val :=
  (Cert.ReferenceIdeal.dot_S256x64_S64x1_S256x1_1_0_0_1_n_n).rhsIdx_val_of_single rfl i q

theorem rdotB_r1 (i : Cert.ReferenceIdeal.S256x1.Idx) (q : (Cert.ReferenceIdeal.dot_S256x64_S64x1_S256x1_1_0_0_1_n_n).contr.Idx) : ((Cert.ReferenceIdeal.dot_S256x64_S64x1_S256x1_1_0_0_1_n_n).rhsIdx i q 1).val = (i 1).val := by
  unfold DotDims.rhsIdx
  rw [dif_neg (show ¬(1 : Fin Cert.ReferenceIdeal.S64x1.rank) ∈ (Cert.ReferenceIdeal.dot_S256x64_S64x1_S256x1_1_0_0_1_n_n).rhsBatch by decide), dif_pos (show (1 : Fin Cert.ReferenceIdeal.S64x1.rank) ∈ (Cert.ReferenceIdeal.dot_S256x64_S64x1_S256x1_1_0_0_1_n_n).rhsNonContracting by decide)]
  rfl

/-- The host's [256,64] by [64,1] product at (r, j): the sum over the 64 contracted coordinates. -/
theorem rdotB_apply {φ₁ φ₂ : FTy} (L : FVec Ideal Cert.ReferenceIdeal.S256x64 φ₁) (R : FVec Ideal Cert.ReferenceIdeal.S64x1 φ₂) (r : Fin 256) (j : Fin 1) :
    Host.dotGeneral Cert.ReferenceIdeal.dot_S256x64_S64x1_S256x1_1_0_0_1_n_n none L R (ix2 r j) = ∑ k : Fin 64, L (ix2 r k) * R (ix2 k j) := by
  simp only [Host.dotGeneral]
  rw [Ideal.dotGeneral_apply, ← Equiv.sum_comp (contrEquiv1 Cert.ReferenceIdeal.dot_S256x64_S64x1_S256x1_1_0_0_1_n_n 64 rfl rfl).symm]
  refine Finset.sum_congr rfl fun k _ => ?_
  have hk := contrEquiv1_symm_val Cert.ReferenceIdeal.dot_S256x64_S64x1_S256x1_1_0_0_1_n_n 64 rfl rfl k
  have el : (Cert.ReferenceIdeal.dot_S256x64_S64x1_S256x1_1_0_0_1_n_n).lhsIdx (ix2 r j) ((contrEquiv1 Cert.ReferenceIdeal.dot_S256x64_S64x1_S256x1_1_0_0_1_n_n 64 rfl rfl).symm k) = ix2 r k :=
    funext fun a => Fin.ext (by
      match a with
      | ⟨0, _⟩ => exact rdotB_l0 _ _
      | ⟨1, _⟩ => exact (rdotB_l1 _ _).trans hk)
  have er : (Cert.ReferenceIdeal.dot_S256x64_S64x1_S256x1_1_0_0_1_n_n).rhsIdx (ix2 r j) ((contrEquiv1 Cert.ReferenceIdeal.dot_S256x64_S64x1_S256x1_1_0_0_1_n_n 64 rfl rfl).symm k) = ix2 k j :=
    funext fun a => Fin.ext (by
      match a with
      | ⟨0, _⟩ => exact (rdotB_r0 _ _).trans hk
      | ⟨1, _⟩ => exact rdotB_r1 _ _)
  rw [el, er]

/-! ## Bias rows and pointwise host operations at an index -/

/-- A vector broadcast to one row and the row down m rows, read at (r, j): the vector at j. -/
theorem rowBias_apply {m n : Nat} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    broadcastInDim ⟨2, ![m, n]⟩ ![0, 1] h2 (broadcastInDim ⟨2, ![1, n]⟩ ![1] h1 b) (ix2 r j) = b (ix1 j) := by
  rw [broadcastInDim_oneRow_apply]
  refine broadcastInDim_apply ![1] h1 b (ix2 (0 : Fin 1) j) (ix1 j) fun a => ?_
  match a with
  | ⟨0, _⟩ =>
    show j.val = if n = 1 then 0 else j.val
    split_ifs with h
    · subst h; omega
    · rfl

theorem asRow64_apply (b : (⟨S64, .f32⟩ : BufTy).Contents (Elt Ideal)) (u : Fin 1) (j : Fin 64) :
    asRow64 (F := Ideal) b (ix2 u j) = b (ix1 j) := by
  unfold asRow64
  exact shapeCast_a_1a_apply b _ u j

theorem asRow1_apply (b : (⟨S1, .f32⟩ : BufTy).Contents (Elt Ideal)) (u : Fin 1) (j : Fin 1) :
    asRow1 (F := Ideal) b (ix2 u j) = b (ix1 j) := by
  unfold asRow1
  exact shapeCast_a_1a_apply b _ u j

theorem hostExp_apply {s : Shape} {φ : FTy} (a : FVec Ideal s φ) (i : s.Idx) : Host.exp a i = Ideal.exp (a i) := rfl
theorem hostNegf_apply {s : Shape} {φ : FTy} (a : FVec Ideal s φ) (i : s.Idx) : Host.negf a i = -(a i) := rfl

/-! ## The read-out -/

theorem mlp_eq (P : (⟨S256x128, .f32⟩ : BufTy).Contents (Elt Ideal)) (W1 : (⟨S128x64, .f32⟩ : BufTy).Contents (Elt Ideal))
    (b1 : (⟨S64, .f32⟩ : BufTy).Contents (Elt Ideal)) (W2 : (⟨S64x1, .f32⟩ : BufTy).Contents (Elt Ideal))
    (b2 : (⟨S1, .f32⟩ : BufTy).Contents (Elt Ideal)) :
    mlpF P W1 (asRow64 (F := Ideal) b1) W2 (asRow1 (F := Ideal) b2)
      = Cert.ReferenceIdeal.Hand.mlp (F := Ideal) P W1 b1 W2 b2 := by
  funext i
  obtain ⟨r, o, rfl⟩ : ∃ (r : Fin 256) (o : Fin 1), i = ix2 r o := ⟨i 0, i 1, eq_ix2 i⟩
  show Ideal.div 1 (1 + Ideal.exp (-((∑ k : Fin 64,
      max ((∑ k' : Fin 128, P (ix2 r k') * W1 (ix2 k' k)) + asRow64 (F := Ideal) b1 (ix2 (0 : Fin 1) k)) (Ideal.ofBits .f32 0x00000000#32)
        * W2 (ix2 k o)) + asRow1 (F := Ideal) b2 (ix2 (0 : Fin 1) o)))) = _
  unfold Cert.ReferenceIdeal.Hand.mlp
  have e1 : broadcastInDim Cert.ReferenceIdeal.S256x1 ![] Cert.ReferenceIdeal.Gen.bcast_S_S256x1 (constant (F := Ideal) Cert.ReferenceIdeal.S_ .f32 0x3F800000#32) (ix2 r o) = 1 :=
    (broadcastInDim_scalar_apply _ _ _).trans Ideal.ofBits_one_f32
  have e0 : ∀ x : Fin 64, broadcastInDim Cert.ReferenceIdeal.S256x64 ![] Cert.ReferenceIdeal.Gen.bcast_S_S256x64 (constant (F := Ideal) Cert.ReferenceIdeal.S_ .f32 0x00000000#32) (ix2 r x)
      = Ideal.ofBits .f32 0x00000000#32 := fun x => broadcastInDim_scalar_apply _ _ _
  have eb1 : ∀ x : Fin 64, broadcastInDim Cert.ReferenceIdeal.S256x64 ![0, 1] Cert.ReferenceIdeal.Gen.bcast_S1x64_S256x64_0_1
      (broadcastInDim Cert.ReferenceIdeal.S1x64 ![1] Cert.ReferenceIdeal.Gen.bcast_S64_S1x64_1 b1) (ix2 r x) = b1 (ix1 x) := fun x => rowBias_apply b1 _ _ r x
  have eb2 : broadcastInDim Cert.ReferenceIdeal.S256x1 ![0, 1] Cert.ReferenceIdeal.Gen.bcast_S1x1_S256x1_0_1
      (broadcastInDim Cert.ReferenceIdeal.S1x1 ![1] Cert.ReferenceIdeal.Gen.bcast_S1_S1x1_1 b2) (ix2 r o) = b2 (ix1 o) := rowBias_apply b2 _ _ r o
  simp only [hostDivf_apply, hostExp_apply, hostNegf_apply, addf_apply, maximumf_apply, rdotB_apply, rdotA_apply,
    asRow64_apply, asRow1_apply, e1, e0, eb1, eb2]

end Cert.Glue

end
-- ==== Proof.MathMore.lean ====
/- Further closure facts for real-valued data: the positive part in either argument order, a quotient by a
   maximum with one, the logistic function, an accumulating scatter, and the row count of a `Fin 50000`. -/
import proofs.«181322_j48155173322905_2_alg».proof.Proof.MathReal

noncomputable section

namespace Sage.Math

open Idealize.ShloMosaic

/-- `Fin 50000` has real cardinality `50000`. -/
theorem card_fin_50000 : (Fintype.card (Fin 50000) : ℝ) = 50000 := by
  rw [Fintype.card_fin]; norm_num

/-- The positive part of a real value is real, in either argument order. -/
theorem isReal_relu {x : EReal} (hx : IsReal x) : IsReal (max x 0) := hx.max isReal_zero

theorem isReal_relu' {x : EReal} (hx : IsReal x) : IsReal (max 0 x) := isReal_zero.max hx

/-- A maximum with one is a nonzero real when the other argument is real. -/
theorem max_one_ne_zero (c : EReal) : max c 1 ≠ 0 :=
  (lt_of_lt_of_le zero_lt_one (le_max_right c 1)).ne'

theorem isReal_max_one {c : EReal} (hc : IsReal c) : IsReal (max c 1) := hc.max isReal_one

/-- A real divided by `max c 1`, `c` real, is real (a mean over a count floored at one; a reciprocal
    of a degree floored at one). -/
theorem isReal_div_max_one {x c : EReal} (hx : IsReal x) (hc : IsReal c) : IsReal (Ideal.div x (max c 1)) :=
  hx.div (isReal_max_one hc) (max_one_ne_zero c)

/-- The logistic function of a real value is real. -/
theorem IsReal.logistic {x : EReal} (hx : IsReal x) : IsReal (Ideal.logistic x) := by
  obtain ⟨r, rfl⟩ := hx; exact ⟨_, Ideal.logistic_coe r⟩

/-- An accumulating scatter's entry — an operand entry plus a finite sum of update entries — is real when
    all of them are. -/
theorem isReal_add_sum {ι : Type*} (s : Finset ι) (c : EReal) (u : ι → EReal) (hc : IsReal c)
    (hu : ∀ j ∈ s, IsReal (u j)) : IsReal (c + ∑ j ∈ s, u j) :=
  hc.add (isReal_sum s u hu)

/-- A count: an accumulating scatter of ones onto zero is real. -/
theorem isReal_add_sum_one {ι : Type*} (s : Finset ι) (c : EReal) (hc : IsReal c) :
    IsReal (c + ∑ _j ∈ s, (1 : EReal)) :=
  isReal_add_sum s c _ hc (fun _ _ => isReal_one)

/-- Sums from a zero initial value, on either side. -/
theorem zero_add_sum {ι : Type*} (s : Finset ι) (f : ι → EReal) {z : EReal} (hz : z = 0) :
    z + ∑ i ∈ s, f i = ∑ i ∈ s, f i := by rw [hz, zero_add]

theorem sum_add_zero {ι : Type*} (s : Finset ι) (f : ι → EReal) {z : EReal} (hz : z = 0) :
    (∑ i ∈ s, f i) + z = ∑ i ∈ s, f i := by rw [hz, add_zero]

end Sage.Math

end
-- ==== Proof.MathConsts.lean ====
/- The float constants the two programs spell, as the extended reals their bit patterns denote at the
   ideal instance. Unfolding the pattern reader is done here, once; other modules read the constants by name. -/
import Idealize.ShloMosaic.PureOps.Ideal

noncomputable section

namespace Sage.Math

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `50000.0`, the number of rows, denotes the real `50000`. -/
theorem ofBits_N : Ideal.ofBits .f32 0x47435000#32 = ((50000 : ℝ) : EReal) := by
  simp [Ideal.ofBits, Ideal.ieee, -EReal.coe_mul]; norm_num

/-- The variance offset (about `1e-5`) denotes a positive real; only its sign is ever used. -/
theorem ofBits_eps : ∃ e : ℝ, 0 < e ∧ Ideal.ofBits .f32 0x3727C5AC#32 = (e : EReal) := by
  refine ⟨(((2 ^ 23 + 2606508 : Nat) : ℝ) * (2 : ℝ) ^ ((110 : Int) - (2 ^ (8 - 1) - 1) - (23 : Nat))), by positivity, ?_⟩
  simp [Ideal.ofBits, Ideal.ieee, -EReal.coe_mul]

/-- The quiet-NaN pattern denotes the documented junk value `⊥`. -/
theorem ofBits_nan : Ideal.ofBits .f32 0x7FC00000#32 = ⊥ := by
  simp [Ideal.ofBits, Ideal.ieee]

end Sage.Math

end
-- ==== Proof.RealAgg.lean ====
/- Realness through the host-side stages: the reciprocal clipped degree and the degree-normalised neighbour
   sums have real entries when their inputs do. A count is zero plus a finite sum of ones; a neighbour sum is zero plus
   a finite sum of gathered entries; which entries are summed plays no role, only that there are finitely many of
   them and each is real. -/
import proofs.«181322_j48155173322905_2_alg».proof.Proof.KerStages
import proofs.«181322_j48155173322905_2_alg».proof.Proof.MathMore
import proofs.«181322_j48155173322905_2_alg».proof.Proof.MathConsts
import Idealize.ShloMosaic.Lib.ValueIdx
import Idealize.ShloMosaic.Lib.IdealHost

noncomputable section

namespace Cert.KernelIdeal.HandReal

open Idealize.ShloMosaic Idealize.ShloMosaic.ValueIdx
open Cert.KernelIdeal Cert.KernelIdeal.Gen Cert.KernelIdeal.HandRun
open Sage.Math

/-- A broadcast of real entries has real entries: every result entry is some operand entry. -/
theorem isReal_broadcastInDim {s t : Shape} (dims : Fin s.rank → Fin t.rank) (h : s.BroadcastsInDim t dims)
    (x : s.Idx → EReal) (hx : ∀ k, IsReal (x k)) (j : t.Idx) : IsReal (broadcastInDim t dims h x j) := by
  unfold broadcastInDim; exact hx _

/-- A broadcast float constant reads as the constant. -/
theorem bcastConst_apply {T : Shape} (h : (⟨0, ![]⟩ : Shape).BroadcastsInDim T ![]) (b : BitVec 32) (j : T.Idx) :
    broadcastInDim T ![] h (constant (F := Ideal) (⟨0, ![]⟩ : Shape) .f32 b) j = Ideal.ofBits .f32 b := by
  rw [broadcastInDim_scalar_apply, constant_apply]

/-- An accumulating scatter of real updates onto real entries has real entries. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact isReal_add_sum _ _ _ (hx i) (fun j _ => hu j)

/-- A gather of real entries has real entries. -/
theorem isReal_gather {s si t : Shape} {w : Nat} (d : GatherDims s si t) (x : s.Idx → EReal) (idx : IVec si w)
    (hx : ∀ k, IsReal (x k)) (j : t.Idx) : IsReal (Host.gather d x idx j) := by
  unfold Host.gather; exact hx _

/-- The host's quotient, entry by entry. -/
theorem hostDivf_apply {s : Shape} (x y : FVec Ideal s .f32) (i : s.Idx) : Host.divf x y i = Ideal.div (x i) (y i) := rfl

/-- The reciprocal of the degree clipped below at one is real: the degree is zero plus a finite sum of ones. -/
theorem isReal_invDeg (dst : (⟨S800000, .i32⟩ : BufTy).Contents (Elt Ideal)) :
    ∀ i, IsReal (invDeg (F := Ideal) dst i) := by
  intro i
  unfold invDeg
  refine isReal_broadcastInDim _ _ _ (fun k => ?_) i
  rw [hostDivf_apply, maximumf_apply, bcastConst_apply, ofBits_one]
  refine isReal_div_max_one isReal_one (isReal_scatterAdd _ _ _ _ (fun i => ?_) (fun j => ?_) k)
  · rw [bcastConst_apply, ofBits_zero]; exact isReal_zero
  · rw [bcastConst_apply, ofBits_one]; exact isReal_one

/-- The degree-normalised neighbour sum at width 64 is real when the reciprocal degrees and the features are. -/
theorem isReal_agg64 (src dst : (⟨S800000, .i32⟩ : BufTy).Contents (Elt Ideal))
    (inv : (⟨S50000x1, .f32⟩ : BufTy).Contents (Elt Ideal)) (hinv : ∀ i, IsReal (inv i))
    (h : (⟨S50000x64, .f32⟩ : BufTy).Contents (Elt Ideal)) (hh : ∀ i, IsReal (h i)) :
    ∀ i, IsReal (agg64 (F := Ideal) src dst inv h i) := by
  intro i
  unfold agg64
  rw [mulf_apply]
  refine IsReal.mul (isReal_scatterAdd _ _ _ _ (fun i => ?_) (fun j => ?_) i) (isReal_broadcastInDim _ _ _ hinv i)
  · rw [bcastConst_apply, ofBits_zero]; exact isReal_zero
  · exact isReal_gather _ _ _ hh j

/-- The same at width 128; widening the float format is the identity. -/
theorem isReal_agg128 (src dst : (⟨S800000, .i32⟩ : BufTy).Contents (Elt Ideal))
    (inv : (⟨S50000x1, .f32⟩ : BufTy).Contents (Elt Ideal)) (hinv : ∀ i, IsReal (inv i))
    (h : (⟨S50000x128, .bf16⟩ : BufTy).Contents (Elt Ideal)) (hh : ∀ i, IsReal (h i)) :
    ∀ i, IsReal (agg128 (F := Ideal) src dst inv h i) := by
  intro i
  unfold agg128
  rw [mulf_apply]
  refine IsReal.mul (isReal_scatterAdd _ _ _ _ (fun i => ?_) (fun j => ?_) i) (isReal_broadcastInDim _ _ _ hinv i)
  · rw [bcastConst_apply, ofBits_zero]; exact isReal_zero
  · rw [extf_apply]; exact isReal_gather _ _ _ hh j

end Cert.KernelIdeal.HandReal

end
-- ==== Proof.MathTile.lean ====
/- Regrouping a sum over 50000 rows as a sum over 10 tiles of 5000 rows each. The extended reals' addition is
   commutative and associative, so no realness is needed. -/
import Mathlib.Data.EReal.Basic
import Mathlib.Algebra.BigOperators.Fin
import Mathlib.Data.Fintype.BigOperators

noncomputable section

namespace Sage.Math

/-- Row `r` of tile `t` (tiles of `n` rows) is row `n * t + r` of the whole. -/
theorem tile_lt {m n : ℕ} (t : Fin m) (r : Fin n) : n * t.val + r.val < m * n := by
  calc n * t.val + r.val < n * t.val + n := Nat.add_lt_add_left r.isLt _
    _ = n * (t.val + 1) := by ring
    _ ≤ n * m := Nat.mul_le_mul_left _ t.isLt
    _ = m * n := Nat.mul_comm _ _

/-- A sum over `m * n` rows is the sum over `m` tiles of the sums over each tile's `n` rows (any commutative
    additive monoid). -/
theorem sum_tiles {M : Type*} [AddCommMonoid M] {m n : ℕ} (f : Fin (m * n) → M) :
    ∑ t : Fin m, ∑ r : Fin n, f ⟨n * t.val + r.val, tile_lt t r⟩ = ∑ i : Fin (m * n), f i := by
  rw [← Fintype.sum_prod_type', ← finProdFinEquiv.sum_comp]
  refine Finset.sum_congr rfl (fun p _ => congrArg f (Fin.ext ?_))
  simp [finProdFinEquiv, Nat.add_comm]

/-- The instance used: 10 tiles of 5000 rows make the 50000 rows. -/
theorem sum_tiles_50000 (f : Fin 50000 → EReal) :
    ∑ t : Fin 10, ∑ r : Fin 5000, f ⟨5000 * t.val + r.val, tile_lt (m := 10) (n := 5000) t r⟩ = ∑ i : Fin 50000, f i :=
  sum_tiles (m := 10) (n := 5000) f

/-- The same with the row's bound given by any proof (bounds are proof-irrelevant; stated for rewriting). -/
theorem sum_tiles_50000' (f : Fin 50000 → EReal) (h : ∀ (t : Fin 10) (r : Fin 5000), 5000 * t.val + r.val < 50000) :
    ∑ t : Fin 10, ∑ r : Fin 5000, f ⟨5000 * t.val + r.val, h t r⟩ = ∑ i : Fin 50000, f i :=
  sum_tiles_50000 f

end Sage.Math

end
-- ==== Proof.StatTile.lean ====
/- The kernel program's host statistics read at an index, at the ideal instance: the total over the ten row-tiles
   of a per-tile column sum is the zero literal plus the column's sum over all 50000 rows; a vector as a one-row
   matrix and a row of a three-row table read at an index. -/
import proofs.«181322_j48155173322905_2_alg».proof.Proof.KerStages
import proofs.«181322_j48155173322905_2_alg».proof.Proof.LinSpec
import proofs.«181322_j48155173322905_2_alg».proof.Proof.MathTile
import proofs.«181322_j48155173322905_2_alg».proof.Proof.MathConsts
import Idealize.ShloMosaic.PureOps.Ideal.Laws
import Idealize.ShloMosaic.Lib.ValueLayout
import Idealize.ShloMosaic.Lib.IdealHost

noncomputable section

namespace Cert.KernelIdeal.HandStat

open Idealize.ShloMosaic Idealize.ShloMosaic.ValueIdx
open Cert.KernelIdeal Cert.KernelIdeal.Gen Cert.KernelIdeal.HandRun Cert.KernelIdeal.HandLin Sage.Math

/-- Row 0 of tile `t`'s eight-row block, column `c`, of an [80,128] array: the chain reshape, slice, reshape read at
    `(t, c)`. -/
theorem tiles10_apply {α : Type} (P : S80x128.Idx → α) (t : Fin 10) (c : Fin 128) :
    shapeCast S10x128
      (extractStridedSlice S10x1x128 ![0, 0, 0] (fun i => shapeCast S10x8x128 P shapeCasts_S80x128_S10x8x128 i)
        slices_S10x8x128_S10x1x128_0_0_0)
      shapeCasts_S10x1x128_S10x128 (ix2 t c) = P (ix2 ⟨8 * t.val, by have := t.isLt; omega⟩ c) := by
  rw [shapeCast_apply _ shapeCasts_S10x1x128_S10x128 (ix2 t c) (ix3 t (0 : Fin 1) c) (by
    rw [Shape.rowMajor_val_three, Shape.rowMajor_val_two]
    show (t.val * 1 + 0) * 128 + c.val = t.val * 128 + c.val
    omega)]
  rw [slice3_axis1_apply 0 _ slices_S10x8x128_S10x1x128_0_0_0 t (0 : Fin 1) c (0 : Fin 8) rfl]
  exact shapeCast_apply P shapeCasts_S80x128_S10x8x128 (ix3 t (0 : Fin 8) c) _ (by
    rw [Shape.rowMajor_val_three, Shape.rowMajor_val_two]
    show (8 * t.val) * 128 + c.val = (t.val * 8 + 0) * 128 + c.val
    omega)

/-- The total over the ten tiles read at a column: the zero literal plus the sum over the tiles of row 0 of each
    tile's block. -/
theorem tileTotal_apply (P : S80x128.Idx → EReal) (j : Fin 128) :
    tileTotal (F := Ideal) P (ix1 j)
      = Ideal.ofBits .f32 0x00000000#32 + ∑ t : Fin 10, P (ix2 ⟨8 * t.val, by have := t.isLt; omega⟩ j) := by
  have hR : S10x128.Reduces [0] S128 := by decide
  unfold tileTotal
  rw [hostReduceAdd_apply, Ideal.hostReduceAdd_single _ hR]
  congr 1
  refine Finset.sum_congr rfl (fun t _ => ?_)
  have hl : hR.lift (ix1 j) t = ix2 t j := by
    funext a
    match a with
    | ⟨0, _⟩ => rfl
    | ⟨1, _⟩ => rfl
  rw [hl]
  exact tiles10_apply P t j

/-- The total over the ten tiles of the per-tile column sums of `L` is the zero literal plus the column's sum over
    all 50000 rows. -/
theorem tileTotal_tileSum (L : (⟨2, ![50000, 128]⟩ : Shape).Idx → EReal) (j : Fin 128) :
    tileTotal (F := Ideal) (tileSum L) (ix1 j)
      = Ideal.ofBits .f32 0x00000000#32 + ∑ i : Fin 50000, L (ix2 i j) := by
  rw [tileTotal_apply, ← sum_tiles_50000 (fun i => L (ix2 i j))]
  refine congrArg (Ideal.ofBits .f32 0x00000000#32 + ·) (Finset.sum_congr rfl (fun t _ => ?_))
  rw [tileSum_apply]
  refine Finset.sum_congr rfl (fun r _ => ?_)
  have hrow : tileRow ⟨8 * t.val, by have := t.isLt; omega⟩ r
      = ⟨5000 * t.val + r.val, tile_lt (m := 10) (n := 5000) t r⟩ :=
    Fin.ext (by
      show 5000 * (8 * t.val / 8) + r.val = 5000 * t.val + r.val
      omega)
  exact congrArg (fun i => L (ix2 i j)) hrow

/-! ## A vector as a one-row matrix, a row of a three-row table -/

variable {F : FTy → Type} [FloatOps F]

/-- A vector as a one-row matrix reads, at `(u, j)`, the vector at `j`. -/
theorem asRow128_apply (v : (⟨S128, .f32⟩ : BufTy).Contents (Elt F)) (u : Fin 1) (j : Fin 128) :
    asRow128 v (ix2 u j) = v (ix1 j) :=
  shapeCast_a_1a_apply v shapeCasts_S128_S1x128 u j

/-- Row 0 of a three-row table reads, at `j`, the table at `(0, j)`. -/
theorem tableRow0_apply (G : (⟨S3x128, .f32⟩ : BufTy).Contents (Elt F)) (j : Fin 128) :
    tableRow0 G (ix1 j) = G (ix2 (0 : Fin 3) j) := by
  unfold tableRow0
  rw [shapeCast_1a_a_apply _ shapeCasts_S1x128_S128 j]
  exact slice2_axis0_apply 0 G slices_S3x128_S1x128_0_0 (0 : Fin 1) j (0 : Fin 3) rfl

/-- Row 1 of a three-row table reads, at `j`, the table at `(1, j)`. -/
theorem tableRow1_apply (G : (⟨S3x128, .f32⟩ : BufTy).Contents (Elt F)) (j : Fin 128) :
    tableRow1 G (ix1 j) = G (ix2 (1 : Fin 3) j) := by
  unfold tableRow1
  rw [shapeCast_1a_a_apply _ shapeCasts_S1x128_S128 j]
  exact slice2_axis0_apply 1 G slices_S3x128_S1x128_1_0 (0 : Fin 1) j (1 : Fin 3) rfl

/-- Row 2 of a three-row table reads, at `j`, the table at `(2, j)`. -/
theorem tableRow2_apply (G : (⟨S3x128, .f32⟩ : BufTy).Contents (Elt F)) (j : Fin 128) :
    tableRow2 G (ix1 j) = G (ix2 (2 : Fin 3) j) := by
  unfold tableRow2
  rw [shapeCast_1a_a_apply _ shapeCasts_S1x128_S128 j]
  exact slice2_axis0_apply 2 G slices_S3x128_S1x128_2_0 (0 : Fin 1) j (2 : Fin 3) rfl

end Cert.KernelIdeal.HandStat

end
-- ==== Proof.MathVar.lean ====
/- The two spellings of a column's variance agree on real data: the mean of the squared deviations from the
   mean equals the mean of the squares minus the squared mean; the common value is a nonnegative real, so
   adding a positive offset and taking the reciprocal square root stays real. -/
import proofs.«181322_j48155173322905_2_alg».proof.Proof.MathReal

noncomputable section

namespace Sage.Math

open Idealize.ShloMosaic

/-- Over the reals: with `m` the mean of `a` over `n = |ι| ≠ 0` rows,
    `(∑ (a i - m)²) / n = (∑ (a i)²) / n - m²`. -/
theorem real_variance {ι : Type*} [Fintype ι] (a : ι → ℝ) {n : ℝ} (hcard : (Fintype.card ι : ℝ) = n) (hn : n ≠ 0)
    {m : ℝ} (hm : m = (∑ i, a i) / n) :
    (∑ i, (a i - m) * (a i - m)) / n = (∑ i, a i * a i) / n - m * m := by
  have hS : ∑ i, a i = n * m := by rw [hm]; field_simp
  have e : ∀ i, (a i - m) * (a i - m) = a i * a i - 2 * m * a i + m * m := fun i => by ring
  simp only [e, Finset.sum_add_distrib, Finset.sum_sub_distrib, ← Finset.mul_sum, Finset.sum_const, Finset.card_univ,
    nsmul_eq_mul, hcard, hS]
  field_simp
  ring

/-- The mean of squared deviations is nonnegative. -/
theorem real_variance_nonneg {ι : Type*} [Fintype ι] (a : ι → ℝ) {n : ℝ} (hn : 0 < n) (m : ℝ) :
    0 ≤ (∑ i, (a i - m) * (a i - m)) / n :=
  div_nonneg (Finset.sum_nonneg (fun i _ => mul_self_nonneg _)) hn.le

/-- THE MOMENTS OF A REAL COLUMN. For real `x` over `n = |ι| > 0` rows, with `S` the column's sum, `Q` the sum
    of its squares, `μ = S / N` its mean and `C` the sum of the squared deviations from `μ` (every one given by an
    equation, so that any spelling of the sums can be supplied): the mean is a real `m`, and BOTH spellings of the
    variance, `C / N` and `Q / N - μ * μ`, are one nonnegative real `v`. -/
theorem moments {ι : Type*} [Fintype ι] (x : ι → EReal) (hx : ∀ i, IsReal (x i)) {n : ℝ}
    (hcard : (Fintype.card ι : ℝ) = n) (hn : 0 < n) {N S Q C μ : EReal} (hN : N = (n : EReal))
    (hS : S = ∑ i, x i) (hμ : μ = Ideal.div S N) (hQ : Q = ∑ i, x i * x i)
    (hC : C = ∑ i, (x i - μ) * (x i - μ)) :
    ∃ m v : ℝ, 0 ≤ v ∧ μ = (m : EReal) ∧ Ideal.div C N = (v : EReal) ∧ Ideal.div Q N - μ * μ = (v : EReal) := by
  choose a ha using hx
  have hSum : ∑ i, x i = ((∑ i, a i : ℝ) : EReal) := by
    rw [← sum_coe]; exact Finset.sum_congr rfl (fun i _ => ha i)
  have hμ' : μ = (((∑ i, a i) / n : ℝ) : EReal) := by rw [hμ, hS, hSum, hN, div_coe_coe _ hn.ne']
  refine ⟨(∑ i, a i) / n, (∑ i, (a i - (∑ i, a i) / n) * (a i - (∑ i, a i) / n)) / n,
    real_variance_nonneg a hn _, hμ', ?_, ?_⟩
  · have e : ∀ i, (x i - μ) * (x i - μ)
        = (((a i - (∑ i, a i) / n) * (a i - (∑ i, a i) / n) : ℝ) : EReal) := by
      intro i; rw [hμ', ha i, ← EReal.coe_sub, ← EReal.coe_mul]
    rw [hC, Finset.sum_congr rfl (fun i _ => e i), sum_coe, hN, div_coe_coe _ hn.ne']
  · have e : ∀ i, x i * x i = ((a i * a i : ℝ) : EReal) := by
      intro i; rw [ha i, ← EReal.coe_mul]
    rw [hQ, Finset.sum_congr rfl (fun i _ => e i), sum_coe, hN, div_coe_coe _ hn.ne', hμ', ← EReal.coe_mul,
      ← EReal.coe_sub, real_variance a hcard hn.ne' rfl]

/-- THE VARIANCE IDENTITY on a real column: the mean of the squared deviations is the mean of the squares
    minus the squared mean. -/
theorem variance_identity {ι : Type*} [Fintype ι] (x : ι → EReal) (hx : ∀ i, IsReal (x i)) {n : ℝ}
    (hcard : (Fintype.card ι : ℝ) = n) (hn : 0 < n) {N S μ : EReal} (hN : N = (n : EReal))
    (hS : S = ∑ i, x i) (hμ : μ = Ideal.div S N) :
    Ideal.div (∑ i, (x i - μ) * (x i - μ)) N = Ideal.div (∑ i, x i * x i) N - μ * μ := by
  obtain ⟨m, v, _, _, h1, h2⟩ := moments x hx hcard hn hN hS hμ rfl rfl
  rw [h1, h2]

/-- The same with the sum spelled as a reduction from an initial value `z = 0` gives it: `z + ∑`. -/
theorem variance_identity_init {ι : Type*} [Fintype ι] (x : ι → EReal) (hx : ∀ i, IsReal (x i)) {n : ℝ}
    (hcard : (Fintype.card ι : ℝ) = n) (hn : 0 < n) {N z μ : EReal} (hN : N = (n : EReal)) (hz : z = 0)
    (hμ : μ = Ideal.div (z + ∑ i, x i) N) :
    Ideal.div (z + ∑ i, (x i - μ) * (x i - μ)) N = Ideal.div (z + ∑ i, x i * x i) N - μ * μ := by
  subst hz
  simp only [zero_add] at hμ ⊢
  exact variance_identity x hx hcard hn hN rfl hμ

/-- A nonnegative real plus a positive real offset: the reciprocal square root of the sum is the real
    `(√(v + e))⁻¹`, which is positive. -/
theorem rsqrt_add_eps {v e : ℝ} (hv : 0 ≤ v) (he : 0 < e) {V ε : EReal} (hV : V = (v : EReal)) (hε : ε = (e : EReal)) :
    Ideal.rsqrt (V + ε) = (((Real.sqrt (v + e))⁻¹ : ℝ) : EReal) := by
  rw [hV, hε, ← EReal.coe_add, rsqrt_coe_pos (by linarith)]

theorem isReal_rsqrt_add_eps {v e : ℝ} (hv : 0 ≤ v) (he : 0 < e) {V ε : EReal} (hV : V = (v : EReal))
    (hε : ε = (e : EReal)) : IsReal (Ideal.rsqrt (V + ε)) :=
  ⟨_, rsqrt_add_eps hv he hV hε⟩

/-- The row count of this development: a type of `50000` rows has real cardinality `50000 > 0`. -/
theorem card_50000 {ι : Type*} [Fintype ι] (hcard : Fintype.card ι = 50000) : (Fintype.card ι : ℝ) = 50000 := by
  rw [hcard]; norm_num

theorem pos_50000 : (0 : ℝ) < 50000 := by norm_num

/-- The reference's divisor `50000 - ddof` with `ddof` the integer `0` read as a float: it is `50000`. -/
theorem N_sub_ddof : ((50000 : ℝ) : EReal) - ((((0#32 : BitVec 32).toInt : ℤ) : ℝ) : EReal) = ((50000 : ℝ) : EReal) := by
  simp

/-- `50000 > 0` on the extended reals (the guard of the reference's variance). -/
theorem N_pos : (0 : EReal) < ((50000 : ℝ) : EReal) := by exact_mod_cast pos_50000

theorem N_ne_zero : ((50000 : ℝ) : EReal) ≠ 0 := N_pos.ne'

end Sage.Math

end
-- ==== Proof.MathBN.lean ====
/- Batch normalisation followed by the positive part, in its two spellings, on real data:
   the folded affine form `x * scale + shift` with `scale = g * s`, `shift = b - μ * scale`, against the
   direct form `((x - μ) * s) * g + b`, where `s` is the reciprocal square root of the variance plus a positive
   offset and the variance may be spelled either as the mean of the squared deviations or as the mean of the
   squares minus the squared mean. -/
import proofs.«181322_j48155173322905_2_alg».proof.Proof.MathVar

noncomputable section

namespace Sage.Math

open Idealize.ShloMosaic

/-- The two affine forms agree on real data (a ring identity of the reals). -/
theorem bn_affine {a g b μ s : EReal} (ha : IsReal a) (hg : IsReal g) (hb : IsReal b) (hμ : IsReal μ)
    (hs : IsReal s) : a * (g * s) + (b - μ * (g * s)) = ((a - μ) * s) * g + b := by
  obtain ⟨a, rfl⟩ := ha; obtain ⟨g, rfl⟩ := hg; obtain ⟨b, rfl⟩ := hb; obtain ⟨μ, rfl⟩ := hμ
  obtain ⟨s, rfl⟩ := hs
  simp only [← EReal.coe_mul, ← EReal.coe_sub, ← EReal.coe_add]
  exact congrArg _ (by ring)

/-- The direct form is real on real data. -/
theorem isReal_bn {a g b μ s : EReal} (ha : IsReal a) (hg : IsReal g) (hb : IsReal b) (hμ : IsReal μ)
    (hs : IsReal s) : IsReal (((a - μ) * s) * g + b) :=
  (((ha.sub hμ).mul hs).mul hg).add hb

/-- One entry, with the mean and the two variances already known to be reals: the folded form with the
    reciprocal square root `s` of one variance is the direct form with the reciprocal square root `s'` of the
    other, and the positive part of the common value is real. -/
theorem bn_relu_core {a g b μ V V' ε s s' : EReal} {m v e : ℝ} (ha : IsReal a) (hg : IsReal g) (hb : IsReal b)
    (hμ : μ = (m : EReal)) (hv : 0 ≤ v) (hV : V = (v : EReal)) (hV' : V' = (v : EReal)) (he : 0 < e)
    (hε : ε = (e : EReal)) (hs : s = Ideal.rsqrt (V + ε)) (hs' : s' = Ideal.rsqrt (V' + ε)) :
    max (a * (g * s) + (b - μ * (g * s))) 0 = max (((a - μ) * s') * g + b) 0
      ∧ IsReal (max (((a - μ) * s') * g + b) 0) := by
  have hss : s = s' := by rw [hs, hs', hV, hV']
  have hsr : IsReal s' := hs' ▸ isReal_rsqrt_add_eps hv he hV' hε
  have hμr : IsReal μ := ⟨m, hμ⟩
  subst hss
  exact ⟨by rw [bn_affine ha hg hb hμr hsr], (isReal_bn ha hg hb hμr hsr).max isReal_zero⟩

/-- `V` is the variance of the column `x` about `μ` over `N` rows, in EITHER spelling. -/
def IsVar {ι : Type*} [Fintype ι] (x : ι → EReal) (N μ V : EReal) : Prop :=
  V = Ideal.div (∑ i, (x i - μ) * (x i - μ)) N ∨ V = Ideal.div (∑ i, x i * x i) N - μ * μ

theorem IsVar.centered {ι : Type*} [Fintype ι] {x : ι → EReal} {N μ V C : EReal}
    (hC : C = ∑ i, (x i - μ) * (x i - μ)) (hV : V = Ideal.div C N) : IsVar x N μ V :=
  Or.inl (by rw [hV, hC])

theorem IsVar.moments {ι : Type*} [Fintype ι] {x : ι → EReal} {N μ V Q : EReal}
    (hQ : Q = ∑ i, x i * x i) (hV : V = Ideal.div Q N - μ * μ) : IsVar x N μ V :=
  Or.inr (by rw [hV, hQ])

/-- A variance in either spelling, of a real column about its mean, is the one nonnegative real of
    `moments`. -/
theorem IsVar.eq_coe {ι : Type*} [Fintype ι] {x : ι → EReal} (hx : ∀ i, IsReal (x i)) {n : ℝ}
    (hcard : (Fintype.card ι : ℝ) = n) (hn : 0 < n) {N S μ : EReal} (hN : N = (n : EReal))
    (hS : S = ∑ i, x i) (hμ : μ = Ideal.div S N) :
    ∃ m v : ℝ, 0 ≤ v ∧ μ = (m : EReal) ∧ ∀ V, IsVar x N μ V → V = (v : EReal) := by
  obtain ⟨m, v, hv, hm, h1, h2⟩ := Sage.Math.moments x hx hcard hn hN hS hμ rfl rfl
  exact ⟨m, v, hv, hm, fun V hV => hV.elim (fun h => h.trans h1) (fun h => h.trans h2)⟩

/-- BATCH NORMALISATION, THE TWO PROGRAMS' SPELLINGS. `x` a real column over `n = |ι| > 0` rows, `g`, `b` real,
    `ε` a positive real. Side `k`: mean `μk = Sk / N` of the column's sum, a variance `Vk` about it in either
    spelling, `sk = rsqrt (Vk + ε)`, the FOLDED form. Side `r`: the same data `μr`, `Vr`, `sr` (again either
    spelling), the DIRECT form. Then entry by entry the positive parts agree, and the value is real. -/
theorem bn_relu_equiv {ι : Type*} [Fintype ι] (x : ι → EReal) (hx : ∀ i, IsReal (x i)) {n e : ℝ}
    (hcard : (Fintype.card ι : ℝ) = n) (hn : 0 < n) (he : 0 < e) {N ε g b : EReal} (hN : N = (n : EReal))
    (hε : ε = (e : EReal)) (hg : IsReal g) (hb : IsReal b)
    {Sk μk Vk sk : EReal} (hSk : Sk = ∑ i, x i) (hμk : μk = Ideal.div Sk N) (hVk : IsVar x N μk Vk)
    (hsk : sk = Ideal.rsqrt (Vk + ε))
    {Sr μr Vr sr : EReal} (hSr : Sr = ∑ i, x i) (hμr : μr = Ideal.div Sr N) (hVr : IsVar x N μr Vr)
    (hsr : sr = Ideal.rsqrt (Vr + ε)) (i : ι) :
    max (x i * (g * sk) + (b - μk * (g * sk))) 0 = max (((x i - μr) * sr) * g + b) 0
      ∧ IsReal (max (((x i - μr) * sr) * g + b) 0) := by
  have hμ : μk = μr := by rw [hμk, hμr, hSk, hSr]
  subst hμ
  obtain ⟨m, v, hv, hm, hV⟩ := IsVar.eq_coe hx hcard hn hN hSk hμk
  exact bn_relu_core (hx i) hg hb hm hv (hV _ hVk) (hV _ hVr) he hε hsk hsr

/-- The same for columns of a matrix: `x j` the real column `j`, with per-column `g j`, `b j`, means, variances
    and reciprocal square roots. -/
theorem bn_relu_equiv_cols {ι κ : Type*} [Fintype ι] (x : ι → κ → EReal) (hx : ∀ i j, IsReal (x i j)) {n e : ℝ}
    (hcard : (Fintype.card ι : ℝ) = n) (hn : 0 < n) (he : 0 < e) {N ε : EReal} (hN : N = (n : EReal))
    (hε : ε = (e : EReal)) (g b : κ → EReal) (hg : ∀ j, IsReal (g j)) (hb : ∀ j, IsReal (b j))
    (μk Vk sk μr Vr sr : κ → EReal)
    (hμk : ∀ j, μk j = Ideal.div (∑ i, x i j) N) (hVk : ∀ j, IsVar (fun i => x i j) N (μk j) (Vk j))
    (hsk : ∀ j, sk j = Ideal.rsqrt (Vk j + ε))
    (hμr : ∀ j, μr j = Ideal.div (∑ i, x i j) N) (hVr : ∀ j, IsVar (fun i => x i j) N (μr j) (Vr j))
    (hsr : ∀ j, sr j = Ideal.rsqrt (Vr j + ε)) (i : ι) (j : κ) :
    max (x i j * (g j * sk j) + (b j - μk j * (g j * sk j))) 0 = max (((x i j - μr j) * sr j) * g j + b j) 0
      ∧ IsReal (max (((x i j - μr j) * sr j) * g j + b j) 0) :=
  bn_relu_equiv (fun i => x i j) (fun i => hx i j) hcard hn he hN hε (hg j) (hb j) rfl (hμk j) (hVk j) (hsk j)
    rfl (hμr j) (hVr j) (hsr j) i

end Sage.Math

end
-- ==== Proof.StatLayer.lean ====
/- The kernel program's batch normalisation of one layer, read at an index at the ideal instance: the scale and
   shift rows computed from the per-tile column sums of the linear output and of its square give, entry by entry,
   the direct form `((x - μ) · rsqrt (V + ε)) · g + β` followed by the positive part, for the column's mean `μ` and
   its centred variance `V`; and the value is real. -/
import proofs.«181322_j48155173322905_2_alg».proof.Proof.StatTile
import proofs.«181322_j48155173322905_2_alg».proof.Proof.MathBN
import proofs.«181322_j48155173322905_2_alg».proof.Proof.MathMore
import proofs.«181322_j48155173322905_2_alg».proof.Proof.KerTower

noncomputable section

namespace Cert.KernelIdeal.HandStat

open Idealize.ShloMosaic Idealize.ShloMosaic.ValueIdx
open Cert.KernelIdeal Cert.KernelIdeal.Gen Cert.KernelIdeal.HandRun Cert.KernelIdeal.HandLin Sage.Math

/-- A total over the row count, at an index. -/
theorem overN_apply (s : S128.Idx → EReal) (j : S128.Idx) :
    overN (F := Ideal) s j = Ideal.div (s j) (Ideal.ofBits .f32 0x47435000#32) := by
  unfold overN
  rw [hostDivf_apply, broadcastInDim_scalar_apply, constant_apply]

/-- The scale row at a column. -/
theorem scaleOf_apply (P Q : S80x128.Idx → EReal) (g : S128.Idx → EReal) (j : S128.Idx) :
    scaleOf (F := Ideal) P Q g j
      = g j * Ideal.rsqrt
          (Ideal.div (tileTotal (F := Ideal) Q j) (Ideal.ofBits .f32 0x47435000#32)
              - Ideal.div (tileTotal (F := Ideal) P j) (Ideal.ofBits .f32 0x47435000#32)
                * Ideal.div (tileTotal (F := Ideal) P j) (Ideal.ofBits .f32 0x47435000#32)
            + Ideal.ofBits .f32 0x3727C5AC#32) := by
  unfold scaleOf
  show g j * Ideal.rsqrt ((overN (F := Ideal) (tileTotal (F := Ideal) Q) j
      - overN (F := Ideal) (tileTotal (F := Ideal) P) j * overN (F := Ideal) (tileTotal (F := Ideal) P) j)
      + broadcastInDim S128 ![] bcast_S_S128 (constant (F := Ideal) S_ .f32 0x3727C5AC#32) j) = _
  rw [overN_apply, overN_apply, broadcastInDim_scalar_apply, constant_apply]

/-- The shift row at a column. -/
theorem shiftOf_apply (P Q : S80x128.Idx → EReal) (g bt : S128.Idx → EReal) (j : S128.Idx) :
    shiftOf (F := Ideal) P Q g bt j
      = bt j - Ideal.div (tileTotal (F := Ideal) P j) (Ideal.ofBits .f32 0x47435000#32) * scaleOf (F := Ideal) P Q g j := by
  unfold shiftOf
  show bt j - overN (F := Ideal) (tileTotal (F := Ideal) P) j * scaleOf (F := Ideal) P Q g j = _
  rw [overN_apply]

/-- THE KERNEL-SIDE LAYER LAW at `(p, c)`. `L` real-valued, `g`, `bt` real-valued. The kernel's folded form — the
    scale and shift rows from the tile sums of `L` and of its square — against the direct form with ANY mean `μ` and
    centred variance `V` given by equations (sums from a zero initial value, divisors equal to 50000, the variance
    offset the program's literal). -/
theorem layer_law_at (L : (⟨2, ![50000, 128]⟩ : Shape).Idx → EReal) (hL : ∀ i, IsReal (L i))
    (g bt : S128.Idx → EReal) (hg : ∀ j, IsReal (g j)) (hbt : ∀ j, IsReal (bt j)) (p : Fin 50000) (c : Fin 128)
    {N N' z z' ε μ V : EReal} (hN : N = ((50000 : ℝ) : EReal)) (hN' : N' = ((50000 : ℝ) : EReal)) (hz : z = 0)
    (hz' : z' = 0) (hε : ε = Ideal.ofBits .f32 0x3727C5AC#32)
    (hμ : μ = Ideal.div (z + ∑ r : Fin 50000, L (ix2 r c)) N)
    (hV : V = Ideal.div (z' + ∑ r : Fin 50000, (L (ix2 r c) - μ) * (L (ix2 r c) - μ)) N') :
    max (L (ix2 p c)
          * asRow128 (F := Ideal) (scaleOf (F := Ideal) (tileSum L) (tileSum (fun i => L i * L i)) g) (ix2 (0 : Fin 1) c)
          + asRow128 (F := Ideal) (shiftOf (F := Ideal) (tileSum L) (tileSum (fun i => L i * L i)) g bt) (ix2 (0 : Fin 1) c))
        (Ideal.ofBits .f32 0x00000000#32)
      = max (((L (ix2 p c) - μ) * Ideal.rsqrt (V + ε)) * g (ix1 c) + bt (ix1 c)) 0
    ∧ IsReal (max (((L (ix2 p c) - μ) * Ideal.rsqrt (V + ε)) * g (ix1 c) + bt (ix1 c)) 0) := by
  obtain ⟨e, he, hE⟩ := ofBits_eps
  rw [asRow128_apply, asRow128_apply, shiftOf_apply, scaleOf_apply, tileTotal_tileSum, tileTotal_tileSum,
    ofBits_zero, ofBits_N]
  exact bn_relu_equiv (x := fun r => L (ix2 r c)) (fun r => hL _) card_fin_50000 pos_50000 he
    (N := ((50000 : ℝ) : EReal)) (ε := Ideal.ofBits .f32 0x3727C5AC#32) (g := g (ix1 c)) (b := bt (ix1 c)) rfl hE
    (hg _) (hbt _)
    (Sk := 0 + ∑ r : Fin 50000, L (ix2 r c)) (zero_add _) rfl
    (IsVar.moments (Q := 0 + ∑ r : Fin 50000, L (ix2 r c) * L (ix2 r c)) (zero_add _) rfl) rfl
    (Sr := z + ∑ r : Fin 50000, L (ix2 r c)) (μr := μ) (Vr := V) (sr := Ideal.rsqrt (V + ε))
    (by rw [hz, zero_add]) (by rw [← hN]; exact hμ)
    (IsVar.centered (V := V) (C := z' + ∑ r : Fin 50000, (L (ix2 r c) - μ) * (L (ix2 r c) - μ))
      (by rw [hz', zero_add]) (by rw [← hN']; exact hV))
    (by rw [hε]) p

/-- The kernel's normalised layer at an index: the folded affine form and the positive part. -/
theorem bnLayer_apply (L : (⟨2, ![50000, 128]⟩ : Shape).Idx → EReal) (g bt : S128.Idx → EReal)
    (i : (⟨2, ![50000, 128]⟩ : Shape).Idx) :
    bnLayer L g bt i
      = max (L i
          * asRow128 (F := Ideal) (scaleOf (F := Ideal) (tileSum L) (tileSum (fun i => L i * L i)) g) (ix2 (0 : Fin 1) (i 1))
          + asRow128 (F := Ideal) (shiftOf (F := Ideal) (tileSum L) (tileSum (fun i => L i * L i)) g bt) (ix2 (0 : Fin 1) (i 1)))
        (Ideal.ofBits .f32 0x00000000#32) := rfl

/-- THE KERNEL-SIDE LAYER LAW at any index `i`: the kernel's normalised layer is the direct form with the mean and
    the centred variance of column `i 1`, and is real. -/
theorem layer_law (L : (⟨2, ![50000, 128]⟩ : Shape).Idx → EReal) (hL : ∀ i, IsReal (L i))
    (g bt : S128.Idx → EReal) (hg : ∀ j, IsReal (g j)) (hbt : ∀ j, IsReal (bt j))
    (i : (⟨2, ![50000, 128]⟩ : Shape).Idx)
    {N N' z z' ε μ V : EReal} (hN : N = ((50000 : ℝ) : EReal)) (hN' : N' = ((50000 : ℝ) : EReal)) (hz : z = 0)
    (hz' : z' = 0) (hε : ε = Ideal.ofBits .f32 0x3727C5AC#32)
    (hμ : μ = Ideal.div (z + ∑ r : Fin 50000, L (ix2 r (i 1))) N)
    (hV : V = Ideal.div (z' + ∑ r : Fin 50000, (L (ix2 r (i 1)) - μ) * (L (ix2 r (i 1)) - μ)) N') :
    bnLayer L g bt i = max (((L i - μ) * Ideal.rsqrt (V + ε)) * g (ix1 (i 1)) + bt (ix1 (i 1))) 0
    ∧ IsReal (bnLayer L g bt i) := by
  have h := layer_law_at L hL g bt hg hbt (i 0) (i 1) hN hN' hz hz' hε hμ hV
  rw [bnLayer_apply, show L i = L (ix2 (i 0) (i 1)) from congrArg L (eq_ix2 i)]
  exact ⟨h.1, h.1 ▸ h.2⟩

/-- The kernel's normalised layer of a real array with real scale and offset vectors is real everywhere. -/
theorem isReal_bnLayer (L : (⟨2, ![50000, 128]⟩ : Shape).Idx → EReal) (hL : ∀ i, IsReal (L i))
    (g bt : S128.Idx → EReal) (hg : ∀ j, IsReal (g j)) (hbt : ∀ j, IsReal (bt j))
    (i : (⟨2, ![50000, 128]⟩ : Shape).Idx) : IsReal (bnLayer L g bt i) :=
  (layer_law L hL g bt hg hbt i (N := ((50000 : ℝ) : EReal)) (N' := ((50000 : ℝ) : EReal)) (z := 0) (z' := 0)
    rfl rfl rfl rfl rfl rfl rfl).2

end Cert.KernelIdeal.HandStat

end
-- ==== Proof.StatRef.lean ====
/- The reference program's batch normalisation read at an index at the ideal instance — the column mean, the
   column variance (its guarded division included), the normalisation and the positive part — and the LAYER
   EQUALITY: on a real array with real scale and offset vectors, the kernel program's normalised layer and the
   reference's are one array. -/
import proofs.«181322_j48155173322905_2_alg».proof.Proof.RefVal
import proofs.«181322_j48155173322905_2_alg».proof.Proof.StatLayer
import Idealize.ShloMosaic.PureOps.Ideal.Laws
import Idealize.ShloMosaic.Lib.IdealHost
import Idealize.ShloMosaic.Lib.KernelVsHost

noncomputable section

namespace Cert.ReferenceIdeal.HandStat

open Idealize.ShloMosaic Idealize.ShloMosaic.ValueIdx
open Cert.ReferenceIdeal Cert.ReferenceIdeal.Gen Cert.ReferenceIdeal.Hand Sage.Math

/-- A vector laid along the one row of a one-row matrix reads, at `(u, t)`, the vector at `t`. -/
theorem bcast_vec_row_apply {n : ℕ} {α : Type} (h : (⟨1, ![n]⟩ : Shape).BroadcastsInDim ⟨2, ![1, n]⟩ ![1])
    (v : (⟨1, ![n]⟩ : Shape).Idx → α) (u : Fin 1) (t : Fin n) :
    broadcastInDim ⟨2, ![1, n]⟩ ![1] h v (ix2 u t) = v (ix1 t) := by
  refine broadcastInDim_apply ![1] h v (ix2 u t) (ix1 t) ?_
  intro a
  match a with
  | ⟨0, _⟩ =>
    show t.val = if n = 1 then 0 else t.val
    split_ifs with hn
    · have := t.isLt; omega
    · rfl

/-- A vector broadcast down the rows of a matrix (through a one-row matrix) reads, at `(p, c)`, the vector at `c`. -/
theorem rows_apply {α : Type} (v : S128.Idx → α) (p : Fin 50000) (c : Fin 128) :
    broadcastInDim S50000x128 ![0, 1] bcast_S1x128_S50000x128_0_1 (broadcastInDim S1x128 ![1] bcast_S128_S1x128_1 v) (ix2 p c)
      = v (ix1 c) := by
  rw [broadcastInDim_oneRow_apply, bcast_vec_row_apply]

attribute [local irreducible] Host.reduceAdd in
/-- A column's sum from the zero literal. -/
theorem colSum_apply (L : S50000x128.Idx → EReal) (c : Fin 128) :
    Host.reduceAdd (F := Ideal) (φ := .f32) L (constant S_ .f32 0x00000000#32) reducesTo_S50000x128_S128_d0 h_S_ (ix1 c)
      = Ideal.ofBits .f32 0x00000000#32 + ∑ r : Fin 50000, L (ix2 r c) := by
  have hR : S50000x128.Reduces [0] S128 := by decide
  rw [hostReduceAdd_apply, Ideal.hostReduceAdd_single _ hR]
  refine congrArg (Ideal.ofBits .f32 0x00000000#32 + ·) (Finset.sum_congr rfl (fun r _ => ?_))
  have hl : hR.lift (ix1 c) r = ix2 r c := by
    funext a
    match a with
    | ⟨0, _⟩ => rfl
    | ⟨1, _⟩ => rfl
  exact congrArg L hl

/-- The column means at a column. -/
theorem colMean_apply (L : S50000x128.Idx → EReal) (c : Fin 128) :
    colMean (F := Ideal) L (ix1 c)
      = Ideal.div (Ideal.ofBits .f32 0x00000000#32 + ∑ r : Fin 50000, L (ix2 r c)) (Ideal.ofBits .f32 0x47435000#32) := by
  unfold colMean
  beta_reduce
  rw [hostDivf_apply, colSum_apply, broadcastInDim_scalar_apply, constant_apply]

/-- The guard of the variance's division — the row count minus zero degrees of freedom is positive — holds. -/
theorem guard_true :
    (cmpf (F := Ideal) .ogt (subf (constant S_ .f32 0x47435000#32) (sitofp .f32 (constantI S_ 32 0#32)))
      (constant S_ .f32 0x00000000#32)) ix0 = 1#1 := by
  show Ideal.cmp .ogt (Ideal.ofBits .f32 0x47435000#32 - ((((0#32 : BitVec 32).toInt : ℤ) : ℝ) : EReal))
    (Ideal.ofBits .f32 0x00000000#32) = 1#1
  rw [ofBits_N, N_sub_ddof, ofBits_zero]
  simp [Ideal.cmp, N_pos]

/-- The variance's divisor, the row count minus zero degrees of freedom, is `50000`. -/
theorem divisor_apply (j : S128.Idx) :
    broadcastInDim S128 ![] bcast_S_S128
      (subf (F := Ideal) (constant S_ .f32 0x47435000#32) (sitofp .f32 (constantI S_ 32 0#32))) j
      = ((50000 : ℝ) : EReal) := by
  rw [broadcastInDim_scalar_apply]
  show Ideal.ofBits .f32 0x47435000#32 - ((((0#32 : BitVec 32).toInt : ℤ) : ℝ) : EReal) = _
  rw [ofBits_N, N_sub_ddof]

/-- A column's entry minus the column's mean, as the variance computes it. -/
theorem centered_apply (L : S50000x128.Idx → EReal) (p : Fin 50000) (c : Fin 128) :
    subf (F := Ideal) L
        (broadcastInDim S50000x128 ![0, 1] bcast_S1x128_S50000x128_0_1
          (Host.divf
            (broadcastInDim S1x128 ![1] bcast_S128_S1x128_1
              (Host.reduceAdd (F := Ideal) (φ := .f32) L (constant S_ .f32 0x00000000#32) reducesTo_S50000x128_S128_d0 h_S_))
            (broadcastInDim S1x128 ![] bcast_S_S1x128 (constant S_ .f32 0x47435000#32)))) (ix2 p c)
      = L (ix2 p c) - Ideal.div (Ideal.ofBits .f32 0x00000000#32 + ∑ r : Fin 50000, L (ix2 r c))
          (Ideal.ofBits .f32 0x47435000#32) := by
  rw [subf_apply, broadcastInDim_oneRow_apply, hostDivf_apply, bcast_vec_row_apply, colSum_apply,
    broadcastInDim_scalar_apply, constant_apply]

/-- The column variances at a column: the mean of the squared deviations from the column's mean. -/
theorem colVar_apply (L : S50000x128.Idx → EReal) (c : Fin 128) :
    colVar (F := Ideal) L (ix1 c)
      = Ideal.div (Ideal.ofBits .f32 0x00000000#32
          + ∑ r : Fin 50000,
              (L (ix2 r c) - Ideal.div (Ideal.ofBits .f32 0x00000000#32 + ∑ r : Fin 50000, L (ix2 r c))
                  (Ideal.ofBits .f32 0x47435000#32))
              * (L (ix2 r c) - Ideal.div (Ideal.ofBits .f32 0x00000000#32 + ∑ r : Fin 50000, L (ix2 r c))
                  (Ideal.ofBits .f32 0x47435000#32)))
          ((50000 : ℝ) : EReal) := by
  unfold colVar
  beta_reduce
  rw [select_apply, broadcastInDim_scalar_apply, guard_true, select_one, hostDivf_apply, colSum_apply, divisor_apply]
  refine congrArg (fun s => Ideal.div (Ideal.ofBits .f32 0x00000000#32 + s) ((50000 : ℝ) : EReal))
    (Finset.sum_congr rfl (fun r _ => ?_))
  rw [mulf_apply, centered_apply]

/-- The host's reciprocal square root at an index. -/
theorem hostRsqrt_apply {s : Shape} (x : FVec Ideal s .f32) (i : s.Idx) : Host.rsqrt x i = Ideal.rsqrt (x i) := rfl

/-- The normalisation at an entry. -/
theorem bn_apply (L : S50000x128.Idx → EReal) (mu v g beta : S128.Idx → EReal) (p : Fin 50000) (c : Fin 128) :
    bn (F := Ideal) L mu v g beta (ix2 p c)
      = ((L (ix2 p c) - mu (ix1 c)) * Ideal.rsqrt (v (ix1 c) + Ideal.ofBits .f32 0x3727C5AC#32)) * g (ix1 c)
        + beta (ix1 c) := by
  unfold bn
  beta_reduce
  rw [addf_apply, mulf_apply, mulf_apply, subf_apply, rows_apply, rows_apply, rows_apply, rows_apply,
    hostRsqrt_apply, addf_apply, broadcastInDim_scalar_apply, constant_apply]

/-- The positive part at an entry. -/
theorem relu_apply (X : S50000x128.Idx → EReal) (i : S50000x128.Idx) :
    relu (F := Ideal) X i = max (X i) (Ideal.ofBits .f32 0x00000000#32) := by
  unfold relu
  beta_reduce
  rw [maximumf_apply, broadcastInDim_scalar_apply, constant_apply]

/-- The column's mean, from the zero literal and over the row-count literal. -/
def colMu (L : S50000x128.Idx → EReal) (c : Fin 128) : EReal :=
  Ideal.div (Ideal.ofBits .f32 0x00000000#32 + ∑ r : Fin 50000, L (ix2 r c)) (Ideal.ofBits .f32 0x47435000#32)

/-- The column's centred variance, from the zero literal and over `50000`. -/
def colV (L : S50000x128.Idx → EReal) (c : Fin 128) : EReal :=
  Ideal.div (Ideal.ofBits .f32 0x00000000#32 + ∑ r : Fin 50000, (L (ix2 r c) - colMu L c) * (L (ix2 r c) - colMu L c))
    ((50000 : ℝ) : EReal)

theorem colMean_eq (L : S50000x128.Idx → EReal) (c : Fin 128) : colMean (F := Ideal) L (ix1 c) = colMu L c :=
  colMean_apply L c

theorem colVar_eq (L : S50000x128.Idx → EReal) (c : Fin 128) : colVar (F := Ideal) L (ix1 c) = colV L c :=
  colVar_apply L c

/-- THE REFERENCE'S NORMALISED LAYER at an entry: the direct form with the column's mean and centred variance,
    then the positive part against the zero literal. -/
theorem refLayer_apply (L : S50000x128.Idx → EReal) (g beta : S128.Idx → EReal) (p : Fin 50000) (c : Fin 128) :
    relu (F := Ideal) (bn (F := Ideal) L (colMean (F := Ideal) L) (colVar (F := Ideal) L) g beta) (ix2 p c)
      = max (((L (ix2 p c) - colMu L c) * Ideal.rsqrt (colV L c + Ideal.ofBits .f32 0x3727C5AC#32)) * g (ix1 c)
          + beta (ix1 c)) (Ideal.ofBits .f32 0x00000000#32) := by
  rw [relu_apply, bn_apply, colMean_eq, colVar_eq]

/-- THE LAYER EQUALITY: on a real array `L` with real scale and offset vectors, the kernel program's normalised
    layer — the folded affine form from the tile sums — is the reference's. -/
theorem bnLayer_eq_ref (L : S50000x128.Idx → EReal) (hL : ∀ i, IsReal (L i)) (g beta : S128.Idx → EReal)
    (hg : ∀ j, IsReal (g j)) (hbeta : ∀ j, IsReal (beta j)) :
    Cert.KernelIdeal.HandRun.bnLayer L g beta
      = relu (F := Ideal) (bn (F := Ideal) L (colMean (F := Ideal) L) (colVar (F := Ideal) L) g beta) := by
  funext i
  obtain ⟨p, c, rfl⟩ : ∃ (p : Fin 50000) (c : Fin 128), i = ix2 p c := ⟨i 0, i 1, eq_ix2 i⟩
  have hk := (Cert.KernelIdeal.HandStat.layer_law_at L hL g beta hg hbeta p c
    (N := Ideal.ofBits .f32 0x47435000#32) (N' := ((50000 : ℝ) : EReal)) (z := Ideal.ofBits .f32 0x00000000#32)
    (z' := Ideal.ofBits .f32 0x00000000#32) (ε := Ideal.ofBits .f32 0x3727C5AC#32) (μ := colMu L c) (V := colV L c)
    ofBits_N rfl ofBits_zero ofBits_zero rfl rfl rfl).1
  refine (show Cert.KernelIdeal.HandRun.bnLayer L g beta (ix2 p c) = _ from hk).trans ?_
  rw [refLayer_apply, ofBits_zero]

/-- The normalised layer (either program's) of a real array with real scale and offset vectors is real. -/
theorem isReal_refLayer (L : S50000x128.Idx → EReal) (hL : ∀ i, IsReal (L i)) (g beta : S128.Idx → EReal)
    (hg : ∀ j, IsReal (g j)) (hbeta : ∀ j, IsReal (beta j)) (i : S50000x128.Idx) :
    IsReal (relu (F := Ideal) (bn (F := Ideal) L (colMean (F := Ideal) L) (colVar (F := Ideal) L) g beta) i) := by
  rw [← bnLayer_eq_ref L hL g beta hg hbeta]
  exact Cert.KernelIdeal.HandStat.isReal_bnLayer L hL g beta hg hbeta i

/-! ## The rows of the three-row tables: the two programs read them alike -/

variable {F : FTy → Type} [FloatOps F]

theorem row0_apply (G : (⟨S3x128, .f32⟩ : BufTy).Contents (Elt F)) (j : Fin 128) :
    row0 G (ix1 j) = G (ix2 (0 : Fin 3) j) := by
  unfold row0
  rw [shapeCast_1a_a_apply _ shapeCasts_S1x128_S128 j]
  exact slice2_axis0_apply 0 G slices_S3x128_S1x128_0_0 (0 : Fin 1) j (0 : Fin 3) rfl

theorem row1_apply (G : (⟨S3x128, .f32⟩ : BufTy).Contents (Elt F)) (j : Fin 128) :
    row1 G (ix1 j) = G (ix2 (1 : Fin 3) j) := by
  unfold row1
  rw [shapeCast_1a_a_apply _ shapeCasts_S1x128_S128 j]
  exact slice2_axis0_apply 1 G slices_S3x128_S1x128_1_0 (0 : Fin 1) j (1 : Fin 3) rfl

theorem row2_apply (G : (⟨S3x128, .f32⟩ : BufTy).Contents (Elt F)) (j : Fin 128) :
    row2 G (ix1 j) = G (ix2 (2 : Fin 3) j) := by
  unfold row2
  rw [shapeCast_1a_a_apply _ shapeCasts_S1x128_S128 j]
  exact slice2_axis0_apply 2 G slices_S3x128_S1x128_2_0 (0 : Fin 1) j (2 : Fin 3) rfl

/-- The kernel program's reading of a table row is the reference's. -/
theorem tableRow0_eq_row0 (G : (⟨S3x128, .f32⟩ : BufTy).Contents (Elt F)) :
    Cert.KernelIdeal.HandRun.tableRow0 G = row0 G := by
  funext j
  obtain ⟨c, rfl⟩ : ∃ c : Fin 128, j = ix1 c := ⟨j 0, eq_ix1 j⟩
  exact (Cert.KernelIdeal.HandStat.tableRow0_apply G c).trans (row0_apply G c).symm

theorem tableRow1_eq_row1 (G : (⟨S3x128, .f32⟩ : BufTy).Contents (Elt F)) :
    Cert.KernelIdeal.HandRun.tableRow1 G = row1 G := by
  funext j
  obtain ⟨c, rfl⟩ : ∃ c : Fin 128, j = ix1 c := ⟨j 0, eq_ix1 j⟩
  exact (Cert.KernelIdeal.HandStat.tableRow1_apply G c).trans (row1_apply G c).symm

theorem tableRow2_eq_row2 (G : (⟨S3x128, .f32⟩ : BufTy).Contents (Elt F)) :
    Cert.KernelIdeal.HandRun.tableRow2 G = row2 G := by
  funext j
  obtain ⟨c, rfl⟩ : ∃ c : Fin 128, j = ix1 c := ⟨j 0, eq_ix1 j⟩
  exact (Cert.KernelIdeal.HandStat.tableRow2_apply G c).trans (row2_apply G c).symm

end Cert.ReferenceIdeal.HandStat

namespace Cert.KernelIdeal.HandStat

open Idealize.ShloMosaic Idealize.ShloMosaic.ValueIdx
open Cert.KernelIdeal Cert.KernelIdeal.Gen Cert.KernelIdeal.HandRun Sage.Math

/-- THE LAYER EQUALITY, stated over the kernel program's vocabulary: on a real array with real scale and offset
    vectors the kernel program's normalised layer is the reference's. -/
theorem bnLayer_eq_ref (L : (⟨2, ![50000, 128]⟩ : Shape).Idx → EReal) (hL : ∀ i, IsReal (L i))
    (g bt : S128.Idx → EReal) (hg : ∀ j, IsReal (g j)) (hbt : ∀ j, IsReal (bt j)) :
    bnLayer L g bt
      = Cert.ReferenceIdeal.Hand.relu (F := Ideal)
          (Cert.ReferenceIdeal.Hand.bn (F := Ideal) L (Cert.ReferenceIdeal.Hand.colMean (F := Ideal) L)
            (Cert.ReferenceIdeal.Hand.colVar (F := Ideal) L) g bt) :=
  Cert.ReferenceIdeal.HandStat.bnLayer_eq_ref L hL g bt hg hbt

end Cert.KernelIdeal.HandStat

end
-- ==== Proof.Bridge.lean ====
/-
  The two whole-array functions agree on real-valued arguments. One layer at a time: the neighbour means are the same
  operations, the linear maps the same sums, the output of the linear map is real-valued when its inputs are, and on a
  real-valued array the kernel's normalisation (scale and shift rows from the tile sums) is the reference's (subtract
  the column mean, divide by the root of the centred second moment plus ε, scale, shift, rectify), with a real-valued
  result that feeds the next layer; the pooled means and the perceptron are the same operations.
-/
import proofs.«181322_j48155173322905_2_alg».proof.Proof.KerTower
import proofs.«181322_j48155173322905_2_alg».proof.Proof.RefOut
import proofs.«181322_j48155173322905_2_alg».proof.Proof.GlueHost
import proofs.«181322_j48155173322905_2_alg».proof.Proof.GlueLin
import proofs.«181322_j48155173322905_2_alg».proof.Proof.GlueMlp
import proofs.«181322_j48155173322905_2_alg».proof.Proof.RealAgg
import proofs.«181322_j48155173322905_2_alg».proof.Proof.StatLayer
import proofs.«181322_j48155173322905_2_alg».proof.Proof.StatRef

noncomputable section

namespace Cert.Bridge

open Idealize.ShloMosaic Idealize.ShloMosaic.TcCoe Idealize.ShloMosaic.ValueIdx
open Cert.KernelIdeal Cert.KernelIdeal.Gen Cert.KernelIdeal.HandRun Cert.KernelIdeal.HandLin Cert.KernelIdeal.HandBn
open Cert.KernelIdeal.HandStat Cert.KernelIdeal.HandReal Sage.Math

/-- A row of a real-valued table is real-valued. -/
theorem isReal_row0 (G : (⟨S3x128, .f32⟩ : BufTy).Contents (Elt Ideal)) (hG : ∀ i, IsReal (G i)) (j : S128.Idx) : IsReal (tableRow0 (F := Ideal) G j) := by
  obtain ⟨j0, rfl⟩ : ∃ j0 : Fin 128, j = ix1 j0 := ⟨j 0, eq_ix1 j⟩
  rw [tableRow0_apply]; exact hG _
theorem isReal_row1 (G : (⟨S3x128, .f32⟩ : BufTy).Contents (Elt Ideal)) (hG : ∀ i, IsReal (G i)) (j : S128.Idx) : IsReal (tableRow1 (F := Ideal) G j) := by
  obtain ⟨j0, rfl⟩ : ∃ j0 : Fin 128, j = ix1 j0 := ⟨j 0, eq_ix1 j⟩
  rw [tableRow1_apply]; exact hG _
theorem isReal_row2 (G : (⟨S3x128, .f32⟩ : BufTy).Contents (Elt Ideal)) (hG : ∀ i, IsReal (G i)) (j : S128.Idx) : IsReal (tableRow2 (F := Ideal) G j) := by
  obtain ⟨j0, rfl⟩ : ∃ j0 : Fin 128, j = ix1 j0 := ⟨j 0, eq_ix1 j⟩
  rw [tableRow2_apply]; exact hG _

/-- The first layer: the kernel's tower step is the reference's layer, and its rows are real. -/
theorem layer64_eq (ei : (⟨S2x800000, .i32⟩ : BufTy).Contents (Elt Ideal)) (x : (⟨S50000x64, .f32⟩ : BufTy).Contents (Elt Ideal)) (Wn Wr : (⟨S64x128, .f32⟩ : BufTy).Contents (Elt Ideal))
    (b g bt : (⟨S128, .f32⟩ : BufTy).Contents (Elt Ideal)) (hx : ∀ i, IsReal (x i)) (hWn : ∀ i, IsReal (Wn i)) (hWr : ∀ i, IsReal (Wr i)) (hb : ∀ i, IsReal (b i)) (hg : ∀ i, IsReal (g i)) (hbt : ∀ i, IsReal (bt i)) :
    bnLayer (linF 64 (agg64 (F := Ideal) (edgeSrc ei) (edgeDst ei) (invDeg (edgeDst ei)) x) x Wn Wr (asRow128 (F := Ideal) b)) g bt
        = Cert.ReferenceIdeal.Hand.layer64 (F := Ideal) ei x Wn Wr b g bt
      ∧ ∀ i, IsReal (bnLayer (linF 64 (agg64 (F := Ideal) (edgeSrc ei) (edgeDst ei) (invDeg (edgeDst ei)) x) x Wn Wr (asRow128 (F := Ideal) b)) g bt i) := by
  have hA := isReal_agg64 (edgeSrc ei) (edgeDst ei) (invDeg (F := Ideal) (edgeDst ei)) (isReal_invDeg (edgeDst ei)) x hx
  have hL := Cert.Glue.lin_isReal 64 _ x Wn Wr b hA hx hWn hWr hb
  refine ⟨?_, isReal_bnLayer _ hL g bt hg hbt⟩
  rw [Cert.ReferenceIdeal.HandStat.bnLayer_eq_ref _ hL g bt hg hbt, Cert.Glue.lin64_eq, Cert.Glue.agg64_eq, Cert.Glue.edgeSrc_eq, Cert.Glue.edgeDst_eq, Cert.Glue.invDeg_eq]
  rfl

/-- A later layer, its input rows real. -/
theorem layer128_eq (ei : (⟨S2x800000, .i32⟩ : BufTy).Contents (Elt Ideal)) (h : (⟨2, ![50000, 128]⟩ : Shape).Idx → EReal) (Wn Wr : (⟨S128x128, .f32⟩ : BufTy).Contents (Elt Ideal))
    (b g bt : (⟨S128, .f32⟩ : BufTy).Contents (Elt Ideal)) (hh : ∀ i, IsReal (h i)) (hWn : ∀ i, IsReal (Wn i)) (hWr : ∀ i, IsReal (Wr i)) (hb : ∀ i, IsReal (b i)) (hg : ∀ i, IsReal (g i)) (hbt : ∀ i, IsReal (bt i)) :
    bnLayer (linF 128 (agg128 (F := Ideal) (edgeSrc ei) (edgeDst ei) (invDeg (edgeDst ei)) h) h Wn Wr (asRow128 (F := Ideal) b)) g bt
        = Cert.ReferenceIdeal.Hand.layer128 (F := Ideal) ei h Wn Wr b g bt
      ∧ ∀ i, IsReal (bnLayer (linF 128 (agg128 (F := Ideal) (edgeSrc ei) (edgeDst ei) (invDeg (edgeDst ei)) h) h Wn Wr (asRow128 (F := Ideal) b)) g bt i) := by
  have hA := isReal_agg128 (edgeSrc ei) (edgeDst ei) (invDeg (F := Ideal) (edgeDst ei)) (isReal_invDeg (edgeDst ei)) h hh
  have hL := Cert.Glue.lin_isReal 128 _ h Wn Wr b hA hh hWn hWr hb
  refine ⟨?_, isReal_bnLayer _ hL g bt hg hbt⟩
  rw [Cert.ReferenceIdeal.HandStat.bnLayer_eq_ref _ hL g bt hg hbt, Cert.Glue.lin128_eq, Cert.Glue.agg128_eq, Cert.Glue.edgeSrc_eq, Cert.Glue.edgeDst_eq, Cert.Glue.invDeg_eq]
  rfl

/-- On real-valued float arguments the kernel's tower and the reference's composition are one function. -/
theorem out_eq (a0 : (⟨S50000x64, .f32⟩ : BufTy).Contents (Elt Ideal))
    (a1 : (⟨S2x800000, .i32⟩ : BufTy).Contents (Elt Ideal))
    (a2 : (⟨S50000, .i32⟩ : BufTy).Contents (Elt Ideal))
    (a3 : (⟨S64x128, .f32⟩ : BufTy).Contents (Elt Ideal))
    (a4 : (⟨S64x128, .f32⟩ : BufTy).Contents (Elt Ideal))
    (a5 : (⟨S128, .f32⟩ : BufTy).Contents (Elt Ideal))
    (a6 : (⟨S128x128, .f32⟩ : BufTy).Contents (Elt Ideal))
    (a7 : (⟨S128x128, .f32⟩ : BufTy).Contents (Elt Ideal))
    (a8 : (⟨S128, .f32⟩ : BufTy).Contents (Elt Ideal))
    (a9 : (⟨S128x128, .f32⟩ : BufTy).Contents (Elt Ideal))
    (a10 : (⟨S128x128, .f32⟩ : BufTy).Contents (Elt Ideal))
    (a11 : (⟨S128, .f32⟩ : BufTy).Contents (Elt Ideal))
    (a12 : (⟨S3x128, .f32⟩ : BufTy).Contents (Elt Ideal))
    (a13 : (⟨S3x128, .f32⟩ : BufTy).Contents (Elt Ideal))
    (a14 : (⟨S128x64, .f32⟩ : BufTy).Contents (Elt Ideal))
    (a15 : (⟨S64, .f32⟩ : BufTy).Contents (Elt Ideal))
    (a16 : (⟨S64x1, .f32⟩ : BufTy).Contents (Elt Ideal))
    (a17 : (⟨S1, .f32⟩ : BufTy).Contents (Elt Ideal))
    (hreal : (∀ i, IsReal (a0 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i))) :
    kOut a0 a1 a3 a4 a5 a12 a13 a6 a7 a8 a9 a10 a11 a2 a14 a15 a16 a17
      = Cert.ReferenceIdeal.Hand.out (F := Ideal) a0 a1 a2 a3 a4 a5 a6 a7 a8 a9 a10 a11 a12 a13 a14 a15 a16 a17 := by
  obtain ⟨r0, r3, r4, r5, r6, r7, r8, r9, r10, r11, r12, r13, r14, r15, r16, r17⟩ := hreal
  obtain ⟨e1, h1⟩ := layer64_eq a1 a0 a3 a4 a5 (tableRow0 (F := Ideal) a12) (tableRow0 (F := Ideal) a13) r0 r3 r4 r5 (isReal_row0 a12 r12) (isReal_row0 a13 r13)
  obtain ⟨e2, h2⟩ := layer128_eq a1 (kH1 a0 a1 a3 a4 a5 a12 a13) a6 a7 a8 (tableRow1 (F := Ideal) a12) (tableRow1 (F := Ideal) a13) h1 r6 r7 r8 (isReal_row1 a12 r12) (isReal_row1 a13 r13)
  obtain ⟨e3, h3⟩ := layer128_eq a1 (kH2 a0 a1 a3 a4 a5 a12 a13 a6 a7 a8) a9 a10 a11 (tableRow2 (F := Ideal) a12) (tableRow2 (F := Ideal) a13) h2 r9 r10 r11 (isReal_row2 a12 r12) (isReal_row2 a13 r13)
  have E1 : kH1 a0 a1 a3 a4 a5 a12 a13 = Cert.ReferenceIdeal.Hand.layer64 (F := Ideal) a1 a0 a3 a4 a5 (Cert.ReferenceIdeal.Hand.row0 (F := Ideal) a12) (Cert.ReferenceIdeal.Hand.row0 (F := Ideal) a13) := by
    rw [← Cert.Glue.tableRow0_eq, ← Cert.Glue.tableRow0_eq]; exact e1
  have E2 : kH2 a0 a1 a3 a4 a5 a12 a13 a6 a7 a8 = Cert.ReferenceIdeal.Hand.layer128 (F := Ideal) a1 (kH1 a0 a1 a3 a4 a5 a12 a13) a6 a7 a8 (Cert.ReferenceIdeal.Hand.row1 (F := Ideal) a12) (Cert.ReferenceIdeal.Hand.row1 (F := Ideal) a13) := by
    rw [← Cert.Glue.tableRow1_eq, ← Cert.Glue.tableRow1_eq]; exact e2
  have E3 : kH3 a0 a1 a3 a4 a5 a12 a13 a6 a7 a8 a9 a10 a11 = Cert.ReferenceIdeal.Hand.layer128 (F := Ideal) a1 (kH2 a0 a1 a3 a4 a5 a12 a13 a6 a7 a8) a9 a10 a11 (Cert.ReferenceIdeal.Hand.row2 (F := Ideal) a12) (Cert.ReferenceIdeal.Hand.row2 (F := Ideal) a13) := by
    rw [← Cert.Glue.tableRow2_eq, ← Cert.Glue.tableRow2_eq]; exact e3
  unfold kOut
  rw [Cert.Glue.mlp_eq, Cert.Glue.pool_eq, E3, E2, E1]
  rfl

end Cert.Bridge

end
-- ==== Proof.lean ====
/-
  The five claims of the certificate. The two frames of the kernel programs are the generated frame theorems; the
  reference's frame is its run with the result dropped; nothing was rewritten by the idealization, so `preserves` is
  trivial. For the algebraic claim both programs' results are named as whole-array functions of the eighteen argument
  arrays — the kernel's as a tower over its seven regions and the host stretches between them, the reference's as the
  composition of its host stages — and the two functions agree on real-valued (finite) float arguments: per layer the
  neighbour means are one function, the linear maps are the same sums, the column totals of the row tiles add up to the
  column sums, and on real data `E[x²] − E[x]²` is the centred second moment, so `x·(g·s) + (β − μ·(g·s))` is
  `(x − μ)·s·g + β`; every layer's output is again real-valued; the pooling and the perceptron are the same operations.
-/
import proofs.«181322_j48155173322905_2_alg».proof.Defs
import proofs.«181322_j48155173322905_2_alg».proof.Proof.Gen.Kernel
import proofs.«181322_j48155173322905_2_alg».proof.Proof.Gen.Kernel.Frame
import proofs.«181322_j48155173322905_2_alg».proof.Proof.Gen.KernelIdeal
import proofs.«181322_j48155173322905_2_alg».proof.Proof.Gen.KernelIdeal.Frame
import proofs.«181322_j48155173322905_2_alg».proof.Proof.Gen.ReferenceIdeal
import proofs.«181322_j48155173322905_2_alg».proof.Proof.Gen.Pre_finite_inputs
import proofs.«181322_j48155173322905_2_alg».proof.Proof.KerValue
import proofs.«181322_j48155173322905_2_alg».proof.Proof.RefOut
import proofs.«181322_j48155173322905_2_alg».proof.Proof.FinPre
import proofs.«181322_j48155173322905_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Hand.frame_ref (F := Ideal) m ρ

/-- From memories agreeing on the arguments both programs end at the tower's value of the kernel's arguments: the
    kernel by its run, the reference by its run and the agreement of the two whole-array functions on finite data. -/
theorem algebraic : Cert.algebraic_KernelIdeal_ReferenceIdeal := by
  intro m ρ m' ρ' hpre hagree
  refine ⟨_, Cert.KernelIdeal.HandRun.run_ker m ρ, ?_⟩
  refine (θ_run Cert.ReferenceIdeal.defs _ _).mono (fun r h c => ⟨(h c).1.trans ?_, (h c).2⟩)
    (Cert.ReferenceIdeal.Hand.run_ref (F := Ideal) m' ρ')
  obtain ⟨e0, e1, e2, e3, e4, e5, e6, e7, e8, e9, e10, e11, e12, e13, e14, e15, e16, e17⟩ := hagree c
  rw [e0, e1, e2, e3, e4, e5, e6, e7, e8, e9, e10, e11, e12, e13, e14, e15, e16, e17]
  exact (Cert.Bridge.out_eq _ _ _ _ _ _ _ _ _ _ _ _ _ _ _ _ _ _ (Cert.Finite.finite_of_pre _ _ _ _ _ _ _ _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
